-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v2_3)) (v3 : (c : Dev Cert.KernelIdeal.nD) → Buf (Elt Ideal) ((c.tc : Thread Cert.KernelIdeal.nD Cert.KernelIdeal.τ).loc Cert.KernelIdeal.main_v0_0)) (v4 : (c : Dev Cert.KernelIdeal.nD) → Buf (Elt Ideal) ((c.tc : Thread Cert.KernelIdeal.nD Cert.KernelIdeal.τ).loc Cert.KernelIdeal.main_v2_0)) (v5 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v2_3) = v2 c
          ∧ r.2.mem ((c.tc : Thread Cert.KernelIdeal.nD Cert.KernelIdeal.τ).loc Cert.KernelIdeal.main_v0_0) = v3 c
          ∧ r.2.mem ((c.tc : Thread Cert.KernelIdeal.nD Cert.KernelIdeal.τ).loc Cert.KernelIdeal.main_v2_0) = v4 c
          ∧ r.2.mem ((c.tc : Thread Cert.KernelIdeal.nD Cert.KernelIdeal.τ).loc Cert.KernelIdeal.main_v2_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_v44) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S2x8x2047x64 : Shape := ⟨4, ![2, 8, 2047, 64]⟩
abbrev S2x1x2048x2048 : Shape := ⟨4, ![2, 1, 2048, 2048]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S2x8x2047x64 : S_.BroadcastsInDim S2x8x2047x64 (![] : Fin 0 → Fin S2x8x2047x64.rank)
  reducesTo_S2x8x2047x64_S_d0_1_2_3 : S2x8x2047x64.ReducesTo [0, 1, 2, 3] S_

variable [Facts]

def fn_part2 {F : FTy → Type} [FloatOps F] (main_arg7 : FVec F S2x8x2047x64 .f32) (main_arg8 : FVec F S2x8x2047x64 .f32) (main_v33 : IVec S_ 1) : IVec S_ 1 :=
  let main_v34 : FVec F S2x8x2047x64 .f32 := Host.absf main_arg7
  let main_cst_12 : FVec F S_ .f32 := constant S_ .f32 0x7F800000#32
  let main_v35 : FVec F S2x8x2047x64 .f32 := broadcastInDim S2x8x2047x64 ![] bcast_S_S2x8x2047x64 main_cst_12
  let main_v36 : IVec S2x8x2047x64 1 := cmpf .olt main_v34 main_v35
  let main_c_13 : IVec S_ 1 := constantI S_ 1 1#1
  let main_v37 : IVec S_ 1 := (fun x v => Host.reduce IntOp.andi x v reducesTo_S2x8x2047x64_S_d0_1_2_3 h_S_) main_v36 main_c_13
  let main_v38 : IVec S_ 1 := andi main_v33 main_v37
  let main_v39 : FVec F S2x8x2047x64 .f32 := Host.absf main_arg8
  let main_cst_14 : FVec F S_ .f32 := constant S_ .f32 0x7F800000#32
  let main_v40 : FVec F S2x8x2047x64 .f32 := broadcastInDim S2x8x2047x64 ![] bcast_S_S2x8x2047x64 main_cst_14
  let main_v41 : IVec S2x8x2047x64 1 := cmpf .olt main_v39 main_v40
  let main_c_15 : IVec S_ 1 := constantI S_ 1 1#1
  let main_v42 : IVec S_ 1 := (fun x v => Host.reduce IntOp.andi x v reducesTo_S2x8x2047x64_S_d0_1_2_3 h_S_) main_v41 main_c_15
  let main_v43 : IVec S_ 1 := andi main_v38 main_v42
  main_v43

def fn_part1 {F : FTy → Type} [FloatOps F] (main_arg4 : FVec F S2x8x2047x64 .f32) (main_arg5 : FVec F S2x8x2047x64 .f32) (main_arg6 : FVec F S2x8x2047x64 .f32) (main_arg7 : FVec F S2x8x2047x64 .f32) (main_arg8 : FVec F S2x8x2047x64 .f32) (main_v13 : IVec S_ 1) (main_v16 : IVec S2x8x2047x64 1) : IVec S_ 1 :=
  let main_c_5 : IVec S_ 1 := constantI S_ 1 1#1
  let main_v17 : IVec S_ 1 := (fun x v => Host.reduce IntOp.andi x v reducesTo_S2x8x2047x64_S_d0_1_2_3 h_S_) main_v16 main_c_5
  let main_v18 : IVec S_ 1 := andi main_v13 main_v17
  let main_v19 : FVec F S2x8x2047x64 .f32 := Host.absf main_arg4
  let main_cst_6 : FVec F S_ .f32 := constant S_ .f32 0x7F800000#32
  let main_v20 : FVec F S2x8x2047x64 .f32 := broadcastInDim S2x8x2047x64 ![] bcast_S_S2x8x2047x64 main_cst_6
  let main_v21 : IVec S2x8x2047x64 1 := cmpf .olt main_v19 main_v20
  let main_c_7 : IVec S_ 1 := constantI S_ 1 1#1
  let main_v22 : IVec S_ 1 := (fun x v => Host.reduce IntOp.andi x v reducesTo_S2x8x2047x64_S_d0_1_2_3 h_S_) main_v21 main_c_7
  let main_v23 : IVec S_ 1 := andi main_v18 main_v22
  let main_v24 : FVec F S2x8x2047x64 .f32 := Host.absf main_arg5
  let main_cst_8 : FVec F S_ .f32 := constant S_ .f32 0x7F800000#32
  let main_v25 : FVec F S2x8x2047x64 .f32 := broadcastInDim S2x8x2047x64 ![] bcast_S_S2x8x2047x64 main_cst_8
  let main_v26 : IVec S2x8x2047x64 1 := cmpf .olt main_v24 main_v25
  let main_c_9 : IVec S_ 1 := constantI S_ 1 1#1
  let main_v27 : IVec S_ 1 := (fun x v => Host.reduce IntOp.andi x v reducesTo_S2x8x2047x64_S_d0_1_2_3 h_S_) main_v26 main_c_9
  let main_v28 : IVec S_ 1 := andi main_v23 main_v27
  let main_v29 : FVec F S2x8x2047x64 .f32 := Host.absf main_arg6
  let main_cst_10 : FVec F S_ .f32 := constant S_ .f32 0x7F800000#32
  let main_v30 : FVec F S2x8x2047x64 .f32 := broadcastInDim S2x8x2047x64 ![] bcast_S_S2x8x2047x64 main_cst_10
  let main_v31 : IVec S2x8x2047x64 1 := cmpf .olt main_v29 main_v30
  let main_c_11 : IVec S_ 1 := constantI S_ 1 1#1
  let main_v32 : IVec S_ 1 := (fun x v => Host.reduce IntOp.andi x v reducesTo_S2x8x2047x64_S_d0_1_2_3 h_S_) main_v31 main_c_11
  let main_v33 : IVec S_ 1 := andi main_v28 main_v32
  fn_part2 (F := F) main_arg7 main_arg8 main_v33

def fn {F : FTy → Type} [FloatOps F] (main_arg0 : FVec F S2x8x2048x64 .f32) (main_arg1 : FVec F S2x8x2048x64 .f32) (main_arg2 : FVec F S2x8x2048x64 .f32) (main_arg3 : FVec F S2x8x2047x64 .f32) (main_arg4 : FVec F S2x8x2047x64 .f32) (main_arg5 : FVec F S2x8x2047x64 .f32) (main_arg6 : FVec F S2x8x2047x64 .f32) (main_arg7 : FVec F S2x8x2047x64 .f32) (main_arg8 : FVec F S2x8x2047x64 .f32) (main_arg9 : IVec S2x1x2048x2048 32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  let main_v14 : FVec F S2x8x2047x64 .f32 := Host.absf main_arg3
  let main_cst_4 : FVec F S_ .f32 := constant S_ .f32 0x7F800000#32
  let main_v15 : FVec F S2x8x2047x64 .f32 := broadcastInDim S2x8x2047x64 ![] bcast_S_S2x8x2047x64 main_cst_4
  let main_v16 : IVec S2x8x2047x64 1 := cmpf .olt main_v14 main_v15
  fn_part1 (F := F) main_arg4 main_arg5 main_arg6 main_arg7 main_arg8 main_v13 main_v16
-- ==== Kernel.lean ====
abbrev S2x8x2048x64 : Shape := ⟨4, ![2, 8, 2048, 64]⟩
abbrev S2x8x2047x64 : Shape := ⟨4, ![2, 8, 2047, 64]⟩
abbrev S2x1x2048x2048 : Shape := ⟨4, ![2, 1, 2048, 2048]⟩
abbrev S2x8x2048x2048 : Shape := ⟨4, ![2, 8, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x8x2047x2047 : Shape := ⟨4, ![2, 8, 2047, 2047]⟩
abbrev S1x1x256x64 : Shape := ⟨4, ![1, 1, 256, 64]⟩
abbrev S1x1x2047x64 : Shape := ⟨4, ![1, 1, 2047, 64]⟩
abbrev S1x1x256x2047 : Shape := ⟨4, ![1, 1, 256, 2047]⟩
abbrev S256x64 : Shape := ⟨2, ![256, 64]⟩
abbrev S2047x64 : Shape := ⟨2, ![2047, 64]⟩
abbrev S256x2047 : Shape := ⟨2, ![256, 2047]⟩
abbrev S256 : Shape := ⟨1, ![256]⟩
abbrev S256x1 : Shape := ⟨2, ![256, 1]⟩
abbrev S_ : Shape := ⟨0, ![]⟩
abbrev S1 : Shape := ⟨1, ![1]⟩

abbrev nBuf : Space → Nat
  | .hbm => 21
  | .vmem => 36
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2047x64, .f32⟩
  | .hbm, ⟨4, _⟩ => ⟨S2x8x2047x64, .f32⟩
  | .hbm, ⟨5, _⟩ => ⟨S2x8x2047x64, .f32⟩
  | .hbm, ⟨6, _⟩ => ⟨S2x8x2047x64, .f32⟩
  | .hbm, ⟨7, _⟩ => ⟨S2x8x2047x64, .f32⟩
  | .hbm, ⟨8, _⟩ => ⟨S2x8x2047x64, .f32⟩
  | .hbm, ⟨9, _⟩ => ⟨S2x1x2048x2048, .i32⟩
  | .hbm, ⟨10, _⟩ => ⟨S2x8x2048x2048, .f32⟩
  | .hbm, ⟨11, _⟩ => ⟨S2x8x2048x64, .f32⟩
  | .hbm, ⟨12, _⟩ => ⟨S2x8x2047x64, .f32⟩
  | .hbm, ⟨13, _⟩ => ⟨S2x8x2047x2047, .f32⟩
  | .hbm, ⟨14, _⟩ => ⟨S2x8x2047x2047, .f32⟩
  | .hbm, ⟨15, _⟩ => ⟨S2x8x2047x64, .f32⟩
  | .hbm, ⟨16, _⟩ => ⟨S2x8x2047x64, .f32⟩
  | .hbm, ⟨17, _⟩ => ⟨S2x8x2047x64, .f32⟩
  | .hbm, ⟨18, _⟩ => ⟨S_, .i32⟩
  | .hbm, ⟨19, _⟩ => ⟨S1, .i32⟩
  | .hbm, ⟨20, _⟩ => ⟨S2x8x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x2048, .f32⟩
  | .local _ .vmem, ⟨9, _⟩ => ⟨S1x1x512x2048, .f32⟩
  | .local _ .vmem, ⟨10, _⟩ => ⟨S1x1x512x64, .f32⟩
  | .local _ .vmem, ⟨11, _⟩ => ⟨S1x1x512x64, .f32⟩
  | .local _ .vmem, ⟨12, _⟩ => ⟨S1x1x256x64, .f32⟩
  | .local _ .vmem, ⟨13, _⟩ => ⟨S1x1x256x64, .f32⟩
  | .local _ .vmem, ⟨14, _⟩ => ⟨S1x1x2047x64, .f32⟩
  | .local _ .vmem, ⟨15, _⟩ => ⟨S1x1x2047x64, .f32⟩
  | .local _ .vmem, ⟨16, _⟩ => ⟨S1x1x2047x64, .f32⟩
  | .local _ .vmem, ⟨17, _⟩ => ⟨S1x1x2047x64, .f32⟩
  | .local _ .vmem, ⟨18, _⟩ => ⟨S1x1x256x64, .f32⟩
  | .local _ .vmem, ⟨19, _⟩ => ⟨S1x1x256x64, .f32⟩
  | .local _ .vmem, ⟨20, _⟩ => ⟨S1x1x2047x64, .f32⟩
  | .local _ .vmem, ⟨21, _⟩ => ⟨S1x1x2047x64, .f32⟩
  | .local _ .vmem, ⟨22, _⟩ => ⟨S1x1x2047x64, .f32⟩
  | .local _ .vmem, ⟨23, _⟩ => ⟨S1x1x2047x64, .f32⟩
  | .local _ .vmem, ⟨24, _⟩ => ⟨S1x1x2047x64, .f32⟩
  | .local _ .vmem, ⟨25, _⟩ => ⟨S1x1x2047x64, .f32⟩
  | .local _ .vmem, ⟨26, _⟩ => ⟨S1x1x256x2047, .f32⟩
  | .local _ .vmem, ⟨27, _⟩ => ⟨S1x1x256x2047, .f32⟩
  | .local _ .vmem, ⟨28, _⟩ => ⟨S1x1x256x2047, .f32⟩
  | .local _ .vmem, ⟨29, _⟩ => ⟨S1x1x256x2047, .f32⟩
  | .local _ .vmem, ⟨30, _⟩ => ⟨S1x1x256x64, .f32⟩
  | .local _ .vmem, ⟨31, _⟩ => ⟨S1x1x256x64, .f32⟩
  | .local _ .vmem, ⟨32, _⟩ => ⟨S1x1x256x64, .f32⟩
  | .local _ .vmem, ⟨33, _⟩ => ⟨S1x1x256x64, .f32⟩
  | .local _ .vmem, ⟨34, _⟩ => ⟨S1x1x256x64, .f32⟩
  | .local _ .vmem, ⟨35, _⟩ => ⟨S1x1x256x64, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev grid1 : Pipeline.Grid := ⟨3, ![2, 8, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_8 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_9 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_10 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_11 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage1_0 : Fin 2 → Memref sig .tc .vmem S1x1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2047x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x2047x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x2047x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x1x2047x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, true]

abbrev stage1_6 : Fin 2 → Memref sig .tc .vmem S1x1x2047x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, true]

abbrev stage1_7 : Fin 2 → Memref sig .tc .vmem S1x1x256x2047 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S1x1x256x2047 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S1x1x256x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev stage1_10 : Fin 2 → Memref sig .tc .vmem S1x1x256x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev stage1_11 : Fin 2 → Memref sig .tc .vmem S1x1x256x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  slices_S2x8x2048x64_S2x8x2047x64_0_0_0_0 : S2x8x2048x64.Slices ![0, 0, 0, 0] S2x8x2047x64
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2047x64_S1x1x2047x64_0_0_0_0 : ∀ a, (![0, 0, 0, 0] : Fin 4 → Nat) a + S1x1x2047x64.size a ≤ S1x1x2047x64.size a
  h_S1x1x2047x64 : 0 < S1x1x2047x64.numel
  shapeCasts_S1x1x2047x64_S2047x64 : S1x1x2047x64.ShapeCasts S2047x64
  reduces_S256x2047_S256 : S256x2047.Reduces [1] S256
  shapeCasts_S256_S256x1 : S256.ShapeCasts S256x1
  broadcasts_S256x1_S256x2047 : S256x1.Broadcasts S256x2047
  inb_S1x1x256x2047_S1x1x256x2047_0_0_0_0 : ∀ a, (![0, 0, 0, 0] : Fin 4 → Nat) a + S1x1x256x2047.size a ≤ S1x1x256x2047.size a
  h_S1x1x256x2047 : 0 < S1x1x256x2047.numel
  shapeCasts_S1x1x256x2047_S256x2047 : S1x1x256x2047.ShapeCasts S256x2047
  shapeCasts_S256x2047_S1x1x256x2047 : S256x2047.ShapeCasts S1x1x256x2047
  shapeCasts_S256x64_S1x1x256x64 : S256x64.ShapeCasts S1x1x256x64
  bcast_S_S1 : S_.BroadcastsInDim S1 (![] : Fin 0 → Fin S1.rank)
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S256x64_S2047x64_S256x2047_1_1_0_0_n_n_wf : DotDims.WF S256x64 S2047x64 S256x2047 [1] [1] [0] [0] [] []
  dot_S256x2047_S2047x64_S256x64_1_0_0_1_n_n_wf : DotDims.WF S256x2047 S2047x64 S256x64 [1] [0] [0] [1] [] []
  scatter_S2x8x2048x64_S1_S2x8x2047x64_0123_n_2_0_wf : ScatterDims.WF S2x8x2048x64 S1 S2x8x2047x64 [0, 1, 2, 3] [] [2] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x8x2048x64.size a
  hwx0_0 : ∀ i : grid0.Coords, EltTy.bits .f32 = 32 ∨ (Rect.block (s := S2x8x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x8x2048x64.size a
  hwx0_1 : ∀ i : grid0.Coords, EltTy.bits .f32 = 32 ∨ (Rect.block (s := S2x8x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x8x2048x64.size a
  hwx0_2 : ∀ i : grid0.Coords, EltTy.bits .f32 = 32 ∨ (Rect.block (s := S2x8x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .i32 = 32 ∨ (Rect.block (s := S2x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x8x2048x2048.size a
  hwx0_4 : ∀ i : grid0.Coords, EltTy.bits .f32 = 32 ∨ (Rect.block (s := S2x8x2048x2048) S1x1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x64.size a ≤ S2x8x2048x64.size a
  hwx0_5 : ∀ i : grid0.Coords, EltTy.bits .f32 = 32 ∨ (Rect.block (s := S2x8x2048x64) S1x1x512x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x1x256x64.size a < S2x8x2047x64.size a
  hwx1_0 : ∀ i : grid1.Coords, EltTy.bits .f32 = 32 ∨ (Rect.unit (s := S2x8x2047x64) (fun a => cc1_transform_0 i a * S1x1x256x64.size a) (fun a => (Pipeline.Clip.of (cc1_transform_0 i a) (S1x1x256x64.size a) (S2x8x2047x64.size a)).extent (S1x1x256x64.size a)) fun a => Pipeline.Clip.inb (Pipeline.Clip.ok_of (hstart1_0 i a))).WholeWords (EltTy.packing .f32)
  hwxs1_0 : ∀ i : grid1.Coords, EltTy.bits .f32 = 32 ∨ (Rect.unit (s := S1x1x256x64) (fun _ => 0) (fun a => (Pipeline.Clip.of (cc1_transform_0 i a) (S1x1x256x64.size a) (S2x8x2047x64.size a)).extent (S1x1x256x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2047x64.size a ≤ S2x8x2047x64.size a
  hwx1_1 : ∀ i : grid1.Coords, EltTy.bits .f32 = 32 ∨ (Rect.block (s := S2x8x2047x64) S1x1x2047x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2047x64.size a ≤ S2x8x2047x64.size a
  hwx1_2 : ∀ i : grid1.Coords, EltTy.bits .f32 = 32 ∨ (Rect.block (s := S2x8x2047x64) S1x1x2047x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x1x256x64.size a < S2x8x2047x64.size a
  hwx1_3 : ∀ i : grid1.Coords, EltTy.bits .f32 = 32 ∨ (Rect.unit (s := S2x8x2047x64) (fun a => cc1_transform_3 i a * S1x1x256x64.size a) (fun a => (Pipeline.Clip.of (cc1_transform_3 i a) (S1x1x256x64.size a) (S2x8x2047x64.size a)).extent (S1x1x256x64.size a)) fun a => Pipeline.Clip.inb (Pipeline.Clip.ok_of (hstart1_3 i a))).WholeWords (EltTy.packing .f32)
  hwxs1_3 : ∀ i : grid1.Coords, EltTy.bits .f32 = 32 ∨ (Rect.unit (s := S1x1x256x64) (fun _ => 0) (fun a => (Pipeline.Clip.of (cc1_transform_3 i a) (S1x1x256x64.size a) (S2x8x2047x64.size a)).extent (S1x1x256x64.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x2047x64.size a ≤ S2x8x2047x64.size a
  hwx1_4 : ∀ i : grid1.Coords, EltTy.bits .f32 = 32 ∨ (Rect.block (s := S2x8x2047x64) S1x1x2047x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x2047x64.size a ≤ S2x8x2047x64.size a
  hwx1_5 : ∀ i : grid1.Coords, EltTy.bits .f32 = 32 ∨ (Rect.block (s := S2x8x2047x64) S1x1x2047x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x2047x64.size a ≤ S2x8x2047x64.size a
  hwx1_6 : ∀ i : grid1.Coords, EltTy.bits .f32 = 32 ∨ (Rect.block (s := S2x8x2047x64) S1x1x2047x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S1x1x256x2047.size a < S2x8x2047x2047.size a
  hwx1_7 : ∀ i : grid1.Coords, EltTy.bits .f32 = 32 ∨ (Rect.unit (s := S2x8x2047x2047) (fun a => cc1_transform_7 i a * S1x1x256x2047.size a) (fun a => (Pipeline.Clip.of (cc1_transform_7 i a) (S1x1x256x2047.size a) (S2x8x2047x2047.size a)).extent (S1x1x256x2047.size a)) fun a => Pipeline.Clip.inb (Pipeline.Clip.ok_of (hstart1_7 i a))).WholeWords (EltTy.packing .f32)
  hwxs1_7 : ∀ i : grid1.Coords, EltTy.bits .f32 = 32 ∨ (Rect.unit (s := S1x1x256x2047) (fun _ => 0) (fun a => (Pipeline.Clip.of (cc1_transform_7 i a) (S1x1x256x2047.size a) (S2x8x2047x2047.size a)).extent (S1x1x256x2047.size a)) fun a => (Nat.zero_add _).trans_le (Pipeline.Clip.extent_le (Pipeline.Clip.ok_of (hstart1_7 i a)))).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hstart1_8 : ∀ (i : grid1.Coords) a, cc1_transform_8 i a * S1x1x256x2047.size a < S2x8x2047x2047.size a
  hwx1_8 : ∀ i : grid1.Coords, EltTy.bits .f32 = 32 ∨ (Rect.unit (s := S2x8x2047x2047) (fun a => cc1_transform_8 i a * S1x1x256x2047.size a) (fun a => (Pipeline.Clip.of (cc1_transform_8 i a) (S1x1x256x2047.size a) (S2x8x2047x2047.size a)).extent (S1x1x256x2047.size a)) fun a => Pipeline.Clip.inb (Pipeline.Clip.ok_of (hstart1_8 i a))).WholeWords (EltTy.packing .f32)
  hwxs1_8 : ∀ i : grid1.Coords, EltTy.bits .f32 = 32 ∨ (Rect.unit (s := S1x1x256x2047) (fun _ => 0) (fun a => (Pipeline.Clip.of (cc1_transform_8 i a) (S1x1x256x2047.size a) (S2x8x2047x2047.size a)).extent (S1x1x256x2047.size a)) fun a => (Nat.zero_add _).trans_le (Pipeline.Clip.extent_le (Pipeline.Clip.ok_of (hstart1_8 i a)))).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hstart1_9 : ∀ (i : grid1.Coords) a, cc1_transform_9 i a * S1x1x256x64.size a < S2x8x2047x64.size a
  hwx1_9 : ∀ i : grid1.Coords, EltTy.bits .f32 = 32 ∨ (Rect.unit (s := S2x8x2047x64) (fun a => cc1_transform_9 i a * S1x1x256x64.size a) (fun a => (Pipeline.Clip.of (cc1_transform_9 i a) (S1x1x256x64.size a) (S2x8x2047x64.size a)).extent (S1x1x256x64.size a)) fun a => Pipeline.Clip.inb (Pipeline.Clip.ok_of (hstart1_9 i a))).WholeWords (EltTy.packing .f32)
  hwxs1_9 : ∀ i : grid1.Coords, EltTy.bits .f32 = 32 ∨ (Rect.unit (s := S1x1x256x64) (fun _ => 0) (fun a => (Pipeline.Clip.of (cc1_transform_9 i a) (S1x1x256x64.size a) (S2x8x2047x64.size a)).extent (S1x1x256x64.size a)) fun a => (Nat.zero_add _).trans_le (Pipeline.Clip.extent_le (Pipeline.Clip.ok_of (hstart1_9 i a)))).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hstart1_10 : ∀ (i : grid1.Coords) a, cc1_transform_10 i a * S1x1x256x64.size a < S2x8x2047x64.size a
  hwx1_10 : ∀ i : grid1.Coords, EltTy.bits .f32 = 32 ∨ (Rect.unit (s := S2x8x2047x64) (fun a => cc1_transform_10 i a * S1x1x256x64.size a) (fun a => (Pipeline.Clip.of (cc1_transform_10 i a) (S1x1x256x64.size a) (S2x8x2047x64.size a)).extent (S1x1x256x64.size a)) fun a => Pipeline.Clip.inb (Pipeline.Clip.ok_of (hstart1_10 i a))).WholeWords (EltTy.packing .f32)
  hwxs1_10 : ∀ i : grid1.Coords, EltTy.bits .f32 = 32 ∨ (Rect.unit (s := S1x1x256x64) (fun _ => 0) (fun a => (Pipeline.Clip.of (cc1_transform_10 i a) (S1x1x256x64.size a) (S2x8x2047x64.size a)).extent (S1x1x256x64.size a)) fun a => (Nat.zero_add _).trans_le (Pipeline.Clip.extent_le (Pipeline.Clip.ok_of (hstart1_10 i a)))).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hstart1_11 : ∀ (i : grid1.Coords) a, cc1_transform_11 i a * S1x1x256x64.size a < S2x8x2047x64.size a
  hwx1_11 : ∀ i : grid1.Coords, EltTy.bits .f32 = 32 ∨ (Rect.unit (s := S2x8x2047x64) (fun a => cc1_transform_11 i a * S1x1x256x64.size a) (fun a => (Pipeline.Clip.of (cc1_transform_11 i a) (S1x1x256x64.size a) (S2x8x2047x64.size a)).extent (S1x1x256x64.size a)) fun a => Pipeline.Clip.inb (Pipeline.Clip.ok_of (hstart1_11 i a))).WholeWords (EltTy.packing .f32)
  hwxs1_11 : ∀ i : grid1.Coords, EltTy.bits .f32 = 32 ∨ (Rect.unit (s := S1x1x256x64) (fun _ => 0) (fun a => (Pipeline.Clip.of (cc1_transform_11 i a) (S1x1x256x64.size a) (S2x8x2047x64.size a)).extent (S1x1x256x64.size a)) fun a => (Nat.zero_add _).trans_le (Pipeline.Clip.extent_le (Pipeline.Clip.ok_of (hstart1_11 i a)))).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S256x64_S2047x64_S256x2047_1_1_0_0_n_n : DotDims S256x64 S2047x64 S256x2047 where
  lhsContracting := [1]
  rhsContracting := [1]
  lhsNonContracting := [0]
  rhsNonContracting := [0]
  lhsBatch := []
  rhsBatch := []
  wf := dot_S256x64_S2047x64_S256x2047_1_1_0_0_n_n_wf
def dot_S256x2047_S2047x64_S256x64_1_0_0_1_n_n : DotDims S256x2047 S2047x64 S256x64 where
  lhsContracting := [1]
  rhsContracting := [0]
  lhsNonContracting := [0]
  rhsNonContracting := [1]
  lhsBatch := []
  rhsBatch := []
  wf := dot_S256x2047_S2047x64_S256x64_1_0_0_1_n_n_wf
def scatter_S2x8x2048x64_S1_S2x8x2047x64_0123_n_2_0 : ScatterDims S2x8x2048x64 S1 S2x8x2047x64 where
  updateWindowDims := [0, 1, 2, 3]
  insertedWindowDims := []
  scatterDimsToOperandDims := [2]
  indexVectorDim := 0
  wf := scatter_S2x8x2048x64_S1_S2x8x2047x64_0123_n_2_0_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpecClip (Memref.whole main_arg3) S1x1x256x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_arg4) S1x1x2047x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x1x2047x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpecClip (Memref.whole main_arg6) S1x1x256x64.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpec (Memref.whole main_arg7) S1x1x2047x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1x1x2047x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x1x2047x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpecClip (Memref.whole main_v2_0) S1x1x256x2047.size cc1_transform_7 reads1_7 true false 2 stage1_7 sem1_7
    hrank1 hreads1_7 hstart1_7 nbuf1_7 (Memref.isWhole_whole _) hwx1_7 hwxs1_7 hstage1_7

abbrev win1_8 : Pipeline.Window sig grid1 :=
  Pipeline.Window.ofSpecClip (Memref.whole main_v2_1) S1x1x256x2047.size cc1_transform_8 reads1_8 true false 2 stage1_8 sem1_8
    hrank1 hreads1_8 hstart1_8 nbuf1_8 (Memref.isWhole_whole _) hwx1_8 hwxs1_8 hstage1_8

abbrev win1_9 : Pipeline.Window sig grid1 :=
  Pipeline.Window.ofSpecClip (Memref.whole main_v2_2) S1x1x256x64.size cc1_transform_9 reads1_9 true false 2 stage1_9 sem1_9
    hrank1 hreads1_9 hstart1_9 nbuf1_9 (Memref.isWhole_whole _) hwx1_9 hwxs1_9 hstage1_9

abbrev win1_10 : Pipeline.Window sig grid1 :=
  Pipeline.Window.ofSpecClip (Memref.whole main_v2_3) S1x1x256x64.size cc1_transform_10 reads1_10 true false 2 stage1_10 sem1_10
    hrank1 hreads1_10 hstart1_10 nbuf1_10 (Memref.isWhole_whole _) hwx1_10 hwxs1_10 hstage1_10

abbrev win1_11 : Pipeline.Window sig grid1 :=
  Pipeline.Window.ofSpecClip (Memref.whole main_v2_4) S1x1x256x64.size cc1_transform_11 reads1_11 true false 2 stage1_11 sem1_11
    hrank1 hreads1_11 hstart1_11 nbuf1_11 (Memref.isWhole_whole _) hwx1_11 hwxs1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S2x8x2048x64 : Shape := ⟨4, ![2, 8, 2048, 64]⟩
abbrev S2x8x2047x64 : Shape := ⟨4, ![2, 8, 2047, 64]⟩
abbrev S2x1x2048x2048 : Shape := ⟨4, ![2, 1, 2048, 2048]⟩
abbrev S_ : Shape := ⟨0, ![]⟩
abbrev S2x8x2048x2048 : Shape := ⟨4, ![2, 8, 2048, 2048]⟩
abbrev S2x8x2047x2047 : Shape := ⟨4, ![2, 8, 2047, 2047]⟩
abbrev S2x8x2048 : Shape := ⟨3, ![2, 8, 2048]⟩
abbrev S2x8x2048x1 : Shape := ⟨4, ![2, 8, 2048, 1]⟩
abbrev S2x8x2047 : Shape := ⟨3, ![2, 8, 2047]⟩
abbrev S2x8x2047x1 : Shape := ⟨4, ![2, 8, 2047, 1]⟩
abbrev S1 : Shape := ⟨1, ![1]⟩

abbrev nBuf : Space → Nat
  | .hbm => 81
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2047x64, .f32⟩
  | .hbm, ⟨4, _⟩ => ⟨S2x8x2047x64, .f32⟩
  | .hbm, ⟨5, _⟩ => ⟨S2x8x2047x64, .f32⟩
  | .hbm, ⟨6, _⟩ => ⟨S2x8x2047x64, .f32⟩
  | .hbm, ⟨7, _⟩ => ⟨S2x8x2047x64, .f32⟩
  | .hbm, ⟨8, _⟩ => ⟨S2x8x2047x64, .f32⟩
  | .hbm, ⟨9, _⟩ => ⟨S2x1x2048x2048, .i32⟩
  | .hbm, ⟨10, _⟩ => ⟨S_, .f32⟩
  | .hbm, ⟨11, _⟩ => ⟨S2x8x2048x64, .f32⟩
  | .hbm, ⟨12, _⟩ => ⟨S2x8x2048x64, .f32⟩
  | .hbm, ⟨13, _⟩ => ⟨S2x8x2048x2048, .f32⟩
  | .hbm, ⟨14, _⟩ => ⟨S_, .f32⟩
  | .hbm, ⟨15, _⟩ => ⟨S2x8x2047x64, .f32⟩
  | .hbm, ⟨16, _⟩ => ⟨S2x8x2047x64, .f32⟩
  | .hbm, ⟨17, _⟩ => ⟨S2x8x2047x2047, .f32⟩
  | .hbm, ⟨18, _⟩ => ⟨S_, .f32⟩
  | .hbm, ⟨19, _⟩ => ⟨S2x8x2047x64, .f32⟩
  | .hbm, ⟨20, _⟩ => ⟨S2x8x2047x64, .f32⟩
  | .hbm, ⟨21, _⟩ => ⟨S2x8x2047x2047, .f32⟩
  | .hbm, ⟨22, _⟩ => ⟨S_, .i32⟩
  | .hbm, ⟨23, _⟩ => ⟨S2x1x2048x2048, .i32⟩
  | .hbm, ⟨24, _⟩ => ⟨S2x1x2048x2048, .i1⟩
  | .hbm, ⟨25, _⟩ => ⟨S_, .f32⟩
  | .hbm, ⟨26, _⟩ => ⟨S_, .f32⟩
  | .hbm, ⟨27, _⟩ => ⟨S2x8x2048x2048, .i1⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .f32⟩
  | .hbm, ⟨38, _⟩ => ⟨S2x8x2048x2048, .f32⟩
  | .hbm, ⟨39, _⟩ => ⟨S_, .f32⟩
  | .hbm, ⟨40, _⟩ => ⟨S2x8x2048, .f32⟩
  | .hbm, ⟨41, _⟩ => ⟨S2x8x2048x1, .f32⟩
  | .hbm, ⟨42, _⟩ => ⟨S2x8x2048x2048, .f32⟩
  | .hbm, ⟨43, _⟩ => ⟨S2x8x2048x2048, .f32⟩
  | .hbm, ⟨44, _⟩ => ⟨S_, .f32⟩
  | .hbm, ⟨45, _⟩ => ⟨S2x8x2047, .f32⟩
  | .hbm, ⟨46, _⟩ => ⟨S_, .f32⟩
  | .hbm, ⟨47, _⟩ => ⟨S2x8x2047, .f32⟩
  | .hbm, ⟨48, _⟩ => ⟨S2x8x2047, .f32⟩
  | .hbm, ⟨49, _⟩ => ⟨S2x8x2047x1, .f32⟩
  | .hbm, ⟨50, _⟩ => ⟨S2x8x2047x2047, .f32⟩
  | .hbm, ⟨51, _⟩ => ⟨S2x8x2047x2047, .f32⟩
  | .hbm, ⟨52, _⟩ => ⟨S2x8x2047x2047, .f32⟩
  | .hbm, ⟨53, _⟩ => ⟨S_, .f32⟩
  | .hbm, ⟨54, _⟩ => ⟨S2x8x2047, .f32⟩
  | .hbm, ⟨55, _⟩ => ⟨S2x8x2047x1, .f32⟩
  | .hbm, ⟨56, _⟩ => ⟨S2x8x2047x2047, .f32⟩
  | .hbm, ⟨57, _⟩ => ⟨S2x8x2047x2047, .f32⟩
  | .hbm, ⟨58, _⟩ => ⟨S_, .f32⟩
  | .hbm, ⟨59, _⟩ => ⟨S2x8x2047, .f32⟩
  | .hbm, ⟨60, _⟩ => ⟨S_, .f32⟩
  | .hbm, ⟨61, _⟩ => ⟨S2x8x2047, .f32⟩
  | .hbm, ⟨62, _⟩ => ⟨S2x8x2047, .f32⟩
  | .hbm, ⟨63, _⟩ => ⟨S2x8x2047x1, .f32⟩
  | .hbm, ⟨64, _⟩ => ⟨S2x8x2047x2047, .f32⟩
  | .hbm, ⟨65, _⟩ => ⟨S2x8x2047x2047, .f32⟩
  | .hbm, ⟨66, _⟩ => ⟨S2x8x2047x2047, .f32⟩
  | .hbm, ⟨67, _⟩ => ⟨S_, .f32⟩
  | .hbm, ⟨68, _⟩ => ⟨S2x8x2047, .f32⟩
  | .hbm, ⟨69, _⟩ => ⟨S2x8x2047x1, .f32⟩
  | .hbm, ⟨70, _⟩ => ⟨S2x8x2047x2047, .f32⟩
  | .hbm, ⟨71, _⟩ => ⟨S2x8x2047x2047, .f32⟩
  | .hbm, ⟨72, _⟩ => ⟨S2x8x2048x64, .f32⟩
  | .hbm, ⟨73, _⟩ => ⟨S2x8x2047x64, .f32⟩
  | .hbm, ⟨74, _⟩ => ⟨S2x8x2047x64, .f32⟩
  | .hbm, ⟨75, _⟩ => ⟨S2x8x2047x2047, .f32⟩
  | .hbm, ⟨76, _⟩ => ⟨S2x8x2047x64, .f32⟩
  | .hbm, ⟨77, _⟩ => ⟨S2x8x2047x64, .f32⟩
  | .hbm, ⟨78, _⟩ => ⟨S_, .i32⟩
  | .hbm, ⟨79, _⟩ => ⟨S1, .i32⟩
  | .hbm, ⟨80, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  bcast_S_S2x8x2048x64 : S_.BroadcastsInDim S2x8x2048x64 (![] : Fin 0 → Fin S2x8x2048x64.rank)
  bcast_S_S2x8x2047x64 : S_.BroadcastsInDim S2x8x2047x64 (![] : Fin 0 → Fin S2x8x2047x64.rank)
  bcast_S_S2x1x2048x2048 : S_.BroadcastsInDim S2x1x2048x2048 (![] : Fin 0 → Fin S2x1x2048x2048.rank)
  bcast_S2x1x2048x2048_S2x8x2048x2048_0_1_2_3 : S2x1x2048x2048.BroadcastsInDim S2x8x2048x2048 (![0, 1, 2, 3] : Fin 4 → Fin S2x8x2048x2048.rank)
  bcast_S_S2x8x2048x2048 : S_.BroadcastsInDim S2x8x2048x2048 (![] : Fin 0 → Fin S2x8x2048x2048.rank)
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  reducesTo_S2x8x2047x2047_S2x8x2047_d3 : S2x8x2047x2047.ReducesTo [3] S2x8x2047
  bcast_S_S2x8x2047 : S_.BroadcastsInDim S2x8x2047 (![] : Fin 0 → Fin S2x8x2047.rank)
  bcast_S2x8x2047_S2x8x2047x1_0_1_2 : S2x8x2047.BroadcastsInDim S2x8x2047x1 (![0, 1, 2] : Fin 3 → Fin S2x8x2047x1.rank)
  bcast_S2x8x2047x1_S2x8x2047x2047_0_1_2_3 : S2x8x2047x1.BroadcastsInDim S2x8x2047x2047 (![0, 1, 2, 3] : Fin 4 → Fin S2x8x2047x2047.rank)
  slices_S2x8x2048x64_S2x8x2047x64_0_0_0_0 : S2x8x2048x64.Slices ![0, 0, 0, 0] S2x8x2047x64
  bcast_S_S1 : S_.BroadcastsInDim S1 (![] : Fin 0 → Fin S1.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2047x64_S2x8x2047x64_S2x8x2047x2047_3_3_2_2_01_01_wf : DotDims.WF S2x8x2047x64 S2x8x2047x64 S2x8x2047x2047 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]
  dot_S2x8x2047x2047_S2x8x2047x64_S2x8x2047x64_3_2_2_3_01_01_wf : DotDims.WF S2x8x2047x2047 S2x8x2047x64 S2x8x2047x64 [3] [2] [2] [3] [0, 1] [0, 1]
  scatter_S2x8x2048x64_S1_S2x8x2047x64_0123_n_2_0_wf : ScatterDims.WF S2x8x2048x64 S1 S2x8x2047x64 [0, 1, 2, 3] [] [2] 0

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2047x64_S2x8x2047x64_S2x8x2047x2047_3_3_2_2_01_01 : DotDims S2x8x2047x64 S2x8x2047x64 S2x8x2047x2047 where
  lhsContracting := [3]
  rhsContracting := [3]
  lhsNonContracting := [2]
  rhsNonContracting := [2]
  lhsBatch := [0, 1]
  rhsBatch := [0, 1]
  wf := dot_S2x8x2047x64_S2x8x2047x64_S2x8x2047x2047_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf
def dot_S2x8x2047x2047_S2x8x2047x64_S2x8x2047x64_3_2_2_3_01_01 : DotDims S2x8x2047x2047 S2x8x2047x64 S2x8x2047x64 where
  lhsContracting := [3]
  rhsContracting := [2]
  lhsNonContracting := [2]
  rhsNonContracting := [3]
  lhsBatch := [0, 1]
  rhsBatch := [0, 1]
  wf := dot_S2x8x2047x2047_S2x8x2047x64_S2x8x2047x64_3_2_2_3_01_01_wf
def scatter_S2x8x2048x64_S1_S2x8x2047x64_0123_n_2_0 : ScatterDims S2x8x2048x64 S1 S2x8x2047x64 where
  updateWindowDims := [0, 1, 2, 3]
  insertedWindowDims := []
  scatterDimsToOperandDims := [2]
  indexVectorDim := 0
  wf := scatter_S2x8x2048x64_S1_S2x8x2047x64_0123_n_2_0_wf

class Facts : Prop extends Facts₀ where

variable [Facts]
-- ==== Proof.Ideal.Run.lean ====
/-
  A program of two kernel regions with host operations between and after them, run from the launch to the return.

  The first region's outputs are named exactly.  The second region is the LAST one and some of its windows overhang
  their arrays: where a fetched block is cut at the array's end the rest of the staging buffer holds words nothing
  names, so what the body computes from a whole staging buffer is not a function of the arrays alone unless the body's
  arithmetic is row-local.  The run is therefore stated for proof data read RELATIONALLY with a mask of forgotten
  windows of the second region: after it the arrays hold SOME contents the write-backs allow, and the host operations
  after it run under that existential.  With an empty mask the contents are the exact ones.

  The proof data's "what the body leaves" functions are parameters here; the body obligations are hypotheses.
-/
import proofs.«111166_j1640677507314_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The proof data of each region, at the contents the region is entered from -/

section Data

variable (V : (c : Dev nD) → (b : Ref sig .tc) → Buf (Elt F) ((c : Thread nD τ).loc b))

/-- Region 0's proof data: the arrays as the region finds them; after the body what the parameter says; the class's
    invariant (the scoped rest and the generator register, untouched); nothing owed; full shares. -/
def dat0 (aft : (c : Dev nD) → (w : Fin cfg0.W) → Fin cfg0.N → (cfg0.win w).block.Idx → Elt F (cfg0.win w).elt) (c : Dev nD) :
    Dat τ (Elt F) Unit ℕ (UR sig nD τ) ℕ cfg0 c where
  A w := V c (Pipeline.arrRef spec0 w)
  after := aft c
  Φ _ := Pipeline.ΦA spec0 c
  q _ := fullShare
  owed _ := 0

/-- Region 1's proof data, likewise. -/
def dat1 (aft : (c : Dev nD) → (w : Fin cfg1.W) → Fin cfg1.N → (cfg1.win w).block.Idx → Elt F (cfg1.win w).elt) (c : Dev nD) :
    Dat τ (Elt F) Unit ℕ (UR sig nD τ) ℕ cfg1 c where
  A w := V c (Pipeline.arrRef spec1 w)
  after := aft c
  Φ _ := Pipeline.ΦA spec1 c
  q _ := fullShare
  owed _ := 0

end Data

variable (m : (ℓ : Loc nD τ sig) → Buf (Elt F) ℓ) (ρ : Dev nD → PrngReg)
variable (aft0 : (c : Dev nD) → (w : Fin cfg0.W) → Fin cfg0.N → (cfg0.win w).block.Idx → Elt F (cfg0.win w).elt)
variable (aft1 : (c : Dev nD) → (w : Fin cfg1.W) → Fin cfg1.N → (cfg1.win w).block.Idx → Elt F (cfg1.win w).elt)
variable (fgt1 : Fin cfg1.W → Bool)

/-! ## The buffer contents at each boundary -/

/-- Core c's buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c b
/-- At region 0's exit: its arrays at what the write-backs leave, every other buffer as entered. -/
def W1 (c : Dev nD) : Valuation τ sig (Elt F) :=
  Pipeline.withArrays spec0 c (W0 m c) fun w => (dat0 (V0 m) aft0 c).arrAt w cfg0.N
theorem W1_arr (c : Dev nD) (w : Fin cfg0.W) :
    W1 m aft0 c (Proc.devRef .tc (Pipeline.arrRef spec0 w)) = (dat0 (V0 m) aft0 c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m aft0 c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m aft0 c b
/-- After the host operations between the regions (region 1's entry). -/
abbrev W2 : Dev nD → Valuation τ sig (Elt F) := fun c => StableHlo.after hostOps1 (W1 m aft0 c)
abbrev V2 : (c : Dev nD) → (b : Ref sig .tc) → Buf (Elt F) ((c : Thread nD τ).loc b) := fun c b => W2 m aft0 c b
/-- At region 1's exit, its arrays at contents G. -/
def W3 (c : Dev nD) (G : (w : Fin cfg1.W) → Buf (Elt F) ((spec1 w).arr.view.loc (c : Thread nD τ))) : Valuation τ sig (Elt F) :=
  Pipeline.withArrays spec1 c (W2 m aft0 c) G
theorem W3_arr (c : Dev nD) (G : (w : Fin cfg1.W) → Buf (Elt F) ((spec1 w).arr.view.loc (c : Thread nD τ))) (w : Fin cfg1.W) :
    W3 m aft0 c G (Proc.devRef .tc (Pipeline.arrRef spec1 w)) = G w := by
  unfold W3; exact Pipeline.withArrays_arr spec1 launch1.win.arr_inj c _ _ w
theorem W3_of_ne (c : Dev nD) (G : (w : Fin cfg1.W) → Buf (Elt F) ((spec1 w).arr.view.loc (c : Thread nD τ))) (b : Ref sig .tc)
    (hb : ∀ w, Pipeline.arrRef spec1 w ≠ b) :
    W3 m aft0 c G (Proc.devRef .tc b) = W2 m aft0 c (Proc.devRef .tc b) := by
  unfold W3; exact Pipeline.withArrays_of_ne spec1 c _ _ b hb
/-- After the host operations that follow region 1. -/
abbrev W4 (c : Dev nD) (G : (w : Fin cfg1.W) → Buf (Elt F) ((spec1 w).arr.view.loc (c : Thread nD τ))) : Valuation τ sig (Elt F) :=
  StableHlo.after hostOps2 (W3 m aft0 c G)

/-! ## The proof data family -/

abbrev adm' : (p : Fin 2) → (pcfgs (F := F) p).Adm := fun p => (cfgs p).toPCfg_adm

/-- Region 0's data read relationally as it is; region 1's with the windows the mask marks forgotten. -/
def rdats : (p : Fin 2) → (c : Dev nD) → RDat τ (Elt F) Unit ℕ (UR sig nD τ) ℕ (Pipeline.pin (pcfgs (F := F)) adm' p) c
  | ⟨0, _⟩ => fun c => (dat0 (V0 m) aft0 c).toR
  | ⟨1, _⟩ => fun c => (dat1 (V2 m aft0) aft1 c).toRForget fgt1

abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

/-- What region 1 may leave in its arrays. -/
def Left1 (c : Dev nD) (G : (w : Fin cfg1.W) → Buf (Elt F) ((spec1 w).arr.view.loc (c : Thread nD τ))) : Prop :=
  ∀ w, ((dat1 (V2 m aft0) aft1 c).toRForget fgt1).ArrAt w cfg1.N (G w)

/-! ## The host operations as segments -/

theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations between the regions, from region 0's exit contents. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh') op h) (W1 m aft0) R

set_option backward.isDefEq.respectTransparency.types false in
/-- The host operations after region 1, from WHATEVER the region may have left in its arrays: the line of operations
    runs under the existential, from the buffers at those contents to the buffers after the operations. -/
def hseg2 : Pipeline.HostSeg (Name := ℕ) (U := UR sig nD τ) (pcfgs (F := F)) defs₀ 𝒱₀ L lv where
  prog := StableHlo.seq hostOps2
  pre c := iprop(∃ G, ⌜Left1 m aft0 aft1 fgt1 c G⌝ ∗ StableHlo.held (c : Thread nD τ) (Pipeline.ucRefs τ sig) (W3 m aft0 c G) ∗ R c)
  post c := iprop(∃ G, ⌜Left1 m aft0 aft1 fgt1 c G⌝ ∗ StableHlo.held (c : Thread nD τ) (Pipeline.ucRefs τ sig) (W4 m aft0 c G) ∗ R c)
  run c {β} k K := by
    iintro ⟨Hk, Hbd, ⟨%G, %hG, Hh, HR⟩, -⟩
    have hseq := StableHlo.wp_seq (defs := Pipeline.defs (pcfgs (F := F)) defs₀) (Variants.lift 𝒱₀) none Set.univ c (Pipeline.ucRefs τ sig) k (K := K)
      (hostOps2 : List (HloOp τ sig (Elt F)))
      (fun op h => Pipeline.sub_ucRefs op ((List.forall_iff_forall_mem.mp hostOps2_sub) op h))
      (fun op h => (List.forall_iff_forall_mem.mp hostOps2_fresh') op h) (W3 m aft0 c G)
    iapply hseq $$ [Hbd Hh]
    · isplitl [Hbd] <;> iassumption
    iintro ⟨Hbd, Hh⟩
    iapply Hk
    isplitl [Hbd]; · iexact Hbd
    iexists G
    isplitr; · ipureintro; exact hG
    isplitl [Hh] <;> iassumption

/-! ## The regions as segments -/

/-- The exact data of both regions as one family: of it only the arrays' shares are read when a region's arrays are
    put back among the unscoped buffers. -/
def pdatsD : (p : Fin 2) → (c : Dev nD) → Dat τ (Elt F) Unit ℕ (UR sig nD τ) ℕ (Pipeline.pin (pcfgs (F := F)) adm' p) c
  | ⟨0, _⟩ => fun c => dat0 (V0 m) aft0 c
  | ⟨1, _⟩ => fun c => dat1 (V2 m aft0) aft1 c

theorem hF0 (c : Dev nD) (w : Fin cfg0.W) : (dat0 (V0 m) aft0 c).arrAt w cfg0.N = V1 m aft0 c (Pipeline.arrRef spec0 w) :=
  (W1_arr m aft0 c w).symm
theorem hrest0 (c : Dev nD) : ∀ b, b ∉ Finset.univ.image (Pipeline.arrRef spec0) → V1 m aft0 c b = V0 m c b :=
  fun b hb => W1_of_ne m aft0 c b fun w e => hb (Finset.mem_image.mpr ⟨w, Finset.mem_univ _, e⟩)

set_option backward.isDefEq.respectTransparency.types false in
/-- REGION 0: entered from every unscoped buffer at the launch contents, left with its arrays at what the write-backs
    leave (the exact data read relationally allows exactly that). -/
def reg0 (hb0 : ∀ c, BodyObligationLoose (dat0 (V0 m) aft0 c) (defs₀ (F := F)) Variants.none () Set.univ) :
    Pipeline.RDat.RegionSeg (pcfgs (F := F)) adm' (rdats m aft0 aft1 fgt1) () defs₀ 𝒱₀ L lv 0 where
  win := launch0.win.to₀
  block_pos := launch0.block_pos
  stage_whole := launch0.stage_whole
  K := PEmpty
  osem k := k.elim
  ho := Pipeline.OwnSemFacts.none _
  hbody c := (hb0 c).toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m aft0 c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm' (rdats m aft0 aft1 fgt1) launch0.win launch0.arr_whole c
      ((rdats m aft0 aft1 fgt1 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m aft0 aft1 fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m aft0 aft1 fgt1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdatsD m aft0 aft1) ((pdatsD m aft0 aft1 0 c).share_full fun _ => rfl)
      (V0 m c) (V1 m aft0 c) ((pdatsD m aft0 aft1 0 c).arrAt · cfg0.N) (hF0 m aft0 c) (hrest0 m aft0 c)
    rw [Pipeline.unscopedBufs_held] at hjoin
    rw [show (rdats m aft0 aft1 fgt1 0 c).arraysAt (Pipeline.pin (pcfgs (F := F)) adm' 0).N
      = (dat0 (V0 m) aft0 c).toR.arraysAt cfg0.N from rfl, Dat.toR_arraysAt_eq]
    iintro ⟨Ha, HO, HY, Hrest⟩
    imodintro
    isplitl [Ha Hrest]
    · iapply hjoin
      isplitl [Ha]
      · iapply (show ((dat0 (V0 m) aft0 c).arrays ((dat0 (V0 m) aft0 c).arrAt · cfg0.N) : sProp 𝕄)
            ⊢ (pdatsD m aft0 aft1 0 c).arrays ((pdatsD m aft0 aft1 0 c).arrAt · cfg0.N) from .rfl)
        iexact Ha
      iexact Hrest
    isplitl [HY]; · iexact HY
    unfold Pipeline.RDat.owesAt Pipeline.owesWithin
    icases HO with ⟨%W, -, HO⟩; iexists W; iexact HO

set_option backward.isDefEq.respectTransparency.types false in
/-- REGION 1, the last: entered from every unscoped buffer at the contents after the host operations between the
    regions, left with its arrays at SOME contents the write-backs allow (the windows the mask marks forgotten are not
    named), every other buffer as entered. -/
def reg1 (hb1 : ∀ c, BodyObligationLoose (dat1 (V2 m aft0) aft1 c) (defs₀ (F := F)) Variants.none () Set.univ fgt1) :
    Pipeline.RDat.RegionSeg (pcfgs (F := F)) adm' (rdats m aft0 aft1 fgt1) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (W2 m aft0 c) ∗ R c)
  post c := iprop(∃ G, ⌜Left1 m aft0 aft1 fgt1 c G⌝ ∗ StableHlo.held (c : Thread nD τ) (Pipeline.ucRefs τ sig) (W3 m aft0 c G) ∗ R c)
  X c := iprop(∃ r, prngReg c r)
  Y c := iprop(∃ r, prngReg c r)
  Z c := Pipeline.unscopedRest (Ix := Unit) (Name := ℕ) (U := UR sig nD τ) (Lvl := ℕ) spec1 c (V2 m aft0 c)
  hentry c := by
    rw [Pipeline.ownSems0_none]
    have hsplit := Pipeline.RDat.arrays_of_unscopedBufs (p := 1) (pcfgs (F := F)) adm' (rdats m aft0 aft1 fgt1) launch1.win launch1.arr_whole c
      ((rdats m aft0 aft1 fgt1 1 c).share_full fun _ => rfl) (V2 m aft0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m aft0 aft1 fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m aft0 aft1 fgt1 1 c).Φ (Fin.last _) = Pipeline.ΦA spec1 c from rfl]; unfold Pipeline.ΦA
    iintro ⟨Hr, Hp⟩
    isplitl [Hp]; · iexact Hp
    isplitr; · iempintro
    iexact Hr
  hexit c := by
    classical
    rw [show (rdats m aft0 aft1 fgt1 1 c).arraysAt (Pipeline.pin (pcfgs (F := F)) adm' 1).N
      = ((dat1 (V2 m aft0) aft1 c).toRForget fgt1).arraysAt cfg1.N from rfl]
    unfold RDat.arraysAt
    iintro ⟨Ha, HO, HY, Hrest⟩
    ihave Ha' := (BI.bigSep_exists_pi Finset.univ (fun (w : Fin cfg1.W) F => iprop(⌜((dat1 (V2 m aft0) aft1 c).toRForget fgt1).ArrAt w cfg1.N F⌝
        ∗ (cfg1.win w).arr.view.loc (c : Thread nD τ) ↦[(cfg1.win w).arr.view.set]{((dat1 (V2 m aft0) aft1 c).toRForget fgt1).share w} F))) $$ Ha
    icases Ha' with ⟨%Fs, Ha⟩
    ihave Ha2 := (BI.bigSep_pure_sep Finset.univ (fun (w : Fin cfg1.W) => ((dat1 (V2 m aft0) aft1 c).toRForget fgt1).ArrAt w cfg1.N (Fs w))
        (fun w => (cfg1.win w).arr.view.loc (c : Thread nD τ) ↦[(cfg1.win w).arr.view.set]{((dat1 (V2 m aft0) aft1 c).toRForget fgt1).share w} Fs w)) $$ Ha
    icases Ha2 with ⟨%hFs, Ha⟩
    have hjoin := Pipeline.unscopedBufs_of_arrays (p := 1) (pcfgs (F := F)) adm' (Ix := Unit) (Name := ℕ) (U := UR sig nD τ) (Lvl := ℕ)
      launch1.win launch1.arr_whole c (pdatsD m aft0 aft1) ((pdatsD m aft0 aft1 1 c).share_full fun _ => rfl)
      (V2 m aft0 c) (fun b => W3 m aft0 c Fs b) Fs (fun w => (W3_arr m aft0 c Fs w).symm)
      (fun b hb => W3_of_ne m aft0 c Fs b fun w e => hb (Finset.mem_image.mpr ⟨w, Finset.mem_univ _, e⟩))
    rw [Pipeline.unscopedBufs_held] at hjoin
    imodintro
    iexists Fs
    isplitr; · ipureintro; exact fun w => hFs w (Finset.mem_univ w)
    isplitl [Ha Hrest]
    · iapply hjoin
      isplitl [Ha]
      · iapply (show (bigSep Finset.univ fun (w : Fin cfg1.W) => ((cfg1.win w).arr.view.loc (c : Thread nD τ) ↦[(cfg1.win w).arr.view.set]{((dat1 (V2 m aft0) aft1 c).toRForget fgt1).share w} Fs w : sProp 𝕄))
            ⊢ (pdatsD m aft0 aft1 1 c).arrays Fs from .rfl)
        iexact Ha
      iexact Hrest
    isplitl [HY]; · iexact HY
    unfold Pipeline.RDat.owesAt Pipeline.owesWithin
    icases HO with ⟨%W, -, HO⟩; iexists W; iexact HO

/-! ## @main as segments, and the launch -/

/-- @main's four segments in order: region 0, the host operations between, region 1, the host operations after. -/
abbrev segs (hb0 : ∀ c, BodyObligationLoose (dat0 (V0 m) aft0 c) (defs₀ (F := F)) Variants.none () Set.univ)
    (hb1 : ∀ c, BodyObligationLoose (dat1 (V2 m aft0) aft1 c) (defs₀ (F := F)) Variants.none () Set.univ fgt1) :
    List (Pipeline.RDat.Seg (pcfgs (F := F)) adm' (rdats m aft0 aft1 fgt1) () defs₀ 𝒱₀ L lv) :=
  [ .region (reg0 m aft0 aft1 fgt1 hb0),
    .host (hseg1 m aft0),
    .region (reg1 m aft0 aft1 fgt1 hb1),
    .host (hseg2 m aft0 aft1 fgt1) ]

/-- What the run leaves on core c: region 1's arrays at some contents G its write-backs allow, and every unscoped
    buffer at the host operations' results from them. -/
def Final (c : Dev nD) (s : MemSt nD τ sig (Elt F)) : Prop :=
  ∃ G, Left1 m aft0 aft1 fgt1 c G ∧ ∀ b ∈ Pipeline.ucRefs τ sig, s.mem (((c : Thread nD τ)).1, b) = W4 m aft0 c G b

set_option backward.isDefEq.respectTransparency.types false in
/-- THE RUN. Given the two body obligations, every weakly fair execution of @main from memory m with zero counters
    terminates, nothing faulting, and in every final state each core's unscoped buffers hold the host operations'
    results from some contents region 1 may have left. -/
theorem run (hb0 : ∀ c, BodyObligationLoose (dat0 (V0 m) aft0 c) (defs₀ (F := F)) Variants.none () Set.univ)
    (hb1 : ∀ c, BodyObligationLoose (dat1 (V2 m aft0) aft1 c) (defs₀ (F := F)) Variants.none () Set.univ fgt1) :
    θ_run defs (onTc (τ := τ) (main (F := F))) ⟨m, fun _ => 0, ρ⟩ (fun r => ∀ c : Dev nD, Final m aft0 aft1 fgt1 c r.2) :=
  Pipeline.RDat.θ_run_regions_kit (pcfgs (F := F)) adm' (rdats m aft0 aft1 fgt1) () cellOf_inj emb₁ defs₀ 𝒱₀ L lv m ρ main
    (segs m aft0 aft1 fgt1 hb0 hb1)
    (fun c Q => by
      rewrite [main_chain c, Pipeline.RDat.Seg.run_eq_chain,
        show (segs m aft0 aft1 fgt1 hb0 hb1).map Pipeline.RDat.Seg.prog = [
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(∃ G, ⌜Left1 m aft0 aft1 fgt1 c G⌝ ∗ StableHlo.held (c : Thread nD τ) (Pipeline.ucRefs τ sig) (W4 m aft0 c G) ∗ ∃ r, prngReg c r))
    (hch := ⟨fun _ => .rfl, fun _ => .rfl, fun _ => .rfl, fun _ => .rfl, fun c => by
      show iprop(∃ G, ⌜Left1 m aft0 aft1 fgt1 c G⌝ ∗ StableHlo.held (c : Thread nD τ) (Pipeline.ucRefs τ sig) (W4 m aft0 c G) ∗ R c) ⊢ _
      iintro ⟨%G, %hG, Hh, Hp, HO⟩
      isplitr [HO]
      · iexists G
        isplitr; · ipureintro; exact hG
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => Final m aft0 aft1 fgt1 c s)
    (hfin := fun c s' => by
      iintro ⟨⟨%G, %hG, Hh, -⟩, HSI⟩
      unfold StableHlo.held
      ihave Hr := (pointsTo_read_all (Pipeline.ucRefs τ sig) (fun b => (((c : Thread nD τ)).1, b)) (W4 m aft0 c G) s') $$ [Hh HSI]
      · isplitl [Hh] <;> iassumption
      icases Hr with ⟨%h, HSI⟩
      imodintro
      isplitr
      · ipureintro; exact ⟨G, hG, h⟩
      iexact HSI)
    (hQ := fun s h c => h c)

end Cert.KernelIdeal.Hand

end
-- ==== Proof.Ideal.Frame.lean ====
/-
  The argument arrays after the run: no host operation writes one and no region may change one (each is an input
  window's array of a region, never written back, or bypasses it), so whatever the last region leaves in its arrays,
  every argument's buffer holds its launch contents.
-/
import proofs.«111166_j1640677507314_2_alg».proof.Proof.Ideal.Run
import proofs.«111166_j1640677507314_2_alg».proof.Proof.Gen.KernelIdeal.Regions

noncomputable section

namespace Cert.KernelIdeal.Hand

open Cert.KernelIdeal
open Idealize.ShloMosaic Idealize.ShloMosaic.TcCoe Idealize.SL.Sem
open Idealize.ShloMosaic.Pipeline (Dat RDat)

variable {F : FTy → Type} [FloatOps F]

variable (m : (ℓ : Loc nD τ sig) → Buf (Elt F) ℓ) (ρ : Dev nD → PrngReg)
variable (aft0 : (c : Dev nD) → (w : Fin cfg0.W) → Fin cfg0.N → (cfg0.win w).block.Idx → Elt F (cfg0.win w).elt)
variable (aft1 : (c : Dev nD) → (w : Fin cfg1.W) → Fin cfg1.N → (cfg1.win w).block.Idx → Elt F (cfg1.win w).elt)
variable (fgt1 : Fin cfg1.W → Bool)

/-- A buffer the host operations between the regions do not write holds after them what region 0 left. -/
theorem W2_of (c : Dev nD) (r : Ref sig .tc) (h : r ∉ Gen.hostOps1_W) : W2 m aft0 c r = W1 m aft0 c r :=
  StableHlo.after_of_writes_sub Gen.hostOps1 _ Gen.hostOps1_writes h

/-- A buffer the host operations after region 1 do not write holds after them what region 1 left. -/
theorem W4_of (c : Dev nD) (G : (w : Fin cfg1.W) → Buf (Elt F) ((spec1 w).arr.view.loc (c : Thread nD τ))) (r : Ref sig .tc)
    (h : r ∉ Gen.hostOps2_W) : W4 m aft0 c G r = W3 m aft0 c G r :=
  StableHlo.after_of_writes_sub Gen.hostOps2 _ Gen.hostOps2_writes h

/-- An input window's array of region 0 is at the region's exit as the launch left it. -/
theorem W1_in (c : Dev nD) (w : Fin cfg0.W) (hin : (cfg0.win w).isOut = false) :
    W1 m aft0 c (Proc.devRef .tc (Pipeline.arrRef spec0 w)) = m (c, Proc.devRef .tc (Pipeline.arrRef spec0 w)) :=
  (W1_arr m aft0 c w).trans ((dat0 (V0 m) aft0 c).arrAt_in w hin _)

/-- An input window's array of region 1 is, in anything the region may leave, as the region found it. -/
theorem W3_in (c : Dev nD) (G : (w : Fin cfg1.W) → Buf (Elt F) ((spec1 w).arr.view.loc (c : Thread nD τ)))
    (hG : Left1 m aft0 aft1 fgt1 c G) (w : Fin cfg1.W) (hin : (cfg1.win w).isOut = false) :
    W3 m aft0 c G (Proc.devRef .tc (Pipeline.arrRef spec1 w)) = W2 m aft0 c (Proc.devRef .tc (Pipeline.arrRef spec1 w)) := by
  rw [W3_arr]
  have h := hG w
  rw [RDat.ArrAt_in _ w hin] at h
  exact h

section Args

variable (c : Dev nD) (G : (w : Fin cfg1.W) → Buf (Elt F) ((spec1 w).arr.view.loc (c : Thread nD τ)))
variable (hG : Left1 m aft0 aft1 fgt1 c G)

include hG

theorem W4_arg0 : W4 m aft0 c G main_arg0 = m ((c.tc : Thread nD τ).loc main_arg0) :=
  (W4_of m aft0 c G main_arg0 (by decide)).trans <| (W3_of_ne m aft0 c G main_arg0 (by decide)).trans <|
    (W2_of m aft0 c main_arg0 (by decide)).trans <| W1_in m aft0 c 0 rfl
theorem W4_arg1 : W4 m aft0 c G main_arg1 = m ((c.tc : Thread nD τ).loc main_arg1) :=
  (W4_of m aft0 c G main_arg1 (by decide)).trans <| (W3_of_ne m aft0 c G main_arg1 (by decide)).trans <|
    (W2_of m aft0 c main_arg1 (by decide)).trans <| W1_in m aft0 c 1 rfl
theorem W4_arg2 : W4 m aft0 c G main_arg2 = m ((c.tc : Thread nD τ).loc main_arg2) :=
  (W4_of m aft0 c G main_arg2 (by decide)).trans <| (W3_of_ne m aft0 c G main_arg2 (by decide)).trans <|
    (W2_of m aft0 c main_arg2 (by decide)).trans <| W1_in m aft0 c 2 rfl
theorem W4_arg9 : W4 m aft0 c G main_arg9 = m ((c.tc : Thread nD τ).loc main_arg9) :=
  (W4_of m aft0 c G main_arg9 (by decide)).trans <| (W3_of_ne m aft0 c G main_arg9 (by decide)).trans <|
    (W2_of m aft0 c main_arg9 (by decide)).trans <| W1_in m aft0 c 3 rfl
theorem W4_arg3 : W4 m aft0 c G main_arg3 = m ((c.tc : Thread nD τ).loc main_arg3) :=
  (W4_of m aft0 c G main_arg3 (by decide)).trans <| (W3_in m aft0 aft1 fgt1 c G hG 0 rfl).trans <|
    (W2_of m aft0 c main_arg3 (by decide)).trans <| W1_of_ne m aft0 c main_arg3 (by decide)
theorem W4_arg4 : W4 m aft0 c G main_arg4 = m ((c.tc : Thread nD τ).loc main_arg4) :=
  (W4_of m aft0 c G main_arg4 (by decide)).trans <| (W3_in m aft0 aft1 fgt1 c G hG 1 rfl).trans <|
    (W2_of m aft0 c main_arg4 (by decide)).trans <| W1_of_ne m aft0 c main_arg4 (by decide)
theorem W4_arg5 : W4 m aft0 c G main_arg5 = m ((c.tc : Thread nD τ).loc main_arg5) :=
  (W4_of m aft0 c G main_arg5 (by decide)).trans <| (W3_in m aft0 aft1 fgt1 c G hG 2 rfl).trans <|
    (W2_of m aft0 c main_arg5 (by decide)).trans <| W1_of_ne m aft0 c main_arg5 (by decide)
theorem W4_arg6 : W4 m aft0 c G main_arg6 = m ((c.tc : Thread nD τ).loc main_arg6) :=
  (W4_of m aft0 c G main_arg6 (by decide)).trans <| (W3_in m aft0 aft1 fgt1 c G hG 3 rfl).trans <|
    (W2_of m aft0 c main_arg6 (by decide)).trans <| W1_of_ne m aft0 c main_arg6 (by decide)
theorem W4_arg7 : W4 m aft0 c G main_arg7 = m ((c.tc : Thread nD τ).loc main_arg7) :=
  (W4_of m aft0 c G main_arg7 (by decide)).trans <| (W3_in m aft0 aft1 fgt1 c G hG 4 rfl).trans <|
    (W2_of m aft0 c main_arg7 (by decide)).trans <| W1_of_ne m aft0 c main_arg7 (by decide)
theorem W4_arg8 : W4 m aft0 c G main_arg8 = m ((c.tc : Thread nD τ).loc main_arg8) :=
  (W4_of m aft0 c G main_arg8 (by decide)).trans <| (W3_in m aft0 aft1 fgt1 c G hG 5 rfl).trans <|
    (W2_of m aft0 c main_arg8 (by decide)).trans <| W1_of_ne m aft0 c main_arg8 (by decide)

end Args

/-- THE FRAME, at any float instance: given the two body obligations (the second with any mask of forgotten windows),
    every weakly fair execution of @main from memory m with zero counters terminates, nothing faulting, and every final
    state has each argument array as launched. -/
theorem frame_of (hb0 : ∀ c, Pipeline.BodyObligationLoose (dat0 (V0 m) aft0 c) (defs₀ (F := F)) Variants.none () Set.univ)
    (hb1 : ∀ c, Pipeline.BodyObligationLoose (dat1 (V2 m aft0) aft1 c) (defs₀ (F := F)) Variants.none () Set.univ fgt1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨G, hG, hm⟩ := h c
    exact ⟨(hm _ (mem_uc main_arg0 (by decide))).trans (W4_arg0 m aft0 aft1 fgt1 c G hG),
      (hm _ (mem_uc main_arg1 (by decide))).trans (W4_arg1 m aft0 aft1 fgt1 c G hG),
      (hm _ (mem_uc main_arg2 (by decide))).trans (W4_arg2 m aft0 aft1 fgt1 c G hG),
      (hm _ (mem_uc main_arg3 (by decide))).trans (W4_arg3 m aft0 aft1 fgt1 c G hG),
      (hm _ (mem_uc main_arg4 (by decide))).trans (W4_arg4 m aft0 aft1 fgt1 c G hG),
      (hm _ (mem_uc main_arg5 (by decide))).trans (W4_arg5 m aft0 aft1 fgt1 c G hG),
      (hm _ (mem_uc main_arg6 (by decide))).trans (W4_arg6 m aft0 aft1 fgt1 c G hG),
      (hm _ (mem_uc main_arg7 (by decide))).trans (W4_arg7 m aft0 aft1 fgt1 c G hG),
      (hm _ (mem_uc main_arg8 (by decide))).trans (W4_arg8 m aft0 aft1 fgt1 c G hG),
      (hm _ (mem_uc main_arg9 (by decide))).trans (W4_arg9 m aft0 aft1 fgt1 c G hG)⟩)
    (run m ρ aft0 aft1 fgt1 hb0 hb1)

end Cert.KernelIdeal.Hand

end
-- ==== Proof.Ideal.PoiData.lean ====
/-
  Region 0 (masked softmax attention of the poi stream, one query tile of 512 rows per grid point against all 2048
  keys of a batch and head): what each window's staging buffer holds after the body, as a function of the arrays the
  region is entered with.  Inputs keep their blocks; the probabilities' buffer holds the body's probabilities of the
  loaded blocks, the output's buffer their product with the value block.
-/
import proofs.«111166_j1640677507314_2_alg».proof.Proof.Ideal.Run
import proofs.«111166_j1640677507314_2_alg».proof.Proof.Gen.KernelIdeal.Skeleton
import proofs.«111166_j1640677507314_2_alg».proof.Proof.Gen.KernelIdeal.Points

noncomputable section

namespace Cert.KernelIdeal.Hand

open Cert.KernelIdeal Cert.KernelIdeal.Gen
open Idealize.ShloMosaic Idealize.ShloMosaic.TcCoe Idealize.SL.Sem

variable {F : FTy → Type} [FloatOps F]

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The probabilities' staging buffer after the body, from the query, key and mask blocks. -/
def out0_4 (x0 : Vec F S1x1x512x64 .f32) (x1 : Vec F S1x1x2048x64 .f32) (x3 : Vec F S1x1x512x2048 .i32) : Vec F S1x1x512x2048 .f32 :=
  k0_pay1 (k0_pay4 x0 x1 x3)

/-- The output's staging buffer after the body, from the query, key, value and mask blocks. -/
def out0_5 (x0 : Vec F S1x1x512x64 .f32) (x1 x2 : Vec F S1x1x2048x64 .f32) (x3 : Vec F S1x1x512x2048 .i32) : Vec F S1x1x512x64 .f32 :=
  k0_pay2 (k0_pay3 x2) (k0_pay4 x0 x1 x3)

/-- What each window's staging buffer holds after the body at point t. -/
def aft0 (c : Dev nD) (w : Fin cfg0.W) (t : Fin cfg0.N) : (cfg0.win w).block.Idx → Elt F (cfg0.win w).elt :=
  match w with
  | ⟨0, _⟩ => iblk0 V c 0 t
  | ⟨1, _⟩ => iblk0 V c 1 t
  | ⟨2, _⟩ => iblk0 V c 2 t
  | ⟨3, _⟩ => iblk0 V c 3 t
  | ⟨4, _⟩ => out0_4 (iblk0 V c 0 t) (iblk0 V c 1 t) (iblk0 V c 3 t)
  | ⟨5, _⟩ => out0_5 (iblk0 V c 0 t) (iblk0 V c 1 t) (iblk0 V c 2 t) (iblk0 V c 3 t)

theorem aft0_0 (c : Dev nD) (t : Fin cfg0.N) : (dat0 V (aft0 V) c).after 0 t = iblk0 V c 0 t := by dsimp only [dat0, aft0]
theorem aft0_1 (c : Dev nD) (t : Fin cfg0.N) : (dat0 V (aft0 V) c).after 1 t = iblk0 V c 1 t := by dsimp only [dat0, aft0]
theorem aft0_2 (c : Dev nD) (t : Fin cfg0.N) : (dat0 V (aft0 V) c).after 2 t = iblk0 V c 2 t := by dsimp only [dat0, aft0]
theorem aft0_3 (c : Dev nD) (t : Fin cfg0.N) : (dat0 V (aft0 V) c).after 3 t = iblk0 V c 3 t := by dsimp only [dat0, aft0]
theorem aft0_4 (c : Dev nD) (t : Fin cfg0.N) :
    (dat0 V (aft0 V) c).after 4 t = out0_4 (iblk0 V c 0 t) (iblk0 V c 1 t) (iblk0 V c 3 t) := by dsimp only [dat0, aft0]
theorem aft0_5 (c : Dev nD) (t : Fin cfg0.N) :
    (dat0 V (aft0 V) c).after 5 t = out0_5 (iblk0 V c 0 t) (iblk0 V c 1 t) (iblk0 V c 2 t) (iblk0 V c 3 t) := by dsimp only [dat0, aft0]

end Cert.KernelIdeal.Hand

end
-- ==== Proof.LibWholeStore.lean ====
/-
  A store over a whole block, made last, is what the block then reads.

  A list of stores through rectangles of a view is read back index by index: each index reads the payload of
  the last store whose rectangle holds it. When the last store's rectangle is the whole shape at zero offsets,
  every index is under it, so the contents read back are that store's payload, whatever was stored before and
  whatever the buffer held. Stated over an abstract shape, so that applying it at a large literal shape never
  asks for the shape's index set.
-/
import Idealize.ShloMosaic.Lib.Pipeline.Value

noncomputable section

namespace Cert.WholeStore

open Idealize.ShloMosaic

variable {sig : RefSig} {κ : Kind} {sp : Space} {S : Shape} {e : EltTy} {Val : EltTy → Type}

/-- The whole-shape rectangle at zero offsets covers every index, so a list of stores headed by one through it
    covers the shape. -/
theorem cover_cons [∀ e, Nonempty (Val e)] {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨⟨Rect.unit off S.size inb, w⟩, List.mem_cons_self .., View.mem_set_unit_zero h inb y⟩

/-- A buffer read after a list of stores whose last is a store of `w` over the whole shape reads `w`. -/
theorem read_writes_cons [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (cover_cons h inb w L)]
  exact View.canon_cons_unit_zero h inb w L

end Cert.WholeStore

end
-- ==== Proof.Ideal.Poi.lean ====
/-
  Region 0 (masked softmax attention, one query tile of 512 rows per grid point against all 2048 keys of a batch and
  head): the body's triple at every grid point.  Each input window's staging buffer holds that window's block of its
  array wherever the body is called (the mask's block is fetched only when the query tile's batch or row band moves,
  and between fetches its index does not move); the body reads the four input buffers whole and stores each output
  buffer whole once, so afterwards the probabilities' buffer holds the probabilities of the loaded blocks and the
  output's buffer their product with the value block, whatever either held before.
-/
import proofs.«111166_j1640677507314_2_alg».proof.Proof.Ideal.PoiData
import proofs.«111166_j1640677507314_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-four access, however spelt. -/
theorem zeros4 : (![0, 0, 0, 0] : Fin 4 → Nat) = fun _ => 0 := by
  funext a; fin_cases a <;> rfl

/-- A load through the whole-shape rectangle at zero offsets reads what the buffer's contents read. -/
theorem readAt_whole {Val : EltTy → Type} {κ : Kind} {sp : Space} {S : Shape} {e : EltTy} (v : View sig κ sp S e)
    (f : v.ty.Contents Val) {off : Fin S.rank → Nat} (h : off = fun _ => 0) (inb : ∀ a, off a + S.size a ≤ S.size a) :
    v.readAt Val (Rect.unit off S.size inb).toLoadRect f = v.read Val f :=
  (View.readAt_eq_ld v f _).trans (View.ld_unit_zero h inb _)

/-- Input window 0's current staging buffer holds its block at every point, fetched there or not: where it is not
    fetched its block index has not moved since the previous point, and the body left the block in place. -/
theorem before0_0 (c : Dev nD) (t : Fin cfg0.N) (d) : (dat0 V (aft0 V) c).before 0 t d = iblk0 V c 0 t :=
  ((dat0 V (aft0 V) c).before_in_eq_fetched 0 rfl (fun _ => rfl) (fun _ _ _ => rfl)
    (fun t => by rw [aft0_0]; unfold Dat.blockOf iblk0; dsimp only [dat0]; try rfl) t d).trans
    (by unfold Dat.fetched Dat.blockOf iblk0; dsimp only [dat0]; try rfl)

/-- Input window 1's current staging buffer holds its block at every point, fetched there or not: where it is not
    fetched its block index has not moved since the previous point, and the body left the block in place. -/
theorem before0_1 (c : Dev nD) (t : Fin cfg0.N) (d) : (dat0 V (aft0 V) c).before 1 t d = iblk0 V c 1 t :=
  ((dat0 V (aft0 V) c).before_in_eq_fetched 1 rfl (fun _ => rfl) (fun _ _ _ => rfl)
    (fun t => by rw [aft0_1]; unfold Dat.blockOf iblk0; dsimp only [dat0]; try rfl) t d).trans
    (by unfold Dat.fetched Dat.blockOf iblk0; dsimp only [dat0]; try rfl)

/-- Input window 2's current staging buffer holds its block at every point, fetched there or not: where it is not
    fetched its block index has not moved since the previous point, and the body left the block in place. -/
theorem before0_2 (c : Dev nD) (t : Fin cfg0.N) (d) : (dat0 V (aft0 V) c).before 2 t d = iblk0 V c 2 t :=
  ((dat0 V (aft0 V) c).before_in_eq_fetched 2 rfl (fun _ => rfl) (fun _ _ _ => rfl)
    (fun t => by rw [aft0_2]; unfold Dat.blockOf iblk0; dsimp only [dat0]; try rfl) t d).trans
    (by unfold Dat.fetched Dat.blockOf iblk0; dsimp only [dat0]; try rfl)

/-- Input window 3's current staging buffer holds its block at every point, fetched there or not: where it is not
    fetched its block index has not moved since the previous point, and the body left the block in place. -/
theorem before0_3 (c : Dev nD) (t : Fin cfg0.N) (d) : (dat0 V (aft0 V) c).before 3 t d = iblk0 V c 3 t :=
  ((dat0 V (aft0 V) c).before_in_eq_fetched 3 rfl (fun _ => rfl) (fun _ _ _ => rfl)
    (fun t => by rw [aft0_3]; unfold Dat.blockOf iblk0; dsimp only [dat0]; try rfl) t d).trans
    (by unfold Dat.fetched Dat.blockOf iblk0; dsimp only [dat0]; try rfl)

set_option maxHeartbeats 1000000 in
/-- The kernel body on whole staging buffers, the inputs' at read contents x0 … x3 and the outputs' at anything, runs to the
    continuation holding the inputs' as they were, the probabilities' at the probabilities of the loaded blocks and the
    output's at their product with the value block: each output buffer is stored whole once, last, so what it held
    before (and what the dead loads of it read) does not matter. -/
theorem sound_kernel0 (c : Dev nD) (E : Set ℕ) (i : grid0.Coords)
    (arg0 : Memref sig .tc .vmem S1x1x512x64 .f32) (harg0 : arg0.IsWhole)
    (arg1 : Memref sig .tc .vmem S1x1x2048x64 .f32) (harg1 : arg1.IsWhole)
    (arg2 : Memref sig .tc .vmem S1x1x2048x64 .f32) (harg2 : arg2.IsWhole)
    (arg3 : Memref sig .tc .vmem S1x1x512x2048 .i32) (harg3 : arg3.IsWhole)
    (arg4 : Memref sig .tc .vmem S1x1x512x2048 .f32) (harg4 : arg4.IsWhole)
    (arg5 : Memref sig .tc .vmem S1x1x512x64 .f32) (harg5 : arg5.IsWhole)
    (x0 : Vec F S1x1x512x64 .f32) (x1 x2 : Vec F S1x1x2048x64 .f32) (x3 : Vec F S1x1x512x2048 .i32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1 x3)
            ∗ owns (c : Thread nD τ) arg5 fullShare (out0_5 x0 x1 x2 x3)) -∗ K ⟨⟩))
      ⊢ wp frame (wpE (defs₀ (F := F)) Variants.none c none) E
          (cc0__poi_kernel i arg0 harg0 arg1 harg1 arg2 harg2 arg3 harg3 arg4 harg4 arg5 harg5) K := by
  simp only [cc0__poi_kernel_eq_skeleton]; unfold cc0__poi_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (Cert.WholeStore.read_writes_cons _ _ zeros4 _ _ _).trans ?_
    sl_unfold_run_names
    unfold out0_4
    rw [readAt_whole arg0.view f0 zeros4, readAt_whole arg1.view f1 zeros4, readAt_whole arg3.view f3 zeros4]
  · iexists _; isplitr
    swap; · iexact H5
    ipureintro
    refine (Cert.WholeStore.read_writes_cons _ _ zeros4 _ _ _).trans ?_
    sl_unfold_run_names
    unfold out0_5
    rw [readAt_whole arg0.view f0 zeros4, readAt_whole arg1.view f1 zeros4, readAt_whole arg2.view f2 zeros4,
      readAt_whole arg3.view f3 zeros4]

/-! ## The body obligation, at a generic point -/

/-- What the body is called with at point t: the invariant, the core's debt, and each window's current staging buffer
    at what it then holds, -/
def bodyPre0 (c : Dev nD) (t : Fin cfg0.N) : sProp 𝕄 :=
  iprop((dat0 V (aft0 V) c).Φ t.castSucc ∗ (dat0 V (aft0 V) c).owesAt () t.castSucc
    ∗ (∃ d, owns (c : Thread nD τ) (st0_0 t) fullShare ((dat0 V (aft0 V) c).before 0 t d))
    ∗ (∃ d, owns (c : Thread nD τ) (st0_1 t) fullShare ((dat0 V (aft0 V) c).before 1 t d))
    ∗ (∃ d, owns (c : Thread nD τ) (st0_2 t) fullShare ((dat0 V (aft0 V) c).before 2 t d))
    ∗ (∃ d, owns (c : Thread nD τ) (st0_3 t) fullShare ((dat0 V (aft0 V) c).before 3 t d))
    ∗ (∃ d, owns (c : Thread nD τ) (st0_4 t) fullShare ((dat0 V (aft0 V) c).before 4 t d))
    ∗ (∃ d, owns (c : Thread nD τ) (st0_5 t) fullShare ((dat0 V (aft0 V) c).before 5 t d)))

/-- and what it returns: every buffer at what the body leaves. -/
def bodyPost0 (c : Dev nD) (t : Fin cfg0.N) : sProp 𝕄 :=
  iprop((dat0 V (aft0 V) c).Φ t.succ ∗ (dat0 V (aft0 V) c).owesAt () t.succ
    ∗ owns (c : Thread nD τ) (st0_0 t) fullShare ((dat0 V (aft0 V) c).after 0 t)
    ∗ owns (c : Thread nD τ) (st0_1 t) fullShare ((dat0 V (aft0 V) c).after 1 t)
    ∗ owns (c : Thread nD τ) (st0_2 t) fullShare ((dat0 V (aft0 V) c).after 2 t)
    ∗ owns (c : Thread nD τ) (st0_3 t) fullShare ((dat0 V (aft0 V) c).after 3 t)
    ∗ owns (c : Thread nD τ) (st0_4 t) fullShare ((dat0 V (aft0 V) c).after 4 t)
    ∗ owns (c : Thread nD τ) (st0_5 t) fullShare ((dat0 V (aft0 V) c).after 5 t))

set_option maxHeartbeats 1000000 in
/-- The body at any point: the inputs' buffers hold their blocks, so the kernel's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V (aft0 V) c).Φ t.succ = (dat0 V (aft0 V) c).Φ t.castSucc from rfl,
    show (dat0 V (aft0 V) c).owesAt () t.succ = (dat0 V (aft0 V) c).owesAt () t.castSucc from rfl,
    aft0_0, aft0_1, aft0_2, aft0_3, aft0_4, aft0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body0 (c : Dev nD) : Pipeline.BodyObligation (dat0 V (aft0 V) c) (defs₀ (F := F)) Variants.none () Set.univ := fun t => by
  rw [bigSep_W0, bigSep_W0]
  exact sound_body0 V c t

end Cert.KernelIdeal.Hand

end
-- ==== Proof.Ideal.TdData.lean ====
/-
  Region 1 (plain softmax attention of the time and distance streams, one query tile of 256 rows per grid point
  against all 2047 keys, and the cross product of the summed probabilities with the poi values): what the body
  computes from WHOLE staging buffers.  The streams have 2047 rows, so the last query tile overhangs its array by
  one row: there a fetched block fills only the buffer's first 255 rows and the last row holds words nothing names.
-/
import proofs.«111166_j1640677507314_2_alg».proof.Proof.Ideal.Run
import proofs.«111166_j1640677507314_2_alg».proof.Proof.Gen.KernelIdeal.Skeleton
import proofs.«111166_j1640677507314_2_alg».proof.Proof.Gen.KernelIdeal.Points

noncomputable section

namespace Cert.KernelIdeal.Hand

open Cert.KernelIdeal Cert.KernelIdeal.Gen
open Idealize.ShloMosaic Idealize.ShloMosaic.TcCoe Idealize.SL.Sem

variable {F : FTy → Type} [FloatOps F]

variable (V : (c : Dev nD) → (b : Ref sig .tc) → Buf (Elt F) ((c : Thread nD τ).loc b))

/-- Window w's block at point t, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! What the body leaves in each output's staging buffer, from the seven inputs' WHOLE staging buffers: the time
    query and key (x0, x1), the time value (x2), the distance query, key and value (x3, x4, x5), the poi value (x6). -/

/-- The time stream's probabilities. -/
def o7 (x0 : Vec F S1x1x256x64 .f32) (x1 : Vec F S1x1x2047x64 .f32) : Vec F S1x1x256x2047 .f32 :=
  k1_pay11 (k1_pay8 x0 x1)
/-- The distance stream's probabilities. -/
def o8 (x3 : Vec F S1x1x256x64 .f32) (x4 : Vec F S1x1x2047x64 .f32) : Vec F S1x1x256x2047 .f32 :=
  k1_pay12 (k1_pay4 x3) (k1_pay5 x4)
/-- The time stream's output. -/
def o9 (x0 : Vec F S1x1x256x64 .f32) (x1 x2 : Vec F S1x1x2047x64 .f32) : Vec F S1x1x256x64 .f32 :=
  k1_pay13 (k1_pay3 x2) (k1_pay8 x0 x1)
/-- The distance stream's output. -/
def o10 (x3 : Vec F S1x1x256x64 .f32) (x4 x5 : Vec F S1x1x2047x64 .f32) : Vec F S1x1x256x64 .f32 :=
  k1_pay1 (k1_pay14 (k1_pay4 x3) (k1_pay5 x4) (k1_pay6 x5))
/-- The summed probabilities times the poi values. -/
def o11 (x0 : Vec F S1x1x256x64 .f32) (x1 : Vec F S1x1x2047x64 .f32) (x3 : Vec F S1x1x256x64 .f32) (x4 x6 : Vec F S1x1x2047x64 .f32) :
    Vec F S1x1x256x64 .f32 :=
  k1_pay2 (k1_pay7 x6) (k1_pay9 (k1_pay8 x0 x1)) (k1_pay10 (k1_pay4 x3) (k1_pay5 x4))

/-- The filler for the rows of a staging buffer past its array's end, where nothing is stated: the zero word. -/
abbrev zfill (s : Shape) : s.Idx → Elt F .f32 := fun _ => Scalar.ofBits .f32 0#32

end Cert.KernelIdeal.Hand

end
-- ==== Proof.Ideal.Td.lean ====
/-
  The body of region 1 on whole staging buffers: it loads the seven inputs' buffers whole, and stores each of the five
  outputs' buffers whole, once, with the value the arithmetic gives from the loaded buffers.
-/
import proofs.«111166_j1640677507314_2_alg».proof.Proof.Ideal.TdData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«111166_j1640677507314_2_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body on whole staging buffers: the seven inputs' at any read contents, the five outputs' at anything; it ends
    with the inputs' as they were and each output's at the arithmetic's value of the inputs' WHOLE buffers. -/
theorem sound_kernel1 (c : Dev nD) (E : Set ℕ) (i : grid1.Coords)
    (a0 : Memref sig .tc .vmem S1x1x256x64 .f32) (h0 : a0.IsWhole) (a1 : Memref sig .tc .vmem S1x1x2047x64 .f32) (h1 : a1.IsWhole)
    (a2 : Memref sig .tc .vmem S1x1x2047x64 .f32) (h2 : a2.IsWhole) (a3 : Memref sig .tc .vmem S1x1x256x64 .f32) (h3 : a3.IsWhole)
    (a4 : Memref sig .tc .vmem S1x1x2047x64 .f32) (h4 : a4.IsWhole) (a5 : Memref sig .tc .vmem S1x1x2047x64 .f32) (h5 : a5.IsWhole)
    (a6 : Memref sig .tc .vmem S1x1x2047x64 .f32) (h6 : a6.IsWhole) (a7 : Memref sig .tc .vmem S1x1x256x2047 .f32) (h7 : a7.IsWhole)
    (a8 : Memref sig .tc .vmem S1x1x256x2047 .f32) (h8 : a8.IsWhole) (a9 : Memref sig .tc .vmem S1x1x256x64 .f32) (h9 : a9.IsWhole)
    (a10 : Memref sig .tc .vmem S1x1x256x64 .f32) (h10 : a10.IsWhole) (a11 : Memref sig .tc .vmem S1x1x256x64 .f32) (h11 : a11.IsWhole)
    (x0 : Vec F S1x1x256x64 .f32) (x1 x2 : Vec F S1x1x2047x64 .f32) (x3 : Vec F S1x1x256x64 .f32) (x4 x5 x6 : Vec F S1x1x2047x64 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6
        ∗ (∃ d, owns (c : Thread nD τ) a7 fullShare d) ∗ (∃ d, owns (c : Thread nD τ) a8 fullShare d) ∗ (∃ d, owns (c : Thread nD τ) a9 fullShare d)
        ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6
            ∗ owns (c : Thread nD τ) a7 fullShare (o7 x0 x1) ∗ owns (c : Thread nD τ) a8 fullShare (o8 x3 x4)
            ∗ owns (c : Thread nD τ) a9 fullShare (o9 x0 x1 x2) ∗ owns (c : Thread nD τ) a10 fullShare (o10 x3 x4 x5)
            ∗ owns (c : Thread nD τ) a11 fullShare (o11 x0 x1 x3 x4 x6)) -∗ K ⟨⟩))
      ⊢ wp frame (wpE (defs₀ (F := F)) Variants.none c none) E
          (cc1__td_kernel i a0 h0 a1 h1 a2 h2 a3 h3 a4 h4 a5 h5 a6 h6 a7 h7 a8 h8 a9 h9 a10 h10 a11 h11) K := by
  simp only [cc1__td_kernel_eq_skeleton]; unfold cc1__td_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, ⟨%d11, %f11, -, H11⟩, Hk⟩
  subst hf0; subst hf1; subst hf2; subst hf3; subst hf4; subst hf5; subst hf6
  have hz : (![0, 0, 0, 0] : Fin 4 → Nat) = fun _ => 0 := funext fun a => by fin_cases a <;> rfl
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    rw [Cert.WholeStore.read_writes_cons _ _ hz]
    sl_unfold_run_names
    unfold o7
    simp only [View.readAt_eq_ld, View.ld_unit_zero (S := S1x1x256x64) hz, View.ld_unit_zero (S := S1x1x2047x64) hz]
  isplitl [H8]
  · iexists _; isplitr
    swap; · iexact H8
    ipureintro
    rw [Cert.WholeStore.read_writes_cons _ _ hz]
    sl_unfold_run_names
    unfold o8
    simp only [View.readAt_eq_ld, View.ld_unit_zero (S := S1x1x256x64) hz, View.ld_unit_zero (S := S1x1x2047x64) hz]
  isplitl [H9]
  · iexists _; isplitr
    swap; · iexact H9
    ipureintro
    rw [Cert.WholeStore.read_writes_cons _ _ hz]
    sl_unfold_run_names
    unfold o9
    simp only [View.readAt_eq_ld, View.ld_unit_zero (S := S1x1x256x64) hz, View.ld_unit_zero (S := S1x1x2047x64) hz]
  isplitl [H10]
  · iexists _; isplitr
    swap; · iexact H10
    ipureintro
    rw [Cert.WholeStore.read_writes_cons _ _ hz]
    sl_unfold_run_names
    unfold o10
    simp only [View.readAt_eq_ld, View.ld_unit_zero (S := S1x1x256x64) hz, View.ld_unit_zero (S := S1x1x2047x64) hz]
  iexists _; isplitr
  swap; · iexact H11
  ipureintro
  rw [Cert.WholeStore.read_writes_cons _ _ hz]
  sl_unfold_run_names
  unfold o11
  simp only [View.readAt_eq_ld, View.ld_unit_zero (S := S1x1x256x64) hz, View.ld_unit_zero (S := S1x1x2047x64) hz]

end Cert.KernelIdeal.Hand

end
-- ==== Proof.Ideal.TdAfter.lean ====
/-
  Region 1: what each window's staging buffer holds after the body at a point, in two forms.

  Every window whose blocks overhang the array is stated only on the rows inside the array.  In the first form the
  five outputs are not named at all (the body's arithmetic from a buffer whose last row holds unnamed words need
  not be a function of the arrays).  In the second each output's buffer holds, on the rows inside the array, the block
  of a given whole array: this is what the body leaves whenever its arithmetic is row by row, so that the unnamed row
  of a query buffer reaches only the same row of the outputs.
-/
import proofs.«111166_j1640677507314_2_alg».proof.Proof.Ideal.TdData

noncomputable section

namespace Cert.KernelIdeal.Hand

open Cert.KernelIdeal Cert.KernelIdeal.Gen
open Idealize.ShloMosaic Idealize.ShloMosaic.TcCoe Idealize.SL.Sem

variable {F : FTy → Type} [FloatOps F]

variable (V : (c : Dev nD) → (b : Ref sig .tc) → Buf (Elt F) ((c : Thread nD τ).loc b))

/-- The windows not named in the first form: the five outputs. -/
abbrev fgtOut : Fin cfg1.W → Bool := fun | 0 => false | 1 => false | 2 => false | 3 => false | 4 => false | 5 => false | 6 => false | 7 => true | 8 => true | 9 => true | 10 => true | 11 => true | ⟨_ + 12, h⟩ => absurd h (Nat.not_lt.2 (Nat.le_add_left _ _))

/-- The first form: the inputs keep their blocks (the two query windows stated on the rows inside the array, filled
    out with the zero word); the outputs are not named (the zero word everywhere). -/
def aft1F (c : Dev nD) (w : Fin cfg1.W) (t : Fin cfg1.N) : (cfg1.win w).block.Idx → Elt F (cfg1.win w).elt :=
  match w with
  | ⟨0, _⟩ => (cfg1.win 0).fill (cfg1.grid.coords t) (zfill S1x1x256x64) (iblk1 V c 0 t)
  | ⟨1, _⟩ => iblk1 V c 1 t
  | ⟨2, _⟩ => iblk1 V c 2 t
  | ⟨3, _⟩ => (cfg1.win 3).fill (cfg1.grid.coords t) (zfill S1x1x256x64) (iblk1 V c 3 t)
  | ⟨4, _⟩ => iblk1 V c 4 t
  | ⟨5, _⟩ => iblk1 V c 5 t
  | ⟨6, _⟩ => iblk1 V c 6 t
  | ⟨7, _⟩ => zfill S1x1x256x2047
  | ⟨8, _⟩ => zfill S1x1x256x2047
  | ⟨9, _⟩ => zfill S1x1x256x64
  | ⟨10, _⟩ => zfill S1x1x256x64
  | ⟨11, _⟩ => zfill S1x1x256x64

/-- The second form, for given whole arrays P2, P3 (the two streams' probabilities) and T, D, X (the two outputs and
    the cross product): the inputs as in the first; each output's buffer holds its array's block on the rows inside
    the array. -/
def aft1X (P2 P3 : S2x8x2047x2047.Idx → Elt F .f32) (T D X : S2x8x2047x64.Idx → Elt F .f32)
    (c : Dev nD) (w : Fin cfg1.W) (t : Fin cfg1.N) : (cfg1.win w).block.Idx → Elt F (cfg1.win w).elt :=
  match w with
  | ⟨0, _⟩ => (cfg1.win 0).fill (cfg1.grid.coords t) (zfill S1x1x256x64) (iblk1 V c 0 t)
  | ⟨1, _⟩ => iblk1 V c 1 t
  | ⟨2, _⟩ => iblk1 V c 2 t
  | ⟨3, _⟩ => (cfg1.win 3).fill (cfg1.grid.coords t) (zfill S1x1x256x64) (iblk1 V c 3 t)
  | ⟨4, _⟩ => iblk1 V c 4 t
  | ⟨5, _⟩ => iblk1 V c 5 t
  | ⟨6, _⟩ => iblk1 V c 6 t
  | ⟨7, _⟩ => (cfg1.win 7).fill (cfg1.grid.coords t) (zfill S1x1x256x2047) (((cfg1.win 7).blk t).view.read (Elt F) P2)
  | ⟨8, _⟩ => (cfg1.win 8).fill (cfg1.grid.coords t) (zfill S1x1x256x2047) (((cfg1.win 8).blk t).view.read (Elt F) P3)
  | ⟨9, _⟩ => (cfg1.win 9).fill (cfg1.grid.coords t) (zfill S1x1x256x64) (((cfg1.win 9).blk t).view.read (Elt F) T)
  | ⟨10, _⟩ => (cfg1.win 10).fill (cfg1.grid.coords t) (zfill S1x1x256x64) (((cfg1.win 10).blk t).view.read (Elt F) D)
  | ⟨11, _⟩ => (cfg1.win 11).fill (cfg1.grid.coords t) (zfill S1x1x256x64) (((cfg1.win 11).blk t).view.read (Elt F) X)

/-- What the body must compute for the second form to hold, output by output: on the rows inside the array, from
    query buffers filled out with ANY words d0, d3 past the array's end, the block of the given array. -/
structure RowWise (P2 P3 : S2x8x2047x2047.Idx → Elt F .f32) (T D X : S2x8x2047x64.Idx → Elt F .f32) (c : Dev nD) : Prop where
  h7 : ∀ (t : Fin cfg1.N) (d0 : S1x1x256x64.Idx → Elt F .f32),
    (cfg1.win 7).cut (cfg1.grid.coords t) (o7 ((cfg1.win 0).fill (cfg1.grid.coords t) d0 (iblk1 V c 0 t)) (iblk1 V c 1 t))
      = ((cfg1.win 7).blk t).view.read (Elt F) P2
  h8 : ∀ (t : Fin cfg1.N) (d3 : S1x1x256x64.Idx → Elt F .f32),
    (cfg1.win 8).cut (cfg1.grid.coords t) (o8 ((cfg1.win 3).fill (cfg1.grid.coords t) d3 (iblk1 V c 3 t)) (iblk1 V c 4 t))
      = ((cfg1.win 8).blk t).view.read (Elt F) P3
  h9 : ∀ (t : Fin cfg1.N) (d0 : S1x1x256x64.Idx → Elt F .f32),
    (cfg1.win 9).cut (cfg1.grid.coords t) (o9 ((cfg1.win 0).fill (cfg1.grid.coords t) d0 (iblk1 V c 0 t)) (iblk1 V c 1 t) (iblk1 V c 2 t))
      = ((cfg1.win 9).blk t).view.read (Elt F) T
  h10 : ∀ (t : Fin cfg1.N) (d3 : S1x1x256x64.Idx → Elt F .f32),
    (cfg1.win 10).cut (cfg1.grid.coords t) (o10 ((cfg1.win 3).fill (cfg1.grid.coords t) d3 (iblk1 V c 3 t)) (iblk1 V c 4 t) (iblk1 V c 5 t))
      = ((cfg1.win 10).blk t).view.read (Elt F) D
  h11 : ∀ (t : Fin cfg1.N) (d0 d3 : S1x1x256x64.Idx → Elt F .f32),
    (cfg1.win 11).cut (cfg1.grid.coords t) (o11 ((cfg1.win 0).fill (cfg1.grid.coords t) d0 (iblk1 V c 0 t)) (iblk1 V c 1 t)
        ((cfg1.win 3).fill (cfg1.grid.coords t) d3 (iblk1 V c 3 t)) (iblk1 V c 4 t) (iblk1 V c 6 t))
      = ((cfg1.win 11).blk t).view.read (Elt F) X

end Cert.KernelIdeal.Hand

end
-- ==== Proof.Ideal.TdObl.lean ====
/-
  Region 1 (plain softmax attention of the time and distance streams, one query tile of 256 rows per grid point): the
  body's triple at every grid point, for both forms of what the body leaves.  Every input window is fetched at every
  point, so its staging buffer holds its block of the array there: whole for the key and value windows; for the two
  query windows, whose last tile overhangs the array by one row, on the rows inside the array, with words nothing
  names past them.  The body runs on the whole buffers; each window that overhangs is handed back stated on the rows
  inside the array only.
-/
import proofs.«111166_j1640677507314_2_alg».proof.Proof.Ideal.Td
import proofs.«111166_j1640677507314_2_alg».proof.Proof.Ideal.TdAfter
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Before
variable (aft : (c : Dev nD) → (w : Fin cfg1.W) → Fin cfg1.N → (cfg1.win w).block.Idx → Elt F (cfg1.win w).elt)

/-- A query window's current staging buffer, just fetched: its block on the rows inside the array, d past them. -/
theorem before1_0 (c : Dev nD) (t : Fin cfg1.N) (d) :
    (dat1 V aft c).before 0 t d = (cfg1.win 0).fill (cfg1.grid.coords t) d (iblk1 V c 0 t) :=
  ((dat1 V aft c).before_fetched 0 t (fetch1_0 t) d).trans (by unfold Dat.fetched Dat.blockOf iblk1; dsimp only [dat1])
theorem before1_3 (c : Dev nD) (t : Fin cfg1.N) (d) :
    (dat1 V aft c).before 3 t d = (cfg1.win 3).fill (cfg1.grid.coords t) d (iblk1 V c 3 t) :=
  ((dat1 V aft c).before_fetched 3 t (fetch1_3 t) d).trans (by unfold Dat.fetched Dat.blockOf iblk1; dsimp only [dat1])

/-- A key or value window's current staging buffer, just fetched, holds its whole block. -/
theorem before1_1 (c : Dev nD) (t : Fin cfg1.N) (d) : (dat1 V aft c).before 1 t d = iblk1 V c 1 t :=
  ((dat1 V aft c).before_fetched 1 t (fetch1_1 t) d).trans (by unfold Dat.fetched Dat.blockOf iblk1; dsimp only [dat1]; try rfl)

/-- A key or value window's current staging buffer, just fetched, holds its whole block. -/
theorem before1_2 (c : Dev nD) (t : Fin cfg1.N) (d) : (dat1 V aft c).before 2 t d = iblk1 V c 2 t :=
  ((dat1 V aft c).before_fetched 2 t (fetch1_2 t) d).trans (by unfold Dat.fetched Dat.blockOf iblk1; dsimp only [dat1]; try rfl)

/-- A key or value window's current staging buffer, just fetched, holds its whole block. -/
theorem before1_4 (c : Dev nD) (t : Fin cfg1.N) (d) : (dat1 V aft c).before 4 t d = iblk1 V c 4 t :=
  ((dat1 V aft c).before_fetched 4 t (fetch1_4 t) d).trans (by unfold Dat.fetched Dat.blockOf iblk1; dsimp only [dat1]; try rfl)

/-- A key or value window's current staging buffer, just fetched, holds its whole block. -/
theorem before1_5 (c : Dev nD) (t : Fin cfg1.N) (d) : (dat1 V aft c).before 5 t d = iblk1 V c 5 t :=
  ((dat1 V aft c).before_fetched 5 t (fetch1_5 t) d).trans (by unfold Dat.fetched Dat.blockOf iblk1; dsimp only [dat1]; try rfl)

/-- A key or value window's current staging buffer, just fetched, holds its whole block. -/
theorem before1_6 (c : Dev nD) (t : Fin cfg1.N) (d) : (dat1 V aft c).before 6 t d = iblk1 V c 6 t :=
  ((dat1 V aft c).before_fetched 6 t (fetch1_6 t) d).trans (by unfold Dat.fetched Dat.blockOf iblk1; dsimp only [dat1]; try rfl)

end Before

/-! ## The first form -/

theorem aft1F_0 (c : Dev nD) (t : Fin cfg1.N) :
    (dat1 V (aft1F V) c).after 0 t = (cfg1.win 0).fill (cfg1.grid.coords t) (zfill S1x1x256x64) (iblk1 V c 0 t) := by dsimp only [dat1, aft1F]
theorem aft1F_3 (c : Dev nD) (t : Fin cfg1.N) :
    (dat1 V (aft1F V) c).after 3 t = (cfg1.win 3).fill (cfg1.grid.coords t) (zfill S1x1x256x64) (iblk1 V c 3 t) := by dsimp only [dat1, aft1F]
theorem aft1F_1 (c : Dev nD) (t : Fin cfg1.N) : (dat1 V (aft1F V) c).after 1 t = iblk1 V c 1 t := by dsimp only [dat1, aft1F]
theorem aft1F_2 (c : Dev nD) (t : Fin cfg1.N) : (dat1 V (aft1F V) c).after 2 t = iblk1 V c 2 t := by dsimp only [dat1, aft1F]
theorem aft1F_4 (c : Dev nD) (t : Fin cfg1.N) : (dat1 V (aft1F V) c).after 4 t = iblk1 V c 4 t := by dsimp only [dat1, aft1F]
theorem aft1F_5 (c : Dev nD) (t : Fin cfg1.N) : (dat1 V (aft1F V) c).after 5 t = iblk1 V c 5 t := by dsimp only [dat1, aft1F]
theorem aft1F_6 (c : Dev nD) (t : Fin cfg1.N) : (dat1 V (aft1F V) c).after 6 t = iblk1 V c 6 t := by dsimp only [dat1, aft1F]

set_option maxHeartbeats 2000000 in
/-- The body obligation with the five outputs not named: the query buffers arrive holding their blocks filled out with
    any words past the array's end and leave as they came, which on the rows inside the array is their block; the key
    and value buffers hold their whole blocks throughout; the outputs arrive and leave at contents nothing names. -/
theorem body1F (c : Dev nD) :
    Pipeline.BodyObligationLoose (dat1 V (aft1F V) c) (defs₀ (F := F)) Variants.none () Set.univ fgtOut := fun t => by
  rw [bigSep_W1, bigSep_W1]
  simp only
  rw [show (dat1 V (aft1F V) c).Φ t.succ = (dat1 V (aft1F V) c).Φ t.castSucc from rfl,
    show (dat1 V (aft1F V) c).owesAt () t.succ = (dat1 V (aft1F V) c).owesAt () t.castSucc from rfl,
    aft1F_1, aft1F_2, aft1F_4, aft1F_5, aft1F_6]
  have hx0 : (win1 0).cut (grid1.coords t) ((dat1 V (aft1F V) c).after 0 t) = iblk1 V c 0 t := by
    rw [aft1F_0]; exact (cfg1.win 0).cut_fill _ _ _
  have hx3 : (win1 3).cut (grid1.coords t) ((dat1 V (aft1F V) c).after 3 t) = iblk1 V c 3 t := by
    rw [aft1F_3]; exact (cfg1.win 3).cut_fill _ _ _
  iintro ⟨HΦ, Ho, ⟨%d0, H0⟩, ⟨%d1, H1⟩, ⟨%d2, H2⟩, ⟨%d3, H3⟩, ⟨%d4, H4⟩, ⟨%d5, H5⟩, ⟨%d6, H6⟩,
    ⟨%X7, H7⟩, ⟨%X8, H8⟩, ⟨%X9, H9⟩, ⟨%X10, H10⟩, ⟨%X11, H11⟩⟩
  rw [before1_0 V (aft1F V) c t d0, before1_1 V (aft1F V) c t d1, before1_2 V (aft1F V) c t d2, before1_3 V (aft1F V) c t d3,
    before1_4 V (aft1F V) c t d4, before1_5 V (aft1F V) c t d5, before1_6 V (aft1F V) c t d6]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    ((cfg1.win 0).fill (cfg1.grid.coords t) d0 (iblk1 V c 0 t)) (iblk1 V c 1 t) (iblk1 V c 2 t)
    ((cfg1.win 3).fill (cfg1.grid.coords t) d3 (iblk1 V c 3 t)) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0; rw [hx0]; try iexact H0
  isplitl [H1]; · iexact H1
  isplitl [H2]; · iexact H2
  isplitl [H3]
  · iexists d3; rw [hx3]; try iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

/-! ## The second form -/

section Second
variable (P2 P3 : S2x8x2047x2047.Idx → Elt F .f32) (T D X : S2x8x2047x64.Idx → Elt F .f32)

theorem aft1X_0 (c : Dev nD) (t : Fin cfg1.N) :
    (dat1 V (aft1X V P2 P3 T D X) c).after 0 t = (cfg1.win 0).fill (cfg1.grid.coords t) (zfill S1x1x256x64) (iblk1 V c 0 t) := by dsimp only [dat1, aft1X]
theorem aft1X_3 (c : Dev nD) (t : Fin cfg1.N) :
    (dat1 V (aft1X V P2 P3 T D X) c).after 3 t = (cfg1.win 3).fill (cfg1.grid.coords t) (zfill S1x1x256x64) (iblk1 V c 3 t) := by dsimp only [dat1, aft1X]
theorem aft1X_1 (c : Dev nD) (t : Fin cfg1.N) : (dat1 V (aft1X V P2 P3 T D X) c).after 1 t = iblk1 V c 1 t := by dsimp only [dat1, aft1X]
theorem aft1X_2 (c : Dev nD) (t : Fin cfg1.N) : (dat1 V (aft1X V P2 P3 T D X) c).after 2 t = iblk1 V c 2 t := by dsimp only [dat1, aft1X]
theorem aft1X_4 (c : Dev nD) (t : Fin cfg1.N) : (dat1 V (aft1X V P2 P3 T D X) c).after 4 t = iblk1 V c 4 t := by dsimp only [dat1, aft1X]
theorem aft1X_5 (c : Dev nD) (t : Fin cfg1.N) : (dat1 V (aft1X V P2 P3 T D X) c).after 5 t = iblk1 V c 5 t := by dsimp only [dat1, aft1X]
theorem aft1X_6 (c : Dev nD) (t : Fin cfg1.N) : (dat1 V (aft1X V P2 P3 T D X) c).after 6 t = iblk1 V c 6 t := by dsimp only [dat1, aft1X]
theorem aft1X_7 (c : Dev nD) (t : Fin cfg1.N) :
    (dat1 V (aft1X V P2 P3 T D X) c).after 7 t = (cfg1.win 7).fill (cfg1.grid.coords t) (zfill S1x1x256x2047) (((cfg1.win 7).blk t).view.read (Elt F) P2) := by dsimp only [dat1, aft1X]
theorem aft1X_8 (c : Dev nD) (t : Fin cfg1.N) :
    (dat1 V (aft1X V P2 P3 T D X) c).after 8 t = (cfg1.win 8).fill (cfg1.grid.coords t) (zfill S1x1x256x2047) (((cfg1.win 8).blk t).view.read (Elt F) P3) := by dsimp only [dat1, aft1X]
theorem aft1X_9 (c : Dev nD) (t : Fin cfg1.N) :
    (dat1 V (aft1X V P2 P3 T D X) c).after 9 t = (cfg1.win 9).fill (cfg1.grid.coords t) (zfill S1x1x256x64) (((cfg1.win 9).blk t).view.read (Elt F) T) := by dsimp only [dat1, aft1X]
theorem aft1X_10 (c : Dev nD) (t : Fin cfg1.N) :
    (dat1 V (aft1X V P2 P3 T D X) c).after 10 t = (cfg1.win 10).fill (cfg1.grid.coords t) (zfill S1x1x256x64) (((cfg1.win 10).blk t).view.read (Elt F) D) := by dsimp only [dat1, aft1X]
theorem aft1X_11 (c : Dev nD) (t : Fin cfg1.N) :
    (dat1 V (aft1X V P2 P3 T D X) c).after 11 t = (cfg1.win 11).fill (cfg1.grid.coords t) (zfill S1x1x256x64) (((cfg1.win 11).blk t).view.read (Elt F) X) := by dsimp only [dat1, aft1X]

set_option maxHeartbeats 2000000 in
/-- The body obligation with each output named on the rows inside the array, for a body whose arithmetic is row by row:
    the inputs as in the first form; an output's buffer ends at the arithmetic's value of the whole buffers, whose rows
    inside the array are the given array's block whatever words filled out the query buffers, and that is all the
    obligation states of it. -/
theorem body1X (c : Dev nD) (hrow : RowWise V P2 P3 T D X c) :
    Pipeline.BodyObligationLoose (dat1 V (aft1X V P2 P3 T D X) c) (defs₀ (F := F)) Variants.none () Set.univ := fun t => by
  rw [bigSep_W1, bigSep_W1]
  simp only
  rw [show (dat1 V (aft1X V P2 P3 T D X) c).Φ t.succ = (dat1 V (aft1X V P2 P3 T D X) c).Φ t.castSucc from rfl,
    show (dat1 V (aft1X V P2 P3 T D X) c).owesAt () t.succ = (dat1 V (aft1X V P2 P3 T D X) c).owesAt () t.castSucc from rfl,
    aft1X_1, aft1X_2, aft1X_4, aft1X_5, aft1X_6]
  have hx0 : (win1 0).cut (grid1.coords t) ((dat1 V (aft1X V P2 P3 T D X) c).after 0 t) = iblk1 V c 0 t := by
    rw [aft1X_0]; exact (cfg1.win 0).cut_fill _ _ _
  have hx3 : (win1 3).cut (grid1.coords t) ((dat1 V (aft1X V P2 P3 T D X) c).after 3 t) = iblk1 V c 3 t := by
    rw [aft1X_3]; exact (cfg1.win 3).cut_fill _ _ _
  iintro ⟨HΦ, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩, ⟨%d9, H9⟩, ⟨%d10, H10⟩, ⟨%d11, H11⟩⟩
  have e7 : (win1 7).fill (grid1.coords t) (o7 ((cfg1.win 0).fill (cfg1.grid.coords t) d0 (iblk1 V c 0 t)) (iblk1 V c 1 t))
      ((win1 7).cut (grid1.coords t) ((dat1 V (aft1X V P2 P3 T D X) c).after 7 t)) = (o7 ((cfg1.win 0).fill (cfg1.grid.coords t) d0 (iblk1 V c 0 t)) (iblk1 V c 1 t)) :=
    (cfg1.win 7).fill_congr_cut (cfg1.grid.coords t) (by
      rw [aft1X_7]; exact (hrow.h7 t d0).trans ((cfg1.win 7).cut_fill _ _ _).symm)
  have e8 : (win1 8).fill (grid1.coords t) (o8 ((cfg1.win 3).fill (cfg1.grid.coords t) d3 (iblk1 V c 3 t)) (iblk1 V c 4 t))
      ((win1 8).cut (grid1.coords t) ((dat1 V (aft1X V P2 P3 T D X) c).after 8 t)) = (o8 ((cfg1.win 3).fill (cfg1.grid.coords t) d3 (iblk1 V c 3 t)) (iblk1 V c 4 t)) :=
    (cfg1.win 8).fill_congr_cut (cfg1.grid.coords t) (by
      rw [aft1X_8]; exact (hrow.h8 t d3).trans ((cfg1.win 8).cut_fill _ _ _).symm)
  have e9 : (win1 9).fill (grid1.coords t) (o9 ((cfg1.win 0).fill (cfg1.grid.coords t) d0 (iblk1 V c 0 t)) (iblk1 V c 1 t) (iblk1 V c 2 t))
      ((win1 9).cut (grid1.coords t) ((dat1 V (aft1X V P2 P3 T D X) c).after 9 t)) = (o9 ((cfg1.win 0).fill (cfg1.grid.coords t) d0 (iblk1 V c 0 t)) (iblk1 V c 1 t) (iblk1 V c 2 t)) :=
    (cfg1.win 9).fill_congr_cut (cfg1.grid.coords t) (by
      rw [aft1X_9]; exact (hrow.h9 t d0).trans ((cfg1.win 9).cut_fill _ _ _).symm)
  have e10 : (win1 10).fill (grid1.coords t) (o10 ((cfg1.win 3).fill (cfg1.grid.coords t) d3 (iblk1 V c 3 t)) (iblk1 V c 4 t) (iblk1 V c 5 t))
      ((win1 10).cut (grid1.coords t) ((dat1 V (aft1X V P2 P3 T D X) c).after 10 t)) = (o10 ((cfg1.win 3).fill (cfg1.grid.coords t) d3 (iblk1 V c 3 t)) (iblk1 V c 4 t) (iblk1 V c 5 t)) :=
    (cfg1.win 10).fill_congr_cut (cfg1.grid.coords t) (by
      rw [aft1X_10]; exact (hrow.h10 t d3).trans ((cfg1.win 10).cut_fill _ _ _).symm)
  have e11 : (win1 11).fill (grid1.coords t) (o11 ((cfg1.win 0).fill (cfg1.grid.coords t) d0 (iblk1 V c 0 t)) (iblk1 V c 1 t) ((cfg1.win 3).fill (cfg1.grid.coords t) d3 (iblk1 V c 3 t)) (iblk1 V c 4 t) (iblk1 V c 6 t))
      ((win1 11).cut (grid1.coords t) ((dat1 V (aft1X V P2 P3 T D X) c).after 11 t)) = (o11 ((cfg1.win 0).fill (cfg1.grid.coords t) d0 (iblk1 V c 0 t)) (iblk1 V c 1 t) ((cfg1.win 3).fill (cfg1.grid.coords t) d3 (iblk1 V c 3 t)) (iblk1 V c 4 t) (iblk1 V c 6 t)) :=
    (cfg1.win 11).fill_congr_cut (cfg1.grid.coords t) (by
      rw [aft1X_11]; exact (hrow.h11 t d0 d3).trans ((cfg1.win 11).cut_fill _ _ _).symm)
  rw [before1_0 V _ c t d0, before1_1 V _ c t d1, before1_2 V _ c t d2, before1_3 V _ c t d3,
    before1_4 V _ c t d4, before1_5 V _ c t d5, before1_6 V _ c t d6]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    ((cfg1.win 0).fill (cfg1.grid.coords t) d0 (iblk1 V c 0 t)) (iblk1 V c 1 t) (iblk1 V c 2 t)
    ((cfg1.win 3).fill (cfg1.grid.coords t) d3 (iblk1 V c 3 t)) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0; rw [hx0]; try iexact H0
  isplitl [H1]; · iexact H1
  isplitl [H2]; · iexact H2
  isplitl [H3]
  · iexists d3; rw [hx3]; try iexact H3
  isplitl [H4]; · iexact H4
  isplitl [H5]; · iexact H5
  isplitl [H6]; · iexact H6
  isplitl [H7]
  · iexists (o7 ((cfg1.win 0).fill (cfg1.grid.coords t) d0 (iblk1 V c 0 t)) (iblk1 V c 1 t)); rw [e7]; try iexact H7
  isplitl [H8]
  · iexists (o8 ((cfg1.win 3).fill (cfg1.grid.coords t) d3 (iblk1 V c 3 t)) (iblk1 V c 4 t)); rw [e8]; try iexact H8
  isplitl [H9]
  · iexists (o9 ((cfg1.win 0).fill (cfg1.grid.coords t) d0 (iblk1 V c 0 t)) (iblk1 V c 1 t) (iblk1 V c 2 t)); rw [e9]; try iexact H9
  isplitl [H10]
  · iexists (o10 ((cfg1.win 3).fill (cfg1.grid.coords t) d3 (iblk1 V c 3 t)) (iblk1 V c 4 t) (iblk1 V c 5 t)); rw [e10]; try iexact H10
  iexists (o11 ((cfg1.win 0).fill (cfg1.grid.coords t) d0 (iblk1 V c 0 t)) (iblk1 V c 1 t) ((cfg1.win 3).fill (cfg1.grid.coords t) d3 (iblk1 V c 3 t)) (iblk1 V c 4 t) (iblk1 V c 6 t)); rw [e11]; try iexact H11

end Second

end Cert.KernelIdeal.Hand

end
-- ==== Proof.Word.Run.lean ====
/-
  A program of two kernel regions with host operations between and after them, run from the launch to the return.

  The first region's outputs are named exactly.  The second region is the LAST one and some of its windows overhang
  their arrays: where a fetched block is cut at the array's end the rest of the staging buffer holds words nothing
  names, so what the body computes from a whole staging buffer is not a function of the arrays alone unless the body's
  arithmetic is row-local.  The run is therefore stated for proof data read RELATIONALLY with a mask of forgotten
  windows of the second region: after it the arrays hold SOME contents the write-backs allow, and the host operations
  after it run under that existential.  With an empty mask the contents are the exact ones.

  The proof data's "what the body leaves" functions are parameters here; the body obligations are hypotheses.
-/
import proofs.«111166_j1640677507314_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The proof data of each region, at the contents the region is entered from -/

section Data

variable (V : (c : Dev nD) → (b : Ref sig .tc) → Buf (Elt F) ((c : Thread nD τ).loc b))

/-- Region 0's proof data: the arrays as the region finds them; after the body what the parameter says; the class's
    invariant (the scoped rest and the generator register, untouched); nothing owed; full shares. -/
def dat0 (aft : (c : Dev nD) → (w : Fin cfg0.W) → Fin cfg0.N → (cfg0.win w).block.Idx → Elt F (cfg0.win w).elt) (c : Dev nD) :
    Dat τ (Elt F) Unit ℕ (UR sig nD τ) ℕ cfg0 c where
  A w := V c (Pipeline.arrRef spec0 w)
  after := aft c
  Φ _ := Pipeline.ΦA spec0 c
  q _ := fullShare
  owed _ := 0

/-- Region 1's proof data, likewise. -/
def dat1 (aft : (c : Dev nD) → (w : Fin cfg1.W) → Fin cfg1.N → (cfg1.win w).block.Idx → Elt F (cfg1.win w).elt) (c : Dev nD) :
    Dat τ (Elt F) Unit ℕ (UR sig nD τ) ℕ cfg1 c where
  A w := V c (Pipeline.arrRef spec1 w)
  after := aft c
  Φ _ := Pipeline.ΦA spec1 c
  q _ := fullShare
  owed _ := 0

end Data

variable (m : (ℓ : Loc nD τ sig) → Buf (Elt F) ℓ) (ρ : Dev nD → PrngReg)
variable (aft0 : (c : Dev nD) → (w : Fin cfg0.W) → Fin cfg0.N → (cfg0.win w).block.Idx → Elt F (cfg0.win w).elt)
variable (aft1 : (c : Dev nD) → (w : Fin cfg1.W) → Fin cfg1.N → (cfg1.win w).block.Idx → Elt F (cfg1.win w).elt)
variable (fgt1 : Fin cfg1.W → Bool)

/-! ## The buffer contents at each boundary -/

/-- Core c's buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c b
/-- At region 0's exit: its arrays at what the write-backs leave, every other buffer as entered. -/
def W1 (c : Dev nD) : Valuation τ sig (Elt F) :=
  Pipeline.withArrays spec0 c (W0 m c) fun w => (dat0 (V0 m) aft0 c).arrAt w cfg0.N
theorem W1_arr (c : Dev nD) (w : Fin cfg0.W) :
    W1 m aft0 c (Proc.devRef .tc (Pipeline.arrRef spec0 w)) = (dat0 (V0 m) aft0 c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m aft0 c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m aft0 c b
/-- After the host operations between the regions (region 1's entry). -/
abbrev W2 : Dev nD → Valuation τ sig (Elt F) := fun c => StableHlo.after hostOps1 (W1 m aft0 c)
abbrev V2 : (c : Dev nD) → (b : Ref sig .tc) → Buf (Elt F) ((c : Thread nD τ).loc b) := fun c b => W2 m aft0 c b
/-- At region 1's exit, its arrays at contents G. -/
def W3 (c : Dev nD) (G : (w : Fin cfg1.W) → Buf (Elt F) ((spec1 w).arr.view.loc (c : Thread nD τ))) : Valuation τ sig (Elt F) :=
  Pipeline.withArrays spec1 c (W2 m aft0 c) G
theorem W3_arr (c : Dev nD) (G : (w : Fin cfg1.W) → Buf (Elt F) ((spec1 w).arr.view.loc (c : Thread nD τ))) (w : Fin cfg1.W) :
    W3 m aft0 c G (Proc.devRef .tc (Pipeline.arrRef spec1 w)) = G w := by
  unfold W3; exact Pipeline.withArrays_arr spec1 launch1.win.arr_inj c _ _ w
theorem W3_of_ne (c : Dev nD) (G : (w : Fin cfg1.W) → Buf (Elt F) ((spec1 w).arr.view.loc (c : Thread nD τ))) (b : Ref sig .tc)
    (hb : ∀ w, Pipeline.arrRef spec1 w ≠ b) :
    W3 m aft0 c G (Proc.devRef .tc b) = W2 m aft0 c (Proc.devRef .tc b) := by
  unfold W3; exact Pipeline.withArrays_of_ne spec1 c _ _ b hb
/-- After the host operations that follow region 1. -/
abbrev W4 (c : Dev nD) (G : (w : Fin cfg1.W) → Buf (Elt F) ((spec1 w).arr.view.loc (c : Thread nD τ))) : Valuation τ sig (Elt F) :=
  StableHlo.after hostOps2 (W3 m aft0 c G)

/-! ## The proof data family -/

abbrev adm' : (p : Fin 2) → (pcfgs (F := F) p).Adm := fun p => (cfgs p).toPCfg_adm

/-- Region 0's data read relationally as it is; region 1's with the windows the mask marks forgotten. -/
def rdats : (p : Fin 2) → (c : Dev nD) → RDat τ (Elt F) Unit ℕ (UR sig nD τ) ℕ (Pipeline.pin (pcfgs (F := F)) adm' p) c
  | ⟨0, _⟩ => fun c => (dat0 (V0 m) aft0 c).toR
  | ⟨1, _⟩ => fun c => (dat1 (V2 m aft0) aft1 c).toRForget fgt1

abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

/-- What region 1 may leave in its arrays. -/
def Left1 (c : Dev nD) (G : (w : Fin cfg1.W) → Buf (Elt F) ((spec1 w).arr.view.loc (c : Thread nD τ))) : Prop :=
  ∀ w, ((dat1 (V2 m aft0) aft1 c).toRForget fgt1).ArrAt w cfg1.N (G w)

/-! ## The host operations as segments -/

theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations between the regions, from region 0's exit contents. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh') op h) (W1 m aft0) R

set_option backward.isDefEq.respectTransparency.types false in
/-- The host operations after region 1, from WHATEVER the region may have left in its arrays: the line of operations
    runs under the existential, from the buffers at those contents to the buffers after the operations. -/
def hseg2 : Pipeline.HostSeg (Name := ℕ) (U := UR sig nD τ) (pcfgs (F := F)) defs₀ 𝒱₀ L lv where
  prog := StableHlo.seq hostOps2
  pre c := iprop(∃ G, ⌜Left1 m aft0 aft1 fgt1 c G⌝ ∗ StableHlo.held (c : Thread nD τ) (Pipeline.ucRefs τ sig) (W3 m aft0 c G) ∗ R c)
  post c := iprop(∃ G, ⌜Left1 m aft0 aft1 fgt1 c G⌝ ∗ StableHlo.held (c : Thread nD τ) (Pipeline.ucRefs τ sig) (W4 m aft0 c G) ∗ R c)
  run c {β} k K := by
    iintro ⟨Hk, Hbd, ⟨%G, %hG, Hh, HR⟩, -⟩
    have hseq := StableHlo.wp_seq (defs := Pipeline.defs (pcfgs (F := F)) defs₀) (Variants.lift 𝒱₀) none Set.univ c (Pipeline.ucRefs τ sig) k (K := K)
      (hostOps2 : List (HloOp τ sig (Elt F)))
      (fun op h => Pipeline.sub_ucRefs op ((List.forall_iff_forall_mem.mp hostOps2_sub) op h))
      (fun op h => (List.forall_iff_forall_mem.mp hostOps2_fresh') op h) (W3 m aft0 c G)
    iapply hseq $$ [Hbd Hh]
    · isplitl [Hbd] <;> iassumption
    iintro ⟨Hbd, Hh⟩
    iapply Hk
    isplitl [Hbd]; · iexact Hbd
    iexists G
    isplitr; · ipureintro; exact hG
    isplitl [Hh] <;> iassumption

/-! ## The regions as segments -/

/-- The exact data of both regions as one family: of it only the arrays' shares are read when a region's arrays are
    put back among the unscoped buffers. -/
def pdatsD : (p : Fin 2) → (c : Dev nD) → Dat τ (Elt F) Unit ℕ (UR sig nD τ) ℕ (Pipeline.pin (pcfgs (F := F)) adm' p) c
  | ⟨0, _⟩ => fun c => dat0 (V0 m) aft0 c
  | ⟨1, _⟩ => fun c => dat1 (V2 m aft0) aft1 c

theorem hF0 (c : Dev nD) (w : Fin cfg0.W) : (dat0 (V0 m) aft0 c).arrAt w cfg0.N = V1 m aft0 c (Pipeline.arrRef spec0 w) :=
  (W1_arr m aft0 c w).symm
theorem hrest0 (c : Dev nD) : ∀ b, b ∉ Finset.univ.image (Pipeline.arrRef spec0) → V1 m aft0 c b = V0 m c b :=
  fun b hb => W1_of_ne m aft0 c b fun w e => hb (Finset.mem_image.mpr ⟨w, Finset.mem_univ _, e⟩)

set_option backward.isDefEq.respectTransparency.types false in
/-- REGION 0: entered from every unscoped buffer at the launch contents, left with its arrays at what the write-backs
    leave (the exact data read relationally allows exactly that). -/
def reg0 (hb0 : ∀ c, BodyObligationLoose (dat0 (V0 m) aft0 c) (defs₀ (F := F)) Variants.none () Set.univ) :
    Pipeline.RDat.RegionSeg (pcfgs (F := F)) adm' (rdats m aft0 aft1 fgt1) () defs₀ 𝒱₀ L lv 0 where
  win := launch0.win.to₀
  block_pos := launch0.block_pos
  stage_whole := launch0.stage_whole
  K := PEmpty
  osem k := k.elim
  ho := Pipeline.OwnSemFacts.none _
  hbody c := (hb0 c).toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m aft0 c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm' (rdats m aft0 aft1 fgt1) launch0.win launch0.arr_whole c
      ((rdats m aft0 aft1 fgt1 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m aft0 aft1 fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m aft0 aft1 fgt1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdatsD m aft0 aft1) ((pdatsD m aft0 aft1 0 c).share_full fun _ => rfl)
      (V0 m c) (V1 m aft0 c) ((pdatsD m aft0 aft1 0 c).arrAt · cfg0.N) (hF0 m aft0 c) (hrest0 m aft0 c)
    rw [Pipeline.unscopedBufs_held] at hjoin
    rw [show (rdats m aft0 aft1 fgt1 0 c).arraysAt (Pipeline.pin (pcfgs (F := F)) adm' 0).N
      = (dat0 (V0 m) aft0 c).toR.arraysAt cfg0.N from rfl, Dat.toR_arraysAt_eq]
    iintro ⟨Ha, HO, HY, Hrest⟩
    imodintro
    isplitl [Ha Hrest]
    · iapply hjoin
      isplitl [Ha]
      · iapply (show ((dat0 (V0 m) aft0 c).arrays ((dat0 (V0 m) aft0 c).arrAt · cfg0.N) : sProp 𝕄)
            ⊢ (pdatsD m aft0 aft1 0 c).arrays ((pdatsD m aft0 aft1 0 c).arrAt · cfg0.N) from .rfl)
        iexact Ha
      iexact Hrest
    isplitl [HY]; · iexact HY
    unfold Pipeline.RDat.owesAt Pipeline.owesWithin
    icases HO with ⟨%W, -, HO⟩; iexists W; iexact HO

set_option backward.isDefEq.respectTransparency.types false in
/-- REGION 1, the last: entered from every unscoped buffer at the contents after the host operations between the
    regions, left with its arrays at SOME contents the write-backs allow (the windows the mask marks forgotten are not
    named), every other buffer as entered. -/
def reg1 (hb1 : ∀ c, BodyObligationLoose (dat1 (V2 m aft0) aft1 c) (defs₀ (F := F)) Variants.none () Set.univ fgt1) :
    Pipeline.RDat.RegionSeg (pcfgs (F := F)) adm' (rdats m aft0 aft1 fgt1) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (W2 m aft0 c) ∗ R c)
  post c := iprop(∃ G, ⌜Left1 m aft0 aft1 fgt1 c G⌝ ∗ StableHlo.held (c : Thread nD τ) (Pipeline.ucRefs τ sig) (W3 m aft0 c G) ∗ R c)
  X c := iprop(∃ r, prngReg c r)
  Y c := iprop(∃ r, prngReg c r)
  Z c := Pipeline.unscopedRest (Ix := Unit) (Name := ℕ) (U := UR sig nD τ) (Lvl := ℕ) spec1 c (V2 m aft0 c)
  hentry c := by
    rw [Pipeline.ownSems0_none]
    have hsplit := Pipeline.RDat.arrays_of_unscopedBufs (p := 1) (pcfgs (F := F)) adm' (rdats m aft0 aft1 fgt1) launch1.win launch1.arr_whole c
      ((rdats m aft0 aft1 fgt1 1 c).share_full fun _ => rfl) (V2 m aft0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m aft0 aft1 fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m aft0 aft1 fgt1 1 c).Φ (Fin.last _) = Pipeline.ΦA spec1 c from rfl]; unfold Pipeline.ΦA
    iintro ⟨Hr, Hp⟩
    isplitl [Hp]; · iexact Hp
    isplitr; · iempintro
    iexact Hr
  hexit c := by
    classical
    rw [show (rdats m aft0 aft1 fgt1 1 c).arraysAt (Pipeline.pin (pcfgs (F := F)) adm' 1).N
      = ((dat1 (V2 m aft0) aft1 c).toRForget fgt1).arraysAt cfg1.N from rfl]
    unfold RDat.arraysAt
    iintro ⟨Ha, HO, HY, Hrest⟩
    ihave Ha' := (BI.bigSep_exists_pi Finset.univ (fun (w : Fin cfg1.W) F => iprop(⌜((dat1 (V2 m aft0) aft1 c).toRForget fgt1).ArrAt w cfg1.N F⌝
        ∗ (cfg1.win w).arr.view.loc (c : Thread nD τ) ↦[(cfg1.win w).arr.view.set]{((dat1 (V2 m aft0) aft1 c).toRForget fgt1).share w} F))) $$ Ha
    icases Ha' with ⟨%Fs, Ha⟩
    ihave Ha2 := (BI.bigSep_pure_sep Finset.univ (fun (w : Fin cfg1.W) => ((dat1 (V2 m aft0) aft1 c).toRForget fgt1).ArrAt w cfg1.N (Fs w))
        (fun w => (cfg1.win w).arr.view.loc (c : Thread nD τ) ↦[(cfg1.win w).arr.view.set]{((dat1 (V2 m aft0) aft1 c).toRForget fgt1).share w} Fs w)) $$ Ha
    icases Ha2 with ⟨%hFs, Ha⟩
    have hjoin := Pipeline.unscopedBufs_of_arrays (p := 1) (pcfgs (F := F)) adm' (Ix := Unit) (Name := ℕ) (U := UR sig nD τ) (Lvl := ℕ)
      launch1.win launch1.arr_whole c (pdatsD m aft0 aft1) ((pdatsD m aft0 aft1 1 c).share_full fun _ => rfl)
      (V2 m aft0 c) (fun b => W3 m aft0 c Fs b) Fs (fun w => (W3_arr m aft0 c Fs w).symm)
      (fun b hb => W3_of_ne m aft0 c Fs b fun w e => hb (Finset.mem_image.mpr ⟨w, Finset.mem_univ _, e⟩))
    rw [Pipeline.unscopedBufs_held] at hjoin
    imodintro
    iexists Fs
    isplitr; · ipureintro; exact fun w => hFs w (Finset.mem_univ w)
    isplitl [Ha Hrest]
    · iapply hjoin
      isplitl [Ha]
      · iapply (show (bigSep Finset.univ fun (w : Fin cfg1.W) => ((cfg1.win w).arr.view.loc (c : Thread nD τ) ↦[(cfg1.win w).arr.view.set]{((dat1 (V2 m aft0) aft1 c).toRForget fgt1).share w} Fs w : sProp 𝕄))
            ⊢ (pdatsD m aft0 aft1 1 c).arrays Fs from .rfl)
        iexact Ha
      iexact Hrest
    isplitl [HY]; · iexact HY
    unfold Pipeline.RDat.owesAt Pipeline.owesWithin
    icases HO with ⟨%W, -, HO⟩; iexists W; iexact HO

/-! ## @main as segments, and the launch -/

/-- @main's four segments in order: region 0, the host operations between, region 1, the host operations after. -/
abbrev segs (hb0 : ∀ c, BodyObligationLoose (dat0 (V0 m) aft0 c) (defs₀ (F := F)) Variants.none () Set.univ)
    (hb1 : ∀ c, BodyObligationLoose (dat1 (V2 m aft0) aft1 c) (defs₀ (F := F)) Variants.none () Set.univ fgt1) :
    List (Pipeline.RDat.Seg (pcfgs (F := F)) adm' (rdats m aft0 aft1 fgt1) () defs₀ 𝒱₀ L lv) :=
  [ .region (reg0 m aft0 aft1 fgt1 hb0),
    .host (hseg1 m aft0),
    .region (reg1 m aft0 aft1 fgt1 hb1),
    .host (hseg2 m aft0 aft1 fgt1) ]

/-- What the run leaves on core c: region 1's arrays at some contents G its write-backs allow, and every unscoped
    buffer at the host operations' results from them. -/
def Final (c : Dev nD) (s : MemSt nD τ sig (Elt F)) : Prop :=
  ∃ G, Left1 m aft0 aft1 fgt1 c G ∧ ∀ b ∈ Pipeline.ucRefs τ sig, s.mem (((c : Thread nD τ)).1, b) = W4 m aft0 c G b

set_option backward.isDefEq.respectTransparency.types false in
/-- THE RUN. Given the two body obligations, every weakly fair execution of @main from memory m with zero counters
    terminates, nothing faulting, and in every final state each core's unscoped buffers hold the host operations'
    results from some contents region 1 may have left. -/
theorem run (hb0 : ∀ c, BodyObligationLoose (dat0 (V0 m) aft0 c) (defs₀ (F := F)) Variants.none () Set.univ)
    (hb1 : ∀ c, BodyObligationLoose (dat1 (V2 m aft0) aft1 c) (defs₀ (F := F)) Variants.none () Set.univ fgt1) :
    θ_run defs (onTc (τ := τ) (main (F := F))) ⟨m, fun _ => 0, ρ⟩ (fun r => ∀ c : Dev nD, Final m aft0 aft1 fgt1 c r.2) :=
  Pipeline.RDat.θ_run_regions_kit (pcfgs (F := F)) adm' (rdats m aft0 aft1 fgt1) () cellOf_inj emb₁ defs₀ 𝒱₀ L lv m ρ main
    (segs m aft0 aft1 fgt1 hb0 hb1)
    (fun c Q => by
      rewrite [main_chain c, Pipeline.RDat.Seg.run_eq_chain,
        show (segs m aft0 aft1 fgt1 hb0 hb1).map Pipeline.RDat.Seg.prog = [
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(∃ G, ⌜Left1 m aft0 aft1 fgt1 c G⌝ ∗ StableHlo.held (c : Thread nD τ) (Pipeline.ucRefs τ sig) (W4 m aft0 c G) ∗ ∃ r, prngReg c r))
    (hch := ⟨fun _ => .rfl, fun _ => .rfl, fun _ => .rfl, fun _ => .rfl, fun c => by
      show iprop(∃ G, ⌜Left1 m aft0 aft1 fgt1 c G⌝ ∗ StableHlo.held (c : Thread nD τ) (Pipeline.ucRefs τ sig) (W4 m aft0 c G) ∗ R c) ⊢ _
      iintro ⟨%G, %hG, Hh, Hp, HO⟩
      isplitr [HO]
      · iexists G
        isplitr; · ipureintro; exact hG
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => Final m aft0 aft1 fgt1 c s)
    (hfin := fun c s' => by
      iintro ⟨⟨%G, %hG, Hh, -⟩, HSI⟩
      unfold StableHlo.held
      ihave Hr := (pointsTo_read_all (Pipeline.ucRefs τ sig) (fun b => (((c : Thread nD τ)).1, b)) (W4 m aft0 c G) s') $$ [Hh HSI]
      · isplitl [Hh] <;> iassumption
      icases Hr with ⟨%h, HSI⟩
      imodintro
      isplitr
      · ipureintro; exact ⟨G, hG, h⟩
      iexact HSI)
    (hQ := fun s h c => h c)

end Cert.Kernel.Hand

end
-- ==== Proof.Word.Frame.lean ====
/-
  The argument arrays after the run: no host operation writes one and no region may change one (each is an input
  window's array of a region, never written back, or bypasses it), so whatever the last region leaves in its arrays,
  every argument's buffer holds its launch contents.
-/
import proofs.«111166_j1640677507314_2_alg».proof.Proof.Word.Run
import proofs.«111166_j1640677507314_2_alg».proof.Proof.Gen.Kernel.Regions

noncomputable section

namespace Cert.Kernel.Hand

open Cert.Kernel
open Idealize.ShloMosaic Idealize.ShloMosaic.TcCoe Idealize.SL.Sem
open Idealize.ShloMosaic.Pipeline (Dat RDat)

variable {F : FTy → Type} [FloatOps F]

variable (m : (ℓ : Loc nD τ sig) → Buf (Elt F) ℓ) (ρ : Dev nD → PrngReg)
variable (aft0 : (c : Dev nD) → (w : Fin cfg0.W) → Fin cfg0.N → (cfg0.win w).block.Idx → Elt F (cfg0.win w).elt)
variable (aft1 : (c : Dev nD) → (w : Fin cfg1.W) → Fin cfg1.N → (cfg1.win w).block.Idx → Elt F (cfg1.win w).elt)
variable (fgt1 : Fin cfg1.W → Bool)

/-- A buffer the host operations between the regions do not write holds after them what region 0 left. -/
theorem W2_of (c : Dev nD) (r : Ref sig .tc) (h : r ∉ Gen.hostOps1_W) : W2 m aft0 c r = W1 m aft0 c r :=
  StableHlo.after_of_writes_sub Gen.hostOps1 _ Gen.hostOps1_writes h

/-- A buffer the host operations after region 1 do not write holds after them what region 1 left. -/
theorem W4_of (c : Dev nD) (G : (w : Fin cfg1.W) → Buf (Elt F) ((spec1 w).arr.view.loc (c : Thread nD τ))) (r : Ref sig .tc)
    (h : r ∉ Gen.hostOps2_W) : W4 m aft0 c G r = W3 m aft0 c G r :=
  StableHlo.after_of_writes_sub Gen.hostOps2 _ Gen.hostOps2_writes h

/-- An input window's array of region 0 is at the region's exit as the launch left it. -/
theorem W1_in (c : Dev nD) (w : Fin cfg0.W) (hin : (cfg0.win w).isOut = false) :
    W1 m aft0 c (Proc.devRef .tc (Pipeline.arrRef spec0 w)) = m (c, Proc.devRef .tc (Pipeline.arrRef spec0 w)) :=
  (W1_arr m aft0 c w).trans ((dat0 (V0 m) aft0 c).arrAt_in w hin _)

/-- An input window's array of region 1 is, in anything the region may leave, as the region found it. -/
theorem W3_in (c : Dev nD) (G : (w : Fin cfg1.W) → Buf (Elt F) ((spec1 w).arr.view.loc (c : Thread nD τ)))
    (hG : Left1 m aft0 aft1 fgt1 c G) (w : Fin cfg1.W) (hin : (cfg1.win w).isOut = false) :
    W3 m aft0 c G (Proc.devRef .tc (Pipeline.arrRef spec1 w)) = W2 m aft0 c (Proc.devRef .tc (Pipeline.arrRef spec1 w)) := by
  rw [W3_arr]
  have h := hG w
  rw [RDat.ArrAt_in _ w hin] at h
  exact h

section Args

variable (c : Dev nD) (G : (w : Fin cfg1.W) → Buf (Elt F) ((spec1 w).arr.view.loc (c : Thread nD τ)))
variable (hG : Left1 m aft0 aft1 fgt1 c G)

include hG

theorem W4_arg0 : W4 m aft0 c G main_arg0 = m ((c.tc : Thread nD τ).loc main_arg0) :=
  (W4_of m aft0 c G main_arg0 (by decide)).trans <| (W3_of_ne m aft0 c G main_arg0 (by decide)).trans <|
    (W2_of m aft0 c main_arg0 (by decide)).trans <| W1_in m aft0 c 0 rfl
theorem W4_arg1 : W4 m aft0 c G main_arg1 = m ((c.tc : Thread nD τ).loc main_arg1) :=
  (W4_of m aft0 c G main_arg1 (by decide)).trans <| (W3_of_ne m aft0 c G main_arg1 (by decide)).trans <|
    (W2_of m aft0 c main_arg1 (by decide)).trans <| W1_in m aft0 c 1 rfl
theorem W4_arg2 : W4 m aft0 c G main_arg2 = m ((c.tc : Thread nD τ).loc main_arg2) :=
  (W4_of m aft0 c G main_arg2 (by decide)).trans <| (W3_of_ne m aft0 c G main_arg2 (by decide)).trans <|
    (W2_of m aft0 c main_arg2 (by decide)).trans <| W1_in m aft0 c 2 rfl
theorem W4_arg9 : W4 m aft0 c G main_arg9 = m ((c.tc : Thread nD τ).loc main_arg9) :=
  (W4_of m aft0 c G main_arg9 (by decide)).trans <| (W3_of_ne m aft0 c G main_arg9 (by decide)).trans <|
    (W2_of m aft0 c main_arg9 (by decide)).trans <| W1_in m aft0 c 3 rfl
theorem W4_arg3 : W4 m aft0 c G main_arg3 = m ((c.tc : Thread nD τ).loc main_arg3) :=
  (W4_of m aft0 c G main_arg3 (by decide)).trans <| (W3_in m aft0 aft1 fgt1 c G hG 0 rfl).trans <|
    (W2_of m aft0 c main_arg3 (by decide)).trans <| W1_of_ne m aft0 c main_arg3 (by decide)
theorem W4_arg4 : W4 m aft0 c G main_arg4 = m ((c.tc : Thread nD τ).loc main_arg4) :=
  (W4_of m aft0 c G main_arg4 (by decide)).trans <| (W3_in m aft0 aft1 fgt1 c G hG 1 rfl).trans <|
    (W2_of m aft0 c main_arg4 (by decide)).trans <| W1_of_ne m aft0 c main_arg4 (by decide)
theorem W4_arg5 : W4 m aft0 c G main_arg5 = m ((c.tc : Thread nD τ).loc main_arg5) :=
  (W4_of m aft0 c G main_arg5 (by decide)).trans <| (W3_in m aft0 aft1 fgt1 c G hG 2 rfl).trans <|
    (W2_of m aft0 c main_arg5 (by decide)).trans <| W1_of_ne m aft0 c main_arg5 (by decide)
theorem W4_arg6 : W4 m aft0 c G main_arg6 = m ((c.tc : Thread nD τ).loc main_arg6) :=
  (W4_of m aft0 c G main_arg6 (by decide)).trans <| (W3_in m aft0 aft1 fgt1 c G hG 3 rfl).trans <|
    (W2_of m aft0 c main_arg6 (by decide)).trans <| W1_of_ne m aft0 c main_arg6 (by decide)
theorem W4_arg7 : W4 m aft0 c G main_arg7 = m ((c.tc : Thread nD τ).loc main_arg7) :=
  (W4_of m aft0 c G main_arg7 (by decide)).trans <| (W3_in m aft0 aft1 fgt1 c G hG 4 rfl).trans <|
    (W2_of m aft0 c main_arg7 (by decide)).trans <| W1_of_ne m aft0 c main_arg7 (by decide)
theorem W4_arg8 : W4 m aft0 c G main_arg8 = m ((c.tc : Thread nD τ).loc main_arg8) :=
  (W4_of m aft0 c G main_arg8 (by decide)).trans <| (W3_in m aft0 aft1 fgt1 c G hG 5 rfl).trans <|
    (W2_of m aft0 c main_arg8 (by decide)).trans <| W1_of_ne m aft0 c main_arg8 (by decide)

end Args

/-- THE FRAME, at any float instance: given the two body obligations (the second with any mask of forgotten windows),
    every weakly fair execution of @main from memory m with zero counters terminates, nothing faulting, and every final
    state has each argument array as launched. -/
theorem frame_of (hb0 : ∀ c, Pipeline.BodyObligationLoose (dat0 (V0 m) aft0 c) (defs₀ (F := F)) Variants.none () Set.univ)
    (hb1 : ∀ c, Pipeline.BodyObligationLoose (dat1 (V2 m aft0) aft1 c) (defs₀ (F := F)) Variants.none () Set.univ fgt1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨G, hG, hm⟩ := h c
    exact ⟨(hm _ (mem_uc main_arg0 (by decide))).trans (W4_arg0 m aft0 aft1 fgt1 c G hG),
      (hm _ (mem_uc main_arg1 (by decide))).trans (W4_arg1 m aft0 aft1 fgt1 c G hG),
      (hm _ (mem_uc main_arg2 (by decide))).trans (W4_arg2 m aft0 aft1 fgt1 c G hG),
      (hm _ (mem_uc main_arg3 (by decide))).trans (W4_arg3 m aft0 aft1 fgt1 c G hG),
      (hm _ (mem_uc main_arg4 (by decide))).trans (W4_arg4 m aft0 aft1 fgt1 c G hG),
      (hm _ (mem_uc main_arg5 (by decide))).trans (W4_arg5 m aft0 aft1 fgt1 c G hG),
      (hm _ (mem_uc main_arg6 (by decide))).trans (W4_arg6 m aft0 aft1 fgt1 c G hG),
      (hm _ (mem_uc main_arg7 (by decide))).trans (W4_arg7 m aft0 aft1 fgt1 c G hG),
      (hm _ (mem_uc main_arg8 (by decide))).trans (W4_arg8 m aft0 aft1 fgt1 c G hG),
      (hm _ (mem_uc main_arg9 (by decide))).trans (W4_arg9 m aft0 aft1 fgt1 c G hG)⟩)
    (run m ρ aft0 aft1 fgt1 hb0 hb1)

end Cert.Kernel.Hand

end
-- ==== Proof.Word.PoiData.lean ====
/-
  Region 0 (masked softmax attention of the poi stream, one query tile of 512 rows per grid point against all 2048
  keys of a batch and head): what each window's staging buffer holds after the body, as a function of the arrays the
  region is entered with.  Inputs keep their blocks; the probabilities' buffer holds the body's probabilities of the
  loaded blocks, the output's buffer their product with the value block.
-/
import proofs.«111166_j1640677507314_2_alg».proof.Proof.Word.Run
import proofs.«111166_j1640677507314_2_alg».proof.Proof.Gen.Kernel.Skeleton
import proofs.«111166_j1640677507314_2_alg».proof.Proof.Gen.Kernel.Points

noncomputable section

namespace Cert.Kernel.Hand

open Cert.Kernel Cert.Kernel.Gen
open Idealize.ShloMosaic Idealize.ShloMosaic.TcCoe Idealize.SL.Sem

variable {F : FTy → Type} [FloatOps F]

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The probabilities' staging buffer after the body, from the query, key and mask blocks. -/
def out0_4 (x0 : Vec F S1x1x512x64 .f32) (x1 : Vec F S1x1x2048x64 .f32) (x3 : Vec F S1x1x512x2048 .i32) : Vec F S1x1x512x2048 .f32 :=
  k0_pay1 (k0_pay4 x0 x1 x3)

/-- The output's staging buffer after the body, from the query, key, value and mask blocks. -/
def out0_5 (x0 : Vec F S1x1x512x64 .f32) (x1 x2 : Vec F S1x1x2048x64 .f32) (x3 : Vec F S1x1x512x2048 .i32) : Vec F S1x1x512x64 .f32 :=
  k0_pay2 (k0_pay3 x2) (k0_pay4 x0 x1 x3)

/-- What each window's staging buffer holds after the body at point t. -/
def aft0 (c : Dev nD) (w : Fin cfg0.W) (t : Fin cfg0.N) : (cfg0.win w).block.Idx → Elt F (cfg0.win w).elt :=
  match w with
  | ⟨0, _⟩ => iblk0 V c 0 t
  | ⟨1, _⟩ => iblk0 V c 1 t
  | ⟨2, _⟩ => iblk0 V c 2 t
  | ⟨3, _⟩ => iblk0 V c 3 t
  | ⟨4, _⟩ => out0_4 (iblk0 V c 0 t) (iblk0 V c 1 t) (iblk0 V c 3 t)
  | ⟨5, _⟩ => out0_5 (iblk0 V c 0 t) (iblk0 V c 1 t) (iblk0 V c 2 t) (iblk0 V c 3 t)

theorem aft0_0 (c : Dev nD) (t : Fin cfg0.N) : (dat0 V (aft0 V) c).after 0 t = iblk0 V c 0 t := by dsimp only [dat0, aft0]
theorem aft0_1 (c : Dev nD) (t : Fin cfg0.N) : (dat0 V (aft0 V) c).after 1 t = iblk0 V c 1 t := by dsimp only [dat0, aft0]
theorem aft0_2 (c : Dev nD) (t : Fin cfg0.N) : (dat0 V (aft0 V) c).after 2 t = iblk0 V c 2 t := by dsimp only [dat0, aft0]
theorem aft0_3 (c : Dev nD) (t : Fin cfg0.N) : (dat0 V (aft0 V) c).after 3 t = iblk0 V c 3 t := by dsimp only [dat0, aft0]
theorem aft0_4 (c : Dev nD) (t : Fin cfg0.N) :
    (dat0 V (aft0 V) c).after 4 t = out0_4 (iblk0 V c 0 t) (iblk0 V c 1 t) (iblk0 V c 3 t) := by dsimp only [dat0, aft0]
theorem aft0_5 (c : Dev nD) (t : Fin cfg0.N) :
    (dat0 V (aft0 V) c).after 5 t = out0_5 (iblk0 V c 0 t) (iblk0 V c 1 t) (iblk0 V c 2 t) (iblk0 V c 3 t) := by dsimp only [dat0, aft0]

end Cert.Kernel.Hand

end
-- ==== Proof.Word.Poi.lean ====
/-
  Region 0 (masked softmax attention, one query tile of 512 rows per grid point against all 2048 keys of a batch and
  head): the body's triple at every grid point.  Each input window's staging buffer holds that window's block of its
  array wherever the body is called (the mask's block is fetched only when the query tile's batch or row band moves,
  and between fetches its index does not move); the body reads the four input buffers whole and stores each output
  buffer whole once, so afterwards the probabilities' buffer holds the probabilities of the loaded blocks and the
  output's buffer their product with the value block, whatever either held before.
-/
import proofs.«111166_j1640677507314_2_alg».proof.Proof.Word.PoiData
import proofs.«111166_j1640677507314_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-four access, however spelt. -/
theorem zeros4 : (![0, 0, 0, 0] : Fin 4 → Nat) = fun _ => 0 := by
  funext a; fin_cases a <;> rfl

/-- A load through the whole-shape rectangle at zero offsets reads what the buffer's contents read. -/
theorem readAt_whole {Val : EltTy → Type} {κ : Kind} {sp : Space} {S : Shape} {e : EltTy} (v : View sig κ sp S e)
    (f : v.ty.Contents Val) {off : Fin S.rank → Nat} (h : off = fun _ => 0) (inb : ∀ a, off a + S.size a ≤ S.size a) :
    v.readAt Val (Rect.unit off S.size inb).toLoadRect f = v.read Val f :=
  (View.readAt_eq_ld v f _).trans (View.ld_unit_zero h inb _)

/-- Input window 0's current staging buffer holds its block at every point, fetched there or not: where it is not
    fetched its block index has not moved since the previous point, and the body left the block in place. -/
theorem before0_0 (c : Dev nD) (t : Fin cfg0.N) (d) : (dat0 V (aft0 V) c).before 0 t d = iblk0 V c 0 t :=
  ((dat0 V (aft0 V) c).before_in_eq_fetched 0 rfl (fun _ => rfl) (fun _ _ _ => rfl)
    (fun t => by rw [aft0_0]; unfold Dat.blockOf iblk0; dsimp only [dat0]; try rfl) t d).trans
    (by unfold Dat.fetched Dat.blockOf iblk0; dsimp only [dat0]; try rfl)

/-- Input window 1's current staging buffer holds its block at every point, fetched there or not: where it is not
    fetched its block index has not moved since the previous point, and the body left the block in place. -/
theorem before0_1 (c : Dev nD) (t : Fin cfg0.N) (d) : (dat0 V (aft0 V) c).before 1 t d = iblk0 V c 1 t :=
  ((dat0 V (aft0 V) c).before_in_eq_fetched 1 rfl (fun _ => rfl) (fun _ _ _ => rfl)
    (fun t => by rw [aft0_1]; unfold Dat.blockOf iblk0; dsimp only [dat0]; try rfl) t d).trans
    (by unfold Dat.fetched Dat.blockOf iblk0; dsimp only [dat0]; try rfl)

/-- Input window 2's current staging buffer holds its block at every point, fetched there or not: where it is not
    fetched its block index has not moved since the previous point, and the body left the block in place. -/
theorem before0_2 (c : Dev nD) (t : Fin cfg0.N) (d) : (dat0 V (aft0 V) c).before 2 t d = iblk0 V c 2 t :=
  ((dat0 V (aft0 V) c).before_in_eq_fetched 2 rfl (fun _ => rfl) (fun _ _ _ => rfl)
    (fun t => by rw [aft0_2]; unfold Dat.blockOf iblk0; dsimp only [dat0]; try rfl) t d).trans
    (by unfold Dat.fetched Dat.blockOf iblk0; dsimp only [dat0]; try rfl)

/-- Input window 3's current staging buffer holds its block at every point, fetched there or not: where it is not
    fetched its block index has not moved since the previous point, and the body left the block in place. -/
theorem before0_3 (c : Dev nD) (t : Fin cfg0.N) (d) : (dat0 V (aft0 V) c).before 3 t d = iblk0 V c 3 t :=
  ((dat0 V (aft0 V) c).before_in_eq_fetched 3 rfl (fun _ => rfl) (fun _ _ _ => rfl)
    (fun t => by rw [aft0_3]; unfold Dat.blockOf iblk0; dsimp only [dat0]; try rfl) t d).trans
    (by unfold Dat.fetched Dat.blockOf iblk0; dsimp only [dat0]; try rfl)

set_option maxHeartbeats 1000000 in
/-- The kernel body on whole staging buffers, the inputs' at read contents x0 … x3 and the outputs' at anything, runs to the
    continuation holding the inputs' as they were, the probabilities' at the probabilities of the loaded blocks and the
    output's at their product with the value block: each output buffer is stored whole once, last, so what it held
    before (and what the dead loads of it read) does not matter. -/
theorem sound_kernel0 (c : Dev nD) (E : Set ℕ) (i : grid0.Coords)
    (arg0 : Memref sig .tc .vmem S1x1x512x64 .f32) (harg0 : arg0.IsWhole)
    (arg1 : Memref sig .tc .vmem S1x1x2048x64 .f32) (harg1 : arg1.IsWhole)
    (arg2 : Memref sig .tc .vmem S1x1x2048x64 .f32) (harg2 : arg2.IsWhole)
    (arg3 : Memref sig .tc .vmem S1x1x512x2048 .i32) (harg3 : arg3.IsWhole)
    (arg4 : Memref sig .tc .vmem S1x1x512x2048 .f32) (harg4 : arg4.IsWhole)
    (arg5 : Memref sig .tc .vmem S1x1x512x64 .f32) (harg5 : arg5.IsWhole)
    (x0 : Vec F S1x1x512x64 .f32) (x1 x2 : Vec F S1x1x2048x64 .f32) (x3 : Vec F S1x1x512x2048 .i32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1 x3)
            ∗ owns (c : Thread nD τ) arg5 fullShare (out0_5 x0 x1 x2 x3)) -∗ K ⟨⟩))
      ⊢ wp frame (wpE (defs₀ (F := F)) Variants.none c none) E
          (cc0__poi_kernel i arg0 harg0 arg1 harg1 arg2 harg2 arg3 harg3 arg4 harg4 arg5 harg5) K := by
  simp only [cc0__poi_kernel_eq_skeleton]; unfold cc0__poi_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (Cert.WholeStore.read_writes_cons _ _ zeros4 _ _ _).trans ?_
    sl_unfold_run_names
    unfold out0_4
    rw [readAt_whole arg0.view f0 zeros4, readAt_whole arg1.view f1 zeros4, readAt_whole arg3.view f3 zeros4]
  · iexists _; isplitr
    swap; · iexact H5
    ipureintro
    refine (Cert.WholeStore.read_writes_cons _ _ zeros4 _ _ _).trans ?_
    sl_unfold_run_names
    unfold out0_5
    rw [readAt_whole arg0.view f0 zeros4, readAt_whole arg1.view f1 zeros4, readAt_whole arg2.view f2 zeros4,
      readAt_whole arg3.view f3 zeros4]

/-! ## The body obligation, at a generic point -/

/-- What the body is called with at point t: the invariant, the core's debt, and each window's current staging buffer
    at what it then holds, -/
def bodyPre0 (c : Dev nD) (t : Fin cfg0.N) : sProp 𝕄 :=
  iprop((dat0 V (aft0 V) c).Φ t.castSucc ∗ (dat0 V (aft0 V) c).owesAt () t.castSucc
    ∗ (∃ d, owns (c : Thread nD τ) (st0_0 t) fullShare ((dat0 V (aft0 V) c).before 0 t d))
    ∗ (∃ d, owns (c : Thread nD τ) (st0_1 t) fullShare ((dat0 V (aft0 V) c).before 1 t d))
    ∗ (∃ d, owns (c : Thread nD τ) (st0_2 t) fullShare ((dat0 V (aft0 V) c).before 2 t d))
    ∗ (∃ d, owns (c : Thread nD τ) (st0_3 t) fullShare ((dat0 V (aft0 V) c).before 3 t d))
    ∗ (∃ d, owns (c : Thread nD τ) (st0_4 t) fullShare ((dat0 V (aft0 V) c).before 4 t d))
    ∗ (∃ d, owns (c : Thread nD τ) (st0_5 t) fullShare ((dat0 V (aft0 V) c).before 5 t d)))

/-- and what it returns: every buffer at what the body leaves. -/
def bodyPost0 (c : Dev nD) (t : Fin cfg0.N) : sProp 𝕄 :=
  iprop((dat0 V (aft0 V) c).Φ t.succ ∗ (dat0 V (aft0 V) c).owesAt () t.succ
    ∗ owns (c : Thread nD τ) (st0_0 t) fullShare ((dat0 V (aft0 V) c).after 0 t)
    ∗ owns (c : Thread nD τ) (st0_1 t) fullShare ((dat0 V (aft0 V) c).after 1 t)
    ∗ owns (c : Thread nD τ) (st0_2 t) fullShare ((dat0 V (aft0 V) c).after 2 t)
    ∗ owns (c : Thread nD τ) (st0_3 t) fullShare ((dat0 V (aft0 V) c).after 3 t)
    ∗ owns (c : Thread nD τ) (st0_4 t) fullShare ((dat0 V (aft0 V) c).after 4 t)
    ∗ owns (c : Thread nD τ) (st0_5 t) fullShare ((dat0 V (aft0 V) c).after 5 t))

set_option maxHeartbeats 1000000 in
/-- The body at any point: the inputs' buffers hold their blocks, so the kernel's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V (aft0 V) c).Φ t.succ = (dat0 V (aft0 V) c).Φ t.castSucc from rfl,
    show (dat0 V (aft0 V) c).owesAt () t.succ = (dat0 V (aft0 V) c).owesAt () t.castSucc from rfl,
    aft0_0, aft0_1, aft0_2, aft0_3, aft0_4, aft0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body0 (c : Dev nD) : Pipeline.BodyObligation (dat0 V (aft0 V) c) (defs₀ (F := F)) Variants.none () Set.univ := fun t => by
  rw [bigSep_W0, bigSep_W0]
  exact sound_body0 V c t

end Cert.Kernel.Hand

end
-- ==== Proof.Word.TdData.lean ====
/-
  Region 1 (plain softmax attention of the time and distance streams, one query tile of 256 rows per grid point
  against all 2047 keys, and the cross product of the summed probabilities with the poi values): what the body
  computes from WHOLE staging buffers.  The streams have 2047 rows, so the last query tile overhangs its array by
  one row: there a fetched block fills only the buffer's first 255 rows and the last row holds words nothing names.
-/
import proofs.«111166_j1640677507314_2_alg».proof.Proof.Word.Run
import proofs.«111166_j1640677507314_2_alg».proof.Proof.Gen.Kernel.Skeleton
import proofs.«111166_j1640677507314_2_alg».proof.Proof.Gen.Kernel.Points

noncomputable section

namespace Cert.Kernel.Hand

open Cert.Kernel Cert.Kernel.Gen
open Idealize.ShloMosaic Idealize.ShloMosaic.TcCoe Idealize.SL.Sem

variable {F : FTy → Type} [FloatOps F]

variable (V : (c : Dev nD) → (b : Ref sig .tc) → Buf (Elt F) ((c : Thread nD τ).loc b))

/-- Window w's block at point t, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! What the body leaves in each output's staging buffer, from the seven inputs' WHOLE staging buffers: the time
    query and key (x0, x1), the time value (x2), the distance query, key and value (x3, x4, x5), the poi value (x6). -/

/-- The time stream's probabilities. -/
def o7 (x0 : Vec F S1x1x256x64 .f32) (x1 : Vec F S1x1x2047x64 .f32) : Vec F S1x1x256x2047 .f32 :=
  k1_pay11 (k1_pay8 x0 x1)
/-- The distance stream's probabilities. -/
def o8 (x3 : Vec F S1x1x256x64 .f32) (x4 : Vec F S1x1x2047x64 .f32) : Vec F S1x1x256x2047 .f32 :=
  k1_pay12 (k1_pay4 x3) (k1_pay5 x4)
/-- The time stream's output. -/
def o9 (x0 : Vec F S1x1x256x64 .f32) (x1 x2 : Vec F S1x1x2047x64 .f32) : Vec F S1x1x256x64 .f32 :=
  k1_pay13 (k1_pay3 x2) (k1_pay8 x0 x1)
/-- The distance stream's output. -/
def o10 (x3 : Vec F S1x1x256x64 .f32) (x4 x5 : Vec F S1x1x2047x64 .f32) : Vec F S1x1x256x64 .f32 :=
  k1_pay1 (k1_pay14 (k1_pay4 x3) (k1_pay5 x4) (k1_pay6 x5))
/-- The summed probabilities times the poi values. -/
def o11 (x0 : Vec F S1x1x256x64 .f32) (x1 : Vec F S1x1x2047x64 .f32) (x3 : Vec F S1x1x256x64 .f32) (x4 x6 : Vec F S1x1x2047x64 .f32) :
    Vec F S1x1x256x64 .f32 :=
  k1_pay2 (k1_pay7 x6) (k1_pay9 (k1_pay8 x0 x1)) (k1_pay10 (k1_pay4 x3) (k1_pay5 x4))

/-- The filler for the rows of a staging buffer past its array's end, where nothing is stated: the zero word. -/
abbrev zfill (s : Shape) : s.Idx → Elt F .f32 := fun _ => Scalar.ofBits .f32 0#32

end Cert.Kernel.Hand

end
-- ==== Proof.Word.Td.lean ====
/-
  The body of region 1 on whole staging buffers: it loads the seven inputs' buffers whole, and stores each of the five
  outputs' buffers whole, once, with the value the arithmetic gives from the loaded buffers.
-/
import proofs.«111166_j1640677507314_2_alg».proof.Proof.Word.TdData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«111166_j1640677507314_2_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body on whole staging buffers: the seven inputs' at any read contents, the five outputs' at anything; it ends
    with the inputs' as they were and each output's at the arithmetic's value of the inputs' WHOLE buffers. -/
theorem sound_kernel1 (c : Dev nD) (E : Set ℕ) (i : grid1.Coords)
    (a0 : Memref sig .tc .vmem S1x1x256x64 .f32) (h0 : a0.IsWhole) (a1 : Memref sig .tc .vmem S1x1x2047x64 .f32) (h1 : a1.IsWhole)
    (a2 : Memref sig .tc .vmem S1x1x2047x64 .f32) (h2 : a2.IsWhole) (a3 : Memref sig .tc .vmem S1x1x256x64 .f32) (h3 : a3.IsWhole)
    (a4 : Memref sig .tc .vmem S1x1x2047x64 .f32) (h4 : a4.IsWhole) (a5 : Memref sig .tc .vmem S1x1x2047x64 .f32) (h5 : a5.IsWhole)
    (a6 : Memref sig .tc .vmem S1x1x2047x64 .f32) (h6 : a6.IsWhole) (a7 : Memref sig .tc .vmem S1x1x256x2047 .f32) (h7 : a7.IsWhole)
    (a8 : Memref sig .tc .vmem S1x1x256x2047 .f32) (h8 : a8.IsWhole) (a9 : Memref sig .tc .vmem S1x1x256x64 .f32) (h9 : a9.IsWhole)
    (a10 : Memref sig .tc .vmem S1x1x256x64 .f32) (h10 : a10.IsWhole) (a11 : Memref sig .tc .vmem S1x1x256x64 .f32) (h11 : a11.IsWhole)
    (x0 : Vec F S1x1x256x64 .f32) (x1 x2 : Vec F S1x1x2047x64 .f32) (x3 : Vec F S1x1x256x64 .f32) (x4 x5 x6 : Vec F S1x1x2047x64 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6
        ∗ (∃ d, owns (c : Thread nD τ) a7 fullShare d) ∗ (∃ d, owns (c : Thread nD τ) a8 fullShare d) ∗ (∃ d, owns (c : Thread nD τ) a9 fullShare d)
        ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6
            ∗ owns (c : Thread nD τ) a7 fullShare (o7 x0 x1) ∗ owns (c : Thread nD τ) a8 fullShare (o8 x3 x4)
            ∗ owns (c : Thread nD τ) a9 fullShare (o9 x0 x1 x2) ∗ owns (c : Thread nD τ) a10 fullShare (o10 x3 x4 x5)
            ∗ owns (c : Thread nD τ) a11 fullShare (o11 x0 x1 x3 x4 x6)) -∗ K ⟨⟩))
      ⊢ wp frame (wpE (defs₀ (F := F)) Variants.none c none) E
          (cc1__td_kernel i a0 h0 a1 h1 a2 h2 a3 h3 a4 h4 a5 h5 a6 h6 a7 h7 a8 h8 a9 h9 a10 h10 a11 h11) K := by
  simp only [cc1__td_kernel_eq_skeleton]; unfold cc1__td_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, ⟨%d11, %f11, -, H11⟩, Hk⟩
  subst hf0; subst hf1; subst hf2; subst hf3; subst hf4; subst hf5; subst hf6
  have hz : (![0, 0, 0, 0] : Fin 4 → Nat) = fun _ => 0 := funext fun a => by fin_cases a <;> rfl
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    rw [Cert.WholeStore.read_writes_cons _ _ hz]
    sl_unfold_run_names
    unfold o7
    simp only [View.readAt_eq_ld, View.ld_unit_zero (S := S1x1x256x64) hz, View.ld_unit_zero (S := S1x1x2047x64) hz]
  isplitl [H8]
  · iexists _; isplitr
    swap; · iexact H8
    ipureintro
    rw [Cert.WholeStore.read_writes_cons _ _ hz]
    sl_unfold_run_names
    unfold o8
    simp only [View.readAt_eq_ld, View.ld_unit_zero (S := S1x1x256x64) hz, View.ld_unit_zero (S := S1x1x2047x64) hz]
  isplitl [H9]
  · iexists _; isplitr
    swap; · iexact H9
    ipureintro
    rw [Cert.WholeStore.read_writes_cons _ _ hz]
    sl_unfold_run_names
    unfold o9
    simp only [View.readAt_eq_ld, View.ld_unit_zero (S := S1x1x256x64) hz, View.ld_unit_zero (S := S1x1x2047x64) hz]
  isplitl [H10]
  · iexists _; isplitr
    swap; · iexact H10
    ipureintro
    rw [Cert.WholeStore.read_writes_cons _ _ hz]
    sl_unfold_run_names
    unfold o10
    simp only [View.readAt_eq_ld, View.ld_unit_zero (S := S1x1x256x64) hz, View.ld_unit_zero (S := S1x1x2047x64) hz]
  iexists _; isplitr
  swap; · iexact H11
  ipureintro
  rw [Cert.WholeStore.read_writes_cons _ _ hz]
  sl_unfold_run_names
  unfold o11
  simp only [View.readAt_eq_ld, View.ld_unit_zero (S := S1x1x256x64) hz, View.ld_unit_zero (S := S1x1x2047x64) hz]

end Cert.Kernel.Hand

end
-- ==== Proof.Word.TdAfter.lean ====
/-
  Region 1: what each window's staging buffer holds after the body at a point, in two forms.

  Every window whose blocks overhang the array is stated only on the rows inside the array.  In the first form the
  five outputs are not named at all (the body's arithmetic from a buffer whose last row holds unnamed words need
  not be a function of the arrays).  In the second each output's buffer holds, on the rows inside the array, the block
  of a given whole array: this is what the body leaves whenever its arithmetic is row by row, so that the unnamed row
  of a query buffer reaches only the same row of the outputs.
-/
import proofs.«111166_j1640677507314_2_alg».proof.Proof.Word.TdData

noncomputable section

namespace Cert.Kernel.Hand

open Cert.Kernel Cert.Kernel.Gen
open Idealize.ShloMosaic Idealize.ShloMosaic.TcCoe Idealize.SL.Sem

variable {F : FTy → Type} [FloatOps F]

variable (V : (c : Dev nD) → (b : Ref sig .tc) → Buf (Elt F) ((c : Thread nD τ).loc b))

/-- The windows not named in the first form: the five outputs. -/
abbrev fgtOut : Fin cfg1.W → Bool := fun | 0 => false | 1 => false | 2 => false | 3 => false | 4 => false | 5 => false | 6 => false | 7 => true | 8 => true | 9 => true | 10 => true | 11 => true | ⟨_ + 12, h⟩ => absurd h (Nat.not_lt.2 (Nat.le_add_left _ _))

/-- The first form: the inputs keep their blocks (the two query windows stated on the rows inside the array, filled
    out with the zero word); the outputs are not named (the zero word everywhere). -/
def aft1F (c : Dev nD) (w : Fin cfg1.W) (t : Fin cfg1.N) : (cfg1.win w).block.Idx → Elt F (cfg1.win w).elt :=
  match w with
  | ⟨0, _⟩ => (cfg1.win 0).fill (cfg1.grid.coords t) (zfill S1x1x256x64) (iblk1 V c 0 t)
  | ⟨1, _⟩ => iblk1 V c 1 t
  | ⟨2, _⟩ => iblk1 V c 2 t
  | ⟨3, _⟩ => (cfg1.win 3).fill (cfg1.grid.coords t) (zfill S1x1x256x64) (iblk1 V c 3 t)
  | ⟨4, _⟩ => iblk1 V c 4 t
  | ⟨5, _⟩ => iblk1 V c 5 t
  | ⟨6, _⟩ => iblk1 V c 6 t
  | ⟨7, _⟩ => zfill S1x1x256x2047
  | ⟨8, _⟩ => zfill S1x1x256x2047
  | ⟨9, _⟩ => zfill S1x1x256x64
  | ⟨10, _⟩ => zfill S1x1x256x64
  | ⟨11, _⟩ => zfill S1x1x256x64

/-- The second form, for given whole arrays P2, P3 (the two streams' probabilities) and T, D, X (the two outputs and
    the cross product): the inputs as in the first; each output's buffer holds its array's block on the rows inside
    the array. -/
def aft1X (P2 P3 : S2x8x2047x2047.Idx → Elt F .f32) (T D X : S2x8x2047x64.Idx → Elt F .f32)
    (c : Dev nD) (w : Fin cfg1.W) (t : Fin cfg1.N) : (cfg1.win w).block.Idx → Elt F (cfg1.win w).elt :=
  match w with
  | ⟨0, _⟩ => (cfg1.win 0).fill (cfg1.grid.coords t) (zfill S1x1x256x64) (iblk1 V c 0 t)
  | ⟨1, _⟩ => iblk1 V c 1 t
  | ⟨2, _⟩ => iblk1 V c 2 t
  | ⟨3, _⟩ => (cfg1.win 3).fill (cfg1.grid.coords t) (zfill S1x1x256x64) (iblk1 V c 3 t)
  | ⟨4, _⟩ => iblk1 V c 4 t
  | ⟨5, _⟩ => iblk1 V c 5 t
  | ⟨6, _⟩ => iblk1 V c 6 t
  | ⟨7, _⟩ => (cfg1.win 7).fill (cfg1.grid.coords t) (zfill S1x1x256x2047) (((cfg1.win 7).blk t).view.read (Elt F) P2)
  | ⟨8, _⟩ => (cfg1.win 8).fill (cfg1.grid.coords t) (zfill S1x1x256x2047) (((cfg1.win 8).blk t).view.read (Elt F) P3)
  | ⟨9, _⟩ => (cfg1.win 9).fill (cfg1.grid.coords t) (zfill S1x1x256x64) (((cfg1.win 9).blk t).view.read (Elt F) T)
  | ⟨10, _⟩ => (cfg1.win 10).fill (cfg1.grid.coords t) (zfill S1x1x256x64) (((cfg1.win 10).blk t).view.read (Elt F) D)
  | ⟨11, _⟩ => (cfg1.win 11).fill (cfg1.grid.coords t) (zfill S1x1x256x64) (((cfg1.win 11).blk t).view.read (Elt F) X)

/-- What the body must compute for the second form to hold, output by output: on the rows inside the array, from
    query buffers filled out with ANY words d0, d3 past the array's end, the block of the given array. -/
structure RowWise (P2 P3 : S2x8x2047x2047.Idx → Elt F .f32) (T D X : S2x8x2047x64.Idx → Elt F .f32) (c : Dev nD) : Prop where
  h7 : ∀ (t : Fin cfg1.N) (d0 : S1x1x256x64.Idx → Elt F .f32),
    (cfg1.win 7).cut (cfg1.grid.coords t) (o7 ((cfg1.win 0).fill (cfg1.grid.coords t) d0 (iblk1 V c 0 t)) (iblk1 V c 1 t))
      = ((cfg1.win 7).blk t).view.read (Elt F) P2
  h8 : ∀ (t : Fin cfg1.N) (d3 : S1x1x256x64.Idx → Elt F .f32),
    (cfg1.win 8).cut (cfg1.grid.coords t) (o8 ((cfg1.win 3).fill (cfg1.grid.coords t) d3 (iblk1 V c 3 t)) (iblk1 V c 4 t))
      = ((cfg1.win 8).blk t).view.read (Elt F) P3
  h9 : ∀ (t : Fin cfg1.N) (d0 : S1x1x256x64.Idx → Elt F .f32),
    (cfg1.win 9).cut (cfg1.grid.coords t) (o9 ((cfg1.win 0).fill (cfg1.grid.coords t) d0 (iblk1 V c 0 t)) (iblk1 V c 1 t) (iblk1 V c 2 t))
      = ((cfg1.win 9).blk t).view.read (Elt F) T
  h10 : ∀ (t : Fin cfg1.N) (d3 : S1x1x256x64.Idx → Elt F .f32),
    (cfg1.win 10).cut (cfg1.grid.coords t) (o10 ((cfg1.win 3).fill (cfg1.grid.coords t) d3 (iblk1 V c 3 t)) (iblk1 V c 4 t) (iblk1 V c 5 t))
      = ((cfg1.win 10).blk t).view.read (Elt F) D
  h11 : ∀ (t : Fin cfg1.N) (d0 d3 : S1x1x256x64.Idx → Elt F .f32),
    (cfg1.win 11).cut (cfg1.grid.coords t) (o11 ((cfg1.win 0).fill (cfg1.grid.coords t) d0 (iblk1 V c 0 t)) (iblk1 V c 1 t)
        ((cfg1.win 3).fill (cfg1.grid.coords t) d3 (iblk1 V c 3 t)) (iblk1 V c 4 t) (iblk1 V c 6 t))
      = ((cfg1.win 11).blk t).view.read (Elt F) X

end Cert.Kernel.Hand

end
-- ==== Proof.Word.TdObl.lean ====
/-
  Region 1 (plain softmax attention of the time and distance streams, one query tile of 256 rows per grid point): the
  body's triple at every grid point, for both forms of what the body leaves.  Every input window is fetched at every
  point, so its staging buffer holds its block of the array there: whole for the key and value windows; for the two
  query windows, whose last tile overhangs the array by one row, on the rows inside the array, with words nothing
  names past them.  The body runs on the whole buffers; each window that overhangs is handed back stated on the rows
  inside the array only.
-/
import proofs.«111166_j1640677507314_2_alg».proof.Proof.Word.Td
import proofs.«111166_j1640677507314_2_alg».proof.Proof.Word.TdAfter
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Before
variable (aft : (c : Dev nD) → (w : Fin cfg1.W) → Fin cfg1.N → (cfg1.win w).block.Idx → Elt F (cfg1.win w).elt)

/-- A query window's current staging buffer, just fetched: its block on the rows inside the array, d past them. -/
theorem before1_0 (c : Dev nD) (t : Fin cfg1.N) (d) :
    (dat1 V aft c).before 0 t d = (cfg1.win 0).fill (cfg1.grid.coords t) d (iblk1 V c 0 t) :=
  ((dat1 V aft c).before_fetched 0 t (fetch1_0 t) d).trans (by unfold Dat.fetched Dat.blockOf iblk1; dsimp only [dat1])
theorem before1_3 (c : Dev nD) (t : Fin cfg1.N) (d) :
    (dat1 V aft c).before 3 t d = (cfg1.win 3).fill (cfg1.grid.coords t) d (iblk1 V c 3 t) :=
  ((dat1 V aft c).before_fetched 3 t (fetch1_3 t) d).trans (by unfold Dat.fetched Dat.blockOf iblk1; dsimp only [dat1])

/-- A key or value window's current staging buffer, just fetched, holds its whole block. -/
theorem before1_1 (c : Dev nD) (t : Fin cfg1.N) (d) : (dat1 V aft c).before 1 t d = iblk1 V c 1 t :=
  ((dat1 V aft c).before_fetched 1 t (fetch1_1 t) d).trans (by unfold Dat.fetched Dat.blockOf iblk1; dsimp only [dat1]; try rfl)

/-- A key or value window's current staging buffer, just fetched, holds its whole block. -/
theorem before1_2 (c : Dev nD) (t : Fin cfg1.N) (d) : (dat1 V aft c).before 2 t d = iblk1 V c 2 t :=
  ((dat1 V aft c).before_fetched 2 t (fetch1_2 t) d).trans (by unfold Dat.fetched Dat.blockOf iblk1; dsimp only [dat1]; try rfl)

/-- A key or value window's current staging buffer, just fetched, holds its whole block. -/
theorem before1_4 (c : Dev nD) (t : Fin cfg1.N) (d) : (dat1 V aft c).before 4 t d = iblk1 V c 4 t :=
  ((dat1 V aft c).before_fetched 4 t (fetch1_4 t) d).trans (by unfold Dat.fetched Dat.blockOf iblk1; dsimp only [dat1]; try rfl)

/-- A key or value window's current staging buffer, just fetched, holds its whole block. -/
theorem before1_5 (c : Dev nD) (t : Fin cfg1.N) (d) : (dat1 V aft c).before 5 t d = iblk1 V c 5 t :=
  ((dat1 V aft c).before_fetched 5 t (fetch1_5 t) d).trans (by unfold Dat.fetched Dat.blockOf iblk1; dsimp only [dat1]; try rfl)

/-- A key or value window's current staging buffer, just fetched, holds its whole block. -/
theorem before1_6 (c : Dev nD) (t : Fin cfg1.N) (d) : (dat1 V aft c).before 6 t d = iblk1 V c 6 t :=
  ((dat1 V aft c).before_fetched 6 t (fetch1_6 t) d).trans (by unfold Dat.fetched Dat.blockOf iblk1; dsimp only [dat1]; try rfl)

end Before

/-! ## The first form -/

theorem aft1F_0 (c : Dev nD) (t : Fin cfg1.N) :
    (dat1 V (aft1F V) c).after 0 t = (cfg1.win 0).fill (cfg1.grid.coords t) (zfill S1x1x256x64) (iblk1 V c 0 t) := by dsimp only [dat1, aft1F]
theorem aft1F_3 (c : Dev nD) (t : Fin cfg1.N) :
    (dat1 V (aft1F V) c).after 3 t = (cfg1.win 3).fill (cfg1.grid.coords t) (zfill S1x1x256x64) (iblk1 V c 3 t) := by dsimp only [dat1, aft1F]
theorem aft1F_1 (c : Dev nD) (t : Fin cfg1.N) : (dat1 V (aft1F V) c).after 1 t = iblk1 V c 1 t := by dsimp only [dat1, aft1F]
theorem aft1F_2 (c : Dev nD) (t : Fin cfg1.N) : (dat1 V (aft1F V) c).after 2 t = iblk1 V c 2 t := by dsimp only [dat1, aft1F]
theorem aft1F_4 (c : Dev nD) (t : Fin cfg1.N) : (dat1 V (aft1F V) c).after 4 t = iblk1 V c 4 t := by dsimp only [dat1, aft1F]
theorem aft1F_5 (c : Dev nD) (t : Fin cfg1.N) : (dat1 V (aft1F V) c).after 5 t = iblk1 V c 5 t := by dsimp only [dat1, aft1F]
theorem aft1F_6 (c : Dev nD) (t : Fin cfg1.N) : (dat1 V (aft1F V) c).after 6 t = iblk1 V c 6 t := by dsimp only [dat1, aft1F]

set_option maxHeartbeats 2000000 in
/-- The body obligation with the five outputs not named: the query buffers arrive holding their blocks filled out with
    any words past the array's end and leave as they came, which on the rows inside the array is their block; the key
    and value buffers hold their whole blocks throughout; the outputs arrive and leave at contents nothing names. -/
theorem body1F (c : Dev nD) :
    Pipeline.BodyObligationLoose (dat1 V (aft1F V) c) (defs₀ (F := F)) Variants.none () Set.univ fgtOut := fun t => by
  rw [bigSep_W1, bigSep_W1]
  simp only
  rw [show (dat1 V (aft1F V) c).Φ t.succ = (dat1 V (aft1F V) c).Φ t.castSucc from rfl,
    show (dat1 V (aft1F V) c).owesAt () t.succ = (dat1 V (aft1F V) c).owesAt () t.castSucc from rfl,
    aft1F_1, aft1F_2, aft1F_4, aft1F_5, aft1F_6]
  have hx0 : (win1 0).cut (grid1.coords t) ((dat1 V (aft1F V) c).after 0 t) = iblk1 V c 0 t := by
    rw [aft1F_0]; exact (cfg1.win 0).cut_fill _ _ _
  have hx3 : (win1 3).cut (grid1.coords t) ((dat1 V (aft1F V) c).after 3 t) = iblk1 V c 3 t := by
    rw [aft1F_3]; exact (cfg1.win 3).cut_fill _ _ _
  iintro ⟨HΦ, Ho, ⟨%d0, H0⟩, ⟨%d1, H1⟩, ⟨%d2, H2⟩, ⟨%d3, H3⟩, ⟨%d4, H4⟩, ⟨%d5, H5⟩, ⟨%d6, H6⟩,
    ⟨%X7, H7⟩, ⟨%X8, H8⟩, ⟨%X9, H9⟩, ⟨%X10, H10⟩, ⟨%X11, H11⟩⟩
  rw [before1_0 V (aft1F V) c t d0, before1_1 V (aft1F V) c t d1, before1_2 V (aft1F V) c t d2, before1_3 V (aft1F V) c t d3,
    before1_4 V (aft1F V) c t d4, before1_5 V (aft1F V) c t d5, before1_6 V (aft1F V) c t d6]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    ((cfg1.win 0).fill (cfg1.grid.coords t) d0 (iblk1 V c 0 t)) (iblk1 V c 1 t) (iblk1 V c 2 t)
    ((cfg1.win 3).fill (cfg1.grid.coords t) d3 (iblk1 V c 3 t)) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0; rw [hx0]; try iexact H0
  isplitl [H1]; · iexact H1
  isplitl [H2]; · iexact H2
  isplitl [H3]
  · iexists d3; rw [hx3]; try iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

/-! ## The second form -/

section Second
variable (P2 P3 : S2x8x2047x2047.Idx → Elt F .f32) (T D X : S2x8x2047x64.Idx → Elt F .f32)

theorem aft1X_0 (c : Dev nD) (t : Fin cfg1.N) :
    (dat1 V (aft1X V P2 P3 T D X) c).after 0 t = (cfg1.win 0).fill (cfg1.grid.coords t) (zfill S1x1x256x64) (iblk1 V c 0 t) := by dsimp only [dat1, aft1X]
theorem aft1X_3 (c : Dev nD) (t : Fin cfg1.N) :
    (dat1 V (aft1X V P2 P3 T D X) c).after 3 t = (cfg1.win 3).fill (cfg1.grid.coords t) (zfill S1x1x256x64) (iblk1 V c 3 t) := by dsimp only [dat1, aft1X]
theorem aft1X_1 (c : Dev nD) (t : Fin cfg1.N) : (dat1 V (aft1X V P2 P3 T D X) c).after 1 t = iblk1 V c 1 t := by dsimp only [dat1, aft1X]
theorem aft1X_2 (c : Dev nD) (t : Fin cfg1.N) : (dat1 V (aft1X V P2 P3 T D X) c).after 2 t = iblk1 V c 2 t := by dsimp only [dat1, aft1X]
theorem aft1X_4 (c : Dev nD) (t : Fin cfg1.N) : (dat1 V (aft1X V P2 P3 T D X) c).after 4 t = iblk1 V c 4 t := by dsimp only [dat1, aft1X]
theorem aft1X_5 (c : Dev nD) (t : Fin cfg1.N) : (dat1 V (aft1X V P2 P3 T D X) c).after 5 t = iblk1 V c 5 t := by dsimp only [dat1, aft1X]
theorem aft1X_6 (c : Dev nD) (t : Fin cfg1.N) : (dat1 V (aft1X V P2 P3 T D X) c).after 6 t = iblk1 V c 6 t := by dsimp only [dat1, aft1X]
theorem aft1X_7 (c : Dev nD) (t : Fin cfg1.N) :
    (dat1 V (aft1X V P2 P3 T D X) c).after 7 t = (cfg1.win 7).fill (cfg1.grid.coords t) (zfill S1x1x256x2047) (((cfg1.win 7).blk t).view.read (Elt F) P2) := by dsimp only [dat1, aft1X]
theorem aft1X_8 (c : Dev nD) (t : Fin cfg1.N) :
    (dat1 V (aft1X V P2 P3 T D X) c).after 8 t = (cfg1.win 8).fill (cfg1.grid.coords t) (zfill S1x1x256x2047) (((cfg1.win 8).blk t).view.read (Elt F) P3) := by dsimp only [dat1, aft1X]
theorem aft1X_9 (c : Dev nD) (t : Fin cfg1.N) :
    (dat1 V (aft1X V P2 P3 T D X) c).after 9 t = (cfg1.win 9).fill (cfg1.grid.coords t) (zfill S1x1x256x64) (((cfg1.win 9).blk t).view.read (Elt F) T) := by dsimp only [dat1, aft1X]
theorem aft1X_10 (c : Dev nD) (t : Fin cfg1.N) :
    (dat1 V (aft1X V P2 P3 T D X) c).after 10 t = (cfg1.win 10).fill (cfg1.grid.coords t) (zfill S1x1x256x64) (((cfg1.win 10).blk t).view.read (Elt F) D) := by dsimp only [dat1, aft1X]
theorem aft1X_11 (c : Dev nD) (t : Fin cfg1.N) :
    (dat1 V (aft1X V P2 P3 T D X) c).after 11 t = (cfg1.win 11).fill (cfg1.grid.coords t) (zfill S1x1x256x64) (((cfg1.win 11).blk t).view.read (Elt F) X) := by dsimp only [dat1, aft1X]

set_option maxHeartbeats 2000000 in
/-- The body obligation with each output named on the rows inside the array, for a body whose arithmetic is row by row:
    the inputs as in the first form; an output's buffer ends at the arithmetic's value of the whole buffers, whose rows
    inside the array are the given array's block whatever words filled out the query buffers, and that is all the
    obligation states of it. -/
theorem body1X (c : Dev nD) (hrow : RowWise V P2 P3 T D X c) :
    Pipeline.BodyObligationLoose (dat1 V (aft1X V P2 P3 T D X) c) (defs₀ (F := F)) Variants.none () Set.univ := fun t => by
  rw [bigSep_W1, bigSep_W1]
  simp only
  rw [show (dat1 V (aft1X V P2 P3 T D X) c).Φ t.succ = (dat1 V (aft1X V P2 P3 T D X) c).Φ t.castSucc from rfl,
    show (dat1 V (aft1X V P2 P3 T D X) c).owesAt () t.succ = (dat1 V (aft1X V P2 P3 T D X) c).owesAt () t.castSucc from rfl,
    aft1X_1, aft1X_2, aft1X_4, aft1X_5, aft1X_6]
  have hx0 : (win1 0).cut (grid1.coords t) ((dat1 V (aft1X V P2 P3 T D X) c).after 0 t) = iblk1 V c 0 t := by
    rw [aft1X_0]; exact (cfg1.win 0).cut_fill _ _ _
  have hx3 : (win1 3).cut (grid1.coords t) ((dat1 V (aft1X V P2 P3 T D X) c).after 3 t) = iblk1 V c 3 t := by
    rw [aft1X_3]; exact (cfg1.win 3).cut_fill _ _ _
  iintro ⟨HΦ, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩, ⟨%d9, H9⟩, ⟨%d10, H10⟩, ⟨%d11, H11⟩⟩
  have e7 : (win1 7).fill (grid1.coords t) (o7 ((cfg1.win 0).fill (cfg1.grid.coords t) d0 (iblk1 V c 0 t)) (iblk1 V c 1 t))
      ((win1 7).cut (grid1.coords t) ((dat1 V (aft1X V P2 P3 T D X) c).after 7 t)) = (o7 ((cfg1.win 0).fill (cfg1.grid.coords t) d0 (iblk1 V c 0 t)) (iblk1 V c 1 t)) :=
    (cfg1.win 7).fill_congr_cut (cfg1.grid.coords t) (by
      rw [aft1X_7]; exact (hrow.h7 t d0).trans ((cfg1.win 7).cut_fill _ _ _).symm)
  have e8 : (win1 8).fill (grid1.coords t) (o8 ((cfg1.win 3).fill (cfg1.grid.coords t) d3 (iblk1 V c 3 t)) (iblk1 V c 4 t))
      ((win1 8).cut (grid1.coords t) ((dat1 V (aft1X V P2 P3 T D X) c).after 8 t)) = (o8 ((cfg1.win 3).fill (cfg1.grid.coords t) d3 (iblk1 V c 3 t)) (iblk1 V c 4 t)) :=
    (cfg1.win 8).fill_congr_cut (cfg1.grid.coords t) (by
      rw [aft1X_8]; exact (hrow.h8 t d3).trans ((cfg1.win 8).cut_fill _ _ _).symm)
  have e9 : (win1 9).fill (grid1.coords t) (o9 ((cfg1.win 0).fill (cfg1.grid.coords t) d0 (iblk1 V c 0 t)) (iblk1 V c 1 t) (iblk1 V c 2 t))
      ((win1 9).cut (grid1.coords t) ((dat1 V (aft1X V P2 P3 T D X) c).after 9 t)) = (o9 ((cfg1.win 0).fill (cfg1.grid.coords t) d0 (iblk1 V c 0 t)) (iblk1 V c 1 t) (iblk1 V c 2 t)) :=
    (cfg1.win 9).fill_congr_cut (cfg1.grid.coords t) (by
      rw [aft1X_9]; exact (hrow.h9 t d0).trans ((cfg1.win 9).cut_fill _ _ _).symm)
  have e10 : (win1 10).fill (grid1.coords t) (o10 ((cfg1.win 3).fill (cfg1.grid.coords t) d3 (iblk1 V c 3 t)) (iblk1 V c 4 t) (iblk1 V c 5 t))
      ((win1 10).cut (grid1.coords t) ((dat1 V (aft1X V P2 P3 T D X) c).after 10 t)) = (o10 ((cfg1.win 3).fill (cfg1.grid.coords t) d3 (iblk1 V c 3 t)) (iblk1 V c 4 t) (iblk1 V c 5 t)) :=
    (cfg1.win 10).fill_congr_cut (cfg1.grid.coords t) (by
      rw [aft1X_10]; exact (hrow.h10 t d3).trans ((cfg1.win 10).cut_fill _ _ _).symm)
  have e11 : (win1 11).fill (grid1.coords t) (o11 ((cfg1.win 0).fill (cfg1.grid.coords t) d0 (iblk1 V c 0 t)) (iblk1 V c 1 t) ((cfg1.win 3).fill (cfg1.grid.coords t) d3 (iblk1 V c 3 t)) (iblk1 V c 4 t) (iblk1 V c 6 t))
      ((win1 11).cut (grid1.coords t) ((dat1 V (aft1X V P2 P3 T D X) c).after 11 t)) = (o11 ((cfg1.win 0).fill (cfg1.grid.coords t) d0 (iblk1 V c 0 t)) (iblk1 V c 1 t) ((cfg1.win 3).fill (cfg1.grid.coords t) d3 (iblk1 V c 3 t)) (iblk1 V c 4 t) (iblk1 V c 6 t)) :=
    (cfg1.win 11).fill_congr_cut (cfg1.grid.coords t) (by
      rw [aft1X_11]; exact (hrow.h11 t d0 d3).trans ((cfg1.win 11).cut_fill _ _ _).symm)
  rw [before1_0 V _ c t d0, before1_1 V _ c t d1, before1_2 V _ c t d2, before1_3 V _ c t d3,
    before1_4 V _ c t d4, before1_5 V _ c t d5, before1_6 V _ c t d6]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    ((cfg1.win 0).fill (cfg1.grid.coords t) d0 (iblk1 V c 0 t)) (iblk1 V c 1 t) (iblk1 V c 2 t)
    ((cfg1.win 3).fill (cfg1.grid.coords t) d3 (iblk1 V c 3 t)) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0; rw [hx0]; try iexact H0
  isplitl [H1]; · iexact H1
  isplitl [H2]; · iexact H2
  isplitl [H3]
  · iexists d3; rw [hx3]; try iexact H3
  isplitl [H4]; · iexact H4
  isplitl [H5]; · iexact H5
  isplitl [H6]; · iexact H6
  isplitl [H7]
  · iexists (o7 ((cfg1.win 0).fill (cfg1.grid.coords t) d0 (iblk1 V c 0 t)) (iblk1 V c 1 t)); rw [e7]; try iexact H7
  isplitl [H8]
  · iexists (o8 ((cfg1.win 3).fill (cfg1.grid.coords t) d3 (iblk1 V c 3 t)) (iblk1 V c 4 t)); rw [e8]; try iexact H8
  isplitl [H9]
  · iexists (o9 ((cfg1.win 0).fill (cfg1.grid.coords t) d0 (iblk1 V c 0 t)) (iblk1 V c 1 t) (iblk1 V c 2 t)); rw [e9]; try iexact H9
  isplitl [H10]
  · iexists (o10 ((cfg1.win 3).fill (cfg1.grid.coords t) d3 (iblk1 V c 3 t)) (iblk1 V c 4 t) (iblk1 V c 5 t)); rw [e10]; try iexact H10
  iexists (o11 ((cfg1.win 0).fill (cfg1.grid.coords t) d0 (iblk1 V c 0 t)) (iblk1 V c 1 t) ((cfg1.win 3).fill (cfg1.grid.coords t) d3 (iblk1 V c 3 t)) (iblk1 V c 4 t) (iblk1 V c 6 t)); rw [e11]; try iexact H11

end Second

end Cert.Kernel.Hand

end
-- ==== Proof.Frames.lean ====
/-
  The printed program runs and leaves every argument array as launched, read at machine words and read on the extended
  reals: each frame from the two regions' body obligations, region 1's with its five outputs not named.
-/
import proofs.«111166_j1640677507314_2_alg».proof.Defs
import proofs.«111166_j1640677507314_2_alg».proof.Proof.Gen.Pre_finite_inputs
import proofs.«111166_j1640677507314_2_alg».proof.Proof.Ideal.Frame
import proofs.«111166_j1640677507314_2_alg».proof.Proof.Ideal.Poi
import proofs.«111166_j1640677507314_2_alg».proof.Proof.Ideal.TdObl
import proofs.«111166_j1640677507314_2_alg».proof.Proof.Word.Frame
import proofs.«111166_j1640677507314_2_alg».proof.Proof.Word.Poi
import proofs.«111166_j1640677507314_2_alg».proof.Proof.Word.TdObl

noncomputable section

namespace Cert.Proof.Frames

open Idealize.ShloMosaic Idealize.SL.Sem

/-- The program read at machine words runs and its argument arrays end unchanged. -/
theorem frame_k : Cert.frame_Kernel (hKernel := Cert.Kernel.Gen.facts) (hPre_finite_inputs := Cert.Pre_finite_inputs.Gen.facts) :=
  fun m ρ _ => Cert.Kernel.Hand.frame_of m ρ (Cert.Kernel.Hand.aft0 (Cert.Kernel.Hand.V0 m))
    (Cert.Kernel.Hand.aft1F (Cert.Kernel.Hand.V2 m (Cert.Kernel.Hand.aft0 (Cert.Kernel.Hand.V0 m)))) Cert.Kernel.Hand.fgtOut
    (fun c => (Cert.Kernel.Hand.body0 (Cert.Kernel.Hand.V0 m) c).loose)
    (fun c => Cert.Kernel.Hand.body1F (Cert.Kernel.Hand.V2 m _) c)

/-- The program read on the extended reals runs and its argument arrays end unchanged. -/
theorem frame_ki : Cert.frame_KernelIdeal (hKernelIdeal := Cert.KernelIdeal.Gen.facts) (hPre_finite_inputs := Cert.Pre_finite_inputs.Gen.facts) :=
  fun m ρ _ => Cert.KernelIdeal.Hand.frame_of m ρ (Cert.KernelIdeal.Hand.aft0 (Cert.KernelIdeal.Hand.V0 m))
    (Cert.KernelIdeal.Hand.aft1F (Cert.KernelIdeal.Hand.V2 m (Cert.KernelIdeal.Hand.aft0 (Cert.KernelIdeal.Hand.V0 m)))) Cert.KernelIdeal.Hand.fgtOut
    (fun c => (Cert.KernelIdeal.Hand.body0 (Cert.KernelIdeal.Hand.V0 m) c).loose)
    (fun c => Cert.KernelIdeal.Hand.body1F (Cert.KernelIdeal.Hand.V2 m _) c)

end Cert.Proof.Frames

end
-- ==== Proof.Ideal.Host.lean ====
/-
  The buffers the program returns, read off the run's last contents: each of region 1's output arrays is what the
  region left there; region 0's probabilities pass through every later operation untouched; the first result is the
  row scatter-add, at row offset one, of region 1's cross product into region 0's output.  And what region 1 is
  entered with: the arguments as launched, and the poi values without their last row (a host slice).
-/
import proofs.«111166_j1640677507314_2_alg».proof.Proof.Ideal.Frame
import Idealize.ShloMosaic.Lib.StableHlo.Run

set_option maxRecDepth 16384

noncomputable section

namespace Cert.KernelIdeal.Hand

open Cert.KernelIdeal Cert.KernelIdeal.Facts₀ Cert.KernelIdeal.Facts
open Idealize.ShloMosaic Idealize.ShloMosaic.TcCoe Idealize.SL.Sem Idealize.ShloMosaic.StableHlo

variable {F : FTy → Type} [FloatOps F]
variable (m : (ℓ : Loc nD τ sig) → Buf (Elt F) ℓ)
variable (aft0 : (c : Dev nD) → (w : Fin cfg0.W) → Fin cfg0.N → (cfg0.win w).block.Idx → Elt F (cfg0.win w).elt)

/-! ## What region 1 is entered with -/

theorem V2_arg3 (c : Dev nD) : V2 m aft0 c main_arg3 = m ((c.tc : Thread nD τ).loc main_arg3) :=
  (W2_of m aft0 c main_arg3 (by decide)).trans (W1_of_ne m aft0 c main_arg3 (by decide))
theorem V2_arg4 (c : Dev nD) : V2 m aft0 c main_arg4 = m ((c.tc : Thread nD τ).loc main_arg4) :=
  (W2_of m aft0 c main_arg4 (by decide)).trans (W1_of_ne m aft0 c main_arg4 (by decide))
theorem V2_arg5 (c : Dev nD) : V2 m aft0 c main_arg5 = m ((c.tc : Thread nD τ).loc main_arg5) :=
  (W2_of m aft0 c main_arg5 (by decide)).trans (W1_of_ne m aft0 c main_arg5 (by decide))
theorem V2_arg6 (c : Dev nD) : V2 m aft0 c main_arg6 = m ((c.tc : Thread nD τ).loc main_arg6) :=
  (W2_of m aft0 c main_arg6 (by decide)).trans (W1_of_ne m aft0 c main_arg6 (by decide))
theorem V2_arg7 (c : Dev nD) : V2 m aft0 c main_arg7 = m ((c.tc : Thread nD τ).loc main_arg7) :=
  (W2_of m aft0 c main_arg7 (by decide)).trans (W1_of_ne m aft0 c main_arg7 (by decide))
theorem V2_arg8 (c : Dev nD) : V2 m aft0 c main_arg8 = m ((c.tc : Thread nD τ).loc main_arg8) :=
  (W2_of m aft0 c main_arg8 (by decide)).trans (W1_of_ne m aft0 c main_arg8 (by decide))

/-- The sliced poi values: the slice of the argument as launched. -/
theorem V2_v1 (c : Dev nD) : (V2 m aft0 c main_v1 : S2x8x2047x64.Idx → Elt F .f32)
    = extractStridedSlice S2x8x2047x64 ![0, 0, 0, 0] (m ((c.tc : Thread nD τ).loc main_arg2) : S2x8x2048x64.Idx → Elt F .f32)
        slices_S2x8x2048x64_S2x8x2047x64_0_0_0_0 := by
  have h : (W2 m aft0 c main_v1 : S2x8x2047x64.Idx → Elt F .f32)
      = extractStridedSlice S2x8x2047x64 ![0, 0, 0, 0] (W1 m aft0 c main_arg2 : S2x8x2048x64.Idx → Elt F .f32)
          slices_S2x8x2048x64_S2x8x2047x64_0_0_0_0 := by
    show StableHlo.after Gen.hostOps1 (W1 m aft0 c) (Proc.devRef .tc main_v1) = _
    after_results
  rw [show (W1 m aft0 c main_arg2 : S2x8x2048x64.Idx → Elt F .f32) = m ((c.tc : Thread nD τ).loc main_arg2) from W1_in m aft0 c 2 rfl] at h
  exact h

/-! ## The returned buffers -/

section Out

variable (c : Dev nD) (G : (w : Fin cfg1.W) → Buf (Elt F) ((spec1 w).arr.view.loc (c : Thread nD τ)))

theorem W4_v2_0 : W4 m aft0 c G main_v2_0 = G 7 := (W4_of m aft0 c G main_v2_0 (by decide)).trans (W3_arr m aft0 c G 7)
theorem W4_v2_1 : W4 m aft0 c G main_v2_1 = G 8 := (W4_of m aft0 c G main_v2_1 (by decide)).trans (W3_arr m aft0 c G 8)
theorem W4_v2_2 : W4 m aft0 c G main_v2_2 = G 9 := (W4_of m aft0 c G main_v2_2 (by decide)).trans (W3_arr m aft0 c G 9)
theorem W4_v2_3 : W4 m aft0 c G main_v2_3 = G 10 := (W4_of m aft0 c G main_v2_3 (by decide)).trans (W3_arr m aft0 c G 10)

/-- Region 0's probabilities reach the end as region 0 left them. -/
theorem W4_v0_0 : W4 m aft0 c G main_v0_0 = (dat0 (V0 m) aft0 c).arrAt 4 cfg0.N :=
  (W4_of m aft0 c G main_v0_0 (by decide)).trans <| (W3_of_ne m aft0 c G main_v0_0 (by decide)).trans <|
    (W2_of m aft0 c main_v0_0 (by decide)).trans (W1_arr m aft0 c 4)

theorem W3_v0_1 : W3 m aft0 c G main_v0_1 = (dat0 (V0 m) aft0 c).arrAt 5 cfg0.N :=
  (W3_of_ne m aft0 c G main_v0_1 (by decide)).trans <| (W2_of m aft0 c main_v0_1 (by decide)).trans (W1_arr m aft0 c 5)

theorem W3_v2_4 : W3 m aft0 c G main_v2_4 = G 11 := W3_arr m aft0 c G 11

/-- The first result: region 1's cross product scatter-added, at row offset one, into region 0's output. -/
theorem W4_v4 : (W4 m aft0 c G main_v4 : S2x8x2048x64.Idx → Elt F .f32)
    = Host.scatter scatter_S2x8x2048x64_S1_S2x8x2047x64_0123_n_2_0 FloatOps.addf
        ((dat0 (V0 m) aft0 c).arrAt 5 cfg0.N : S2x8x2048x64.Idx → Elt F .f32)
        (broadcastInDim S1 ![] bcast_S_S1 (constantI S_ 32 1#32))
        (G 11 : S2x8x2047x64.Idx → Elt F .f32) := by
  have h : (W4 m aft0 c G main_v4 : S2x8x2048x64.Idx → Elt F .f32)
      = Host.scatter scatter_S2x8x2048x64_S1_S2x8x2047x64_0123_n_2_0 FloatOps.addf
          (W3 m aft0 c G main_v0_1 : S2x8x2048x64.Idx → Elt F .f32)
          (broadcastInDim S1 ![] bcast_S_S1 (constantI S_ 32 1#32))
          (W3 m aft0 c G main_v2_4 : S2x8x2047x64.Idx → Elt F .f32) := by
    show StableHlo.after Gen.hostOps2 (W3 m aft0 c G) (Proc.devRef .tc main_v4) = _
    after_results
  rw [show (W3 m aft0 c G main_v0_1 : S2x8x2048x64.Idx → Elt F .f32) = (dat0 (V0 m) aft0 c).arrAt 5 cfg0.N from W3_v0_1 m aft0 c G,
    show (W3 m aft0 c G main_v2_4 : S2x8x2047x64.Idx → Elt F .f32) = G 11 from W3_v2_4 m aft0 c G] at h
  exact h

end Out

end Cert.KernelIdeal.Hand

end
-- ==== Proof.Spec.lean ====
/-
  Masked and plain softmax attention over extended reals, index by index: the functions both programs compute.

  A row of scores s becomes probabilities in two spellings.  The one multiplies each exponential by the reciprocal
  of the row's sum, the maximum taken once; the other divides each exponential by zero plus the sum, the maximum
  taken against minus infinity once more.  Scores are scaled dot products over the 64 features, the scale either a
  factor 1/8 on the query entry or a quotient by 8.  A masked score is a fixed large negative number where the mask
  word is zero.  Outputs are the probabilities and their products with value rows.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A rank-4 array of extended reals. -/
abbrev A (n0 n1 n2 n3 : ℕ) : Type := (⟨4, ![n0, n1, n2, n3]⟩ : Shape).Idx → EReal

abbrev eighth : EReal := Ideal.ofBits .f32 0x3E000000#32
abbrev eight : EReal := Ideal.ofBits .f32 0x41000000#32
abbrev negBig : EReal := Ideal.ofBits .f32 0xCE6E6B28#32
abbrev negInf : EReal := Ideal.ofBits .f32 0xFF800000#32
abbrev oneE : EReal := Ideal.ofBits .f32 0x3F800000#32
abbrev zeroE : EReal := Ideal.ofBits .f32 0x00000000#32

/-! ## A row of scores as probabilities, in two spellings -/

section Row

variable {n : ℕ}

/-- The row's maximum, folded from minus infinity. -/
def rowMaxK (s : Fin n → EReal) : EReal := (Finset.univ : Finset (Fin n)).fold max negInf s

/-- exp (s j − max) · (1 / Σ exp (s j' − max)). -/
def smaxK (s : Fin n → EReal) (j : Fin n) : EReal :=
  Ideal.exp (s j - rowMaxK s) * Ideal.div oneE (∑ j' : Fin n, Ideal.exp (s j' - rowMaxK s))

/-- The same maximum taken once more against minus infinity. -/
def rowMaxR (s : Fin n → EReal) : EReal := max negInf ((Finset.univ : Finset (Fin n)).fold max negInf s)

/-- exp (s j − max) / (0 + Σ exp (s j' − max)). -/
def smaxR (s : Fin n → EReal) (j : Fin n) : EReal :=
  Ideal.div (Ideal.exp (s j - rowMaxR s)) (zeroE + ∑ j' : Fin n, Ideal.exp (s j' - rowMaxR s))

end Row

/-- Σ_d (q d · 1/8) · k d. -/
def dotK (q k : Fin 64 → EReal) : EReal := ∑ d : Fin 64, (q d * eighth) * k d

/-- Σ_d (q d / 8) · k d. -/
def dotR (q k : Fin 64 → EReal) : EReal := ∑ d : Fin 64, Ideal.div (q d) eight * k d

/-! ## The arrays, for any spelling of the dot and of the row's probabilities -/

section Arrays

variable (dot : (Fin 64 → EReal) → (Fin 64 → EReal) → EReal) (sm : {n : ℕ} → (Fin n → EReal) → Fin n → EReal)

/-- The score of query row i against key row j in batch b, head h. -/
def score {n : ℕ} (q k : A 2 8 n 64) (b : Fin 2) (h : Fin 8) (i j : Fin n) : EReal :=
  dot (fun d => q (ix4 b h i d)) (fun d => k (ix4 b h j d))

/-- Attention probabilities without a mask, at explicit coordinates. -/
def attnPlainAt {n : ℕ} (q k : A 2 8 n 64) (b : Fin 2) (h : Fin 8) (i j : Fin n) : EReal :=
  sm (fun j' => score dot q k b h i j') j

/-- Attention probabilities without a mask. -/
def attnPlain {n : ℕ} (q k : A 2 8 n 64) : A 2 8 n n := fun x => attnPlainAt dot sm q k (x 0) (x 1) (x 2) (x 3)

/-- Attention probabilities under a mask shared by the heads, at explicit coordinates: where the mask word is zero
    the score is the fixed large negative number. -/
def attnMaskedAt (q k : A 2 8 2048 64) (mask : (⟨4, ![2, 1, 2048, 2048]⟩ : Shape).Idx → BitVec 32)
    (b : Fin 2) (h : Fin 8) (i j : Fin 2048) : EReal :=
  sm (fun j' => Scalar.select (IntOp.cmpi .eq (mask (ix4 b (0 : Fin 1) i j')) 0#32) negBig (score dot q k b h i j')) j

/-- Attention probabilities under the mask. -/
def attnMasked (q k : A 2 8 2048 64) (mask : (⟨4, ![2, 1, 2048, 2048]⟩ : Shape).Idx → BitVec 32) : A 2 8 2048 2048 :=
  fun x => attnMaskedAt dot sm q k mask (x 0) (x 1) (x 2) (x 3)

end Arrays

/-- Probabilities times value rows, at explicit coordinates: Σ_j p[b,h,i,j] · v[b,h,j,d]. -/
def applyAt {n : ℕ} (p : A 2 8 n n) (v : A 2 8 n 64) (b : Fin 2) (h : Fin 8) (i : Fin n) (d : Fin 64) : EReal :=
  ∑ j : Fin n, p (ix4 b h i j) * v (ix4 b h j d)

/-- Probabilities times value rows. -/
def apply {n : ℕ} (p : A 2 8 n n) (v : A 2 8 n 64) : A 2 8 n 64 := fun x => applyAt p v (x 0) (x 1) (x 2) (x 3)

/-- The entrywise sum of two arrays. -/
def addA {n0 n1 n2 n3 : ℕ} (p p' : A n0 n1 n2 n3) : A n0 n1 n2 n3 := fun x => p x + p' x

theorem attnPlain_ix4 (dot : (Fin 64 → EReal) → (Fin 64 → EReal) → EReal) (sm : {n : ℕ} → (Fin n → EReal) → Fin n → EReal)
    {n : ℕ} (q k : A 2 8 n 64) (b : Fin 2) (h : Fin 8) (i j : Fin n) :
    attnPlain dot sm q k (ix4 b h i j) = attnPlainAt dot sm q k b h i j := rfl

theorem attnMasked_ix4 (dot : (Fin 64 → EReal) → (Fin 64 → EReal) → EReal) (sm : {n : ℕ} → (Fin n → EReal) → Fin n → EReal)
    (q k : A 2 8 2048 64) (mask : (⟨4, ![2, 1, 2048, 2048]⟩ : Shape).Idx → BitVec 32) (b : Fin 2) (h : Fin 8) (i j : Fin 2048) :
    attnMasked dot sm q k mask (ix4 b h i j) = attnMaskedAt dot sm q k mask b h i j := rfl

theorem apply_ix4 {n : ℕ} (p : A 2 8 n n) (v : A 2 8 n 64) (b : Fin 2) (h : Fin 8) (i : Fin n) (d : Fin 64) :
    apply p v (ix4 b h i d) = applyAt p v b h i d := rfl

end Cert.Spec

end
-- ==== Proof.Ideal.PoiPoint.lean ====
/-
  Region 0's body, entry by entry, on the extended reals.

  The layout operations the body uses are read at an index: dropping or adding two leading unit axes, a vector as a
  column, a column broadcast over the columns.  The product of query rows against key rows (the 64 features of both
  contracted) and the plain product of probabilities against value rows are sums over the contracted coordinate.  A row
  maximum folds from minus infinity and a row sum is a finite sum.  So the probabilities' buffer holds, at row r and
  column j, the row of masked scaled scores as probabilities, and the output's buffer holds the probabilities' row
  times the value block's column.
-/
import proofs.«111166_j1640677507314_2_alg».proof.Proof.Ideal.PoiData
import proofs.«111166_j1640677507314_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## Layout operations read at an index -/

/-- A [1, 1, a, b] array cast to [a, b] reads, at (i, j), the operand at (0, 0, i, j). -/
theorem cast_11ab_ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j). -/
theorem cast_ab_11ab {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to a column [a, 1] reads, at (i, u), the operand at i. -/
theorem cast_a_a1 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, j), the column at (i, 0). -/
theorem bcast_a1_ab {α : Type} {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-! ## The two matrix products read at an entry -/

theorem qk_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Rows against rows: entry (r, j) of the product that contracts the 64 features of both operands, into zero. -/
theorem matmul_rows_rows {φ₁ φ₂ : FTy} (a : FVec Ideal S512x64 φ₁) (b : FVec Ideal S2048x64 φ₂) (r : Fin 512) (j : Fin 2048) :
    matmul dot_S512x64_S2048x64_S512x2048_1_1_0_0_n_n none a b (constant (F := Ideal) S512x2048 .f32 0x00000000#32) (ix2 r j)
      = ∑ d : Fin 64, a (ix2 r d) * b (ix2 j d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r j) ((contrEquiv1 dot_S512x64_S2048x64_S512x2048_1_1_0_0_n_n 64 rfl rfl).symm k) = ix2 r k :=
    funext fun ax => Fin.ext (by
      match ax with
      | ⟨0, _⟩ => exact qk_lhs0 _ _
      | ⟨1, _⟩ => exact (qk_lhs1 _ _).trans hk)
  have er : dot_S512x64_S2048x64_S512x2048_1_1_0_0_n_n.rhsIdx (ix2 r j) ((contrEquiv1 dot_S512x64_S2048x64_S512x2048_1_1_0_0_n_n 64 rfl rfl).symm k) = ix2 j k :=
    funext fun ax => Fin.ext (by
      match ax with
      | ⟨0, _⟩ => exact qk_rhs0 _ _
      | ⟨1, _⟩ => exact (qk_rhs1 _ _).trans hk)
  rw [el, er]

theorem pv_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Rows against columns: entry (r, d) of the plain product over the 2048 keys, into zero. -/
theorem matmul_rows_cols {φ₁ φ₂ : FTy} (a : FVec Ideal S512x2048 φ₁) (b : FVec Ideal S2048x64 φ₂) (r : Fin 512) (d : Fin 64) :
    matmul dot_S512x2048_S2048x64_S512x64_1_0_0_1_n_n none a b (constant (F := Ideal) S512x64 .f32 0x00000000#32) (ix2 r d)
      = ∑ j : Fin 2048, a (ix2 r j) * b (ix2 j d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun ax => Fin.ext (by
      match ax with
      | ⟨0, _⟩ => exact pv_lhs0 _ _
      | ⟨1, _⟩ => exact (pv_lhs1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun ax => Fin.ext (by
      match ax with
      | ⟨0, _⟩ => exact (pv_rhs0 _ _).trans hk
      | ⟨1, _⟩ => exact pv_rhs1 _ _)
  rw [el, er]

/-! ## The body's probabilities: scores, then each row as probabilities -/

/-- The masked, scaled scores of a query block against a key block, as the body computes them. -/
def scores0 (x0 : Vec Ideal S1x1x512x64 .f32) (x1 : Vec Ideal S1x1x2048x64 .f32) (x3 : Vec Ideal S1x1x512x2048 .i32) :
    FVec Ideal S512x2048 .f32 :=
  select (cmpi .eq (shapeCast S512x2048 x3 shapeCasts_S1x1x512x2048_S512x2048) (broadcast S512x2048 0#32))
    (broadcast S512x2048 (Scalar.ofBits (F := Ideal) .f32 0xCE6E6B28#32))
    (matmul dot_S512x64_S2048x64_S512x2048_1_1_0_0_n_n none
      (truncf .bf16 (mulf (shapeCast S512x64 x0 shapeCasts_S1x1x512x64_S512x64) (broadcast S512x64 (Scalar.ofBits (F := Ideal) .f32 0x3E000000#32))) bitsLt_bf16_f32)
      (truncf .bf16 (shapeCast S2048x64 x1 shapeCasts_S1x1x2048x64_S2048x64) bitsLt_bf16_f32)
      (constant S512x2048 .f32 0x00000000#32))

/-- exp (score − the row's maximum), entry by entry. -/
def expShifted (v : FVec Ideal S512x2048 .f32) : FVec Ideal S512x2048 .f32 :=
  exp (subf v (broadcastTo S512x2048 (shapeCast S512x1 (multiReduction .maximumf [1] S512 v 0xFF800000#32 reduces_S512x2048_S512 (.inl rfl) rfl) shapeCasts_S512_S512x1) broadcasts_S512x1_S512x2048))

/-- Each row of scores as probabilities: the exponentials times the reciprocal of their row sum. -/
def rowsSoftmax (v : FVec Ideal S512x2048 .f32) : FVec Ideal S512x2048 .f32 :=
  mulf (expShifted v) (broadcastTo S512x2048 (divf (broadcast S512x1 (Scalar.ofBits (F := Ideal) .f32 0x3F800000#32)) (shapeCast S512x1 (multiReduction .add [1] S512 (expShifted v) 0x00000000#32 reduces_S512x2048_S512 (.inl rfl) rfl) shapeCasts_S512_S512x1)) broadcasts_S512x1_S512x2048)

/-- The body's probabilities are the rows of its scores as probabilities. -/
theorem pay4_eq (x0 : Vec Ideal S1x1x512x64 .f32) (x1 : Vec Ideal S1x1x2048x64 .f32) (x3 : Vec Ideal S1x1x512x2048 .i32) :
    k0_pay4 (F := Ideal) x0 x1 x3 = rowsSoftmax (scores0 x0 x1 x3) := rfl

/-- A score at (r, j): the fixed large negative number where the mask word is zero, else the scaled dot product. -/
theorem scores0_apply (x0 : Vec Ideal S1x1x512x64 .f32) (x1 : Vec Ideal S1x1x2048x64 .f32) (x3 : Vec Ideal S1x1x512x2048 .i32)
    (r : Fin 512) (j : Fin 2048) :
    scores0 x0 x1 x3 (ix2 r j)
      = Scalar.select (IntOp.cmpi .eq (x3 (ix4 (0 : Fin 1) (0 : Fin 1) r j)) 0#32) Spec.negBig
          (∑ d : Fin 64, (x0 (ix4 (0 : Fin 1) (0 : Fin 1) r d) * Spec.eighth) * x1 (ix4 (0 : Fin 1) (0 : Fin 1) j d)) := by
  unfold scores0
  rw [select_apply, matmul_rows_rows]
  show Scalar.select (IntOp.cmpi .eq (shapeCast S512x2048 x3 shapeCasts_S1x1x512x2048_S512x2048 (ix2 r j)) 0#32) Spec.negBig _ = _
  rw [cast_11ab_ab x3 _ r j]
  refine congrArg _ (Finset.sum_congr rfl fun d _ => ?_)
  show (shapeCast S512x64 x0 shapeCasts_S1x1x512x64_S512x64 (ix2 r d) * Spec.eighth) * shapeCast S2048x64 x1 shapeCasts_S1x1x2048x64_S2048x64 (ix2 j d) = _
  rw [cast_11ab_ab x0 _ r d, cast_11ab_ab x1 _ j d]

/-- The source index over row r with column k. -/
theorem lift_row (r : Fin 512) (k : Fin 2048) : reduces_S512x2048_S512.lift (ix1 r) k = ix2 r k :=
  funext fun c => Fin.ext (by match c with | ⟨0, _⟩ => rfl | ⟨1, _⟩ => rfl)

/-- The row maximum folded from minus infinity. -/
theorem rowMax_apply (v : FVec Ideal S512x2048 .f32) (r : Fin 512) :
    multiReduction .maximumf [1] S512 v 0xFF800000#32 reduces_S512x2048_S512 (.inl rfl) rfl (ix1 r)
      = Spec.rowMaxK (fun j : Fin 2048 => v (ix2 r j)) := by
  refine (Ideal.multiReduction_maximumf_single v _ reduces_S512x2048_S512 _ _ (ix1 r)).trans ?_
  unfold Spec.rowMaxK
  refine congrArg (fun f : Fin 2048 → EReal => (Finset.univ : Finset (Fin 2048)).fold max Spec.negInf f) ?_
  exact funext fun k => congrArg v (lift_row r k)

/-- The row sum. -/
theorem rowSum_apply (v : FVec Ideal S512x2048 .f32) (r : Fin 512) :
    multiReduction .add [1] S512 v 0x00000000#32 reduces_S512x2048_S512 (.inl rfl) rfl (ix1 r) = ∑ j : Fin 2048, v (ix2 r j) := by
  refine (Ideal.multiReduction_add_single v _ reduces_S512x2048_S512 _ _ (ix1 r)).trans ?_
  exact Finset.sum_congr rfl fun k _ => congrArg v (lift_row r k)

theorem expShifted_apply (v : FVec Ideal S512x2048 .f32) (r : Fin 512) (j : Fin 2048) :
    expShifted v (ix2 r j) = Ideal.exp (v (ix2 r j) - Spec.rowMaxK (fun j' : Fin 2048 => v (ix2 r j'))) := by
  unfold expShifted
  show Ideal.exp (v (ix2 r j) - broadcastTo S512x2048 _ broadcasts_S512x1_S512x2048 (ix2 r j)) = _
  rw [bcast_a1_ab, cast_a_a1, rowMax_apply]

/-- Row r of the probabilities is the row of scores as probabilities. -/
theorem rowsSoftmax_apply (v : FVec Ideal S512x2048 .f32) (r : Fin 512) (j : Fin 2048) :
    rowsSoftmax v (ix2 r j) = Spec.smaxK (fun j' : Fin 2048 => v (ix2 r j')) j := by
  unfold rowsSoftmax Spec.smaxK
  show expShifted v (ix2 r j) * broadcastTo S512x2048 _ broadcasts_S512x1_S512x2048 (ix2 r j) = _
  rw [bcast_a1_ab]
  show expShifted v (ix2 r j) * Ideal.div Spec.oneE (shapeCast S512x1 _ shapeCasts_S512_S512x1 (ix2 r (0 : Fin 1))) = _
  rw [cast_a_a1, rowSum_apply, expShifted_apply]
  refine congrArg _ (congrArg _ (Finset.sum_congr rfl fun k _ => expShifted_apply v r k))

/-! ## The two staging buffers after the body, entry by entry -/

/-- The probabilities' buffer. -/
theorem out0_4_apply (x0 : Vec Ideal S1x1x512x64 .f32) (x1 : Vec Ideal S1x1x2048x64 .f32) (x3 : Vec Ideal S1x1x512x2048 .i32)
    (u v : Fin 1) (r : Fin 512) (j : Fin 2048) :
    out0_4 (F := Ideal) x0 x1 x3 (ix4 u v r j)
      = Spec.smaxK (fun j' : Fin 2048 => Scalar.select (IntOp.cmpi .eq (x3 (ix4 (0 : Fin 1) (0 : Fin 1) r j')) 0#32) Spec.negBig
          (∑ d : Fin 64, (x0 (ix4 (0 : Fin 1) (0 : Fin 1) r d) * Spec.eighth) * x1 (ix4 (0 : Fin 1) (0 : Fin 1) j' d))) j := by
  show shapeCast S1x1x512x2048 (rowsSoftmax (scores0 x0 x1 x3)) shapeCasts_S512x2048_S1x1x512x2048 (ix4 u v r j) = _
  rw [cast_ab_11ab, rowsSoftmax_apply]
  exact congrArg (fun s => Spec.smaxK s j) (funext fun j' => scores0_apply x0 x1 x3 r j')

/-- The output's buffer: the probabilities' buffer times the value block. -/
theorem out0_5_apply (x0 : Vec Ideal S1x1x512x64 .f32) (x1 x2 : Vec Ideal S1x1x2048x64 .f32) (x3 : Vec Ideal S1x1x512x2048 .i32)
    (u v : Fin 1) (r : Fin 512) (d : Fin 64) :
    out0_5 (F := Ideal) x0 x1 x2 x3 (ix4 u v r d)
      = ∑ j : Fin 2048, out0_4 (F := Ideal) x0 x1 x3 (ix4 (0 : Fin 1) (0 : Fin 1) r j) * x2 (ix4 (0 : Fin 1) (0 : Fin 1) j d) := by
  show shapeCast S1x1x512x64 (matmul dot_S512x2048_S2048x64_S512x64_1_0_0_1_n_n none
      (truncf .bf16 (k0_pay4 (F := Ideal) x0 x1 x3) bitsLt_bf16_f32)
      (truncf .bf16 (shapeCast S2048x64 x2 shapeCasts_S1x1x2048x64_S2048x64) bitsLt_bf16_f32)
      (constant S512x64 .f32 0x00000000#32)) shapeCasts_S512x64_S1x1x512x64 (ix4 u v r d) = _
  rw [cast_ab_11ab, matmul_rows_cols]
  refine Finset.sum_congr rfl fun j _ => ?_
  show k0_pay4 (F := Ideal) x0 x1 x3 (ix2 r j) * shapeCast S2048x64 x2 shapeCasts_S1x1x2048x64_S2048x64 (ix2 j d)
    = shapeCast S1x1x512x2048 (k0_pay4 (F := Ideal) x0 x1 x3) shapeCasts_S512x2048_S1x1x512x2048 (ix4 (0 : Fin 1) (0 : Fin 1) r j) * x2 (ix4 (0 : Fin 1) (0 : Fin 1) j d)
  rw [cast_11ab_ab x2 _ j d, cast_ab_11ab]

end Cert.KernelIdeal.Hand

end
-- ==== Proof.Ideal.PoiValue.lean ====
/-
  Region 0's two output arrays after the region, as functions of the arrays it is entered with.

  The grid is 2 × 4 × 8 in row-major order (batch, query tile of 512 rows, head).  At a point the query, mask,
  probabilities and output blocks are rows 512·tile … 512·tile + 511 of their arrays in the point's batch (and head),
  the key and value blocks all 2048 rows of theirs.  So what a point writes back to the probabilities is its block of
  the masked attention probabilities of the whole arrays, and what it writes back to the output is its block of those
  probabilities times the value rows.  Every index of either array lies in the block of exactly the point of its batch,
  its row's tile and its head, so after the region each array is that function everywhere.
-/
import proofs.«111166_j1640677507314_2_alg».proof.Proof.Ideal.PoiPoint
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## Blocks of one function of the arrays -/

/-- The probabilities' buffer of blocks that are rows of the arrays is rows of the masked attention probabilities. -/
theorem probs_point (q k : Spec.A 2 8 2048 64) (mask : (⟨4, ![2, 1, 2048, 2048]⟩ : Shape).Idx → BitVec 32)
    (x0 : Vec Ideal S1x1x512x64 .f32) (x1 : Vec Ideal S1x1x2048x64 .f32) (x3 : Vec Ideal S1x1x512x2048 .i32)
    (b : Fin 2) (h : Fin 8) (ρ : Fin 512 → Fin 2048)
    (h0 : ∀ (r : Fin 512) (d : Fin 64), x0 (ix4 (0 : Fin 1) (0 : Fin 1) r d) = q (ix4 b h (ρ r) d))
    (h1 : ∀ (j : Fin 2048) (d : Fin 64), x1 (ix4 (0 : Fin 1) (0 : Fin 1) j d) = k (ix4 b h j d))
    (h3 : ∀ (r : Fin 512) (j : Fin 2048), x3 (ix4 (0 : Fin 1) (0 : Fin 1) r j) = mask (ix4 b (0 : Fin 1) (ρ r) j))
    (u v : Fin 1) (r : Fin 512) (j : Fin 2048) :
    out0_4 (F := Ideal) x0 x1 x3 (ix4 u v r j) = Spec.attnMasked Spec.dotK @Spec.smaxK q k mask (ix4 b h (ρ r) j) := by
  rw [out0_4_apply, Spec.attnMasked_ix4]
  unfold Spec.attnMaskedAt Spec.score Spec.dotK
  refine congrArg (fun s => Spec.smaxK s j) (funext fun j' => ?_)
  rw [h3 r j']
  refine congrArg _ (Finset.sum_congr rfl fun d _ => ?_)
  rw [h0 r d, h1 j' d]

/-- The output's buffer, likewise, is rows of the probabilities times the value rows. -/
theorem out_point (p : Spec.A 2 8 2048 2048) (w : Spec.A 2 8 2048 64)
    (x0 : Vec Ideal S1x1x512x64 .f32) (x1 x2 : Vec Ideal S1x1x2048x64 .f32) (x3 : Vec Ideal S1x1x512x2048 .i32)
    (b : Fin 2) (h : Fin 8) (ρ : Fin 512 → Fin 2048)
    (hp : ∀ (r : Fin 512) (j : Fin 2048), out0_4 (F := Ideal) x0 x1 x3 (ix4 (0 : Fin 1) (0 : Fin 1) r j) = p (ix4 b h (ρ r) j))
    (h2 : ∀ (j : Fin 2048) (d : Fin 64), x2 (ix4 (0 : Fin 1) (0 : Fin 1) j d) = w (ix4 b h j d))
    (u v : Fin 1) (r : Fin 512) (d : Fin 64) :
    out0_5 (F := Ideal) x0 x1 x2 x3 (ix4 u v r d) = Spec.apply p w (ix4 b h (ρ r) d) := by
  rw [out0_5_apply, Spec.apply_ix4]
  unfold Spec.applyAt
  exact Finset.sum_congr rfl fun j _ => by rw [hp r j, h2 j d]

/-! ## The grid and the index maps -/

/-- The grid is 2 × 4 × 8 in row-major order: point t has batch t / 32, query tile t / 8 mod 4 and head t mod 8; the
    query, probabilities and output blocks move with all three, the key and value blocks with batch and head, the mask
    block with batch and tile. -/
theorem idx_facts : ∀ t : Fin cfg0.N,
    (win0_0.index t (0 : Fin 4) = t.val / 32 ∧ win0_0.index t (1 : Fin 4) = t.val % 8 ∧ win0_0.index t (2 : Fin 4) = t.val / 8 % 4 ∧ win0_0.index t (3 : Fin 4) = 0)
    ∧ (win0_1.index t (0 : Fin 4) = t.val / 32 ∧ win0_1.index t (1 : Fin 4) = t.val % 8 ∧ win0_1.index t (2 : Fin 4) = 0 ∧ win0_1.index t (3 : Fin 4) = 0)
    ∧ (win0_2.index t (0 : Fin 4) = t.val / 32 ∧ win0_2.index t (1 : Fin 4) = t.val % 8 ∧ win0_2.index t (2 : Fin 4) = 0 ∧ win0_2.index t (3 : Fin 4) = 0)
    ∧ (win0_3.index t (0 : Fin 4) = t.val / 32 ∧ win0_3.index t (1 : Fin 4) = 0 ∧ win0_3.index t (2 : Fin 4) = t.val / 8 % 4 ∧ win0_3.index t (3 : Fin 4) = 0)
    ∧ (win0_4.index t (0 : Fin 4) = t.val / 32 ∧ win0_4.index t (1 : Fin 4) = t.val % 8 ∧ win0_4.index t (2 : Fin 4) = t.val / 8 % 4 ∧ win0_4.index t (3 : Fin 4) = 0)
    ∧ (win0_5.index t (0 : Fin 4) = t.val / 32 ∧ win0_5.index t (1 : Fin 4) = t.val % 8 ∧ win0_5.index t (2 : Fin 4) = t.val / 8 % 4 ∧ win0_5.index t (3 : Fin 4) = 0) :=
  (by decide +kernel : ∀ t : Fin grid0.N, _)

/-! ## Blocks read off the arrays -/

section Blocks

variable (V : (c : Dev nD) → (b : Ref sig .tc) → Buf (Elt Ideal) ((c : Thread nD τ).loc b))

/-- The batch of point t. -/
def pb (t : Fin cfg0.N) : Fin 2 := ⟨t.val / 32, by have h := t.isLt; have hN : cfg0.N = 64 := N_0; omega⟩
/-- The head of point t. -/
def ph (t : Fin cfg0.N) : Fin 8 := ⟨t.val % 8, by omega⟩
/-- Row r of point t's query tile, as a row of the array. -/
def prow (t : Fin cfg0.N) (r : Fin 512) : Fin 2048 := ⟨t.val / 8 % 4 * 512 + r.val, by have := r.isLt; omega⟩

/-- The query block at point t is rows 512·tile … of the query array in the point's batch and head. -/
theorem blk_q (c : Dev nD) (t : Fin cfg0.N) (r : Fin 512) (d : Fin 64) :
    (iblk0 V c 0 t : Vec Ideal S1x1x512x64 .f32) (ix4 (0 : Fin 1) (0 : Fin 1) r d)
      = (V c main_arg0 : Spec.A 2 8 2048 64) (ix4 (pb t) (ph t) (prow t r) d) := by
  obtain ⟨⟨e0, e1, e2, e3⟩, -⟩ := idx_facts t
  unfold iblk0
  rw [View.read_apply]
  show V c main_arg0 _ = V c main_arg0 _
  congr 1
  funext a; apply Fin.ext
  match a with
  | ⟨0, _⟩ => show win0_0.index t (0 : Fin 4) * 1 + 1 * 0 = t.val / 32; omega
  | ⟨1, _⟩ => show win0_0.index t (1 : Fin 4) * 1 + 1 * 0 = t.val % 8; omega
  | ⟨2, _⟩ => show win0_0.index t (2 : Fin 4) * 512 + 1 * r.val = t.val / 8 % 4 * 512 + r.val; omega
  | ⟨3, _⟩ => show win0_0.index t (3 : Fin 4) * 64 + 1 * d.val = d.val; omega

/-- The key block at point t is the key array's rows in the point's batch and head. -/
theorem blk_k (c : Dev nD) (t : Fin cfg0.N) (j : Fin 2048) (d : Fin 64) :
    (iblk0 V c 1 t : Vec Ideal S1x1x2048x64 .f32) (ix4 (0 : Fin 1) (0 : Fin 1) j d)
      = (V c main_arg1 : Spec.A 2 8 2048 64) (ix4 (pb t) (ph t) j d) := by
  obtain ⟨-, ⟨e0, e1, e2, e3⟩, -⟩ := idx_facts t
  unfold iblk0
  rw [View.read_apply]
  show V c main_arg1 _ = V c main_arg1 _
  congr 1
  funext a; apply Fin.ext
  match a with
  | ⟨0, _⟩ => show win0_1.index t (0 : Fin 4) * 1 + 1 * 0 = t.val / 32; omega
  | ⟨1, _⟩ => show win0_1.index t (1 : Fin 4) * 1 + 1 * 0 = t.val % 8; omega
  | ⟨2, _⟩ => show win0_1.index t (2 : Fin 4) * 2048 + 1 * j.val = j.val; omega
  | ⟨3, _⟩ => show win0_1.index t (3 : Fin 4) * 64 + 1 * d.val = d.val; omega

/-- The value block at point t is the value array's rows in the point's batch and head. -/
theorem blk_v (c : Dev nD) (t : Fin cfg0.N) (j : Fin 2048) (d : Fin 64) :
    (iblk0 V c 2 t : Vec Ideal S1x1x2048x64 .f32) (ix4 (0 : Fin 1) (0 : Fin 1) j d)
      = (V c main_arg2 : Spec.A 2 8 2048 64) (ix4 (pb t) (ph t) j d) := by
  obtain ⟨-, -, ⟨e0, e1, e2, e3⟩, -⟩ := idx_facts t
  unfold iblk0
  rw [View.read_apply]
  show V c main_arg2 _ = V c main_arg2 _
  congr 1
  funext a; apply Fin.ext
  match a with
  | ⟨0, _⟩ => show win0_2.index t (0 : Fin 4) * 1 + 1 * 0 = t.val / 32; omega
  | ⟨1, _⟩ => show win0_2.index t (1 : Fin 4) * 1 + 1 * 0 = t.val % 8; omega
  | ⟨2, _⟩ => show win0_2.index t (2 : Fin 4) * 2048 + 1 * j.val = j.val; omega
  | ⟨3, _⟩ => show win0_2.index t (3 : Fin 4) * 64 + 1 * d.val = d.val; omega

/-- The mask block at point t is rows 512·tile … of the mask in the point's batch. -/
theorem blk_m (c : Dev nD) (t : Fin cfg0.N) (r : Fin 512) (j : Fin 2048) :
    (iblk0 V c 3 t : Vec Ideal S1x1x512x2048 .i32) (ix4 (0 : Fin 1) (0 : Fin 1) r j)
      = (V c main_arg9 : (⟨4, ![2, 1, 2048, 2048]⟩ : Shape).Idx → BitVec 32) (ix4 (pb t) (0 : Fin 1) (prow t r) j) := by
  obtain ⟨-, -, -, ⟨e0, e1, e2, e3⟩, -⟩ := idx_facts t
  unfold iblk0
  rw [View.read_apply]
  show V c main_arg9 _ = V c main_arg9 _
  congr 1
  funext a; apply Fin.ext
  match a with
  | ⟨0, _⟩ => show win0_3.index t (0 : Fin 4) * 1 + 1 * 0 = t.val / 32; omega
  | ⟨1, _⟩ => show win0_3.index t (1 : Fin 4) * 1 + 1 * 0 = 0; omega
  | ⟨2, _⟩ => show win0_3.index t (2 : Fin 4) * 512 + 1 * r.val = t.val / 8 % 4 * 512 + r.val; omega
  | ⟨3, _⟩ => show win0_3.index t (3 : Fin 4) * 2048 + 1 * j.val = j.val; omega

end Blocks

/-! ## What each point writes back, the cover, the arrays after the region -/

section Final

variable (V : (c : Dev nD) → (b : Ref sig .tc) → Buf (Elt Ideal) ((c : Thread nD τ).loc b))

/-- The masked attention probabilities of the arrays the region is entered with. -/
abbrev probs (c : Dev nD) : Spec.A 2 8 2048 2048 :=
  Spec.attnMasked Spec.dotK @Spec.smaxK (V c main_arg0) (V c main_arg1) (V c main_arg9)

/-- An element of the probabilities' block at point t sits at the point's batch, head and rows. -/
theorem emb4 (t : Fin cfg0.N) (u v : Fin 1) (r : Fin 512) (j : Fin 2048) :
    ((cfg0.win 4).blk t).view.emb (ix4 u v r j) = (ix4 (pb t) (ph t) (prow t r) j : S2x8x2048x2048.Idx) := by
  obtain ⟨-, -, -, -, ⟨e0, e1, e2, e3⟩, -⟩ := idx_facts t
  have hu : u.val = 0 := by omega
  have hv : v.val = 0 := by omega
  funext a; apply Fin.ext
  match a with
  | ⟨0, _⟩ => show win0_4.index t (0 : Fin 4) * 1 + 1 * u.val = t.val / 32; omega
  | ⟨1, _⟩ => show win0_4.index t (1 : Fin 4) * 1 + 1 * v.val = t.val % 8; omega
  | ⟨2, _⟩ => show win0_4.index t (2 : Fin 4) * 512 + 1 * r.val = t.val / 8 % 4 * 512 + r.val; omega
  | ⟨3, _⟩ => show win0_4.index t (3 : Fin 4) * 2048 + 1 * j.val = j.val; omega

/-- An element of the output's block at point t sits at the point's batch, head and rows. -/
theorem emb5 (t : Fin cfg0.N) (u v : Fin 1) (r : Fin 512) (d : Fin 64) :
    ((cfg0.win 5).blk t).view.emb (ix4 u v r d) = (ix4 (pb t) (ph t) (prow t r) d : S2x8x2048x64.Idx) := by
  obtain ⟨-, -, -, -, -, ⟨e0, e1, e2, e3⟩⟩ := idx_facts t
  have hu : u.val = 0 := by omega
  have hv : v.val = 0 := by omega
  funext a; apply Fin.ext
  match a with
  | ⟨0, _⟩ => show win0_5.index t (0 : Fin 4) * 1 + 1 * u.val = t.val / 32; omega
  | ⟨1, _⟩ => show win0_5.index t (1 : Fin 4) * 1 + 1 * v.val = t.val % 8; omega
  | ⟨2, _⟩ => show win0_5.index t (2 : Fin 4) * 512 + 1 * r.val = t.val / 8 % 4 * 512 + r.val; omega
  | ⟨3, _⟩ => show win0_5.index t (3 : Fin 4) * 64 + 1 * d.val = d.val; omega

/-- The probabilities' buffer after the body at point t, entry by entry. -/
theorem probs_blk (c : Dev nD) (t : Fin cfg0.N) (u v : Fin 1) (r : Fin 512) (j : Fin 2048) :
    out0_4 (F := Ideal) (iblk0 V c 0 t) (iblk0 V c 1 t) (iblk0 V c 3 t) (ix4 u v r j)
      = probs V c (ix4 (pb t) (ph t) (prow t r) j) :=
  probs_point (V c main_arg0) (V c main_arg1) (V c main_arg9) (iblk0 V c 0 t) (iblk0 V c 1 t) (iblk0 V c 3 t)
    (pb t) (ph t) (prow t) (blk_q V c t) (blk_k V c t) (blk_m V c t) u v r j

/-- What point t writes back to the probabilities is block t of the masked attention probabilities. -/
theorem flushed4_eq (c : Dev nD) (t : Fin cfg0.N) :
    (dat0 V (aft0 V) c).flushed 4 t = ((cfg0.win 4).blk t).view.read (Elt Ideal) (probs V c) := by
  show (cfg0.win 4).cut (grid0.coords t) ((dat0 V (aft0 V) c).after 4 t) = _
  rw [aft0_4]
  funext y
  obtain ⟨u, v, r, j, rfl⟩ : ∃ (u v : Fin 1) (r : Fin 512) (j : Fin 2048), y = ix4 u v r j := ⟨y 0, y 1, y 2, y 3, eq_ix4 y⟩
  rw [View.read_apply]
  show out0_4 (F := Ideal) (iblk0 V c 0 t) (iblk0 V c 1 t) (iblk0 V c 3 t) (ix4 u v r j)
    = probs V c (((cfg0.win 4).blk t).view.emb (ix4 u v r j))
  rw [emb4 t u v r j]
  exact probs_blk V c t u v r j

/-- What point t writes back to the output is block t of the probabilities times the value rows. -/
theorem flushed5_eq (c : Dev nD) (t : Fin cfg0.N) :
    (dat0 V (aft0 V) c).flushed 5 t
      = ((cfg0.win 5).blk t).view.read (Elt Ideal) (Spec.apply (probs V c) (V c main_arg2)) := by
  show (cfg0.win 5).cut (grid0.coords t) ((dat0 V (aft0 V) c).after 5 t) = _
  rw [aft0_5]
  funext y
  obtain ⟨u, v, r, d, rfl⟩ : ∃ (u v : Fin 1) (r : Fin 512) (d : Fin 64), y = ix4 u v r d := ⟨y 0, y 1, y 2, y 3, eq_ix4 y⟩
  rw [View.read_apply]
  show out0_5 (F := Ideal) (iblk0 V c 0 t) (iblk0 V c 1 t) (iblk0 V c 2 t) (iblk0 V c 3 t) (ix4 u v r d)
    = Spec.apply (probs V c) (V c main_arg2) (((cfg0.win 5).blk t).view.emb (ix4 u v r d))
  rw [emb5 t u v r d]
  exact out_point (probs V c) (V c main_arg2) (iblk0 V c 0 t) (iblk0 V c 1 t) (iblk0 V c 2 t) (iblk0 V c 3 t)
    (pb t) (ph t) (prow t) (fun r j => probs_blk V c t 0 0 r j) (blk_v V c t) u v r d

/-- An index of the probabilities is in point t's block iff each coordinate is in the block's range on its axis. -/
theorem mem_blk4 (t : Fin cfg0.N) (i : S2x8x2048x2048.Idx) :
    i ∈ ((cfg0.win 4).blk t).view.set ↔ ∀ a : Fin 4, win0_4.index t a * S1x1x512x2048.size a ≤ (i a).val ∧ (i a).val < win0_4.index t a * S1x1x512x2048.size a + S1x1x512x2048.size a := by
  show i ∈ ((View.whole main_v0_0).slice (win0_4.rect t)).set ↔ _
  rw [View.set_slice_whole, Rect.mem_set_unit]
  exact Iff.rfl

/-- An index of the output is in point t's block iff each coordinate is in the block's range on its axis. -/
theorem mem_blk5 (t : Fin cfg0.N) (i : S2x8x2048x64.Idx) :
    i ∈ ((cfg0.win 5).blk t).view.set ↔ ∀ a : Fin 4, win0_5.index t a * S1x1x512x64.size a ≤ (i a).val ∧ (i a).val < win0_5.index t a * S1x1x512x64.size a + S1x1x512x64.size a := by
  show i ∈ ((View.whole main_v0_1).slice (win0_5.rect t)).set ↔ _
  rw [View.set_slice_whole, Rect.mem_set_unit]
  exact Iff.rfl

/-- Every index of the probabilities is in the block of the point of its batch, its row's tile and its head. -/
theorem cover4 (i : S2x8x2048x2048.Idx) :
    ∃ t : Fin cfg0.N, (cfg0.win 4).flush t = true ∧ i ∈ ((cfg0.win 4).blk t).view.set := by
  have hN : cfg0.N = 64 := N_0
  have h0 : (i 0).val < 2 := (i 0).isLt
  have h1 : (i 1).val < 8 := (i 1).isLt
  have h2 : (i 2).val < 2048 := (i 2).isLt
  have h3 : (i 3).val < 2048 := (i 3).isLt
  obtain ⟨t, ht⟩ : ∃ t : Fin cfg0.N, t.val = ((i 0).val * 4 + (i 2).val / 512) * 8 + (i 1).val :=
    ⟨⟨((i 0).val * 4 + (i 2).val / 512) * 8 + (i 1).val, by omega⟩, rfl⟩
  refine ⟨t, flush0_4 t, ?_⟩
  rw [mem_blk4]
  obtain ⟨-, -, -, -, ⟨e0, e1, e2, e3⟩, -⟩ := idx_facts t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

/-- Every index of the output is in the block of the point of its batch, its row's tile and its head. -/
theorem cover5 (i : S2x8x2048x64.Idx) :
    ∃ t : Fin cfg0.N, (cfg0.win 5).flush t = true ∧ i ∈ ((cfg0.win 5).blk t).view.set := by
  have hN : cfg0.N = 64 := N_0
  have h0 : (i 0).val < 2 := (i 0).isLt
  have h1 : (i 1).val < 8 := (i 1).isLt
  have h2 : (i 2).val < 2048 := (i 2).isLt
  have h3 : (i 3).val < 64 := (i 3).isLt
  obtain ⟨t, ht⟩ : ∃ t : Fin cfg0.N, t.val = ((i 0).val * 4 + (i 2).val / 512) * 8 + (i 1).val :=
    ⟨⟨((i 0).val * 4 + (i 2).val / 512) * 8 + (i 1).val, by omega⟩, rfl⟩
  refine ⟨t, flush0_5 t, ?_⟩
  rw [mem_blk5]
  obtain ⟨-, -, -, -, -, ⟨e0, e1, e2, e3⟩⟩ := idx_facts t
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- After the region the probabilities' array holds the masked attention probabilities of the entry arrays. -/
theorem attn1_final (c : Dev nD) :
    (dat0 V (aft0 V) c).arrAt 4 cfg0.N
      = Spec.attnMasked Spec.dotK @Spec.smaxK (V c main_arg0) (V c main_arg1) (V c main_arg9) :=
  (dat0 V (aft0 V) c).arrAt_eq_of_cover 4 (probs V c) (fun t _ => flushed4_eq V c t) cover4

/-- After the region the output array holds those probabilities times the value rows. -/
theorem poiMain_final (c : Dev nD) :
    (dat0 V (aft0 V) c).arrAt 5 cfg0.N
      = Spec.apply (Spec.attnMasked Spec.dotK @Spec.smaxK (V c main_arg0) (V c main_arg1) (V c main_arg9)) (V c main_arg2) :=
  (dat0 V (aft0 V) c).arrAt_eq_of_cover 5 (Spec.apply (probs V c) (V c main_arg2)) (fun t _ => flushed5_eq V c t) cover5

end Final

end Cert.KernelIdeal.Hand

end
-- ==== Proof.Ideal.TdValueA.lean ====
/-
  Region 1's body, entry by entry, on the extended reals.

  The product of query rows against key rows (the 64 features of both contracted) and the plain product of
  probabilities against value rows are sums over the contracted coordinate; a row maximum folds from minus infinity
  and a row sum is a finite sum.  So each stream's probabilities' buffer holds, at row r and column j, the row of
  scaled scores of query row r as probabilities, read at j; each stream's output buffer holds the probabilities' row
  times the value block's column; and the cross product's buffer holds the sum of the two streams' probability rows
  times the poi value block's column.  Every entry of row r depends on the query buffers through their row r alone.
-/
import proofs.«111166_j1640677507314_2_alg».proof.Proof.Ideal.TdData
import proofs.«111166_j1640677507314_2_alg».proof.Proof.Ideal.PoiPoint

noncomputable section

open scoped BigOperators

namespace Cert.KernelIdeal.Hand

open Cert.KernelIdeal Cert.KernelIdeal.Gen
open Idealize.ShloMosaic Idealize.ShloMosaic.ValueIdx

/-! ## The two matrix products read at an entry -/

theorem qk1_lhs0 (i : S256x2047.Idx) (q : dot_S256x64_S2047x64_S256x2047_1_1_0_0_n_n.contr.Idx) :
    (dot_S256x64_S2047x64_S256x2047_1_1_0_0_n_n.lhsIdx i q 0).val = (i 0).val := by
  unfold DotDims.lhsIdx
  rw [dif_neg (show ¬(0 : Fin S256x64.rank) ∈ dot_S256x64_S2047x64_S256x2047_1_1_0_0_n_n.lhsBatch by decide),
    dif_pos (show (0 : Fin S256x64.rank) ∈ dot_S256x64_S2047x64_S256x2047_1_1_0_0_n_n.lhsNonContracting by decide)]
  rfl
theorem qk1_lhs1 (i : S256x2047.Idx) (q : dot_S256x64_S2047x64_S256x2047_1_1_0_0_n_n.contr.Idx) :
    (dot_S256x64_S2047x64_S256x2047_1_1_0_0_n_n.lhsIdx i q 1).val = (q ⟨0, by decide⟩).val :=
  dot_S256x64_S2047x64_S256x2047_1_1_0_0_n_n.lhsIdx_val_of_single rfl i q
theorem qk1_rhs0 (i : S256x2047.Idx) (q : dot_S256x64_S2047x64_S256x2047_1_1_0_0_n_n.contr.Idx) :
    (dot_S256x64_S2047x64_S256x2047_1_1_0_0_n_n.rhsIdx i q 0).val = (i 1).val := by
  unfold DotDims.rhsIdx
  rw [dif_neg (show ¬(0 : Fin S2047x64.rank) ∈ dot_S256x64_S2047x64_S256x2047_1_1_0_0_n_n.rhsBatch by decide),
    dif_pos (show (0 : Fin S2047x64.rank) ∈ dot_S256x64_S2047x64_S256x2047_1_1_0_0_n_n.rhsNonContracting by decide)]
  rfl
theorem qk1_rhs1 (i : S256x2047.Idx) (q : dot_S256x64_S2047x64_S256x2047_1_1_0_0_n_n.contr.Idx) :
    (dot_S256x64_S2047x64_S256x2047_1_1_0_0_n_n.rhsIdx i q 1).val = (q ⟨0, by decide⟩).val :=
  dot_S256x64_S2047x64_S256x2047_1_1_0_0_n_n.rhsIdx_val_of_single rfl i q

/-- Rows against rows: entry (r, j) of the product that contracts the 64 features of both operands, into zero. -/
theorem matmul1_rows_rows {φ₁ φ₂ : FTy} (a : FVec Ideal S256x64 φ₁) (b : FVec Ideal S2047x64 φ₂) (r : Fin 256) (j : Fin 2047) :
    matmul dot_S256x64_S2047x64_S256x2047_1_1_0_0_n_n none a b (constant (F := Ideal) S256x2047 .f32 0x00000000#32) (ix2 r j)
      = ∑ d : Fin 64, a (ix2 r d) * b (ix2 j d) := by
  simp only [matmul]
  rw [Ideal.matmul_constant_zero_apply, ← Equiv.sum_comp (contrEquiv1 dot_S256x64_S2047x64_S256x2047_1_1_0_0_n_n 64 rfl rfl).symm]
  refine Finset.sum_congr rfl fun k _ => ?_
  have hk := contrEquiv1_symm_val dot_S256x64_S2047x64_S256x2047_1_1_0_0_n_n 64 rfl rfl k
  have el : dot_S256x64_S2047x64_S256x2047_1_1_0_0_n_n.lhsIdx (ix2 r j) ((contrEquiv1 dot_S256x64_S2047x64_S256x2047_1_1_0_0_n_n 64 rfl rfl).symm k) = ix2 r k :=
    funext fun ax => Fin.ext (by
      match ax with
      | ⟨0, _⟩ => exact qk1_lhs0 _ _
      | ⟨1, _⟩ => exact (qk1_lhs1 _ _).trans hk)
  have er : dot_S256x64_S2047x64_S256x2047_1_1_0_0_n_n.rhsIdx (ix2 r j) ((contrEquiv1 dot_S256x64_S2047x64_S256x2047_1_1_0_0_n_n 64 rfl rfl).symm k) = ix2 j k :=
    funext fun ax => Fin.ext (by
      match ax with
      | ⟨0, _⟩ => exact qk1_rhs0 _ _
      | ⟨1, _⟩ => exact (qk1_rhs1 _ _).trans hk)
  rw [el, er]

theorem pv1_lhs0 (i : S256x64.Idx) (q : dot_S256x2047_S2047x64_S256x64_1_0_0_1_n_n.contr.Idx) :
    (dot_S256x2047_S2047x64_S256x64_1_0_0_1_n_n.lhsIdx i q 0).val = (i 0).val := by
  unfold DotDims.lhsIdx
  rw [dif_neg (show ¬(0 : Fin S256x2047.rank) ∈ dot_S256x2047_S2047x64_S256x64_1_0_0_1_n_n.lhsBatch by decide),
    dif_pos (show (0 : Fin S256x2047.rank) ∈ dot_S256x2047_S2047x64_S256x64_1_0_0_1_n_n.lhsNonContracting by decide)]
  rfl
theorem pv1_lhs1 (i : S256x64.Idx) (q : dot_S256x2047_S2047x64_S256x64_1_0_0_1_n_n.contr.Idx) :
    (dot_S256x2047_S2047x64_S256x64_1_0_0_1_n_n.lhsIdx i q 1).val = (q ⟨0, by decide⟩).val :=
  dot_S256x2047_S2047x64_S256x64_1_0_0_1_n_n.lhsIdx_val_of_single rfl i q
theorem pv1_rhs0 (i : S256x64.Idx) (q : dot_S256x2047_S2047x64_S256x64_1_0_0_1_n_n.contr.Idx) :
    (dot_S256x2047_S2047x64_S256x64_1_0_0_1_n_n.rhsIdx i q 0).val = (q ⟨0, by decide⟩).val :=
  dot_S256x2047_S2047x64_S256x64_1_0_0_1_n_n.rhsIdx_val_of_single rfl i q
theorem pv1_rhs1 (i : S256x64.Idx) (q : dot_S256x2047_S2047x64_S256x64_1_0_0_1_n_n.contr.Idx) :
    (dot_S256x2047_S2047x64_S256x64_1_0_0_1_n_n.rhsIdx i q 1).val = (i 1).val := by
  unfold DotDims.rhsIdx
  rw [dif_neg (show ¬(1 : Fin S2047x64.rank) ∈ dot_S256x2047_S2047x64_S256x64_1_0_0_1_n_n.rhsBatch by decide),
    dif_pos (show (1 : Fin S2047x64.rank) ∈ dot_S256x2047_S2047x64_S256x64_1_0_0_1_n_n.rhsNonContracting by decide)]
  rfl

/-- Rows against columns: entry (r, d) of the plain product over the 2047 keys, into zero. -/
theorem matmul1_rows_cols {φ₁ φ₂ : FTy} (a : FVec Ideal S256x2047 φ₁) (b : FVec Ideal S2047x64 φ₂) (r : Fin 256) (d : Fin 64) :
    matmul dot_S256x2047_S2047x64_S256x64_1_0_0_1_n_n none a b (constant (F := Ideal) S256x64 .f32 0x00000000#32) (ix2 r d)
      = ∑ j : Fin 2047, a (ix2 r j) * b (ix2 j d) := by
  simp only [matmul]
  rw [Ideal.matmul_constant_zero_apply, ← Equiv.sum_comp (contrEquiv1 dot_S256x2047_S2047x64_S256x64_1_0_0_1_n_n 2047 rfl rfl).symm]
  refine Finset.sum_congr rfl fun k _ => ?_
  have hk := contrEquiv1_symm_val dot_S256x2047_S2047x64_S256x64_1_0_0_1_n_n 2047 rfl rfl k
  have el : dot_S256x2047_S2047x64_S256x64_1_0_0_1_n_n.lhsIdx (ix2 r d) ((contrEquiv1 dot_S256x2047_S2047x64_S256x64_1_0_0_1_n_n 2047 rfl rfl).symm k) = ix2 r k :=
    funext fun ax => Fin.ext (by
      match ax with
      | ⟨0, _⟩ => exact pv1_lhs0 _ _
      | ⟨1, _⟩ => exact (pv1_lhs1 _ _).trans hk)
  have er : dot_S256x2047_S2047x64_S256x64_1_0_0_1_n_n.rhsIdx (ix2 r d) ((contrEquiv1 dot_S256x2047_S2047x64_S256x64_1_0_0_1_n_n 2047 rfl rfl).symm k) = ix2 k d :=
    funext fun ax => Fin.ext (by
      match ax with
      | ⟨0, _⟩ => exact (pv1_rhs0 _ _).trans hk
      | ⟨1, _⟩ => exact pv1_rhs1 _ _)
  rw [el, er]

/-! ## Each row of scores as probabilities -/

/-- The source index over row r with column k. -/
theorem lift_row1 (r : Fin 256) (k : Fin 2047) : reduces_S256x2047_S256.lift (ix1 r) k = ix2 r k :=
  funext fun c => Fin.ext (by match c with | ⟨0, _⟩ => rfl | ⟨1, _⟩ => rfl)

/-- The row maximum folded from minus infinity. -/
theorem rowMax1_apply (v : FVec Ideal S256x2047 .f32) (r : Fin 256) :
    multiReduction .maximumf [1] S256 v 0xFF800000#32 reduces_S256x2047_S256 (.inl rfl) rfl (ix1 r)
      = Spec.rowMaxK (fun j : Fin 2047 => v (ix2 r j)) := by
  refine (Ideal.multiReduction_maximumf_single v _ reduces_S256x2047_S256 _ _ (ix1 r)).trans ?_
  unfold Spec.rowMaxK
  refine congrArg (fun f : Fin 2047 → EReal => (Finset.univ : Finset (Fin 2047)).fold max Spec.negInf f) ?_
  exact funext fun k => congrArg v (lift_row1 r k)

/-- The row sum. -/
theorem rowSum1_apply (v : FVec Ideal S256x2047 .f32) (r : Fin 256) :
    multiReduction .add [1] S256 v 0x00000000#32 reduces_S256x2047_S256 (.inl rfl) rfl (ix1 r) = ∑ j : Fin 2047, v (ix2 r j) := by
  refine (Ideal.multiReduction_add_single v _ reduces_S256x2047_S256 _ _ (ix1 r)).trans ?_
  exact Finset.sum_congr rfl fun k _ => congrArg v (lift_row1 r k)

/-- Scores less their row's maximum. -/
def shifted1 (v : FVec Ideal S256x2047 .f32) : FVec Ideal S256x2047 .f32 :=
  subf v (broadcastTo S256x2047 (shapeCast S256x1 (multiReduction .maximumf [1] S256 v 0xFF800000#32 reduces_S256x2047_S256 (.inl rfl) rfl) shapeCasts_S256_S256x1) broadcasts_S256x1_S256x2047)

theorem shifted1_apply (v : FVec Ideal S256x2047 .f32) (r : Fin 256) (j : Fin 2047) :
    shifted1 v (ix2 r j) = v (ix2 r j) - Spec.rowMaxK (fun j' : Fin 2047 => v (ix2 r j')) := by
  unfold shifted1
  show v (ix2 r j) - broadcastTo S256x2047 _ broadcasts_S256x1_S256x2047 (ix2 r j) = _
  rw [bcast_a1_ab, cast_a_a1, rowMax1_apply]

/-- The exponentials of shifted scores times the reciprocal of their row sum, at (r, j). -/
theorem pay9_apply (w : FVec Ideal S256x2047 .f32) (r : Fin 256) (j : Fin 2047) :
    k1_pay9 (F := Ideal) w (ix2 r j) = Ideal.exp (w (ix2 r j)) * Ideal.div Spec.oneE (∑ j' : Fin 2047, Ideal.exp (w (ix2 r j'))) := by
  show Ideal.exp (w (ix2 r j)) * broadcastTo S256x2047 _ broadcasts_S256x1_S256x2047 (ix2 r j) = _
  rw [bcast_a1_ab]
  show Ideal.exp (w (ix2 r j)) * Ideal.div Spec.oneE (shapeCast S256x1 _ shapeCasts_S256_S256x1 (ix2 r (0 : Fin 1))) = _
  rw [cast_a_a1, rowSum1_apply]
  rfl

/-- Row r of the probabilities is the row of scores as probabilities. -/
theorem softmax1_apply (v : FVec Ideal S256x2047 .f32) (r : Fin 256) (j : Fin 2047) :
    k1_pay9 (F := Ideal) (shifted1 v) (ix2 r j) = Spec.smaxK (fun j' : Fin 2047 => v (ix2 r j')) j := by
  rw [pay9_apply]
  unfold Spec.smaxK
  rw [shifted1_apply]
  refine congrArg _ (congrArg _ (Finset.sum_congr rfl fun k _ => ?_))
  rw [shifted1_apply]

/-! ## The layout casts of the loaded buffers, and the scaled query -/

/-- A key or value buffer as a matrix, at (j, d). -/
theorem pay3_apply (x : Vec Ideal S1x1x2047x64 .f32) (j : Fin 2047) (d : Fin 64) :
    k1_pay3 (F := Ideal) x (ix2 j d) = x (ix4 (0 : Fin 1) (0 : Fin 1) j d) := cast_11ab_ab x _ j d
theorem pay5_apply (x : Vec Ideal S1x1x2047x64 .f32) (j : Fin 2047) (d : Fin 64) :
    k1_pay5 (F := Ideal) x (ix2 j d) = x (ix4 (0 : Fin 1) (0 : Fin 1) j d) := cast_11ab_ab x _ j d
theorem pay6_apply (x : Vec Ideal S1x1x2047x64 .f32) (j : Fin 2047) (d : Fin 64) :
    k1_pay6 (F := Ideal) x (ix2 j d) = x (ix4 (0 : Fin 1) (0 : Fin 1) j d) := cast_11ab_ab x _ j d
theorem pay7_apply (x : Vec Ideal S1x1x2047x64 .f32) (j : Fin 2047) (d : Fin 64) :
    k1_pay7 (F := Ideal) x (ix2 j d) = x (ix4 (0 : Fin 1) (0 : Fin 1) j d) := cast_11ab_ab x _ j d

/-- The distance stream's query buffer as a matrix, scaled by 1/8, at (r, d). -/
theorem pay4_apply (x : Vec Ideal S1x1x256x64 .f32) (r : Fin 256) (d : Fin 64) :
    k1_pay4 (F := Ideal) x (ix2 r d) = x (ix4 (0 : Fin 1) (0 : Fin 1) r d) * Spec.eighth := by
  show shapeCast S256x64 x shapeCasts_S1x1x256x64_S256x64 (ix2 r d) * Spec.eighth = _
  rw [cast_11ab_ab x _ r d]

/-! ## The scores -/

/-- The time stream's scaled scores, as the body computes them from its two buffers. -/
def scoresT (x0 : Vec Ideal S1x1x256x64 .f32) (x1 : Vec Ideal S1x1x2047x64 .f32) : FVec Ideal S256x2047 .f32 :=
  matmul dot_S256x64_S2047x64_S256x2047_1_1_0_0_n_n none
    (truncf .bf16 (mulf (shapeCast S256x64 x0 shapeCasts_S1x1x256x64_S256x64) (broadcast S256x64 (Scalar.ofBits (F := Ideal) .f32 0x3E000000#32))) bitsLt_bf16_f32)
    (truncf .bf16 (shapeCast S2047x64 x1 shapeCasts_S1x1x2047x64_S2047x64) bitsLt_bf16_f32)
    (constant S256x2047 .f32 0x00000000#32)

/-- The scores less their row maxima are what the first half of the body hands on. -/
theorem pay8_eq (x0 : Vec Ideal S1x1x256x64 .f32) (x1 : Vec Ideal S1x1x2047x64 .f32) :
    k1_pay8 (F := Ideal) x0 x1 = shifted1 (scoresT x0 x1) := rfl

/-- A score at (r, j) is the scaled dot product of query row r with key row j. -/
theorem scoresT_apply (x0 : Vec Ideal S1x1x256x64 .f32) (x1 : Vec Ideal S1x1x2047x64 .f32) (r : Fin 256) (j : Fin 2047) :
    scoresT x0 x1 (ix2 r j)
      = Spec.dotK (fun d => x0 (ix4 (0 : Fin 1) (0 : Fin 1) r d)) (fun d => x1 (ix4 (0 : Fin 1) (0 : Fin 1) j d)) := by
  unfold scoresT
  rw [matmul1_rows_rows]
  unfold Spec.dotK
  refine Finset.sum_congr rfl fun d _ => ?_
  show (shapeCast S256x64 x0 shapeCasts_S1x1x256x64_S256x64 (ix2 r d) * Spec.eighth) * shapeCast S2047x64 x1 shapeCasts_S1x1x2047x64_S2047x64 (ix2 j d) = _
  rw [cast_11ab_ab x0 _ r d, cast_11ab_ab x1 _ j d]

/-- The distance stream's scores from the scaled query matrix and the key matrix. -/
def scoresD (q : FVec Ideal S256x64 .f32) (k : FVec Ideal S2047x64 .f32) : FVec Ideal S256x2047 .f32 :=
  matmul dot_S256x64_S2047x64_S256x2047_1_1_0_0_n_n none (truncf .bf16 q bitsLt_bf16_f32) (truncf .bf16 k bitsLt_bf16_f32) (constant S256x2047 .f32 0x00000000#32)

/-- The distance stream's probabilities are the rows of its scores as probabilities. -/
theorem pay10_eq (q : FVec Ideal S256x64 .f32) (k : FVec Ideal S2047x64 .f32) :
    k1_pay10 (F := Ideal) q k = k1_pay9 (F := Ideal) (shifted1 (scoresD q k)) := rfl

theorem scoresD_apply (x3 : Vec Ideal S1x1x256x64 .f32) (x4 : Vec Ideal S1x1x2047x64 .f32) (r : Fin 256) (j : Fin 2047) :
    scoresD (k1_pay4 (F := Ideal) x3) (k1_pay5 (F := Ideal) x4) (ix2 r j)
      = Spec.dotK (fun d => x3 (ix4 (0 : Fin 1) (0 : Fin 1) r d)) (fun d => x4 (ix4 (0 : Fin 1) (0 : Fin 1) j d)) := by
  unfold scoresD
  rw [matmul1_rows_rows]
  unfold Spec.dotK
  refine Finset.sum_congr rfl fun d _ => ?_
  show k1_pay4 (F := Ideal) x3 (ix2 r d) * k1_pay5 (F := Ideal) x4 (ix2 j d) = _
  rw [pay4_apply, pay5_apply]

/-! ## The five staging buffers after the body, entry by entry -/

/-- The time stream's probabilities' buffer: row r is the row of scaled scores of query row r as probabilities. -/
theorem o7_apply (x0 : Vec Ideal S1x1x256x64 .f32) (x1 : Vec Ideal S1x1x2047x64 .f32) (u v : Fin 1) (r : Fin 256) (j : Fin 2047) :
    o7 (F := Ideal) x0 x1 (ix4 u v r j)
      = Spec.smaxK (fun j' : Fin 2047 => Spec.dotK (fun d => x0 (ix4 (0 : Fin 1) (0 : Fin 1) r d)) (fun d => x1 (ix4 (0 : Fin 1) (0 : Fin 1) j' d))) j := by
  show shapeCast S1x1x256x2047 (k1_pay9 (F := Ideal) (shifted1 (scoresT x0 x1))) shapeCasts_S256x2047_S1x1x256x2047 (ix4 u v r j) = _
  rw [cast_ab_11ab, softmax1_apply]
  exact congrArg (fun s => Spec.smaxK s j) (funext fun j' => scoresT_apply x0 x1 r j')

/-- The distance stream's probabilities' buffer. -/
theorem o8_apply (x3 : Vec Ideal S1x1x256x64 .f32) (x4 : Vec Ideal S1x1x2047x64 .f32) (u v : Fin 1) (r : Fin 256) (j : Fin 2047) :
    o8 (F := Ideal) x3 x4 (ix4 u v r j)
      = Spec.smaxK (fun j' : Fin 2047 => Spec.dotK (fun d => x3 (ix4 (0 : Fin 1) (0 : Fin 1) r d)) (fun d => x4 (ix4 (0 : Fin 1) (0 : Fin 1) j' d))) j := by
  show shapeCast S1x1x256x2047 (k1_pay9 (F := Ideal) (shifted1 (scoresD (k1_pay4 (F := Ideal) x3) (k1_pay5 (F := Ideal) x4)))) shapeCasts_S256x2047_S1x1x256x2047 (ix4 u v r j) = _
  rw [cast_ab_11ab, softmax1_apply]
  exact congrArg (fun s => Spec.smaxK s j) (funext fun j' => scoresD_apply x3 x4 r j')

/-- The time stream's output buffer: the probabilities' row times the value block's column. -/
theorem o9_apply (x0 : Vec Ideal S1x1x256x64 .f32) (x1 x2 : Vec Ideal S1x1x2047x64 .f32) (u v : Fin 1) (r : Fin 256) (d : Fin 64) :
    o9 (F := Ideal) x0 x1 x2 (ix4 u v r d)
      = ∑ j : Fin 2047, o7 (F := Ideal) x0 x1 (ix4 (0 : Fin 1) (0 : Fin 1) r j) * x2 (ix4 (0 : Fin 1) (0 : Fin 1) j d) := by
  show shapeCast S1x1x256x64 (matmul dot_S256x2047_S2047x64_S256x64_1_0_0_1_n_n none
      (truncf .bf16 (k1_pay9 (F := Ideal) (k1_pay8 (F := Ideal) x0 x1)) bitsLt_bf16_f32)
      (truncf .bf16 (k1_pay3 (F := Ideal) x2) bitsLt_bf16_f32)
      (constant S256x64 .f32 0x00000000#32)) shapeCasts_S256x64_S1x1x256x64 (ix4 u v r d) = _
  rw [cast_ab_11ab, matmul1_rows_cols]
  refine Finset.sum_congr rfl fun j _ => ?_
  show k1_pay9 (F := Ideal) (k1_pay8 (F := Ideal) x0 x1) (ix2 r j) * k1_pay3 (F := Ideal) x2 (ix2 j d)
    = shapeCast S1x1x256x2047 (k1_pay9 (F := Ideal) (k1_pay8 (F := Ideal) x0 x1)) shapeCasts_S256x2047_S1x1x256x2047 (ix4 (0 : Fin 1) (0 : Fin 1) r j) * x2 (ix4 (0 : Fin 1) (0 : Fin 1) j d)
  rw [pay3_apply, cast_ab_11ab]

/-- The distance stream's output buffer. -/
theorem o10_apply (x3 : Vec Ideal S1x1x256x64 .f32) (x4 x5 : Vec Ideal S1x1x2047x64 .f32) (u v : Fin 1) (r : Fin 256) (d : Fin 64) :
    o10 (F := Ideal) x3 x4 x5 (ix4 u v r d)
      = ∑ j : Fin 2047, o8 (F := Ideal) x3 x4 (ix4 (0 : Fin 1) (0 : Fin 1) r j) * x5 (ix4 (0 : Fin 1) (0 : Fin 1) j d) := by
  show shapeCast S1x1x256x64 (matmul dot_S256x2047_S2047x64_S256x64_1_0_0_1_n_n none
      (truncf .bf16 (k1_pay10 (F := Ideal) (k1_pay4 (F := Ideal) x3) (k1_pay5 (F := Ideal) x4)) bitsLt_bf16_f32)
      (truncf .bf16 (k1_pay6 (F := Ideal) x5) bitsLt_bf16_f32)
      (constant S256x64 .f32 0x00000000#32)) shapeCasts_S256x64_S1x1x256x64 (ix4 u v r d) = _
  rw [cast_ab_11ab, matmul1_rows_cols]
  refine Finset.sum_congr rfl fun j _ => ?_
  show k1_pay10 (F := Ideal) (k1_pay4 (F := Ideal) x3) (k1_pay5 (F := Ideal) x4) (ix2 r j) * k1_pay6 (F := Ideal) x5 (ix2 j d)
    = shapeCast S1x1x256x2047 (k1_pay10 (F := Ideal) (k1_pay4 (F := Ideal) x3) (k1_pay5 (F := Ideal) x4)) shapeCasts_S256x2047_S1x1x256x2047 (ix4 (0 : Fin 1) (0 : Fin 1) r j) * x5 (ix4 (0 : Fin 1) (0 : Fin 1) j d)
  rw [pay6_apply, cast_ab_11ab]

/-- The cross product's buffer: the sum of the two streams' probability rows times the poi value block's column. -/
theorem o11_apply (x0 : Vec Ideal S1x1x256x64 .f32) (x1 : Vec Ideal S1x1x2047x64 .f32) (x3 : Vec Ideal S1x1x256x64 .f32)
    (x4 x6 : Vec Ideal S1x1x2047x64 .f32) (u v : Fin 1) (r : Fin 256) (d : Fin 64) :
    o11 (F := Ideal) x0 x1 x3 x4 x6 (ix4 u v r d)
      = ∑ j : Fin 2047, (o7 (F := Ideal) x0 x1 (ix4 (0 : Fin 1) (0 : Fin 1) r j) + o8 (F := Ideal) x3 x4 (ix4 (0 : Fin 1) (0 : Fin 1) r j))
          * x6 (ix4 (0 : Fin 1) (0 : Fin 1) j d) := by
  show shapeCast S1x1x256x64 (matmul dot_S256x2047_S2047x64_S256x64_1_0_0_1_n_n none
      (truncf .bf16 (addf (k1_pay9 (F := Ideal) (k1_pay8 (F := Ideal) x0 x1)) (k1_pay10 (F := Ideal) (k1_pay4 (F := Ideal) x3) (k1_pay5 (F := Ideal) x4))) bitsLt_bf16_f32)
      (truncf .bf16 (k1_pay7 (F := Ideal) x6) bitsLt_bf16_f32)
      (constant S256x64 .f32 0x00000000#32)) shapeCasts_S256x64_S1x1x256x64 (ix4 u v r d) = _
  rw [cast_ab_11ab, matmul1_rows_cols]
  refine Finset.sum_congr rfl fun j _ => ?_
  show (k1_pay9 (F := Ideal) (k1_pay8 (F := Ideal) x0 x1) (ix2 r j) + k1_pay10 (F := Ideal) (k1_pay4 (F := Ideal) x3) (k1_pay5 (F := Ideal) x4) (ix2 r j)) * k1_pay7 (F := Ideal) x6 (ix2 j d)
    = (shapeCast S1x1x256x2047 (k1_pay9 (F := Ideal) (k1_pay8 (F := Ideal) x0 x1)) shapeCasts_S256x2047_S1x1x256x2047 (ix4 (0 : Fin 1) (0 : Fin 1) r j)
        + shapeCast S1x1x256x2047 (k1_pay10 (F := Ideal) (k1_pay4 (F := Ideal) x3) (k1_pay5 (F := Ideal) x4)) shapeCasts_S256x2047_S1x1x256x2047 (ix4 (0 : Fin 1) (0 : Fin 1) r j))
      * x6 (ix4 (0 : Fin 1) (0 : Fin 1) j d)
  rw [pay7_apply, cast_ab_11ab, cast_ab_11ab]

end Cert.KernelIdeal.Hand

end
-- ==== Proof.Ideal.TdSpec.lean ====
/-
  Region 1 at the exact reals: the five arrays its write-backs are shown to leave, as the attention functions of the
  arrays the region is entered with — the two streams' probabilities, their products with the streams' value rows,
  and the product of the summed probabilities with the poi value rows.
-/
import proofs.«111166_j1640677507314_2_alg».proof.Proof.Ideal.TdAfter
import proofs.«111166_j1640677507314_2_alg».proof.Proof.Spec

noncomputable section

namespace Cert.KernelIdeal.Hand

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (c : Dev nD)

/-- The time stream's probabilities. -/
def P2 : S2x8x2047x2047.Idx → EReal := Spec.attnPlain Spec.dotK @Spec.smaxK (V c main_arg3) (V c main_arg4)
/-- The distance stream's probabilities. -/
def P3 : S2x8x2047x2047.Idx → EReal := Spec.attnPlain Spec.dotK @Spec.smaxK (V c main_arg6) (V c main_arg7)
/-- The time stream's output. -/
def TOut : S2x8x2047x64.Idx → EReal := Spec.apply (P2 V c) (V c main_arg5)
/-- The distance stream's output. -/
def DOut : S2x8x2047x64.Idx → EReal := Spec.apply (P3 V c) (V c main_arg8)
/-- The summed probabilities times the poi value rows (the sliced poi values, a host result, as the region finds them). -/
def XOut : S2x8x2047x64.Idx → EReal := Spec.apply (Spec.addA (P2 V c) (P3 V c)) (V c main_v1)

end Cert.KernelIdeal.Hand

end
-- ==== Proof.Ideal.TdValueB.lean ====
/-
  Region 1: every output row of the body depends on the query buffers through the same row alone, so on the rows inside
  the array each output buffer holds the block of the attention functions of the whole arrays.
-/
import proofs.«111166_j1640677507314_2_alg».proof.Proof.Ideal.TdValueA
import proofs.«111166_j1640677507314_2_alg».proof.Proof.Ideal.TdSpec

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! ## Buffers that hold rows of the arrays -/

/-- If row r of the query buffer is row R of the query array (batch b, head h) and the key buffer is the key array's
    block, row r of the probabilities' buffer is row R of the array's probabilities. -/
theorem o7_row (x0 : Vec Ideal S1x1x256x64 .f32) (x1 : Vec Ideal S1x1x2047x64 .f32) (Q K : Spec.A 2 8 2047 64)
    (b : Fin 2) (h : Fin 8) (R : Fin 2047) (u v : Fin 1) (r : Fin 256) (j : Fin 2047)
    (hq : ∀ d, x0 (ix4 (0 : Fin 1) (0 : Fin 1) r d) = Q (ix4 b h R d))
    (hk : ∀ j' d, x1 (ix4 (0 : Fin 1) (0 : Fin 1) j' d) = K (ix4 b h j' d)) :
    o7 (F := Ideal) x0 x1 (ix4 u v r j) = Spec.attnPlain Spec.dotK @Spec.smaxK Q K (ix4 b h R j) := by
  rw [o7_apply, Spec.attnPlain_ix4]
  unfold Spec.attnPlainAt Spec.score
  refine congrArg (fun s => Spec.smaxK s j) (funext fun j' => ?_)
  exact congrArg₂ Spec.dotK (funext hq) (funext (hk j'))

theorem o8_row (x3 : Vec Ideal S1x1x256x64 .f32) (x4 : Vec Ideal S1x1x2047x64 .f32) (Q K : Spec.A 2 8 2047 64)
    (b : Fin 2) (h : Fin 8) (R : Fin 2047) (u v : Fin 1) (r : Fin 256) (j : Fin 2047)
    (hq : ∀ d, x3 (ix4 (0 : Fin 1) (0 : Fin 1) r d) = Q (ix4 b h R d))
    (hk : ∀ j' d, x4 (ix4 (0 : Fin 1) (0 : Fin 1) j' d) = K (ix4 b h j' d)) :
    o8 (F := Ideal) x3 x4 (ix4 u v r j) = Spec.attnPlain Spec.dotK @Spec.smaxK Q K (ix4 b h R j) := by
  rw [o8_apply, Spec.attnPlain_ix4]
  unfold Spec.attnPlainAt Spec.score
  refine congrArg (fun s => Spec.smaxK s j) (funext fun j' => ?_)
  exact congrArg₂ Spec.dotK (funext hq) (funext (hk j'))

/-- With the value buffer the value array's block as well, row r of the output buffer is row R of the probabilities
    times the value rows. -/
theorem o9_row (x0 : Vec Ideal S1x1x256x64 .f32) (x1 x2 : Vec Ideal S1x1x2047x64 .f32) (Q K W : Spec.A 2 8 2047 64)
    (b : Fin 2) (h : Fin 8) (R : Fin 2047) (u v : Fin 1) (r : Fin 256) (d : Fin 64)
    (hq : ∀ d, x0 (ix4 (0 : Fin 1) (0 : Fin 1) r d) = Q (ix4 b h R d))
    (hk : ∀ j' d, x1 (ix4 (0 : Fin 1) (0 : Fin 1) j' d) = K (ix4 b h j' d))
    (hv : ∀ j' d, x2 (ix4 (0 : Fin 1) (0 : Fin 1) j' d) = W (ix4 b h j' d)) :
    o9 (F := Ideal) x0 x1 x2 (ix4 u v r d) = Spec.apply (Spec.attnPlain Spec.dotK @Spec.smaxK Q K) W (ix4 b h R d) := by
  rw [o9_apply, Spec.apply_ix4]
  unfold Spec.applyAt
  refine Finset.sum_congr rfl fun j _ => ?_
  rw [o7_row x0 x1 Q K b h R _ _ r j hq hk, hv]

theorem o10_row (x3 : Vec Ideal S1x1x256x64 .f32) (x4 x5 : Vec Ideal S1x1x2047x64 .f32) (Q K W : Spec.A 2 8 2047 64)
    (b : Fin 2) (h : Fin 8) (R : Fin 2047) (u v : Fin 1) (r : Fin 256) (d : Fin 64)
    (hq : ∀ d, x3 (ix4 (0 : Fin 1) (0 : Fin 1) r d) = Q (ix4 b h R d))
    (hk : ∀ j' d, x4 (ix4 (0 : Fin 1) (0 : Fin 1) j' d) = K (ix4 b h j' d))
    (hv : ∀ j' d, x5 (ix4 (0 : Fin 1) (0 : Fin 1) j' d) = W (ix4 b h j' d)) :
    o10 (F := Ideal) x3 x4 x5 (ix4 u v r d) = Spec.apply (Spec.attnPlain Spec.dotK @Spec.smaxK Q K) W (ix4 b h R d) := by
  rw [o10_apply, Spec.apply_ix4]
  unfold Spec.applyAt
  refine Finset.sum_congr rfl fun j _ => ?_
  rw [o8_row x3 x4 Q K b h R _ _ r j hq hk, hv]

/-- The cross product's buffer, row r: the sum of the two streams' probability rows R times the poi value rows. -/
theorem o11_row (x0 : Vec Ideal S1x1x256x64 .f32) (x1 : Vec Ideal S1x1x2047x64 .f32) (x3 : Vec Ideal S1x1x256x64 .f32)
    (x4 x6 : Vec Ideal S1x1x2047x64 .f32) (Q K Q' K' W : Spec.A 2 8 2047 64)
    (b : Fin 2) (h : Fin 8) (R : Fin 2047) (u v : Fin 1) (r : Fin 256) (d : Fin 64)
    (hq : ∀ d, x0 (ix4 (0 : Fin 1) (0 : Fin 1) r d) = Q (ix4 b h R d))
    (hk : ∀ j' d, x1 (ix4 (0 : Fin 1) (0 : Fin 1) j' d) = K (ix4 b h j' d))
    (hq' : ∀ d, x3 (ix4 (0 : Fin 1) (0 : Fin 1) r d) = Q' (ix4 b h R d))
    (hk' : ∀ j' d, x4 (ix4 (0 : Fin 1) (0 : Fin 1) j' d) = K' (ix4 b h j' d))
    (hv : ∀ j' d, x6 (ix4 (0 : Fin 1) (0 : Fin 1) j' d) = W (ix4 b h j' d)) :
    o11 (F := Ideal) x0 x1 x3 x4 x6 (ix4 u v r d)
      = Spec.apply (Spec.addA (Spec.attnPlain Spec.dotK @Spec.smaxK Q K) (Spec.attnPlain Spec.dotK @Spec.smaxK Q' K')) W (ix4 b h R d) := by
  rw [o11_apply, Spec.apply_ix4]
  unfold Spec.applyAt Spec.addA
  refine Finset.sum_congr rfl fun j _ => ?_
  rw [o7_row x0 x1 Q K b h R _ _ r j hq hk, o8_row x3 x4 Q' K' b h R _ _ r j hq' hk', hv]

end Cert.KernelIdeal.Hand

end
-- ==== Proof.Ideal.TdValue.lean ====
/-
  Region 1, output by output: on the rows inside the array, from query buffers filled out with any words past the
  array's end, each output buffer holds the block of its whole array.

  A block's element sits in its array at block index times block size plus its coordinate inside the block; the
  query and output blocks at grid point (b, i, h) start at row 256·i of batch b and head h, and the key and value
  blocks are all 2047 rows of that batch and head.  A row of an output block that the write-back reads lies inside the
  array, so the same row of the query buffer was fetched from the array and holds none of the filler.
-/
import proofs.«111166_j1640677507314_2_alg».proof.Proof.Ideal.TdValueB

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! ## The index maps at a grid point -/

/-- A small natural number survives the round trip through a 32-bit word. -/
theorem toNat_ofNat_small (n : Nat) (h : n < 4294967296) : (BitVec.ofNat 32 n).toNat = n := by
  rw [BitVec.toNat_ofNat]; exact Nat.mod_eq_of_lt h

/-- The query and output blocks at grid point (b, i, h) have block index (b, h, i, 0). -/
theorem trQ (x : grid1.Coords) : cc1_transform_0 x = ![(x (0 : Fin 3)).val, (x (2 : Fin 3)).val, (x (1 : Fin 3)).val, 0] := by
  have h0 : (x (0 : Fin 3)).val < 2 := (x (0 : Fin 3)).isLt
  have h1 : (x (1 : Fin 3)).val < 8 := (x (1 : Fin 3)).isLt
  have h2 : (x (2 : Fin 3)).val < 8 := (x (2 : Fin 3)).isLt
  funext a
  match a with
  | ⟨0, _⟩ => exact toNat_ofNat_small _ (by omega)
  | ⟨1, _⟩ => exact toNat_ofNat_small _ (by omega)
  | ⟨2, _⟩ => exact toNat_ofNat_small _ (by omega)
  | ⟨3, _⟩ => rfl

/-- The key and value blocks at grid point (b, i, h) have block index (b, h, 0, 0). -/
theorem trK (x : grid1.Coords) : cc1_transform_1 x = ![(x (0 : Fin 3)).val, (x (2 : Fin 3)).val, 0, 0] := by
  have h0 : (x (0 : Fin 3)).val < 2 := (x (0 : Fin 3)).isLt
  have h2 : (x (2 : Fin 3)).val < 8 := (x (2 : Fin 3)).isLt
  funext a
  match a with
  | ⟨0, _⟩ => exact toNat_ofNat_small _ (by omega)
  | ⟨1, _⟩ => exact toNat_ofNat_small _ (by omega)
  | ⟨2, _⟩ => rfl
  | ⟨3, _⟩ => rfl

/-- The grid point's coordinates as numbers of their literal ranges. -/
theorem coords_lit (t : Fin cfg1.N) : ∃ (b : Fin 2) (i h : Fin 8), ((cfg1.grid.coords t) (0 : Fin 3)).val = b.val
    ∧ ((cfg1.grid.coords t) (1 : Fin 3)).val = i.val ∧ ((cfg1.grid.coords t) (2 : Fin 3)).val = h.val :=
  ⟨⟨_, ((cfg1.grid.coords t) (0 : Fin 3)).isLt⟩, ⟨_, ((cfg1.grid.coords t) (1 : Fin 3)).isLt⟩, ⟨_, ((cfg1.grid.coords t) (2 : Fin 3)).isLt⟩, rfl, rfl, rfl⟩

variable (V : (c : Dev nD) → (b : Ref sig .tc) → Buf (Elt Ideal) ((c : Thread nD τ).loc b)) (c : Dev nD)

/-! ## What the input buffers hold -/

/-- Window 0's query buffer, filled out with any words: a row inside the array holds the array's row. -/
theorem queryRow0 (t : Fin cfg1.N) (d0 : S1x1x256x64.Idx → Elt Ideal .f32) (b : Fin 2) (i h : Fin 8) (hb : ((cfg1.grid.coords t) (0 : Fin 3)).val = b.val) (hi : ((cfg1.grid.coords t) (1 : Fin 3)).val = i.val) (hh : ((cfg1.grid.coords t) (2 : Fin 3)).val = h.val)
    (r : Fin 256) (hr : r.val < (cfg1.win 0).xsize (cfg1.grid.coords t) (2 : Fin 4)) (R : Fin 2047) (hR : R.val = 256 * i.val + r.val) (d : Fin 64) :
    (cfg1.win 0).fill (cfg1.grid.coords t) d0 (iblk1 V c 0 t) (ix4 (0 : Fin 1) (0 : Fin 1) r d) = V c main_arg3 (ix4 b h R d) := by
  have hm : (cfg1.win 0).moved (cfg1.grid.coords t) (ix4 (0 : Fin 1) (0 : Fin 1) r d) = true :=
    ((cfg1.win 0).moved_iff _ _).mpr fun a => by
      match a with
      | ⟨0, _⟩ => exact Pipeline.Clip.extent_pos ((cfg1.win 0).hclip (cfg1.grid.coords t) (0 : Fin 4)) Nat.one_pos
      | ⟨1, _⟩ => exact Pipeline.Clip.extent_pos ((cfg1.win 0).hclip (cfg1.grid.coords t) (1 : Fin 4)) Nat.one_pos
      | ⟨2, _⟩ => exact hr
      | ⟨3, _⟩ => exact (show d.val < 64 from d.isLt)
  unfold Pipeline.Window.fill
  rw [dif_pos hm]
  show V c main_arg3 (((cfg1.win 0).blk t).view.emb _) = _
  refine congrArg (V c main_arg3) (funext fun a => Fin.ext ?_)
  have e0 : cc1_transform_0 (cfg1.grid.coords t) (0 : Fin 4) = b.val := (congrFun (trQ (cfg1.grid.coords t)) (0 : Fin 4)).trans hb
  have e1 : cc1_transform_0 (cfg1.grid.coords t) (1 : Fin 4) = h.val := (congrFun (trQ (cfg1.grid.coords t)) (1 : Fin 4)).trans hh
  have e2 : cc1_transform_0 (cfg1.grid.coords t) (2 : Fin 4) = i.val := (congrFun (trQ (cfg1.grid.coords t)) (2 : Fin 4)).trans hi
  have e3 : cc1_transform_0 (cfg1.grid.coords t) (3 : Fin 4) = 0 := congrFun (trQ (cfg1.grid.coords t)) (3 : Fin 4)
  match a with
  | ⟨0, _⟩ => show cc1_transform_0 (cfg1.grid.coords t) (0 : Fin 4) * 1 + 1 * 0 = b.val; omega
  | ⟨1, _⟩ => show cc1_transform_0 (cfg1.grid.coords t) (1 : Fin 4) * 1 + 1 * 0 = h.val; omega
  | ⟨2, _⟩ => show cc1_transform_0 (cfg1.grid.coords t) (2 : Fin 4) * 256 + 1 * r.val = R.val; omega
  | ⟨3, _⟩ => show cc1_transform_0 (cfg1.grid.coords t) (3 : Fin 4) * 64 + 1 * d.val = d.val; omega

/-- Window 3's query buffer, filled out with any words: a row inside the array holds the array's row. -/
theorem queryRow3 (t : Fin cfg1.N) (d0 : S1x1x256x64.Idx → Elt Ideal .f32) (b : Fin 2) (i h : Fin 8) (hb : ((cfg1.grid.coords t) (0 : Fin 3)).val = b.val) (hi : ((cfg1.grid.coords t) (1 : Fin 3)).val = i.val) (hh : ((cfg1.grid.coords t) (2 : Fin 3)).val = h.val)
    (r : Fin 256) (hr : r.val < (cfg1.win 3).xsize (cfg1.grid.coords t) (2 : Fin 4)) (R : Fin 2047) (hR : R.val = 256 * i.val + r.val) (d : Fin 64) :
    (cfg1.win 3).fill (cfg1.grid.coords t) d0 (iblk1 V c 3 t) (ix4 (0 : Fin 1) (0 : Fin 1) r d) = V c main_arg6 (ix4 b h R d) := by
  have hm : (cfg1.win 3).moved (cfg1.grid.coords t) (ix4 (0 : Fin 1) (0 : Fin 1) r d) = true :=
    ((cfg1.win 3).moved_iff _ _).mpr fun a => by
      match a with
      | ⟨0, _⟩ => exact Pipeline.Clip.extent_pos ((cfg1.win 3).hclip (cfg1.grid.coords t) (0 : Fin 4)) Nat.one_pos
      | ⟨1, _⟩ => exact Pipeline.Clip.extent_pos ((cfg1.win 3).hclip (cfg1.grid.coords t) (1 : Fin 4)) Nat.one_pos
      | ⟨2, _⟩ => exact hr
      | ⟨3, _⟩ => exact (show d.val < 64 from d.isLt)
  unfold Pipeline.Window.fill
  rw [dif_pos hm]
  show V c main_arg6 (((cfg1.win 3).blk t).view.emb _) = _
  refine congrArg (V c main_arg6) (funext fun a => Fin.ext ?_)
  have e0 : cc1_transform_3 (cfg1.grid.coords t) (0 : Fin 4) = b.val := (congrFun (trQ (cfg1.grid.coords t)) (0 : Fin 4)).trans hb
  have e1 : cc1_transform_3 (cfg1.grid.coords t) (1 : Fin 4) = h.val := (congrFun (trQ (cfg1.grid.coords t)) (1 : Fin 4)).trans hh
  have e2 : cc1_transform_3 (cfg1.grid.coords t) (2 : Fin 4) = i.val := (congrFun (trQ (cfg1.grid.coords t)) (2 : Fin 4)).trans hi
  have e3 : cc1_transform_3 (cfg1.grid.coords t) (3 : Fin 4) = 0 := congrFun (trQ (cfg1.grid.coords t)) (3 : Fin 4)
  match a with
  | ⟨0, _⟩ => show cc1_transform_3 (cfg1.grid.coords t) (0 : Fin 4) * 1 + 1 * 0 = b.val; omega
  | ⟨1, _⟩ => show cc1_transform_3 (cfg1.grid.coords t) (1 : Fin 4) * 1 + 1 * 0 = h.val; omega
  | ⟨2, _⟩ => show cc1_transform_3 (cfg1.grid.coords t) (2 : Fin 4) * 256 + 1 * r.val = R.val; omega
  | ⟨3, _⟩ => show cc1_transform_3 (cfg1.grid.coords t) (3 : Fin 4) * 64 + 1 * d.val = d.val; omega

/-- Window 1's buffer holds all 2047 rows of its array at the point's batch and head. -/
theorem keyBlock1 (t : Fin cfg1.N) (b : Fin 2) (h : Fin 8) (hb : ((cfg1.grid.coords t) (0 : Fin 3)).val = b.val) (hh : ((cfg1.grid.coords t) (2 : Fin 3)).val = h.val) (j : Fin 2047) (d : Fin 64) :
    iblk1 V c 1 t (ix4 (0 : Fin 1) (0 : Fin 1) j d) = V c main_arg4 (ix4 b h j d) := by
  show V c main_arg4 (((cfg1.win 1).blk t).view.emb (ix4 (0 : Fin 1) (0 : Fin 1) j d)) = _
  refine congrArg (V c main_arg4) (funext fun a => Fin.ext ?_)
  have e0 : cc1_transform_1 (cfg1.grid.coords t) (0 : Fin 4) = b.val := (congrFun (trK (cfg1.grid.coords t)) (0 : Fin 4)).trans hb
  have e1 : cc1_transform_1 (cfg1.grid.coords t) (1 : Fin 4) = h.val := (congrFun (trK (cfg1.grid.coords t)) (1 : Fin 4)).trans hh
  have e2 : cc1_transform_1 (cfg1.grid.coords t) (2 : Fin 4) = 0 := congrFun (trK (cfg1.grid.coords t)) (2 : Fin 4)
  have e3 : cc1_transform_1 (cfg1.grid.coords t) (3 : Fin 4) = 0 := congrFun (trK (cfg1.grid.coords t)) (3 : Fin 4)
  match a with
  | ⟨0, _⟩ => show cc1_transform_1 (cfg1.grid.coords t) (0 : Fin 4) * 1 + 1 * 0 = b.val; omega
  | ⟨1, _⟩ => show cc1_transform_1 (cfg1.grid.coords t) (1 : Fin 4) * 1 + 1 * 0 = h.val; omega
  | ⟨2, _⟩ => show cc1_transform_1 (cfg1.grid.coords t) (2 : Fin 4) * 2047 + 1 * j.val = j.val; omega
  | ⟨3, _⟩ => show cc1_transform_1 (cfg1.grid.coords t) (3 : Fin 4) * 64 + 1 * d.val = d.val; omega

/-- Window 2's buffer holds all 2047 rows of its array at the point's batch and head. -/
theorem keyBlock2 (t : Fin cfg1.N) (b : Fin 2) (h : Fin 8) (hb : ((cfg1.grid.coords t) (0 : Fin 3)).val = b.val) (hh : ((cfg1.grid.coords t) (2 : Fin 3)).val = h.val) (j : Fin 2047) (d : Fin 64) :
    iblk1 V c 2 t (ix4 (0 : Fin 1) (0 : Fin 1) j d) = V c main_arg5 (ix4 b h j d) := by
  show V c main_arg5 (((cfg1.win 2).blk t).view.emb (ix4 (0 : Fin 1) (0 : Fin 1) j d)) = _
  refine congrArg (V c main_arg5) (funext fun a => Fin.ext ?_)
  have e0 : cc1_transform_2 (cfg1.grid.coords t) (0 : Fin 4) = b.val := (congrFun (trK (cfg1.grid.coords t)) (0 : Fin 4)).trans hb
  have e1 : cc1_transform_2 (cfg1.grid.coords t) (1 : Fin 4) = h.val := (congrFun (trK (cfg1.grid.coords t)) (1 : Fin 4)).trans hh
  have e2 : cc1_transform_2 (cfg1.grid.coords t) (2 : Fin 4) = 0 := congrFun (trK (cfg1.grid.coords t)) (2 : Fin 4)
  have e3 : cc1_transform_2 (cfg1.grid.coords t) (3 : Fin 4) = 0 := congrFun (trK (cfg1.grid.coords t)) (3 : Fin 4)
  match a with
  | ⟨0, _⟩ => show cc1_transform_2 (cfg1.grid.coords t) (0 : Fin 4) * 1 + 1 * 0 = b.val; omega
  | ⟨1, _⟩ => show cc1_transform_2 (cfg1.grid.coords t) (1 : Fin 4) * 1 + 1 * 0 = h.val; omega
  | ⟨2, _⟩ => show cc1_transform_2 (cfg1.grid.coords t) (2 : Fin 4) * 2047 + 1 * j.val = j.val; omega
  | ⟨3, _⟩ => show cc1_transform_2 (cfg1.grid.coords t) (3 : Fin 4) * 64 + 1 * d.val = d.val; omega

/-- Window 4's buffer holds all 2047 rows of its array at the point's batch and head. -/
theorem keyBlock4 (t : Fin cfg1.N) (b : Fin 2) (h : Fin 8) (hb : ((cfg1.grid.coords t) (0 : Fin 3)).val = b.val) (hh : ((cfg1.grid.coords t) (2 : Fin 3)).val = h.val) (j : Fin 2047) (d : Fin 64) :
    iblk1 V c 4 t (ix4 (0 : Fin 1) (0 : Fin 1) j d) = V c main_arg7 (ix4 b h j d) := by
  show V c main_arg7 (((cfg1.win 4).blk t).view.emb (ix4 (0 : Fin 1) (0 : Fin 1) j d)) = _
  refine congrArg (V c main_arg7) (funext fun a => Fin.ext ?_)
  have e0 : cc1_transform_4 (cfg1.grid.coords t) (0 : Fin 4) = b.val := (congrFun (trK (cfg1.grid.coords t)) (0 : Fin 4)).trans hb
  have e1 : cc1_transform_4 (cfg1.grid.coords t) (1 : Fin 4) = h.val := (congrFun (trK (cfg1.grid.coords t)) (1 : Fin 4)).trans hh
  have e2 : cc1_transform_4 (cfg1.grid.coords t) (2 : Fin 4) = 0 := congrFun (trK (cfg1.grid.coords t)) (2 : Fin 4)
  have e3 : cc1_transform_4 (cfg1.grid.coords t) (3 : Fin 4) = 0 := congrFun (trK (cfg1.grid.coords t)) (3 : Fin 4)
  match a with
  | ⟨0, _⟩ => show cc1_transform_4 (cfg1.grid.coords t) (0 : Fin 4) * 1 + 1 * 0 = b.val; omega
  | ⟨1, _⟩ => show cc1_transform_4 (cfg1.grid.coords t) (1 : Fin 4) * 1 + 1 * 0 = h.val; omega
  | ⟨2, _⟩ => show cc1_transform_4 (cfg1.grid.coords t) (2 : Fin 4) * 2047 + 1 * j.val = j.val; omega
  | ⟨3, _⟩ => show cc1_transform_4 (cfg1.grid.coords t) (3 : Fin 4) * 64 + 1 * d.val = d.val; omega

/-- Window 5's buffer holds all 2047 rows of its array at the point's batch and head. -/
theorem keyBlock5 (t : Fin cfg1.N) (b : Fin 2) (h : Fin 8) (hb : ((cfg1.grid.coords t) (0 : Fin 3)).val = b.val) (hh : ((cfg1.grid.coords t) (2 : Fin 3)).val = h.val) (j : Fin 2047) (d : Fin 64) :
    iblk1 V c 5 t (ix4 (0 : Fin 1) (0 : Fin 1) j d) = V c main_arg8 (ix4 b h j d) := by
  show V c main_arg8 (((cfg1.win 5).blk t).view.emb (ix4 (0 : Fin 1) (0 : Fin 1) j d)) = _
  refine congrArg (V c main_arg8) (funext fun a => Fin.ext ?_)
  have e0 : cc1_transform_5 (cfg1.grid.coords t) (0 : Fin 4) = b.val := (congrFun (trK (cfg1.grid.coords t)) (0 : Fin 4)).trans hb
  have e1 : cc1_transform_5 (cfg1.grid.coords t) (1 : Fin 4) = h.val := (congrFun (trK (cfg1.grid.coords t)) (1 : Fin 4)).trans hh
  have e2 : cc1_transform_5 (cfg1.grid.coords t) (2 : Fin 4) = 0 := congrFun (trK (cfg1.grid.coords t)) (2 : Fin 4)
  have e3 : cc1_transform_5 (cfg1.grid.coords t) (3 : Fin 4) = 0 := congrFun (trK (cfg1.grid.coords t)) (3 : Fin 4)
  match a with
  | ⟨0, _⟩ => show cc1_transform_5 (cfg1.grid.coords t) (0 : Fin 4) * 1 + 1 * 0 = b.val; omega
  | ⟨1, _⟩ => show cc1_transform_5 (cfg1.grid.coords t) (1 : Fin 4) * 1 + 1 * 0 = h.val; omega
  | ⟨2, _⟩ => show cc1_transform_5 (cfg1.grid.coords t) (2 : Fin 4) * 2047 + 1 * j.val = j.val; omega
  | ⟨3, _⟩ => show cc1_transform_5 (cfg1.grid.coords t) (3 : Fin 4) * 64 + 1 * d.val = d.val; omega

/-- Window 6's buffer holds all 2047 rows of its array at the point's batch and head. -/
theorem keyBlock6 (t : Fin cfg1.N) (b : Fin 2) (h : Fin 8) (hb : ((cfg1.grid.coords t) (0 : Fin 3)).val = b.val) (hh : ((cfg1.grid.coords t) (2 : Fin 3)).val = h.val) (j : Fin 2047) (d : Fin 64) :
    iblk1 V c 6 t (ix4 (0 : Fin 1) (0 : Fin 1) j d) = V c main_v1 (ix4 b h j d) := by
  show V c main_v1 (((cfg1.win 6).blk t).view.emb (ix4 (0 : Fin 1) (0 : Fin 1) j d)) = _
  refine congrArg (V c main_v1) (funext fun a => Fin.ext ?_)
  have e0 : cc1_transform_6 (cfg1.grid.coords t) (0 : Fin 4) = b.val := (congrFun (trK (cfg1.grid.coords t)) (0 : Fin 4)).trans hb
  have e1 : cc1_transform_6 (cfg1.grid.coords t) (1 : Fin 4) = h.val := (congrFun (trK (cfg1.grid.coords t)) (1 : Fin 4)).trans hh
  have e2 : cc1_transform_6 (cfg1.grid.coords t) (2 : Fin 4) = 0 := congrFun (trK (cfg1.grid.coords t)) (2 : Fin 4)
  have e3 : cc1_transform_6 (cfg1.grid.coords t) (3 : Fin 4) = 0 := congrFun (trK (cfg1.grid.coords t)) (3 : Fin 4)
  match a with
  | ⟨0, _⟩ => show cc1_transform_6 (cfg1.grid.coords t) (0 : Fin 4) * 1 + 1 * 0 = b.val; omega
  | ⟨1, _⟩ => show cc1_transform_6 (cfg1.grid.coords t) (1 : Fin 4) * 1 + 1 * 0 = h.val; omega
  | ⟨2, _⟩ => show cc1_transform_6 (cfg1.grid.coords t) (2 : Fin 4) * 2047 + 1 * j.val = j.val; omega
  | ⟨3, _⟩ => show cc1_transform_6 (cfg1.grid.coords t) (3 : Fin 4) * 64 + 1 * d.val = d.val; omega

/-! ## Where an output block's element sits -/

/-- An index of output window 7's block inside the array, by coordinates: where it sits in the staging buffer and where
    in the array; its row lies among the rows the query windows fetch. -/
theorem out7_coords (t : Fin cfg1.N) (b : Fin 2) (i h : Fin 8) (hb : ((cfg1.grid.coords t) (0 : Fin 3)).val = b.val) (hi : ((cfg1.grid.coords t) (1 : Fin 3)).val = i.val) (hh : ((cfg1.grid.coords t) (2 : Fin 3)).val = h.val) (y : ((cfg1.win 7).xblock (cfg1.grid.coords t)).Idx) :
    ∃ (u v : Fin 1) (r : Fin 256) (R : Fin 2047) (j : Fin 2047),
      (cfg1.win 7).xinj (cfg1.grid.coords t) y = ix4 u v r j ∧ ((cfg1.win 7).blk t).view.emb y = ix4 b h R j
      ∧ R.val = 256 * i.val + r.val ∧ r.val < (cfg1.win 0).xsize (cfg1.grid.coords t) (2 : Fin 4) := by
  have h0 : (y (0 : Fin 4)).val < 1 := Nat.lt_of_lt_of_le (y (0 : Fin 4)).isLt ((cfg1.win 7).xsize_le (cfg1.grid.coords t) (0 : Fin 4))
  have h1 : (y (1 : Fin 4)).val < 1 := Nat.lt_of_lt_of_le (y (1 : Fin 4)).isLt ((cfg1.win 7).xsize_le (cfg1.grid.coords t) (1 : Fin 4))
  have h2 : (y (2 : Fin 4)).val < 256 := Nat.lt_of_lt_of_le (y (2 : Fin 4)).isLt ((cfg1.win 7).xsize_le (cfg1.grid.coords t) (2 : Fin 4))
  have h3 : (y (3 : Fin 4)).val < 2047 := Nat.lt_of_lt_of_le (y (3 : Fin 4)).isLt ((cfg1.win 7).xsize_le (cfg1.grid.coords t) (3 : Fin 4))
  have hin : cc1_transform_7 (cfg1.grid.coords t) (2 : Fin 4) * 256 + (cfg1.win 7).xsize (cfg1.grid.coords t) (2 : Fin 4) ≤ 2047 :=
    Pipeline.Clip.inb ((cfg1.win 7).hclip (cfg1.grid.coords t) (2 : Fin 4))
  have hy2 : (y (2 : Fin 4)).val < (cfg1.win 7).xsize (cfg1.grid.coords t) (2 : Fin 4) := (y (2 : Fin 4)).isLt
  have e0 : cc1_transform_7 (cfg1.grid.coords t) (0 : Fin 4) = b.val := (congrFun (trQ (cfg1.grid.coords t)) (0 : Fin 4)).trans hb
  have e1 : cc1_transform_7 (cfg1.grid.coords t) (1 : Fin 4) = h.val := (congrFun (trQ (cfg1.grid.coords t)) (1 : Fin 4)).trans hh
  have e2 : cc1_transform_7 (cfg1.grid.coords t) (2 : Fin 4) = i.val := (congrFun (trQ (cfg1.grid.coords t)) (2 : Fin 4)).trans hi
  have e3 : cc1_transform_7 (cfg1.grid.coords t) (3 : Fin 4) = 0 := congrFun (trQ (cfg1.grid.coords t)) (3 : Fin 4)
  have hR : 256 * i.val + (y (2 : Fin 4)).val < 2047 := by omega
  refine ⟨⟨(y (0 : Fin 4)).val, h0⟩, ⟨(y (1 : Fin 4)).val, h1⟩, ⟨(y (2 : Fin 4)).val, h2⟩, ⟨256 * i.val + (y (2 : Fin 4)).val, hR⟩,
    ⟨(y (3 : Fin 4)).val, h3⟩, ?_, ?_, rfl, hy2⟩
  · exact funext fun a => match a with | ⟨0, _⟩ => rfl | ⟨1, _⟩ => rfl | ⟨2, _⟩ => rfl | ⟨3, _⟩ => rfl
  · funext a; apply Fin.ext
    match a with
    | ⟨0, _⟩ => show cc1_transform_7 (cfg1.grid.coords t) (0 : Fin 4) * 1 + 1 * (y (0 : Fin 4)).val = b.val; omega
    | ⟨1, _⟩ => show cc1_transform_7 (cfg1.grid.coords t) (1 : Fin 4) * 1 + 1 * (y (1 : Fin 4)).val = h.val; omega
    | ⟨2, _⟩ => show cc1_transform_7 (cfg1.grid.coords t) (2 : Fin 4) * 256 + 1 * (y (2 : Fin 4)).val = 256 * i.val + (y (2 : Fin 4)).val; omega
    | ⟨3, _⟩ => show cc1_transform_7 (cfg1.grid.coords t) (3 : Fin 4) * 2047 + 1 * (y (3 : Fin 4)).val = (y (3 : Fin 4)).val; omega

/-- An index of output window 8's block inside the array, by coordinates: where it sits in the staging buffer and where
    in the array; its row lies among the rows the query windows fetch. -/
theorem out8_coords (t : Fin cfg1.N) (b : Fin 2) (i h : Fin 8) (hb : ((cfg1.grid.coords t) (0 : Fin 3)).val = b.val) (hi : ((cfg1.grid.coords t) (1 : Fin 3)).val = i.val) (hh : ((cfg1.grid.coords t) (2 : Fin 3)).val = h.val) (y : ((cfg1.win 8).xblock (cfg1.grid.coords t)).Idx) :
    ∃ (u v : Fin 1) (r : Fin 256) (R : Fin 2047) (j : Fin 2047),
      (cfg1.win 8).xinj (cfg1.grid.coords t) y = ix4 u v r j ∧ ((cfg1.win 8).blk t).view.emb y = ix4 b h R j
      ∧ R.val = 256 * i.val + r.val ∧ r.val < (cfg1.win 0).xsize (cfg1.grid.coords t) (2 : Fin 4) := by
  have h0 : (y (0 : Fin 4)).val < 1 := Nat.lt_of_lt_of_le (y (0 : Fin 4)).isLt ((cfg1.win 8).xsize_le (cfg1.grid.coords t) (0 : Fin 4))
  have h1 : (y (1 : Fin 4)).val < 1 := Nat.lt_of_lt_of_le (y (1 : Fin 4)).isLt ((cfg1.win 8).xsize_le (cfg1.grid.coords t) (1 : Fin 4))
  have h2 : (y (2 : Fin 4)).val < 256 := Nat.lt_of_lt_of_le (y (2 : Fin 4)).isLt ((cfg1.win 8).xsize_le (cfg1.grid.coords t) (2 : Fin 4))
  have h3 : (y (3 : Fin 4)).val < 2047 := Nat.lt_of_lt_of_le (y (3 : Fin 4)).isLt ((cfg1.win 8).xsize_le (cfg1.grid.coords t) (3 : Fin 4))
  have hin : cc1_transform_8 (cfg1.grid.coords t) (2 : Fin 4) * 256 + (cfg1.win 8).xsize (cfg1.grid.coords t) (2 : Fin 4) ≤ 2047 :=
    Pipeline.Clip.inb ((cfg1.win 8).hclip (cfg1.grid.coords t) (2 : Fin 4))
  have hy2 : (y (2 : Fin 4)).val < (cfg1.win 8).xsize (cfg1.grid.coords t) (2 : Fin 4) := (y (2 : Fin 4)).isLt
  have e0 : cc1_transform_8 (cfg1.grid.coords t) (0 : Fin 4) = b.val := (congrFun (trQ (cfg1.grid.coords t)) (0 : Fin 4)).trans hb
  have e1 : cc1_transform_8 (cfg1.grid.coords t) (1 : Fin 4) = h.val := (congrFun (trQ (cfg1.grid.coords t)) (1 : Fin 4)).trans hh
  have e2 : cc1_transform_8 (cfg1.grid.coords t) (2 : Fin 4) = i.val := (congrFun (trQ (cfg1.grid.coords t)) (2 : Fin 4)).trans hi
  have e3 : cc1_transform_8 (cfg1.grid.coords t) (3 : Fin 4) = 0 := congrFun (trQ (cfg1.grid.coords t)) (3 : Fin 4)
  have hR : 256 * i.val + (y (2 : Fin 4)).val < 2047 := by omega
  refine ⟨⟨(y (0 : Fin 4)).val, h0⟩, ⟨(y (1 : Fin 4)).val, h1⟩, ⟨(y (2 : Fin 4)).val, h2⟩, ⟨256 * i.val + (y (2 : Fin 4)).val, hR⟩,
    ⟨(y (3 : Fin 4)).val, h3⟩, ?_, ?_, rfl, hy2⟩
  · exact funext fun a => match a with | ⟨0, _⟩ => rfl | ⟨1, _⟩ => rfl | ⟨2, _⟩ => rfl | ⟨3, _⟩ => rfl
  · funext a; apply Fin.ext
    match a with
    | ⟨0, _⟩ => show cc1_transform_8 (cfg1.grid.coords t) (0 : Fin 4) * 1 + 1 * (y (0 : Fin 4)).val = b.val; omega
    | ⟨1, _⟩ => show cc1_transform_8 (cfg1.grid.coords t) (1 : Fin 4) * 1 + 1 * (y (1 : Fin 4)).val = h.val; omega
    | ⟨2, _⟩ => show cc1_transform_8 (cfg1.grid.coords t) (2 : Fin 4) * 256 + 1 * (y (2 : Fin 4)).val = 256 * i.val + (y (2 : Fin 4)).val; omega
    | ⟨3, _⟩ => show cc1_transform_8 (cfg1.grid.coords t) (3 : Fin 4) * 2047 + 1 * (y (3 : Fin 4)).val = (y (3 : Fin 4)).val; omega

/-- An index of output window 9's block inside the array, by coordinates: where it sits in the staging buffer and where
    in the array; its row lies among the rows the query windows fetch. -/
theorem out9_coords (t : Fin cfg1.N) (b : Fin 2) (i h : Fin 8) (hb : ((cfg1.grid.coords t) (0 : Fin 3)).val = b.val) (hi : ((cfg1.grid.coords t) (1 : Fin 3)).val = i.val) (hh : ((cfg1.grid.coords t) (2 : Fin 3)).val = h.val) (y : ((cfg1.win 9).xblock (cfg1.grid.coords t)).Idx) :
    ∃ (u v : Fin 1) (r : Fin 256) (R : Fin 2047) (d : Fin 64),
      (cfg1.win 9).xinj (cfg1.grid.coords t) y = ix4 u v r d ∧ ((cfg1.win 9).blk t).view.emb y = ix4 b h R d
      ∧ R.val = 256 * i.val + r.val ∧ r.val < (cfg1.win 0).xsize (cfg1.grid.coords t) (2 : Fin 4) := by
  have h0 : (y (0 : Fin 4)).val < 1 := Nat.lt_of_lt_of_le (y (0 : Fin 4)).isLt ((cfg1.win 9).xsize_le (cfg1.grid.coords t) (0 : Fin 4))
  have h1 : (y (1 : Fin 4)).val < 1 := Nat.lt_of_lt_of_le (y (1 : Fin 4)).isLt ((cfg1.win 9).xsize_le (cfg1.grid.coords t) (1 : Fin 4))
  have h2 : (y (2 : Fin 4)).val < 256 := Nat.lt_of_lt_of_le (y (2 : Fin 4)).isLt ((cfg1.win 9).xsize_le (cfg1.grid.coords t) (2 : Fin 4))
  have h3 : (y (3 : Fin 4)).val < 64 := Nat.lt_of_lt_of_le (y (3 : Fin 4)).isLt ((cfg1.win 9).xsize_le (cfg1.grid.coords t) (3 : Fin 4))
  have hin : cc1_transform_9 (cfg1.grid.coords t) (2 : Fin 4) * 256 + (cfg1.win 9).xsize (cfg1.grid.coords t) (2 : Fin 4) ≤ 2047 :=
    Pipeline.Clip.inb ((cfg1.win 9).hclip (cfg1.grid.coords t) (2 : Fin 4))
  have hy2 : (y (2 : Fin 4)).val < (cfg1.win 9).xsize (cfg1.grid.coords t) (2 : Fin 4) := (y (2 : Fin 4)).isLt
  have e0 : cc1_transform_9 (cfg1.grid.coords t) (0 : Fin 4) = b.val := (congrFun (trQ (cfg1.grid.coords t)) (0 : Fin 4)).trans hb
  have e1 : cc1_transform_9 (cfg1.grid.coords t) (1 : Fin 4) = h.val := (congrFun (trQ (cfg1.grid.coords t)) (1 : Fin 4)).trans hh
  have e2 : cc1_transform_9 (cfg1.grid.coords t) (2 : Fin 4) = i.val := (congrFun (trQ (cfg1.grid.coords t)) (2 : Fin 4)).trans hi
  have e3 : cc1_transform_9 (cfg1.grid.coords t) (3 : Fin 4) = 0 := congrFun (trQ (cfg1.grid.coords t)) (3 : Fin 4)
  have hR : 256 * i.val + (y (2 : Fin 4)).val < 2047 := by omega
  refine ⟨⟨(y (0 : Fin 4)).val, h0⟩, ⟨(y (1 : Fin 4)).val, h1⟩, ⟨(y (2 : Fin 4)).val, h2⟩, ⟨256 * i.val + (y (2 : Fin 4)).val, hR⟩,
    ⟨(y (3 : Fin 4)).val, h3⟩, ?_, ?_, rfl, hy2⟩
  · exact funext fun a => match a with | ⟨0, _⟩ => rfl | ⟨1, _⟩ => rfl | ⟨2, _⟩ => rfl | ⟨3, _⟩ => rfl
  · funext a; apply Fin.ext
    match a with
    | ⟨0, _⟩ => show cc1_transform_9 (cfg1.grid.coords t) (0 : Fin 4) * 1 + 1 * (y (0 : Fin 4)).val = b.val; omega
    | ⟨1, _⟩ => show cc1_transform_9 (cfg1.grid.coords t) (1 : Fin 4) * 1 + 1 * (y (1 : Fin 4)).val = h.val; omega
    | ⟨2, _⟩ => show cc1_transform_9 (cfg1.grid.coords t) (2 : Fin 4) * 256 + 1 * (y (2 : Fin 4)).val = 256 * i.val + (y (2 : Fin 4)).val; omega
    | ⟨3, _⟩ => show cc1_transform_9 (cfg1.grid.coords t) (3 : Fin 4) * 64 + 1 * (y (3 : Fin 4)).val = (y (3 : Fin 4)).val; omega

/-- An index of output window 10's block inside the array, by coordinates: where it sits in the staging buffer and where
    in the array; its row lies among the rows the query windows fetch. -/
theorem out10_coords (t : Fin cfg1.N) (b : Fin 2) (i h : Fin 8) (hb : ((cfg1.grid.coords t) (0 : Fin 3)).val = b.val) (hi : ((cfg1.grid.coords t) (1 : Fin 3)).val = i.val) (hh : ((cfg1.grid.coords t) (2 : Fin 3)).val = h.val) (y : ((cfg1.win 10).xblock (cfg1.grid.coords t)).Idx) :
    ∃ (u v : Fin 1) (r : Fin 256) (R : Fin 2047) (d : Fin 64),
      (cfg1.win 10).xinj (cfg1.grid.coords t) y = ix4 u v r d ∧ ((cfg1.win 10).blk t).view.emb y = ix4 b h R d
      ∧ R.val = 256 * i.val + r.val ∧ r.val < (cfg1.win 0).xsize (cfg1.grid.coords t) (2 : Fin 4) := by
  have h0 : (y (0 : Fin 4)).val < 1 := Nat.lt_of_lt_of_le (y (0 : Fin 4)).isLt ((cfg1.win 10).xsize_le (cfg1.grid.coords t) (0 : Fin 4))
  have h1 : (y (1 : Fin 4)).val < 1 := Nat.lt_of_lt_of_le (y (1 : Fin 4)).isLt ((cfg1.win 10).xsize_le (cfg1.grid.coords t) (1 : Fin 4))
  have h2 : (y (2 : Fin 4)).val < 256 := Nat.lt_of_lt_of_le (y (2 : Fin 4)).isLt ((cfg1.win 10).xsize_le (cfg1.grid.coords t) (2 : Fin 4))
  have h3 : (y (3 : Fin 4)).val < 64 := Nat.lt_of_lt_of_le (y (3 : Fin 4)).isLt ((cfg1.win 10).xsize_le (cfg1.grid.coords t) (3 : Fin 4))
  have hin : cc1_transform_10 (cfg1.grid.coords t) (2 : Fin 4) * 256 + (cfg1.win 10).xsize (cfg1.grid.coords t) (2 : Fin 4) ≤ 2047 :=
    Pipeline.Clip.inb ((cfg1.win 10).hclip (cfg1.grid.coords t) (2 : Fin 4))
  have hy2 : (y (2 : Fin 4)).val < (cfg1.win 10).xsize (cfg1.grid.coords t) (2 : Fin 4) := (y (2 : Fin 4)).isLt
  have e0 : cc1_transform_10 (cfg1.grid.coords t) (0 : Fin 4) = b.val := (congrFun (trQ (cfg1.grid.coords t)) (0 : Fin 4)).trans hb
  have e1 : cc1_transform_10 (cfg1.grid.coords t) (1 : Fin 4) = h.val := (congrFun (trQ (cfg1.grid.coords t)) (1 : Fin 4)).trans hh
  have e2 : cc1_transform_10 (cfg1.grid.coords t) (2 : Fin 4) = i.val := (congrFun (trQ (cfg1.grid.coords t)) (2 : Fin 4)).trans hi
  have e3 : cc1_transform_10 (cfg1.grid.coords t) (3 : Fin 4) = 0 := congrFun (trQ (cfg1.grid.coords t)) (3 : Fin 4)
  have hR : 256 * i.val + (y (2 : Fin 4)).val < 2047 := by omega
  refine ⟨⟨(y (0 : Fin 4)).val, h0⟩, ⟨(y (1 : Fin 4)).val, h1⟩, ⟨(y (2 : Fin 4)).val, h2⟩, ⟨256 * i.val + (y (2 : Fin 4)).val, hR⟩,
    ⟨(y (3 : Fin 4)).val, h3⟩, ?_, ?_, rfl, hy2⟩
  · exact funext fun a => match a with | ⟨0, _⟩ => rfl | ⟨1, _⟩ => rfl | ⟨2, _⟩ => rfl | ⟨3, _⟩ => rfl
  · funext a; apply Fin.ext
    match a with
    | ⟨0, _⟩ => show cc1_transform_10 (cfg1.grid.coords t) (0 : Fin 4) * 1 + 1 * (y (0 : Fin 4)).val = b.val; omega
    | ⟨1, _⟩ => show cc1_transform_10 (cfg1.grid.coords t) (1 : Fin 4) * 1 + 1 * (y (1 : Fin 4)).val = h.val; omega
    | ⟨2, _⟩ => show cc1_transform_10 (cfg1.grid.coords t) (2 : Fin 4) * 256 + 1 * (y (2 : Fin 4)).val = 256 * i.val + (y (2 : Fin 4)).val; omega
    | ⟨3, _⟩ => show cc1_transform_10 (cfg1.grid.coords t) (3 : Fin 4) * 64 + 1 * (y (3 : Fin 4)).val = (y (3 : Fin 4)).val; omega

/-- An index of output window 11's block inside the array, by coordinates: where it sits in the staging buffer and where
    in the array; its row lies among the rows the query windows fetch. -/
theorem out11_coords (t : Fin cfg1.N) (b : Fin 2) (i h : Fin 8) (hb : ((cfg1.grid.coords t) (0 : Fin 3)).val = b.val) (hi : ((cfg1.grid.coords t) (1 : Fin 3)).val = i.val) (hh : ((cfg1.grid.coords t) (2 : Fin 3)).val = h.val) (y : ((cfg1.win 11).xblock (cfg1.grid.coords t)).Idx) :
    ∃ (u v : Fin 1) (r : Fin 256) (R : Fin 2047) (d : Fin 64),
      (cfg1.win 11).xinj (cfg1.grid.coords t) y = ix4 u v r d ∧ ((cfg1.win 11).blk t).view.emb y = ix4 b h R d
      ∧ R.val = 256 * i.val + r.val ∧ r.val < (cfg1.win 0).xsize (cfg1.grid.coords t) (2 : Fin 4) := by
  have h0 : (y (0 : Fin 4)).val < 1 := Nat.lt_of_lt_of_le (y (0 : Fin 4)).isLt ((cfg1.win 11).xsize_le (cfg1.grid.coords t) (0 : Fin 4))
  have h1 : (y (1 : Fin 4)).val < 1 := Nat.lt_of_lt_of_le (y (1 : Fin 4)).isLt ((cfg1.win 11).xsize_le (cfg1.grid.coords t) (1 : Fin 4))
  have h2 : (y (2 : Fin 4)).val < 256 := Nat.lt_of_lt_of_le (y (2 : Fin 4)).isLt ((cfg1.win 11).xsize_le (cfg1.grid.coords t) (2 : Fin 4))
  have h3 : (y (3 : Fin 4)).val < 64 := Nat.lt_of_lt_of_le (y (3 : Fin 4)).isLt ((cfg1.win 11).xsize_le (cfg1.grid.coords t) (3 : Fin 4))
  have hin : cc1_transform_11 (cfg1.grid.coords t) (2 : Fin 4) * 256 + (cfg1.win 11).xsize (cfg1.grid.coords t) (2 : Fin 4) ≤ 2047 :=
    Pipeline.Clip.inb ((cfg1.win 11).hclip (cfg1.grid.coords t) (2 : Fin 4))
  have hy2 : (y (2 : Fin 4)).val < (cfg1.win 11).xsize (cfg1.grid.coords t) (2 : Fin 4) := (y (2 : Fin 4)).isLt
  have e0 : cc1_transform_11 (cfg1.grid.coords t) (0 : Fin 4) = b.val := (congrFun (trQ (cfg1.grid.coords t)) (0 : Fin 4)).trans hb
  have e1 : cc1_transform_11 (cfg1.grid.coords t) (1 : Fin 4) = h.val := (congrFun (trQ (cfg1.grid.coords t)) (1 : Fin 4)).trans hh
  have e2 : cc1_transform_11 (cfg1.grid.coords t) (2 : Fin 4) = i.val := (congrFun (trQ (cfg1.grid.coords t)) (2 : Fin 4)).trans hi
  have e3 : cc1_transform_11 (cfg1.grid.coords t) (3 : Fin 4) = 0 := congrFun (trQ (cfg1.grid.coords t)) (3 : Fin 4)
  have hR : 256 * i.val + (y (2 : Fin 4)).val < 2047 := by omega
  refine ⟨⟨(y (0 : Fin 4)).val, h0⟩, ⟨(y (1 : Fin 4)).val, h1⟩, ⟨(y (2 : Fin 4)).val, h2⟩, ⟨256 * i.val + (y (2 : Fin 4)).val, hR⟩,
    ⟨(y (3 : Fin 4)).val, h3⟩, ?_, ?_, rfl, hy2⟩
  · exact funext fun a => match a with | ⟨0, _⟩ => rfl | ⟨1, _⟩ => rfl | ⟨2, _⟩ => rfl | ⟨3, _⟩ => rfl
  · funext a; apply Fin.ext
    match a with
    | ⟨0, _⟩ => show cc1_transform_11 (cfg1.grid.coords t) (0 : Fin 4) * 1 + 1 * (y (0 : Fin 4)).val = b.val; omega
    | ⟨1, _⟩ => show cc1_transform_11 (cfg1.grid.coords t) (1 : Fin 4) * 1 + 1 * (y (1 : Fin 4)).val = h.val; omega
    | ⟨2, _⟩ => show cc1_transform_11 (cfg1.grid.coords t) (2 : Fin 4) * 256 + 1 * (y (2 : Fin 4)).val = 256 * i.val + (y (2 : Fin 4)).val; omega
    | ⟨3, _⟩ => show cc1_transform_11 (cfg1.grid.coords t) (3 : Fin 4) * 64 + 1 * (y (3 : Fin 4)).val = (y (3 : Fin 4)).val; omega

/-! ## The five outputs -/

/-- Row by row, the body leaves in each output buffer, on the rows inside the array, the block of the attention
    functions of the whole arrays. -/
theorem rowWise : RowWise V (P2 V c) (P3 V c) (TOut V c) (DOut V c) (XOut V c) c where
  h7 := fun t d0 => by
    obtain ⟨b, i, h, hb, hi, hh⟩ := coords_lit t
    funext y
    obtain ⟨u, v, r, R, j, hx, he, hR, hr⟩ := out7_coords t b i h hb hi hh y
    show o7 (F := Ideal) _ _ ((cfg1.win 7).xinj (cfg1.grid.coords t) y) = P2 V c (((cfg1.win 7).blk t).view.emb y)
    rw [hx, he]
    exact o7_row _ _ _ _ b h R u v r j (fun d => queryRow0 V c t d0 b i h hb hi hh r hr R hR d)
      (fun j' d => keyBlock1 V c t b h hb hh j' d)
  h8 := fun t d3 => by
    obtain ⟨b, i, h, hb, hi, hh⟩ := coords_lit t
    funext y
    obtain ⟨u, v, r, R, j, hx, he, hR, hr⟩ := out8_coords t b i h hb hi hh y
    show o8 (F := Ideal) _ _ ((cfg1.win 8).xinj (cfg1.grid.coords t) y) = P3 V c (((cfg1.win 8).blk t).view.emb y)
    rw [hx, he]
    exact o8_row _ _ _ _ b h R u v r j (fun d => queryRow3 V c t d3 b i h hb hi hh r hr R hR d)
      (fun j' d => keyBlock4 V c t b h hb hh j' d)
  h9 := fun t d0 => by
    obtain ⟨b, i, h, hb, hi, hh⟩ := coords_lit t
    funext y
    obtain ⟨u, v, r, R, d, hx, he, hR, hr⟩ := out9_coords t b i h hb hi hh y
    show o9 (F := Ideal) _ _ _ ((cfg1.win 9).xinj (cfg1.grid.coords t) y) = TOut V c (((cfg1.win 9).blk t).view.emb y)
    rw [hx, he]
    exact o9_row _ _ _ _ _ _ b h R u v r d (fun d => queryRow0 V c t d0 b i h hb hi hh r hr R hR d)
      (fun j' d => keyBlock1 V c t b h hb hh j' d) (fun j' d => keyBlock2 V c t b h hb hh j' d)
  h10 := fun t d3 => by
    obtain ⟨b, i, h, hb, hi, hh⟩ := coords_lit t
    funext y
    obtain ⟨u, v, r, R, d, hx, he, hR, hr⟩ := out10_coords t b i h hb hi hh y
    show o10 (F := Ideal) _ _ _ ((cfg1.win 10).xinj (cfg1.grid.coords t) y) = DOut V c (((cfg1.win 10).blk t).view.emb y)
    rw [hx, he]
    exact o10_row _ _ _ _ _ _ b h R u v r d (fun d => queryRow3 V c t d3 b i h hb hi hh r hr R hR d)
      (fun j' d => keyBlock4 V c t b h hb hh j' d) (fun j' d => keyBlock5 V c t b h hb hh j' d)
  h11 := fun t d0 d3 => by
    obtain ⟨b, i, h, hb, hi, hh⟩ := coords_lit t
    funext y
    obtain ⟨u, v, r, R, d, hx, he, hR, hr⟩ := out11_coords t b i h hb hi hh y
    show o11 (F := Ideal) _ _ _ _ _ ((cfg1.win 11).xinj (cfg1.grid.coords t) y) = XOut V c (((cfg1.win 11).blk t).view.emb y)
    rw [hx, he]
    exact o11_row _ _ _ _ _ _ _ _ _ _ b h R u v r d (fun d => queryRow0 V c t d0 b i h hb hi hh r hr R hR d)
      (fun j' d => keyBlock1 V c t b h hb hh j' d) (fun d => queryRow3 V c t d3 b i h hb hi hh r hr R hR d)
      (fun j' d => keyBlock4 V c t b h hb hh j' d) (fun j' d => keyBlock6 V c t b h hb hh j' d)

end Cert.KernelIdeal.Hand

end
-- ==== Proof.Ideal.TdFinal.lean ====
/-
  Region 1: the five output arrays after the write-backs.  Each output's blocks, cut at the arrays' 2047 rows, cover its
  array: row r of batch b and head h lies in the block of the point whose block index is (b, h, r / 256, 0).  So an
  array whose every block is written back as the block of one given whole array ends holding that array.
-/
import proofs.«111166_j1640677507314_2_alg».proof.Proof.Ideal.TdAfter
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem

/-! ## The grid facts, decided once over the 128 points -/

/-- An index is in a point's block of the first probabilities window iff on every axis it lies from the block's start
    up to the block's cut size. -/
theorem mem_blk7 (t : Fin cfg1.N) (i : S2x8x2047x2047.Idx) :
    i ∈ ((cfg1.win 7).blk t).view.set ↔ ∀ a : Fin 4, win1_7.index t a * S1x1x256x2047.size a ≤ (i a).val
      ∧ (i a).val < win1_7.index t a * S1x1x256x2047.size a + win1_7.xsize (grid1.coords t) a := by
  show i ∈ ((View.whole main_v2_0).slice (win1_7.rect t)).set ↔ _
  rw [View.set_slice_whole, Rect.mem_set_unit]
  exact Iff.rfl

/-- The block indices' ranges and the cut sizes: only the last row tile is cut, by one row. -/
theorem idx_facts7 : ∀ t : Fin cfg1.N, win1_7.index t (0 : Fin 4) ≤ 1 ∧ win1_7.index t (1 : Fin 4) ≤ 7 ∧ win1_7.index t (2 : Fin 4) ≤ 7
    ∧ win1_7.index t (3 : Fin 4) = 0
    ∧ win1_7.xsize (grid1.coords t) (0 : Fin 4) = 1 ∧ win1_7.xsize (grid1.coords t) (1 : Fin 4) = 1
    ∧ win1_7.xsize (grid1.coords t) (2 : Fin 4) = (if win1_7.index t (2 : Fin 4) = 7 then 255 else 256)
    ∧ win1_7.xsize (grid1.coords t) (3 : Fin 4) = 2047 :=
  (by decide +kernel : ∀ t : Fin grid1.N, _)

/-- Every (batch, head, row tile) is some point's block index. -/
theorem idx_onto7 : ∀ (b : Fin 2) (h : Fin 8) (q : Fin 8), ∃ t : Fin cfg1.N, win1_7.index t = ![b.val, h.val, q.val, 0] :=
  (by decide +kernel : ∀ (b : Fin 2) (h : Fin 8) (q : Fin 8), ∃ t : Fin grid1.N, win1_7.index t = ![b.val, h.val, q.val, 0])

/-- Every index of the array is in some point's block. -/
theorem cover7 (i : S2x8x2047x2047.Idx) :
    ∃ t : Fin cfg1.N, (cfg1.win 7).flush t = true ∧ i ∈ ((cfg1.win 7).blk t).view.set := by
  have h2 : (i 2).val < 2047 := (i 2).isLt
  have h3 : (i 3).val < 2047 := (i 3).isLt
  obtain ⟨t, ht⟩ := idx_onto7 ⟨(i 0).val, (i 0).isLt⟩ ⟨(i 1).val, (i 1).isLt⟩ ⟨(i 2).val / 256, by omega⟩
  have e0 : win1_7.index t 0 = (i 0).val := congrFun ht 0
  have e1 : win1_7.index t 1 = (i 1).val := congrFun ht 1
  have e2 : win1_7.index t 2 = (i 2).val / 256 := congrFun ht 2
  have e3 : win1_7.index t 3 = 0 := congrFun ht 3
  obtain ⟨-, -, -, -, x0, x1, x2, x3⟩ := idx_facts7 t
  refine ⟨t, flush1_7 t, (mem_blk7 t i).mpr fun a => ?_⟩
  match a with
  | ⟨0, _⟩ =>
    show win1_7.index t 0 * 1 ≤ (i 0).val ∧ (i 0).val < win1_7.index t 0 * 1 + win1_7.xsize (grid1.coords t) 0
    rw [x0, e0]; omega
  | ⟨1, _⟩ =>
    show win1_7.index t 1 * 1 ≤ (i 1).val ∧ (i 1).val < win1_7.index t 1 * 1 + win1_7.xsize (grid1.coords t) 1
    rw [x1, e1]; omega
  | ⟨2, _⟩ =>
    show win1_7.index t 2 * 256 ≤ (i 2).val ∧ (i 2).val < win1_7.index t 2 * 256 + win1_7.xsize (grid1.coords t) 2
    rw [x2, e2]; split <;> omega
  | ⟨3, _⟩ =>
    show win1_7.index t 3 * 2047 ≤ (i 3).val ∧ (i 3).val < win1_7.index t 3 * 2047 + win1_7.xsize (grid1.coords t) 3
    rw [x3, e3]; omega

/-! ## The arrays after the write-backs -/

section Final

variable {F : FTy → Type} [FloatOps F]

variable (V : (c : Dev nD) → (b : Ref sig .tc) → Buf (Elt F) ((c : Thread nD τ).loc b))
  (P2 P3 : S2x8x2047x2047.Idx → Elt F .f32) (T D X : S2x8x2047x64.Idx → Elt F .f32) (c : Dev nD)

/-- The first probabilities array ends holding the given one. -/
theorem final7 : (dat1 V (aft1X V P2 P3 T D X) c).arrAt 7 cfg1.N = P2 := by
  refine (dat1 V (aft1X V P2 P3 T D X) c).arrAt_eq_of_cover 7 P2 (fun t _ => ?_) cover7
  show (cfg1.win 7).cut (cfg1.grid.coords t) (aft1X V P2 P3 T D X c 7 t) = _
  exact Pipeline.Window.cut_fill _ _ _ _

end Final

end Cert.KernelIdeal.Hand

end
-- ==== Proof.Ideal.TdFinal8.lean ====
/-
  Region 1, output window 8 (the distance stream's probabilities): its blocks, cut at the array's 2047 rows, cover the array — row r of batch b
  and head h lies in the block of the point whose block index is (b, h, r / 256, 0) — so the array, every block of which
  is written back as the block of one given whole array, ends holding that array.
-/
import proofs.«111166_j1640677507314_2_alg».proof.Proof.Ideal.TdAfter
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem

/-- An index is in a point's block iff on every axis it lies from the block's start up to the block's cut size. -/
theorem mem_blk8 (t : Fin cfg1.N) (i : S2x8x2047x2047.Idx) :
    i ∈ ((cfg1.win 8).blk t).view.set ↔ ∀ a : Fin 4, win1_8.index t a * S1x1x256x2047.size a ≤ (i a).val
      ∧ (i a).val < win1_8.index t a * S1x1x256x2047.size a + win1_8.xsize (grid1.coords t) a := by
  show i ∈ ((View.whole main_v2_1).slice (win1_8.rect t)).set ↔ _
  rw [View.set_slice_whole, Rect.mem_set_unit]
  exact Iff.rfl

/-- The block indices' ranges and the cut sizes: only the last row tile is cut, by one row. -/
theorem idx_facts8 : ∀ t : Fin cfg1.N, win1_8.index t (0 : Fin 4) ≤ 1 ∧ win1_8.index t (1 : Fin 4) ≤ 7 ∧ win1_8.index t (2 : Fin 4) ≤ 7
    ∧ win1_8.index t (3 : Fin 4) = 0
    ∧ win1_8.xsize (grid1.coords t) (0 : Fin 4) = 1 ∧ win1_8.xsize (grid1.coords t) (1 : Fin 4) = 1
    ∧ win1_8.xsize (grid1.coords t) (2 : Fin 4) = (if win1_8.index t (2 : Fin 4) = 7 then 255 else 256)
    ∧ win1_8.xsize (grid1.coords t) (3 : Fin 4) = 2047 :=
  (by decide +kernel : ∀ t : Fin grid1.N, _)

/-- Every (batch, head, row tile) is some point's block index. -/
theorem idx_onto8 : ∀ (b : Fin 2) (h : Fin 8) (q : Fin 8), ∃ t : Fin cfg1.N, win1_8.index t = ![b.val, h.val, q.val, 0] :=
  (by decide +kernel : ∀ (b : Fin 2) (h : Fin 8) (q : Fin 8), ∃ t : Fin grid1.N, win1_8.index t = ![b.val, h.val, q.val, 0])

/-- Every index of the array is in some point's block. -/
theorem cover8 (i : S2x8x2047x2047.Idx) :
    ∃ t : Fin cfg1.N, (cfg1.win 8).flush t = true ∧ i ∈ ((cfg1.win 8).blk t).view.set := by
  have h2 : (i 2).val < 2047 := (i 2).isLt
  have h3 : (i 3).val < 2047 := (i 3).isLt
  obtain ⟨t, ht⟩ := idx_onto8 ⟨(i 0).val, (i 0).isLt⟩ ⟨(i 1).val, (i 1).isLt⟩ ⟨(i 2).val / 256, by omega⟩
  have e0 : win1_8.index t 0 = (i 0).val := congrFun ht 0
  have e1 : win1_8.index t 1 = (i 1).val := congrFun ht 1
  have e2 : win1_8.index t 2 = (i 2).val / 256 := congrFun ht 2
  have e3 : win1_8.index t 3 = 0 := congrFun ht 3
  obtain ⟨-, -, -, -, x0, x1, x2, x3⟩ := idx_facts8 t
  refine ⟨t, flush1_8 t, (mem_blk8 t i).mpr fun a => ?_⟩
  match a with
  | ⟨0, _⟩ =>
    show win1_8.index t 0 * 1 ≤ (i 0).val ∧ (i 0).val < win1_8.index t 0 * 1 + win1_8.xsize (grid1.coords t) 0
    rw [x0, e0]; omega
  | ⟨1, _⟩ =>
    show win1_8.index t 1 * 1 ≤ (i 1).val ∧ (i 1).val < win1_8.index t 1 * 1 + win1_8.xsize (grid1.coords t) 1
    rw [x1, e1]; omega
  | ⟨2, _⟩ =>
    show win1_8.index t 2 * 256 ≤ (i 2).val ∧ (i 2).val < win1_8.index t 2 * 256 + win1_8.xsize (grid1.coords t) 2
    rw [x2, e2]; split <;> omega
  | ⟨3, _⟩ =>
    show win1_8.index t 3 * 2047 ≤ (i 3).val ∧ (i 3).val < win1_8.index t 3 * 2047 + win1_8.xsize (grid1.coords t) 3
    rw [x3, e3]; omega

section Final

variable {F : FTy → Type} [FloatOps F]

variable (V : (c : Dev nD) → (b : Ref sig .tc) → Buf (Elt F) ((c : Thread nD τ).loc b))
  (P2 P3 : S2x8x2047x2047.Idx → Elt F .f32) (T D X : S2x8x2047x64.Idx → Elt F .f32) (c : Dev nD)

/-- The array ends holding the given one. -/
theorem final8 : (dat1 V (aft1X V P2 P3 T D X) c).arrAt 8 cfg1.N = P3 := by
  refine (dat1 V (aft1X V P2 P3 T D X) c).arrAt_eq_of_cover 8 P3 (fun t _ => ?_) cover8
  show (cfg1.win 8).cut (cfg1.grid.coords t) (aft1X V P2 P3 T D X c 8 t) = _
  exact Pipeline.Window.cut_fill _ _ _ _

end Final

end Cert.KernelIdeal.Hand

end
-- ==== Proof.Ideal.TdFinal9.lean ====
/-
  Region 1, output window 9 (the time stream's output): its blocks, cut at the array's 2047 rows, cover the array — row r of batch b
  and head h lies in the block of the point whose block index is (b, h, r / 256, 0) — so the array, every block of which
  is written back as the block of one given whole array, ends holding that array.
-/
import proofs.«111166_j1640677507314_2_alg».proof.Proof.Ideal.TdAfter
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem

/-- An index is in a point's block iff on every axis it lies from the block's start up to the block's cut size. -/
theorem mem_blk9 (t : Fin cfg1.N) (i : S2x8x2047x64.Idx) :
    i ∈ ((cfg1.win 9).blk t).view.set ↔ ∀ a : Fin 4, win1_9.index t a * S1x1x256x64.size a ≤ (i a).val
      ∧ (i a).val < win1_9.index t a * S1x1x256x64.size a + win1_9.xsize (grid1.coords t) a := by
  show i ∈ ((View.whole main_v2_2).slice (win1_9.rect t)).set ↔ _
  rw [View.set_slice_whole, Rect.mem_set_unit]
  exact Iff.rfl

/-- The block indices' ranges and the cut sizes: only the last row tile is cut, by one row. -/
theorem idx_facts9 : ∀ t : Fin cfg1.N, win1_9.index t (0 : Fin 4) ≤ 1 ∧ win1_9.index t (1 : Fin 4) ≤ 7 ∧ win1_9.index t (2 : Fin 4) ≤ 7
    ∧ win1_9.index t (3 : Fin 4) = 0
    ∧ win1_9.xsize (grid1.coords t) (0 : Fin 4) = 1 ∧ win1_9.xsize (grid1.coords t) (1 : Fin 4) = 1
    ∧ win1_9.xsize (grid1.coords t) (2 : Fin 4) = (if win1_9.index t (2 : Fin 4) = 7 then 255 else 256)
    ∧ win1_9.xsize (grid1.coords t) (3 : Fin 4) = 64 :=
  (by decide +kernel : ∀ t : Fin grid1.N, _)

/-- Every (batch, head, row tile) is some point's block index. -/
theorem idx_onto9 : ∀ (b : Fin 2) (h : Fin 8) (q : Fin 8), ∃ t : Fin cfg1.N, win1_9.index t = ![b.val, h.val, q.val, 0] :=
  (by decide +kernel : ∀ (b : Fin 2) (h : Fin 8) (q : Fin 8), ∃ t : Fin grid1.N, win1_9.index t = ![b.val, h.val, q.val, 0])

/-- Every index of the array is in some point's block. -/
theorem cover9 (i : S2x8x2047x64.Idx) :
    ∃ t : Fin cfg1.N, (cfg1.win 9).flush t = true ∧ i ∈ ((cfg1.win 9).blk t).view.set := by
  have h2 : (i 2).val < 2047 := (i 2).isLt
  have h3 : (i 3).val < 64 := (i 3).isLt
  obtain ⟨t, ht⟩ := idx_onto9 ⟨(i 0).val, (i 0).isLt⟩ ⟨(i 1).val, (i 1).isLt⟩ ⟨(i 2).val / 256, by omega⟩
  have e0 : win1_9.index t 0 = (i 0).val := congrFun ht 0
  have e1 : win1_9.index t 1 = (i 1).val := congrFun ht 1
  have e2 : win1_9.index t 2 = (i 2).val / 256 := congrFun ht 2
  have e3 : win1_9.index t 3 = 0 := congrFun ht 3
  obtain ⟨-, -, -, -, x0, x1, x2, x3⟩ := idx_facts9 t
  refine ⟨t, flush1_9 t, (mem_blk9 t i).mpr fun a => ?_⟩
  match a with
  | ⟨0, _⟩ =>
    show win1_9.index t 0 * 1 ≤ (i 0).val ∧ (i 0).val < win1_9.index t 0 * 1 + win1_9.xsize (grid1.coords t) 0
    rw [x0, e0]; omega
  | ⟨1, _⟩ =>
    show win1_9.index t 1 * 1 ≤ (i 1).val ∧ (i 1).val < win1_9.index t 1 * 1 + win1_9.xsize (grid1.coords t) 1
    rw [x1, e1]; omega
  | ⟨2, _⟩ =>
    show win1_9.index t 2 * 256 ≤ (i 2).val ∧ (i 2).val < win1_9.index t 2 * 256 + win1_9.xsize (grid1.coords t) 2
    rw [x2, e2]; split <;> omega
  | ⟨3, _⟩ =>
    show win1_9.index t 3 * 64 ≤ (i 3).val ∧ (i 3).val < win1_9.index t 3 * 64 + win1_9.xsize (grid1.coords t) 3
    rw [x3, e3]; omega

section Final

variable {F : FTy → Type} [FloatOps F]

variable (V : (c : Dev nD) → (b : Ref sig .tc) → Buf (Elt F) ((c : Thread nD τ).loc b))
  (P2 P3 : S2x8x2047x2047.Idx → Elt F .f32) (T D X : S2x8x2047x64.Idx → Elt F .f32) (c : Dev nD)

/-- The array ends holding the given one. -/
theorem final9 : (dat1 V (aft1X V P2 P3 T D X) c).arrAt 9 cfg1.N = T := by
  refine (dat1 V (aft1X V P2 P3 T D X) c).arrAt_eq_of_cover 9 T (fun t _ => ?_) cover9
  show (cfg1.win 9).cut (cfg1.grid.coords t) (aft1X V P2 P3 T D X c 9 t) = _
  exact Pipeline.Window.cut_fill _ _ _ _

end Final

end Cert.KernelIdeal.Hand

end
-- ==== Proof.Ideal.TdFinal10.lean ====
/-
  Region 1, output window 10 (the distance stream's output): its blocks, cut at the array's 2047 rows, cover the array — row r of batch b
  and head h lies in the block of the point whose block index is (b, h, r / 256, 0) — so the array, every block of which
  is written back as the block of one given whole array, ends holding that array.
-/
import proofs.«111166_j1640677507314_2_alg».proof.Proof.Ideal.TdAfter
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem

/-- An index is in a point's block iff on every axis it lies from the block's start up to the block's cut size. -/
theorem mem_blk10 (t : Fin cfg1.N) (i : S2x8x2047x64.Idx) :
    i ∈ ((cfg1.win 10).blk t).view.set ↔ ∀ a : Fin 4, win1_10.index t a * S1x1x256x64.size a ≤ (i a).val
      ∧ (i a).val < win1_10.index t a * S1x1x256x64.size a + win1_10.xsize (grid1.coords t) a := by
  show i ∈ ((View.whole main_v2_3).slice (win1_10.rect t)).set ↔ _
  rw [View.set_slice_whole, Rect.mem_set_unit]
  exact Iff.rfl

/-- The block indices' ranges and the cut sizes: only the last row tile is cut, by one row. -/
theorem idx_facts10 : ∀ t : Fin cfg1.N, win1_10.index t (0 : Fin 4) ≤ 1 ∧ win1_10.index t (1 : Fin 4) ≤ 7 ∧ win1_10.index t (2 : Fin 4) ≤ 7
    ∧ win1_10.index t (3 : Fin 4) = 0
    ∧ win1_10.xsize (grid1.coords t) (0 : Fin 4) = 1 ∧ win1_10.xsize (grid1.coords t) (1 : Fin 4) = 1
    ∧ win1_10.xsize (grid1.coords t) (2 : Fin 4) = (if win1_10.index t (2 : Fin 4) = 7 then 255 else 256)
    ∧ win1_10.xsize (grid1.coords t) (3 : Fin 4) = 64 :=
  (by decide +kernel : ∀ t : Fin grid1.N, _)

/-- Every (batch, head, row tile) is some point's block index. -/
theorem idx_onto10 : ∀ (b : Fin 2) (h : Fin 8) (q : Fin 8), ∃ t : Fin cfg1.N, win1_10.index t = ![b.val, h.val, q.val, 0] :=
  (by decide +kernel : ∀ (b : Fin 2) (h : Fin 8) (q : Fin 8), ∃ t : Fin grid1.N, win1_10.index t = ![b.val, h.val, q.val, 0])

/-- Every index of the array is in some point's block. -/
theorem cover10 (i : S2x8x2047x64.Idx) :
    ∃ t : Fin cfg1.N, (cfg1.win 10).flush t = true ∧ i ∈ ((cfg1.win 10).blk t).view.set := by
  have h2 : (i 2).val < 2047 := (i 2).isLt
  have h3 : (i 3).val < 64 := (i 3).isLt
  obtain ⟨t, ht⟩ := idx_onto10 ⟨(i 0).val, (i 0).isLt⟩ ⟨(i 1).val, (i 1).isLt⟩ ⟨(i 2).val / 256, by omega⟩
  have e0 : win1_10.index t 0 = (i 0).val := congrFun ht 0
  have e1 : win1_10.index t 1 = (i 1).val := congrFun ht 1
  have e2 : win1_10.index t 2 = (i 2).val / 256 := congrFun ht 2
  have e3 : win1_10.index t 3 = 0 := congrFun ht 3
  obtain ⟨-, -, -, -, x0, x1, x2, x3⟩ := idx_facts10 t
  refine ⟨t, flush1_10 t, (mem_blk10 t i).mpr fun a => ?_⟩
  match a with
  | ⟨0, _⟩ =>
    show win1_10.index t 0 * 1 ≤ (i 0).val ∧ (i 0).val < win1_10.index t 0 * 1 + win1_10.xsize (grid1.coords t) 0
    rw [x0, e0]; omega
  | ⟨1, _⟩ =>
    show win1_10.index t 1 * 1 ≤ (i 1).val ∧ (i 1).val < win1_10.index t 1 * 1 + win1_10.xsize (grid1.coords t) 1
    rw [x1, e1]; omega
  | ⟨2, _⟩ =>
    show win1_10.index t 2 * 256 ≤ (i 2).val ∧ (i 2).val < win1_10.index t 2 * 256 + win1_10.xsize (grid1.coords t) 2
    rw [x2, e2]; split <;> omega
  | ⟨3, _⟩ =>
    show win1_10.index t 3 * 64 ≤ (i 3).val ∧ (i 3).val < win1_10.index t 3 * 64 + win1_10.xsize (grid1.coords t) 3
    rw [x3, e3]; omega

section Final

variable {F : FTy → Type} [FloatOps F]

variable (V : (c : Dev nD) → (b : Ref sig .tc) → Buf (Elt F) ((c : Thread nD τ).loc b))
  (P2 P3 : S2x8x2047x2047.Idx → Elt F .f32) (T D X : S2x8x2047x64.Idx → Elt F .f32) (c : Dev nD)

/-- The array ends holding the given one. -/
theorem final10 : (dat1 V (aft1X V P2 P3 T D X) c).arrAt 10 cfg1.N = D := by
  refine (dat1 V (aft1X V P2 P3 T D X) c).arrAt_eq_of_cover 10 D (fun t _ => ?_) cover10
  show (cfg1.win 10).cut (cfg1.grid.coords t) (aft1X V P2 P3 T D X c 10 t) = _
  exact Pipeline.Window.cut_fill _ _ _ _

end Final

end Cert.KernelIdeal.Hand

end
-- ==== Proof.Ideal.TdFinal11.lean ====
/-
  Region 1, output window 11 (the cross product): its blocks, cut at the array's 2047 rows, cover the array — row r of batch b
  and head h lies in the block of the point whose block index is (b, h, r / 256, 0) — so the array, every block of which
  is written back as the block of one given whole array, ends holding that array.
-/
import proofs.«111166_j1640677507314_2_alg».proof.Proof.Ideal.TdAfter
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem

/-- An index is in a point's block iff on every axis it lies from the block's start up to the block's cut size. -/
theorem mem_blk11 (t : Fin cfg1.N) (i : S2x8x2047x64.Idx) :
    i ∈ ((cfg1.win 11).blk t).view.set ↔ ∀ a : Fin 4, win1_11.index t a * S1x1x256x64.size a ≤ (i a).val
      ∧ (i a).val < win1_11.index t a * S1x1x256x64.size a + win1_11.xsize (grid1.coords t) a := by
  show i ∈ ((View.whole main_v2_4).slice (win1_11.rect t)).set ↔ _
  rw [View.set_slice_whole, Rect.mem_set_unit]
  exact Iff.rfl

/-- The block indices' ranges and the cut sizes: only the last row tile is cut, by one row. -/
theorem idx_facts11 : ∀ t : Fin cfg1.N, win1_11.index t (0 : Fin 4) ≤ 1 ∧ win1_11.index t (1 : Fin 4) ≤ 7 ∧ win1_11.index t (2 : Fin 4) ≤ 7
    ∧ win1_11.index t (3 : Fin 4) = 0
    ∧ win1_11.xsize (grid1.coords t) (0 : Fin 4) = 1 ∧ win1_11.xsize (grid1.coords t) (1 : Fin 4) = 1
    ∧ win1_11.xsize (grid1.coords t) (2 : Fin 4) = (if win1_11.index t (2 : Fin 4) = 7 then 255 else 256)
    ∧ win1_11.xsize (grid1.coords t) (3 : Fin 4) = 64 :=
  (by decide +kernel : ∀ t : Fin grid1.N, _)

/-- Every (batch, head, row tile) is some point's block index. -/
theorem idx_onto11 : ∀ (b : Fin 2) (h : Fin 8) (q : Fin 8), ∃ t : Fin cfg1.N, win1_11.index t = ![b.val, h.val, q.val, 0] :=
  (by decide +kernel : ∀ (b : Fin 2) (h : Fin 8) (q : Fin 8), ∃ t : Fin grid1.N, win1_11.index t = ![b.val, h.val, q.val, 0])

/-- Every index of the array is in some point's block. -/
theorem cover11 (i : S2x8x2047x64.Idx) :
    ∃ t : Fin cfg1.N, (cfg1.win 11).flush t = true ∧ i ∈ ((cfg1.win 11).blk t).view.set := by
  have h2 : (i 2).val < 2047 := (i 2).isLt
  have h3 : (i 3).val < 64 := (i 3).isLt
  obtain ⟨t, ht⟩ := idx_onto11 ⟨(i 0).val, (i 0).isLt⟩ ⟨(i 1).val, (i 1).isLt⟩ ⟨(i 2).val / 256, by omega⟩
  have e0 : win1_11.index t 0 = (i 0).val := congrFun ht 0
  have e1 : win1_11.index t 1 = (i 1).val := congrFun ht 1
  have e2 : win1_11.index t 2 = (i 2).val / 256 := congrFun ht 2
  have e3 : win1_11.index t 3 = 0 := congrFun ht 3
  obtain ⟨-, -, -, -, x0, x1, x2, x3⟩ := idx_facts11 t
  refine ⟨t, flush1_11 t, (mem_blk11 t i).mpr fun a => ?_⟩
  match a with
  | ⟨0, _⟩ =>
    show win1_11.index t 0 * 1 ≤ (i 0).val ∧ (i 0).val < win1_11.index t 0 * 1 + win1_11.xsize (grid1.coords t) 0
    rw [x0, e0]; omega
  | ⟨1, _⟩ =>
    show win1_11.index t 1 * 1 ≤ (i 1).val ∧ (i 1).val < win1_11.index t 1 * 1 + win1_11.xsize (grid1.coords t) 1
    rw [x1, e1]; omega
  | ⟨2, _⟩ =>
    show win1_11.index t 2 * 256 ≤ (i 2).val ∧ (i 2).val < win1_11.index t 2 * 256 + win1_11.xsize (grid1.coords t) 2
    rw [x2, e2]; split <;> omega
  | ⟨3, _⟩ =>
    show win1_11.index t 3 * 64 ≤ (i 3).val ∧ (i 3).val < win1_11.index t 3 * 64 + win1_11.xsize (grid1.coords t) 3
    rw [x3, e3]; omega

section Final

variable {F : FTy → Type} [FloatOps F]

variable (V : (c : Dev nD) → (b : Ref sig .tc) → Buf (Elt F) ((c : Thread nD τ).loc b))
  (P2 P3 : S2x8x2047x2047.Idx → Elt F .f32) (T D X : S2x8x2047x64.Idx → Elt F .f32) (c : Dev nD)

/-- The array ends holding the given one. -/
theorem final11 : (dat1 V (aft1X V P2 P3 T D X) c).arrAt 11 cfg1.N = X := by
  refine (dat1 V (aft1X V P2 P3 T D X) c).arrAt_eq_of_cover 11 X (fun t _ => ?_) cover11
  show (cfg1.win 11).cut (cfg1.grid.coords t) (aft1X V P2 P3 T D X c 11 t) = _
  exact Pipeline.Window.cut_fill _ _ _ _

end Final

end Cert.KernelIdeal.Hand

end
-- ==== Proof.Ideal.Results.lean ====
/-
  The idealized kernel's six results as the attention functions of its arguments.

  At the exact reals the second region's arithmetic is row by row, so its outputs are named exactly: the run's
  existential is the named arrays.  Region 0's probabilities are the masked attention of the poi stream, its output
  their product with the poi values; region 1's are the plain attentions of the time and distance streams, their
  products with the streams' values, and the product of their sum with the poi values less the last row; the first
  result is that cross product scatter-added at row offset one into region 0's output.
-/
import proofs.«111166_j1640677507314_2_alg».proof.Proof.Ideal.Host
import proofs.«111166_j1640677507314_2_alg».proof.Proof.Ideal.Poi
import proofs.«111166_j1640677507314_2_alg».proof.Proof.Ideal.PoiValue
import proofs.«111166_j1640677507314_2_alg».proof.Proof.Ideal.TdObl
import proofs.«111166_j1640677507314_2_alg».proof.Proof.Ideal.TdValue
import proofs.«111166_j1640677507314_2_alg».proof.Proof.Ideal.TdFinal
import proofs.«111166_j1640677507314_2_alg».proof.Proof.Ideal.TdFinal8
import proofs.«111166_j1640677507314_2_alg».proof.Proof.Ideal.TdFinal9
import proofs.«111166_j1640677507314_2_alg».proof.Proof.Ideal.TdFinal10
import proofs.«111166_j1640677507314_2_alg».proof.Proof.Ideal.TdFinal11

set_option maxRecDepth 16384

noncomputable section

namespace Cert.KernelIdeal.Hand

open Cert.KernelIdeal Cert.KernelIdeal.Facts₀
open Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- What region 0's staging buffers hold after the body. -/
abbrev A0 : (c : Dev nD) → (w : Fin cfg0.W) → Fin cfg0.N → (cfg0.win w).block.Idx → Elt Ideal (cfg0.win w).elt := aft0 (V0 m)
/-- What region 1 is entered with. -/
abbrev VV : (c : Dev nD) → (b : Ref sig .tc) → Buf (Elt Ideal) ((c : Thread nD τ).loc b) := V2 m (A0 m)
/-- What region 1's staging buffers hold after the body: each output's the block of its named array. -/
abbrev A1 : (c : Dev nD) → (w : Fin cfg1.W) → Fin cfg1.N → (cfg1.win w).block.Idx → Elt Ideal (cfg1.win w).elt :=
  fun c => aft1X (VV m) (P2 (VV m) c) (P3 (VV m) c) (TOut (VV m) c) (DOut (VV m) c) (XOut (VV m) c) c

/-! ## The named arrays, as functions of the arguments -/

/-- The masked attention of the poi stream. -/
def Q1 (c : Dev nD) : S2x8x2048x2048.Idx → EReal :=
  Spec.attnMasked Spec.dotK @Spec.smaxK (m ((c.tc : Thread nD τ).loc main_arg0)) (m ((c.tc : Thread nD τ).loc main_arg1))
    (m ((c.tc : Thread nD τ).loc main_arg9))
/-- The attention of the time stream. -/
def Q2 (c : Dev nD) : S2x8x2047x2047.Idx → EReal :=
  Spec.attnPlain Spec.dotK @Spec.smaxK (m ((c.tc : Thread nD τ).loc main_arg3)) (m ((c.tc : Thread nD τ).loc main_arg4))
/-- The attention of the distance stream. -/
def Q3 (c : Dev nD) : S2x8x2047x2047.Idx → EReal :=
  Spec.attnPlain Spec.dotK @Spec.smaxK (m ((c.tc : Thread nD τ).loc main_arg6)) (m ((c.tc : Thread nD τ).loc main_arg7))

/-- The first result. -/
def Out0 (c : Dev nD) : S2x8x2048x64.Idx → EReal :=
  Host.scatter scatter_S2x8x2048x64_S1_S2x8x2047x64_0123_n_2_0 (FloatOps.addf (F := Ideal) (φ := .f32))
    (Spec.apply (Q1 m c) (m ((c.tc : Thread nD τ).loc main_arg2)))
    (broadcastInDim S1 ![] bcast_S_S1 (constantI S_ 32 1#32))
    (Spec.apply (Spec.addA (Q2 m c) (Q3 m c))
      (extractStridedSlice S2x8x2047x64 ![0, 0, 0, 0] (m ((c.tc : Thread nD τ).loc main_arg2) : S2x8x2048x64.Idx → EReal)
        slices_S2x8x2048x64_S2x8x2047x64_0_0_0_0))

theorem P2_eq (c : Dev nD) : P2 (VV m) c = Q2 m c := by
  unfold P2 Q2; rw [show VV m c main_arg3 = m ((c.tc : Thread nD τ).loc main_arg3) from V2_arg3 m (A0 m) c, show VV m c main_arg4 = m ((c.tc : Thread nD τ).loc main_arg4) from V2_arg4 m (A0 m) c]
theorem P3_eq (c : Dev nD) : P3 (VV m) c = Q3 m c := by
  unfold P3 Q3; rw [show VV m c main_arg6 = m ((c.tc : Thread nD τ).loc main_arg6) from V2_arg6 m (A0 m) c, show VV m c main_arg7 = m ((c.tc : Thread nD τ).loc main_arg7) from V2_arg7 m (A0 m) c]
theorem TOut_eq (c : Dev nD) : TOut (VV m) c = Spec.apply (Q2 m c) (m ((c.tc : Thread nD τ).loc main_arg5)) := by
  unfold TOut; rw [P2_eq, show VV m c main_arg5 = m ((c.tc : Thread nD τ).loc main_arg5) from V2_arg5 m (A0 m) c]
theorem DOut_eq (c : Dev nD) : DOut (VV m) c = Spec.apply (Q3 m c) (m ((c.tc : Thread nD τ).loc main_arg8)) := by
  unfold DOut; rw [P3_eq, show VV m c main_arg8 = m ((c.tc : Thread nD τ).loc main_arg8) from V2_arg8 m (A0 m) c]
theorem XOut_eq (c : Dev nD) : XOut (VV m) c = Spec.apply (Spec.addA (Q2 m c) (Q3 m c))
    (extractStridedSlice S2x8x2047x64 ![0, 0, 0, 0] (m ((c.tc : Thread nD τ).loc main_arg2) : S2x8x2048x64.Idx → EReal)
      slices_S2x8x2048x64_S2x8x2047x64_0_0_0_0) := by
  unfold XOut; rw [P2_eq, P3_eq, show (VV m c main_v1 : S2x8x2047x64.Idx → EReal) = _ from V2_v1 m (A0 m) c]

/-- Region 1's exact data on core c, its outputs' arrays named at that core. -/
abbrev D1 (c : Dev nD) : Dat τ (Elt Ideal) Unit ℕ (UR sig nD τ) ℕ cfg1 c :=
  dat1 (VV m) (aft1X (VV m) (P2 (VV m) c) (P3 (VV m) c) (TOut (VV m) c) (DOut (VV m) c) (XOut (VV m) c)) c

/-- The data the run is stated over is that data: the two differ only in how the core is passed to the named arrays. -/
theorem dat1_A1 (c : Dev nD) : dat1 (VV m) (A1 m) c = D1 m c := by
  unfold dat1; rfl

/-- With no window forgotten, what region 1 may leave is what its exact data names. -/
theorem exactG (c : Dev nD) (G : (w : Fin cfg1.W) → Buf (Elt Ideal) ((spec1 w).arr.view.loc (c : Thread nD τ)))
    (hG : Left1 m (A0 m) (A1 m) (fun _ => false) c G) (w : Fin cfg1.W) : G w = (D1 m c).arrAt w cfg1.N := by
  have h : ((dat1 (VV m) (A1 m) c).toRForget (fun _ => false)).ArrAt w cfg1.N (G w) := hG w
  rw [dat1_A1 m c] at h
  exact ((D1 m c).toRForget_arrAt_iff (fgt := fun _ => false) rfl cfg1.N (G w)).mp h

section Named

variable (c : Dev nD) (G : (w : Fin cfg1.W) → Buf (Elt Ideal) ((spec1 w).arr.view.loc (c : Thread nD τ)))
variable (hG : Left1 m (A0 m) (A1 m) (fun _ => false) c G)

include hG

theorem g7 : G 7 = Q2 m c :=
  (exactG m c G hG 7).trans ((final7 (VV m) (P2 (VV m) c) (P3 (VV m) c) (TOut (VV m) c) (DOut (VV m) c) (XOut (VV m) c) c).trans (P2_eq m c))
theorem g8 : G 8 = Q3 m c :=
  (exactG m c G hG 8).trans ((final8 (VV m) (P2 (VV m) c) (P3 (VV m) c) (TOut (VV m) c) (DOut (VV m) c) (XOut (VV m) c) c).trans (P3_eq m c))
theorem g9 : G 9 = Spec.apply (Q2 m c) (m ((c.tc : Thread nD τ).loc main_arg5)) :=
  (exactG m c G hG 9).trans ((final9 (VV m) (P2 (VV m) c) (P3 (VV m) c) (TOut (VV m) c) (DOut (VV m) c) (XOut (VV m) c) c).trans (TOut_eq m c))
theorem g10 : G 10 = Spec.apply (Q3 m c) (m ((c.tc : Thread nD τ).loc main_arg8)) :=
  (exactG m c G hG 10).trans ((final10 (VV m) (P2 (VV m) c) (P3 (VV m) c) (TOut (VV m) c) (DOut (VV m) c) (XOut (VV m) c) c).trans (DOut_eq m c))
theorem g11 : G 11 = Spec.apply (Spec.addA (Q2 m c) (Q3 m c))
    (extractStridedSlice S2x8x2047x64 ![0, 0, 0, 0] (m ((c.tc : Thread nD τ).loc main_arg2) : S2x8x2048x64.Idx → EReal)
      slices_S2x8x2048x64_S2x8x2047x64_0_0_0_0) :=
  (exactG m c G hG 11).trans ((final11 (VV m) (P2 (VV m) c) (P3 (VV m) c) (TOut (VV m) c) (DOut (VV m) c) (XOut (VV m) c) c).trans (XOut_eq m c))

end Named

theorem p4 (c : Dev nD) : (dat0 (V0 m) (A0 m) c).arrAt 4 cfg0.N = Q1 m c := attn1_final (V0 m) c
theorem p5 (c : Dev nD) : (dat0 (V0 m) (A0 m) c).arrAt 5 cfg0.N = Spec.apply (Q1 m c) (m ((c.tc : Thread nD τ).loc main_arg2)) :=
  poiMain_final (V0 m) c

/-- Region 1's body obligation at the exact reals, every window named. -/
theorem hb1 (c : Dev nD) : Pipeline.BodyObligationLoose (dat1 (VV m) (A1 m) c) (defs₀ (F := Ideal)) Variants.none () Set.univ := by
  rw [dat1_A1 m c]
  exact body1X (VV m) (P2 (VV m) c) (P3 (VV m) c) (TOut (VV m) c) (DOut (VV m) c) (XOut (VV m) c) c (rowWise (VV m) c)

/-- The first result, read off the run's last contents. -/
theorem out0 (c : Dev nD) (G : (w : Fin cfg1.W) → Buf (Elt Ideal) ((spec1 w).arr.view.loc (c : Thread nD τ)))
    (hG : Left1 m (A0 m) (A1 m) (fun _ => false) c G) : (W4 m (A0 m) c G main_v4 : S2x8x2048x64.Idx → EReal) = Out0 m c := by
  rw [W4_v4 m (A0 m) c G, p5 m c, g11 m c G hG]
  rfl

set_option maxHeartbeats 1000000 in
/-- THE RUN, READ: every weakly fair execution of the idealized kernel's @main terminates with the six results at
    the attention functions of the arguments and the arguments unchanged. -/
theorem results : θ_run defs (onTc (τ := τ) (main (F := Ideal))) ⟨m, fun _ => 0, ρ⟩ (fun r => ∀ c : Dev nD,
      r.2.mem ((c.tc : Thread nD τ).loc main_v4) = Out0 m c
      ∧ r.2.mem ((c.tc : Thread nD τ).loc main_v2_2) = Spec.apply (Q2 m c) (m ((c.tc : Thread nD τ).loc main_arg5))
      ∧ r.2.mem ((c.tc : Thread nD τ).loc main_v2_3) = Spec.apply (Q3 m c) (m ((c.tc : Thread nD τ).loc main_arg8))
      ∧ r.2.mem ((c.tc : Thread nD τ).loc main_v0_0) = Q1 m c
      ∧ r.2.mem ((c.tc : Thread nD τ).loc main_v2_0) = Q2 m c
      ∧ r.2.mem ((c.tc : Thread nD τ).loc main_v2_1) = Q3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨G, hG, hm⟩ := h c
    exact ⟨(hm _ (mem_uc main_v4 (by decide))).trans (out0 m c G hG),
      (hm _ (mem_uc main_v2_2 (by decide))).trans ((W4_v2_2 m (A0 m) c G).trans (g9 m c G hG)),
      (hm _ (mem_uc main_v2_3 (by decide))).trans ((W4_v2_3 m (A0 m) c G).trans (g10 m c G hG)),
      (hm _ (mem_uc main_v0_0 (by decide))).trans ((W4_v0_0 m (A0 m) c G).trans (p4 m c)),
      (hm _ (mem_uc main_v2_0 (by decide))).trans ((W4_v2_0 m (A0 m) c G).trans (g7 m c G hG)),
      (hm _ (mem_uc main_v2_1 (by decide))).trans ((W4_v2_1 m (A0 m) c G).trans (g8 m c G hG)),
      (hm _ (mem_uc main_arg0 (by decide))).trans (W4_arg0 m (A0 m) (A1 m) _ c G hG),
      (hm _ (mem_uc main_arg1 (by decide))).trans (W4_arg1 m (A0 m) (A1 m) _ c G hG),
      (hm _ (mem_uc main_arg2 (by decide))).trans (W4_arg2 m (A0 m) (A1 m) _ c G hG),
      (hm _ (mem_uc main_arg3 (by decide))).trans (W4_arg3 m (A0 m) (A1 m) _ c G hG),
      (hm _ (mem_uc main_arg4 (by decide))).trans (W4_arg4 m (A0 m) (A1 m) _ c G hG),
      (hm _ (mem_uc main_arg5 (by decide))).trans (W4_arg5 m (A0 m) (A1 m) _ c G hG),
      (hm _ (mem_uc main_arg6 (by decide))).trans (W4_arg6 m (A0 m) (A1 m) _ c G hG),
      (hm _ (mem_uc main_arg7 (by decide))).trans (W4_arg7 m (A0 m) (A1 m) _ c G hG),
      (hm _ (mem_uc main_arg8 (by decide))).trans (W4_arg8 m (A0 m) (A1 m) _ c G hG),
      (hm _ (mem_uc main_arg9 (by decide))).trans (W4_arg9 m (A0 m) (A1 m) _ c G hG)⟩)
    (run m ρ (A0 m) (A1 m) (fun _ => false) (fun c => (body0 (V0 m) c).loose) (hb1 m))

end Cert.KernelIdeal.Hand

end
-- ==== Proof.RefValue.lean ====
/-
  The reference's results, stage by stage, as the attention functions of its arguments.
-/
import proofs.«111166_j1640677507314_2_alg».proof.Proof.Gen.ReferenceIdeal.Read
import proofs.«111166_j1640677507314_2_alg».proof.Proof.Spec

noncomputable section

namespace Cert.RefValue

open Cert Cert.ReferenceIdeal Cert.ReferenceIdeal.Gen Cert.ReferenceIdeal.Read Idealize.ShloMosaic Idealize.ShloMosaic.ValueIdx
  Idealize.ShloMosaic.StableHlo

/-! ## A row of scores read stage by stage is the reference's spelling of the probabilities -/

/-- If m is the row maximum taken once more against minus infinity, e the exponentials of the differences, z zero plus
    their row sums and p the quotients, then p is the probabilities of the rows of s. -/
theorem smaxR_of_reads {n : ℕ} (s e p : Spec.A 2 8 n n) (m z : (⟨3, ![2, 8, n]⟩ : Shape).Idx → EReal)
    (hm : ∀ b h r, m (ix3 b h r)
      = max Spec.negInf ((Finset.univ : Finset (Fin n)).fold max Spec.negInf fun c => s (ix4 b h r c)))
    (he : ∀ b h r c, e (ix4 b h r c) = Ideal.exp (s (ix4 b h r c) - m (ix3 b h r)))
    (hz : ∀ b h r, z (ix3 b h r) = Spec.zeroE + ∑ c : Fin n, e (ix4 b h r c))
    (hp : ∀ b h r c, p (ix4 b h r c) = Ideal.div (e (ix4 b h r c)) (z (ix3 b h r)))
    (b : Fin 2) (h : Fin 8) (r c : Fin n) :
    p (ix4 b h r c) = Spec.smaxR (fun c' => s (ix4 b h r c')) c := by
  rw [hp, hz]
  simp only [he, hm]
  rfl

/-! ## The masked scores and probabilities -/

section Poi

variable (x0 x1 : (⟨S2x8x2048x64, .f32⟩ : BufTy).Contents (Elt Ideal))
  (x9 : (⟨S2x1x2048x2048, .i32⟩ : BufTy).Contents (Elt Ideal))

/-- The scaled dot product of query row r and key row c. -/
theorem score2 (b : Fin 2) (h : Fin 8) (r c : Fin 2048) :
    val_main_v2 (F := Ideal) x0 x1 (ix4 b h r c) = Spec.score Spec.dotR x0 x1 b h r c := by
  rw [val_main_v2_apply]
  show _ = ∑ d : Fin 64, Ideal.div (x0 (ix4 b h r d)) Spec.eight * x1 (ix4 b h c d)
  refine Finset.sum_congr rfl fun k _ => ?_
  have el : lidx_main_v2 (ix4 b h r c) k = ix4 b h r k := funext fun a => Fin.ext (by
    match a with | ⟨0, _⟩ => rfl | ⟨1, _⟩ => rfl | ⟨2, _⟩ => rfl | ⟨3, _⟩ => rfl)
  have er : ridx_main_v2 (ix4 b h r c) k = ix4 b h c k := funext fun a => Fin.ext (by
    match a with | ⟨0, _⟩ => rfl | ⟨1, _⟩ => rfl | ⟨2, _⟩ => rfl | ⟨3, _⟩ => rfl)
  rw [el, er, val_main_v1_apply, val_main_v0_apply]
  rfl

/-- The masked score: the fixed large negative number where the mask word, shared by the heads, is zero. -/
theorem score11 (b : Fin 2) (h : Fin 8) (r c : Fin 2048) :
    val_main_v11 (F := Ideal) x0 x1 x9 (ix4 b h r c)
      = Scalar.select (IntOp.cmpi .eq (x9 (ix4 b (0 : Fin 1) r c)) 0#32) Spec.negBig
          (Spec.score Spec.dotR x0 x1 b h r c) := by
  rw [val_main_v11_apply, val_main_call0_v1_apply, val_main_v10_apply, val_main_v9_apply, val_main_call0_v2_apply,
    score2]
  have e : idx_main_call0_v1 (ix4 b h r c) = ix4 b (0 : Fin 1) r c := funext fun a => Fin.ext (by
    match a with | ⟨0, _⟩ => rfl | ⟨1, _⟩ => rfl | ⟨2, _⟩ => rfl | ⟨3, _⟩ => rfl)
  rw [e]
  rfl

/-- The row maximum, taken once more against minus infinity. -/
theorem max14 (b : Fin 2) (h : Fin 8) (r : Fin 2048) :
    val_main_v14 (F := Ideal) x0 x1 x9 (ix3 b h r)
      = max Spec.negInf ((Finset.univ : Finset (Fin 2048)).fold max Spec.negInf
          fun c => val_main_v11 (F := Ideal) x0 x1 x9 (ix4 b h r c)) := by
  rw [val_main_v14_apply, val_main_v13_apply]
  unfold val_main_v12
  generalize val_main_v11 (F := Ideal) x0 x1 x9 = s
  rw [Host.reduce_eq_fold_single (α := Ideal .f32) FloatOps.maximumf s _ reducesTo_S2x8x2048x2048_S2x8x2048_d3
    (by decide) h_S_]
  have e : ∀ k : Fin 2048, Shape.Reduces.lift (s := S2x8x2048x2048) (t := S2x8x2048) (a := 3) (by decide) (ix3 b h r) k
      = ix4 b h r k := fun k => funext fun a => Fin.ext (by
    match a with | ⟨0, _⟩ => rfl | ⟨1, _⟩ => rfl | ⟨2, _⟩ => rfl | ⟨3, _⟩ => rfl)
  exact congrArg
    (fun f : Fin 2048 → EReal => max Spec.negInf ((Finset.univ : Finset (Fin 2048)).fold max Spec.negInf f))
    (funext fun k => congrArg s (e k))

/-- The exponential of a score less its row's maximum. -/
theorem exp18 (b : Fin 2) (h : Fin 8) (r c : Fin 2048) :
    val_main_v18 (F := Ideal) x0 x1 x9 (ix4 b h r c)
      = Ideal.exp (val_main_v11 (F := Ideal) x0 x1 x9 (ix4 b h r c) - val_main_v14 (F := Ideal) x0 x1 x9 (ix3 b h r)) := by
  rw [val_main_v18_apply, val_main_v17_apply, val_main_v16_apply, val_main_v15_apply]
  have e : idx_main_v15 (idx_main_v16 (ix4 b h r c)) = ix3 b h r := funext fun a => Fin.ext (by
    match a with | ⟨0, _⟩ => rfl | ⟨1, _⟩ => rfl | ⟨2, _⟩ => rfl)
  rw [e]
  rfl

/-- Zero plus the row's sum of exponentials. -/
theorem sum19 (b : Fin 2) (h : Fin 8) (r : Fin 2048) :
    val_main_v19 (F := Ideal) x0 x1 x9 (ix3 b h r)
      = Spec.zeroE + ∑ c : Fin 2048, val_main_v18 (F := Ideal) x0 x1 x9 (ix4 b h r c) := by
  rw [val_main_v19_apply]
  refine congrArg (Spec.zeroE + ·) (Finset.sum_congr rfl fun k _ => ?_)
  exact congrArg (val_main_v18 (F := Ideal) x0 x1 x9) (funext fun a => Fin.ext (by
    match a with | ⟨0, _⟩ => rfl | ⟨1, _⟩ => rfl | ⟨2, _⟩ => rfl | ⟨3, _⟩ => rfl))

/-- The quotient of an exponential by its row's sum. -/
theorem div22 (b : Fin 2) (h : Fin 8) (r c : Fin 2048) :
    val_main_v22 (F := Ideal) x0 x1 x9 (ix4 b h r c)
      = Ideal.div (val_main_v18 (F := Ideal) x0 x1 x9 (ix4 b h r c)) (val_main_v19 (F := Ideal) x0 x1 x9 (ix3 b h r)) := by
  rw [val_main_v22_apply, val_main_v21_apply, val_main_v20_apply]
  have e : idx_main_v20 (idx_main_v21 (ix4 b h r c)) = ix3 b h r := funext fun a => Fin.ext (by
    match a with | ⟨0, _⟩ => rfl | ⟨1, _⟩ => rfl | ⟨2, _⟩ => rfl)
  rw [e]
  rfl

/-- The masked probabilities are the attention probabilities of the queries and keys under the mask. -/
theorem attn1_eq : val_main_v22 (F := Ideal) x0 x1 x9 = Spec.attnMasked Spec.dotR @Spec.smaxR x0 x1 x9 := by
  funext i
  obtain ⟨b, h, r, c, rfl⟩ : ∃ (b : Fin 2) (h : Fin 8) (r c : Fin 2048), i = ix4 b h r c :=
    ⟨i 0, i 1, i 2, i 3, eq_ix4 i⟩
  rw [Spec.attnMasked_ix4]
  refine (smaxR_of_reads (val_main_v11 (F := Ideal) x0 x1 x9) (val_main_v18 (F := Ideal) x0 x1 x9)
    (val_main_v22 (F := Ideal) x0 x1 x9) (val_main_v14 (F := Ideal) x0 x1 x9) (val_main_v19 (F := Ideal) x0 x1 x9)
    (max14 x0 x1 x9) (exp18 x0 x1 x9) (sum19 x0 x1 x9) (div22 x0 x1 x9) b h r c).trans ?_
  exact congrArg (fun s : Fin 2048 → EReal => Spec.smaxR s c) (funext fun c' => score11 x0 x1 x9 b h r c')

end Poi

/-! ## The time scores and probabilities -/

section Time

variable (x3 x4 : (⟨S2x8x2047x64, .f32⟩ : BufTy).Contents (Elt Ideal))

/-- The scaled dot product of query row r and key row c. -/
theorem score5 (b : Fin 2) (h : Fin 8) (r c : Fin 2047) :
    val_main_v5 (F := Ideal) x3 x4 (ix4 b h r c) = Spec.score Spec.dotR x3 x4 b h r c := by
  rw [val_main_v5_apply]
  show _ = ∑ d : Fin 64, Ideal.div (x3 (ix4 b h r d)) Spec.eight * x4 (ix4 b h c d)
  refine Finset.sum_congr rfl fun k _ => ?_
  have el : lidx_main_v5 (ix4 b h r c) k = ix4 b h r k := funext fun a => Fin.ext (by
    match a with | ⟨0, _⟩ => rfl | ⟨1, _⟩ => rfl | ⟨2, _⟩ => rfl | ⟨3, _⟩ => rfl)
  have er : ridx_main_v5 (ix4 b h r c) k = ix4 b h c k := funext fun a => Fin.ext (by
    match a with | ⟨0, _⟩ => rfl | ⟨1, _⟩ => rfl | ⟨2, _⟩ => rfl | ⟨3, _⟩ => rfl)
  rw [el, er, val_main_v4_apply, val_main_v3_apply]
  rfl

/-- The row maximum, taken once more against minus infinity. -/
theorem max25 (b : Fin 2) (h : Fin 8) (r : Fin 2047) :
    val_main_v25 (F := Ideal) x3 x4 (ix3 b h r)
      = max Spec.negInf ((Finset.univ : Finset (Fin 2047)).fold max Spec.negInf
          fun c => val_main_v5 (F := Ideal) x3 x4 (ix4 b h r c)) := by
  rw [val_main_v25_apply, val_main_v24_apply]
  unfold val_main_v23
  generalize val_main_v5 (F := Ideal) x3 x4 = s
  rw [Host.reduce_eq_fold_single (α := Ideal .f32) FloatOps.maximumf s _ reducesTo_S2x8x2047x2047_S2x8x2047_d3
    (by decide) h_S_]
  have e : ∀ k : Fin 2047, Shape.Reduces.lift (s := S2x8x2047x2047) (t := S2x8x2047) (a := 3) (by decide) (ix3 b h r) k
      = ix4 b h r k := fun k => funext fun a => Fin.ext (by
    match a with | ⟨0, _⟩ => rfl | ⟨1, _⟩ => rfl | ⟨2, _⟩ => rfl | ⟨3, _⟩ => rfl)
  exact congrArg
    (fun f : Fin 2047 → EReal => max Spec.negInf ((Finset.univ : Finset (Fin 2047)).fold max Spec.negInf f))
    (funext fun k => congrArg s (e k))

/-- The exponential of a score less its row's maximum. -/
theorem exp29 (b : Fin 2) (h : Fin 8) (r c : Fin 2047) :
    val_main_v29 (F := Ideal) x3 x4 (ix4 b h r c)
      = Ideal.exp (val_main_v5 (F := Ideal) x3 x4 (ix4 b h r c) - val_main_v25 (F := Ideal) x3 x4 (ix3 b h r)) := by
  rw [val_main_v29_apply, val_main_v28_apply, val_main_v27_apply, val_main_v26_apply]
  have e : idx_main_v26 (idx_main_v27 (ix4 b h r c)) = ix3 b h r := funext fun a => Fin.ext (by
    match a with | ⟨0, _⟩ => rfl | ⟨1, _⟩ => rfl | ⟨2, _⟩ => rfl)
  rw [e]
  rfl

/-- Zero plus the row's sum of exponentials. -/
theorem sum30 (b : Fin 2) (h : Fin 8) (r : Fin 2047) :
    val_main_v30 (F := Ideal) x3 x4 (ix3 b h r)
      = Spec.zeroE + ∑ c : Fin 2047, val_main_v29 (F := Ideal) x3 x4 (ix4 b h r c) := by
  rw [val_main_v30_apply]
  refine congrArg (Spec.zeroE + ·) (Finset.sum_congr rfl fun k _ => ?_)
  exact congrArg (val_main_v29 (F := Ideal) x3 x4) (funext fun a => Fin.ext (by
    match a with | ⟨0, _⟩ => rfl | ⟨1, _⟩ => rfl | ⟨2, _⟩ => rfl | ⟨3, _⟩ => rfl))

/-- The quotient of an exponential by its row's sum. -/
theorem div33 (b : Fin 2) (h : Fin 8) (r c : Fin 2047) :
    val_main_v33 (F := Ideal) x3 x4 (ix4 b h r c)
      = Ideal.div (val_main_v29 (F := Ideal) x3 x4 (ix4 b h r c)) (val_main_v30 (F := Ideal) x3 x4 (ix3 b h r)) := by
  rw [val_main_v33_apply, val_main_v32_apply, val_main_v31_apply]
  have e : idx_main_v31 (idx_main_v32 (ix4 b h r c)) = ix3 b h r := funext fun a => Fin.ext (by
    match a with | ⟨0, _⟩ => rfl | ⟨1, _⟩ => rfl | ⟨2, _⟩ => rfl)
  rw [e]
  rfl

/-- The time probabilities are the attention probabilities of the time queries and keys. -/
theorem attn2_eq : val_main_v33 (F := Ideal) x3 x4 = Spec.attnPlain Spec.dotR @Spec.smaxR x3 x4 := by
  funext i
  obtain ⟨b, h, r, c, rfl⟩ : ∃ (b : Fin 2) (h : Fin 8) (r c : Fin 2047), i = ix4 b h r c :=
    ⟨i 0, i 1, i 2, i 3, eq_ix4 i⟩
  rw [Spec.attnPlain_ix4]
  refine (smaxR_of_reads (val_main_v5 (F := Ideal) x3 x4) (val_main_v29 (F := Ideal) x3 x4)
    (val_main_v33 (F := Ideal) x3 x4) (val_main_v25 (F := Ideal) x3 x4) (val_main_v30 (F := Ideal) x3 x4)
    (max25 x3 x4) (exp29 x3 x4) (sum30 x3 x4) (div33 x3 x4) b h r c).trans ?_
  exact congrArg (fun s : Fin 2047 → EReal => Spec.smaxR s c) (funext fun c' => score5 x3 x4 b h r c')

end Time

/-! ## The distance scores and probabilities -/

section Distance

variable (x6 x7 : (⟨S2x8x2047x64, .f32⟩ : BufTy).Contents (Elt Ideal))

/-- The scaled dot product of query row r and key row c. -/
theorem score8 (b : Fin 2) (h : Fin 8) (r c : Fin 2047) :
    val_main_v8 (F := Ideal) x6 x7 (ix4 b h r c) = Spec.score Spec.dotR x6 x7 b h r c := by
  rw [val_main_v8_apply]
  show _ = ∑ d : Fin 64, Ideal.div (x6 (ix4 b h r d)) Spec.eight * x7 (ix4 b h c d)
  refine Finset.sum_congr rfl fun k _ => ?_
  have el : lidx_main_v8 (ix4 b h r c) k = ix4 b h r k := funext fun a => Fin.ext (by
    match a with | ⟨0, _⟩ => rfl | ⟨1, _⟩ => rfl | ⟨2, _⟩ => rfl | ⟨3, _⟩ => rfl)
  have er : ridx_main_v8 (ix4 b h r c) k = ix4 b h c k := funext fun a => Fin.ext (by
    match a with | ⟨0, _⟩ => rfl | ⟨1, _⟩ => rfl | ⟨2, _⟩ => rfl | ⟨3, _⟩ => rfl)
  rw [el, er, val_main_v7_apply, val_main_v6_apply]
  rfl

/-- The row maximum, taken once more against minus infinity. -/
theorem max36 (b : Fin 2) (h : Fin 8) (r : Fin 2047) :
    val_main_v36 (F := Ideal) x6 x7 (ix3 b h r)
      = max Spec.negInf ((Finset.univ : Finset (Fin 2047)).fold max Spec.negInf
          fun c => val_main_v8 (F := Ideal) x6 x7 (ix4 b h r c)) := by
  rw [val_main_v36_apply, val_main_v35_apply]
  unfold val_main_v34
  generalize val_main_v8 (F := Ideal) x6 x7 = s
  rw [Host.reduce_eq_fold_single (α := Ideal .f32) FloatOps.maximumf s _ reducesTo_S2x8x2047x2047_S2x8x2047_d3
    (by decide) h_S_]
  have e : ∀ k : Fin 2047, Shape.Reduces.lift (s := S2x8x2047x2047) (t := S2x8x2047) (a := 3) (by decide) (ix3 b h r) k
      = ix4 b h r k := fun k => funext fun a => Fin.ext (by
    match a with | ⟨0, _⟩ => rfl | ⟨1, _⟩ => rfl | ⟨2, _⟩ => rfl | ⟨3, _⟩ => rfl)
  exact congrArg
    (fun f : Fin 2047 → EReal => max Spec.negInf ((Finset.univ : Finset (Fin 2047)).fold max Spec.negInf f))
    (funext fun k => congrArg s (e k))

/-- The exponential of a score less its row's maximum. -/
theorem exp40 (b : Fin 2) (h : Fin 8) (r c : Fin 2047) :
    val_main_v40 (F := Ideal) x6 x7 (ix4 b h r c)
      = Ideal.exp (val_main_v8 (F := Ideal) x6 x7 (ix4 b h r c) - val_main_v36 (F := Ideal) x6 x7 (ix3 b h r)) := by
  rw [val_main_v40_apply, val_main_v39_apply, val_main_v38_apply, val_main_v37_apply]
  have e : idx_main_v37 (idx_main_v38 (ix4 b h r c)) = ix3 b h r := funext fun a => Fin.ext (by
    match a with | ⟨0, _⟩ => rfl | ⟨1, _⟩ => rfl | ⟨2, _⟩ => rfl)
  rw [e]
  rfl

/-- Zero plus the row's sum of exponentials. -/
theorem sum41 (b : Fin 2) (h : Fin 8) (r : Fin 2047) :
    val_main_v41 (F := Ideal) x6 x7 (ix3 b h r)
      = Spec.zeroE + ∑ c : Fin 2047, val_main_v40 (F := Ideal) x6 x7 (ix4 b h r c) := by
  rw [val_main_v41_apply]
  refine congrArg (Spec.zeroE + ·) (Finset.sum_congr rfl fun k _ => ?_)
  exact congrArg (val_main_v40 (F := Ideal) x6 x7) (funext fun a => Fin.ext (by
    match a with | ⟨0, _⟩ => rfl | ⟨1, _⟩ => rfl | ⟨2, _⟩ => rfl | ⟨3, _⟩ => rfl))

/-- The quotient of an exponential by its row's sum. -/
theorem div44 (b : Fin 2) (h : Fin 8) (r c : Fin 2047) :
    val_main_v44 (F := Ideal) x6 x7 (ix4 b h r c)
      = Ideal.div (val_main_v40 (F := Ideal) x6 x7 (ix4 b h r c)) (val_main_v41 (F := Ideal) x6 x7 (ix3 b h r)) := by
  rw [val_main_v44_apply, val_main_v43_apply, val_main_v42_apply]
  have e : idx_main_v42 (idx_main_v43 (ix4 b h r c)) = ix3 b h r := funext fun a => Fin.ext (by
    match a with | ⟨0, _⟩ => rfl | ⟨1, _⟩ => rfl | ⟨2, _⟩ => rfl)
  rw [e]
  rfl

/-- The distance probabilities are the attention probabilities of the distance queries and keys. -/
theorem attn3_eq : val_main_v44 (F := Ideal) x6 x7 = Spec.attnPlain Spec.dotR @Spec.smaxR x6 x7 := by
  funext i
  obtain ⟨b, h, r, c, rfl⟩ : ∃ (b : Fin 2) (h : Fin 8) (r c : Fin 2047), i = ix4 b h r c :=
    ⟨i 0, i 1, i 2, i 3, eq_ix4 i⟩
  rw [Spec.attnPlain_ix4]
  refine (smaxR_of_reads (val_main_v8 (F := Ideal) x6 x7) (val_main_v40 (F := Ideal) x6 x7)
    (val_main_v44 (F := Ideal) x6 x7) (val_main_v36 (F := Ideal) x6 x7) (val_main_v41 (F := Ideal) x6 x7)
    (max36 x6 x7) (exp40 x6 x7) (sum41 x6 x7) (div44 x6 x7) b h r c).trans ?_
  exact congrArg (fun s : Fin 2047 → EReal => Spec.smaxR s c) (funext fun c' => score8 x6 x7 b h r c')

end Distance

/-! ## Probabilities times value rows -/

section Apply

/-- The time result: the time probabilities times the time value rows. -/
theorem time_eq (x3 x4 x5 : (⟨S2x8x2047x64, .f32⟩ : BufTy).Contents (Elt Ideal)) :
    val_main_v46 (F := Ideal) x3 x4 x5 = Spec.apply (val_main_v33 (F := Ideal) x3 x4) x5 := by
  funext i
  obtain ⟨b, h, r, d, rfl⟩ : ∃ (b : Fin 2) (h : Fin 8) (r : Fin 2047) (d : Fin 64), i = ix4 b h r d :=
    ⟨i 0, i 1, i 2, i 3, eq_ix4 i⟩
  rw [Spec.apply_ix4, val_main_v46_apply]
  show _ = ∑ j : Fin 2047, val_main_v33 (F := Ideal) x3 x4 (ix4 b h r j) * x5 (ix4 b h j d)
  refine Finset.sum_congr rfl fun k _ => ?_
  have el : lidx_main_v46 (ix4 b h r d) k = ix4 b h r k := funext fun a => Fin.ext (by
    match a with | ⟨0, _⟩ => rfl | ⟨1, _⟩ => rfl | ⟨2, _⟩ => rfl | ⟨3, _⟩ => rfl)
  have er : ridx_main_v46 (ix4 b h r d) k = ix4 b h k d := funext fun a => Fin.ext (by
    match a with | ⟨0, _⟩ => rfl | ⟨1, _⟩ => rfl | ⟨2, _⟩ => rfl | ⟨3, _⟩ => rfl)
  rw [el, er]

/-- The distance result: the distance probabilities times the distance value rows. -/
theorem dist_eq (x6 x7 x8 : (⟨S2x8x2047x64, .f32⟩ : BufTy).Contents (Elt Ideal)) :
    val_main_v47 (F := Ideal) x6 x7 x8 = Spec.apply (val_main_v44 (F := Ideal) x6 x7) x8 := by
  funext i
  obtain ⟨b, h, r, d, rfl⟩ : ∃ (b : Fin 2) (h : Fin 8) (r : Fin 2047) (d : Fin 64), i = ix4 b h r d :=
    ⟨i 0, i 1, i 2, i 3, eq_ix4 i⟩
  rw [Spec.apply_ix4, val_main_v47_apply]
  show _ = ∑ j : Fin 2047, val_main_v44 (F := Ideal) x6 x7 (ix4 b h r j) * x8 (ix4 b h j d)
  refine Finset.sum_congr rfl fun k _ => ?_
  have el : lidx_main_v47 (ix4 b h r d) k = ix4 b h r k := funext fun a => Fin.ext (by
    match a with | ⟨0, _⟩ => rfl | ⟨1, _⟩ => rfl | ⟨2, _⟩ => rfl | ⟨3, _⟩ => rfl)
  have er : ridx_main_v47 (ix4 b h r d) k = ix4 b h k d := funext fun a => Fin.ext (by
    match a with | ⟨0, _⟩ => rfl | ⟨1, _⟩ => rfl | ⟨2, _⟩ => rfl | ⟨3, _⟩ => rfl)
  rw [el, er]

/-- The masked probabilities times the value rows. -/
theorem poiMain_eq (x0 x1 x2 : (⟨S2x8x2048x64, .f32⟩ : BufTy).Contents (Elt Ideal))
    (x9 : (⟨S2x1x2048x2048, .i32⟩ : BufTy).Contents (Elt Ideal)) :
    val_main_v45 (F := Ideal) x0 x1 x2 x9 = Spec.apply (val_main_v22 (F := Ideal) x0 x1 x9) x2 := by
  funext i
  obtain ⟨b, h, r, d, rfl⟩ : ∃ (b : Fin 2) (h : Fin 8) (r : Fin 2048) (d : Fin 64), i = ix4 b h r d :=
    ⟨i 0, i 1, i 2, i 3, eq_ix4 i⟩
  rw [Spec.apply_ix4, val_main_v45_apply]
  show _ = ∑ j : Fin 2048, val_main_v22 (F := Ideal) x0 x1 x9 (ix4 b h r j) * x2 (ix4 b h j d)
  refine Finset.sum_congr rfl fun k _ => ?_
  have el : lidx_main_v45 (ix4 b h r d) k = ix4 b h r k := funext fun a => Fin.ext (by
    match a with | ⟨0, _⟩ => rfl | ⟨1, _⟩ => rfl | ⟨2, _⟩ => rfl | ⟨3, _⟩ => rfl)
  have er : ridx_main_v45 (ix4 b h r d) k = ix4 b h k d := funext fun a => Fin.ext (by
    match a with | ⟨0, _⟩ => rfl | ⟨1, _⟩ => rfl | ⟨2, _⟩ => rfl | ⟨3, _⟩ => rfl)
  rw [el, er]

/-- The sum of the time and distance probabilities times the first 2047 value rows. -/
theorem cross_eq (x2 : (⟨S2x8x2048x64, .f32⟩ : BufTy).Contents (Elt Ideal)) (x3 x4 x6 x7 : (⟨S2x8x2047x64, .f32⟩ : BufTy).Contents (Elt Ideal)) :
    val_main_v50 (F := Ideal) x2 x3 x4 x6 x7
      = Spec.apply (Spec.addA (val_main_v33 (F := Ideal) x3 x4) (val_main_v44 (F := Ideal) x6 x7))
          (val_main_v49 (F := Ideal) x2) := by
  funext i
  obtain ⟨b, h, r, d, rfl⟩ : ∃ (b : Fin 2) (h : Fin 8) (r : Fin 2047) (d : Fin 64), i = ix4 b h r d :=
    ⟨i 0, i 1, i 2, i 3, eq_ix4 i⟩
  rw [Spec.apply_ix4, val_main_v50_apply]
  show _ = ∑ j : Fin 2047, (val_main_v33 (F := Ideal) x3 x4 (ix4 b h r j) + val_main_v44 (F := Ideal) x6 x7 (ix4 b h r j))
    * val_main_v49 (F := Ideal) x2 (ix4 b h j d)
  refine Finset.sum_congr rfl fun k _ => ?_
  have el : lidx_main_v50 (ix4 b h r d) k = ix4 b h r k := funext fun a => Fin.ext (by
    match a with | ⟨0, _⟩ => rfl | ⟨1, _⟩ => rfl | ⟨2, _⟩ => rfl | ⟨3, _⟩ => rfl)
  have er : ridx_main_v50 (ix4 b h r d) k = ix4 b h k d := funext fun a => Fin.ext (by
    match a with | ⟨0, _⟩ => rfl | ⟨1, _⟩ => rfl | ⟨2, _⟩ => rfl | ⟨3, _⟩ => rfl)
  rw [el, er, val_main_v48_apply]
  rfl

/-- The first 2047 value rows: row r of the slice is row r of the array. -/
theorem slice49 (x2 : (⟨S2x8x2048x64, .f32⟩ : BufTy).Contents (Elt Ideal)) (b : Fin 2) (h : Fin 8) (r : Fin 2047)
    (d : Fin 64) : val_main_v49 (F := Ideal) x2 (ix4 b h r d) = x2 (ix4 b h r.castSucc d) := by
  rw [val_main_v49_apply]
  exact congrArg x2 (funext fun a => Fin.ext (by
    match a with | ⟨0, _⟩ => rfl | ⟨1, _⟩ => rfl | ⟨2, _⟩ => rfl | ⟨3, _⟩ => rfl))

end Apply

end Cert.RefValue

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«111166_j1640677507314_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.SpecLaw.lean ====
/-
  The two spellings of softmax attention agree on arrays of real entries.

  The f32 words that occur denote the reals 1/8, 8, 1, 0, a large negative real, and minus infinity. Minus infinity
  is the bottom of the order, so taking the maximum against it once more changes nothing, and a maximum folded from
  it over a non-empty row is one of the row's entries. When every score is real, the maximum M is real, every
  exp (s j − M) is a positive real, and their sum l is a positive real: dividing by l and multiplying by the
  reciprocal of l are then the same product. Dividing by 8 and multiplying by 1/8 agree at every extended real.
-/
import proofs.«111166_j1640677507314_2_alg».proof.Proof.Spec
import proofs.«111166_j1640677507314_2_alg».proof.Proof.LibMatAssoc

noncomputable section

open scoped BigOperators

namespace Cert.Spec

open Idealize.ShloMosaic Idealize.ShloMosaic.ValueIdx

/-- Every entry of a rank-4 array is a real number (neither infinity). -/
def Real4 {n0 n1 n2 n3 : ℕ} (X : A n0 n1 n2 n3) : Prop := ∀ i, ∃ r : ℝ, X i = (r : EReal)

/-! ## The words -/

theorem eighth_eq : eighth = ((1 / 8 : ℝ) : EReal) := by
  simp [Ideal.ofBits, Ideal.ieee, -EReal.coe_mul]; norm_num

theorem eight_eq : eight = ((8 : ℝ) : EReal) := by
  simp [Ideal.ofBits, Ideal.ieee, -EReal.coe_mul]; norm_num

theorem oneE_eq : oneE = 1 := by
  simp [Ideal.ofBits, Ideal.ieee, -EReal.coe_mul]; norm_num

theorem zeroE_eq : zeroE = 0 := Ideal.ofBits_zero_f32

theorem negInf_eq : negInf = ⊥ := by simp [Ideal.ofBits, Ideal.ieee]

theorem negBig_real : ∃ r : ℝ, negBig = (r : EReal) := by
  simp [Ideal.ofBits, Ideal.ieee, -EReal.coe_mul]
  exact ⟨_, rfl⟩

/-! ## A row of scores -/

section Row

variable {n : ℕ}

/-- The maximum taken once more against minus infinity is the maximum. -/
theorem rowMaxR_eq (s : Fin n → EReal) : rowMaxR s = rowMaxK s := by
  unfold rowMaxR rowMaxK
  rw [negInf_eq]
  exact max_eq_right bot_le

/-- The maximum of a non-empty row of reals, folded from minus infinity, is one of its entries: a real. -/
theorem rowMaxK_real (s : Fin n → EReal) (hs : ∀ j, ∃ r : ℝ, s j = (r : EReal)) (j : Fin n) :
    ∃ m : ℝ, rowMaxK s = (m : EReal) := by
  have h : rowMaxK s = (Finset.univ : Finset (Fin n)).sup s := by
    unfold rowMaxK
    rw [negInf_eq]
    rfl
  obtain ⟨j0, -, hj0⟩ := Finset.exists_mem_eq_sup Finset.univ ⟨j, Finset.mem_univ j⟩ s
  obtain ⟨m, hm⟩ := hs j0
  exact ⟨m, by rw [h, hj0, hm]⟩

/-- On a row of real scores, exp (s j − M) · (1 / l) = exp (s j − M) / (0 + l): the sum l of the exponentials is a
    positive real, so both sides are the product of the exponential with the reciprocal of l. -/
theorem smaxK_eq_smaxR (s : Fin n → EReal) (hs : ∀ j, ∃ r : ℝ, s j = (r : EReal)) (j : Fin n) :
    smaxK s j = smaxR s j := by
  obtain ⟨m, hm⟩ := rowMaxK_real s hs j
  choose r hr using hs
  have hl : (∑ j' : Fin n, Ideal.exp (s j' - rowMaxK s)) = ((∑ j' : Fin n, Real.exp (r j' - m) : ℝ) : EReal) := by
    rw [Cert.Gcn.coe_sum]
    refine Finset.sum_congr rfl fun j' _ => ?_
    rw [hr, hm, ← EReal.coe_sub]
    rfl
  have hpos : 0 < ∑ j' : Fin n, Real.exp (r j' - m) :=
    Finset.sum_pos (fun _ _ => Real.exp_pos _) ⟨j, Finset.mem_univ j⟩
  unfold smaxK smaxR
  rw [rowMaxR_eq, zeroE_eq, oneE_eq, zero_add, hl, Ideal.div_coe hpos.ne', Ideal.div_coe hpos.ne', one_mul]

end Row

/-! ## A scaled dot product -/

/-- x · (1/8) = x / 8 at every extended real x, term by term. -/
theorem dotK_eq_dotR (q k : Fin 64 → EReal) : dotK q k = dotR q k := by
  unfold dotK dotR
  refine Finset.sum_congr rfl fun d _ => ?_
  rw [eight_eq, eighth_eq, Ideal.div_coe (by norm_num : (8 : ℝ) ≠ 0)]

/-- A scaled dot product of real vectors is real. -/
theorem dotK_real (q k : Fin 64 → EReal) (hq : ∀ d, ∃ r : ℝ, q d = r) (hk : ∀ d, ∃ r : ℝ, k d = r) :
    ∃ r : ℝ, dotK q k = (r : EReal) := by
  choose a ha using hq
  choose b hb using hk
  refine ⟨∑ d : Fin 64, a d * (1 / 8) * b d, ?_⟩
  unfold dotK
  rw [Cert.Gcn.coe_sum]
  refine Finset.sum_congr rfl fun d _ => ?_
  rw [ha, hb, eighth_eq, EReal.coe_mul, EReal.coe_mul]

/-! ## The arrays -/

/-- A score of real arrays is real. -/
theorem score_dotK_real {n : ℕ} (q k : A 2 8 n 64) (hq : Real4 q) (hk : Real4 k) (b : Fin 2) (h : Fin 8) (i j : Fin n) :
    ∃ r : ℝ, score dotK q k b h i j = (r : EReal) :=
  dotK_real _ _ (fun d => hq (ix4 b h i d)) (fun d => hk (ix4 b h j d))

theorem score_K_eq_R {n : ℕ} (q k : A 2 8 n 64) (b : Fin 2) (h : Fin 8) (i j : Fin n) :
    score dotR q k b h i j = score dotK q k b h i j := (dotK_eq_dotR _ _).symm

/-- Without a mask, at explicit coordinates. -/
theorem attnPlainAt_K_eq_R {n : ℕ} (q k : A 2 8 n 64) (hq : Real4 q) (hk : Real4 k) (b : Fin 2) (h : Fin 8) (i j : Fin n) :
    attnPlainAt dotK @smaxK q k b h i j = attnPlainAt dotR @smaxR q k b h i j := by
  unfold attnPlainAt
  rw [show (fun j' => score dotR q k b h i j') = fun j' => score dotK q k b h i j' from
    funext fun j' => score_K_eq_R q k b h i j']
  exact smaxK_eq_smaxR _ (fun j' => score_dotK_real q k hq hk b h i j') j

theorem attnPlain_K_eq_R {n : ℕ} (q k : A 2 8 n 64) (hq : Real4 q) (hk : Real4 k) :
    attnPlain dotK @smaxK q k = attnPlain dotR @smaxR q k := by
  funext x
  exact attnPlainAt_K_eq_R q k hq hk (x 0) (x 1) (x 2) (x 3)

/-- Under the mask, at explicit coordinates: a masked score is the large negative real or the dot product, a real
    either way. -/
theorem attnMaskedAt_K_eq_R (q k : A 2 8 2048 64) (mask : (⟨4, ![2, 1, 2048, 2048]⟩ : Shape).Idx → BitVec 32)
    (hq : Real4 q) (hk : Real4 k) (b : Fin 2) (h : Fin 8) (i j : Fin 2048) :
    attnMaskedAt dotK @smaxK q k mask b h i j = attnMaskedAt dotR @smaxR q k mask b h i j := by
  unfold attnMaskedAt
  rw [show (fun j' => Scalar.select (IntOp.cmpi .eq (mask (ix4 b (0 : Fin 1) i j')) 0#32) negBig (score dotR q k b h i j'))
      = fun j' => Scalar.select (IntOp.cmpi .eq (mask (ix4 b (0 : Fin 1) i j')) 0#32) negBig (score dotK q k b h i j') from
    funext fun j' => congrArg (Scalar.select _ negBig) (score_K_eq_R q k b h i j')]
  refine smaxK_eq_smaxR _ (fun j' => ?_) j
  unfold Scalar.select
  split
  · exact negBig_real
  · exact score_dotK_real q k hq hk b h i j'

theorem attnMasked_K_eq_R (q k : A 2 8 2048 64) (mask : (⟨4, ![2, 1, 2048, 2048]⟩ : Shape).Idx → BitVec 32)
    (hq : Real4 q) (hk : Real4 k) :
    attnMasked dotK @smaxK q k mask = attnMasked dotR @smaxR q k mask := by
  funext x
  exact attnMaskedAt_K_eq_R q k mask hq hk (x 0) (x 1) (x 2) (x 3)

/-- The two statements of "every entry is real" are one. -/
theorem real4_iff_finite {n0 n1 n2 n3 : ℕ} (X : A n0 n1 n2 n3) : Real4 X ↔ Cert.Gcn.Finite X := Iff.rfl

end Cert.Spec

end
-- ==== Proof.RefFinal.lean ====
/-
  The reference's six results on real-entried arguments, in the spelling the kernel computes: with every score a real,
  the two spellings of a row's probabilities and of the scaled dot agree, so each reference stage is the same
  attention function the kernel's write-backs are shown to leave.
-/
import proofs.«111166_j1640677507314_2_alg».proof.Proof.RefValue
import proofs.«111166_j1640677507314_2_alg».proof.Proof.SpecLaw

noncomputable section

namespace Cert.RefValue

open Cert Cert.ReferenceIdeal Cert.ReferenceIdeal.Gen Cert.ReferenceIdeal.Read
open Idealize.ShloMosaic Idealize.ShloMosaic.ValueIdx Idealize.ShloMosaic.StableHlo

variable (x0 x1 x2 : (⟨S2x8x2048x64, .f32⟩ : BufTy).Contents (Elt Ideal))
variable (x3 x4 x5 x6 x7 x8 : (⟨S2x8x2047x64, .f32⟩ : BufTy).Contents (Elt Ideal))
variable (x9 : (⟨S2x1x2048x2048, .i32⟩ : BufTy).Contents (Elt Ideal))

theorem attn1_K (h0 : Spec.Real4 (n0 := 2) (n1 := 8) (n2 := 2048) (n3 := 64) x0) (h1 : Spec.Real4 (n0 := 2) (n1 := 8) (n2 := 2048) (n3 := 64) x1) :
    val_main_v22 (F := Ideal) x0 x1 x9 = Spec.attnMasked Spec.dotK @Spec.smaxK x0 x1 x9 :=
  (attn1_eq x0 x1 x9).trans (Spec.attnMasked_K_eq_R x0 x1 x9 h0 h1).symm

theorem attn2_K (h3 : Spec.Real4 (n0 := 2) (n1 := 8) (n2 := 2047) (n3 := 64) x3) (h4 : Spec.Real4 (n0 := 2) (n1 := 8) (n2 := 2047) (n3 := 64) x4) :
    val_main_v33 (F := Ideal) x3 x4 = Spec.attnPlain Spec.dotK @Spec.smaxK x3 x4 :=
  (attn2_eq x3 x4).trans (Spec.attnPlain_K_eq_R x3 x4 h3 h4).symm

theorem attn3_K (h6 : Spec.Real4 (n0 := 2) (n1 := 8) (n2 := 2047) (n3 := 64) x6) (h7 : Spec.Real4 (n0 := 2) (n1 := 8) (n2 := 2047) (n3 := 64) x7) :
    val_main_v44 (F := Ideal) x6 x7 = Spec.attnPlain Spec.dotK @Spec.smaxK x6 x7 :=
  (attn3_eq x6 x7).trans (Spec.attnPlain_K_eq_R x6 x7 h6 h7).symm

theorem time_K (h3 : Spec.Real4 (n0 := 2) (n1 := 8) (n2 := 2047) (n3 := 64) x3) (h4 : Spec.Real4 (n0 := 2) (n1 := 8) (n2 := 2047) (n3 := 64) x4) :
    val_main_v46 (F := Ideal) x3 x4 x5 = Spec.apply (Spec.attnPlain Spec.dotK @Spec.smaxK x3 x4) x5 := by
  rw [time_eq, attn2_K x3 x4 h3 h4]

theorem dist_K (h6 : Spec.Real4 (n0 := 2) (n1 := 8) (n2 := 2047) (n3 := 64) x6) (h7 : Spec.Real4 (n0 := 2) (n1 := 8) (n2 := 2047) (n3 := 64) x7) :
    val_main_v47 (F := Ideal) x6 x7 x8 = Spec.apply (Spec.attnPlain Spec.dotK @Spec.smaxK x6 x7) x8 := by
  rw [dist_eq, attn3_K x6 x7 h6 h7]

/-- The first result: the masked stream's output with the cross product scatter-added at row offset one. -/
theorem out0_K (h0 : Spec.Real4 (n0 := 2) (n1 := 8) (n2 := 2048) (n3 := 64) x0) (h1 : Spec.Real4 (n0 := 2) (n1 := 8) (n2 := 2048) (n3 := 64) x1)
    (h3 : Spec.Real4 (n0 := 2) (n1 := 8) (n2 := 2047) (n3 := 64) x3) (h4 : Spec.Real4 (n0 := 2) (n1 := 8) (n2 := 2047) (n3 := 64) x4)
    (h6 : Spec.Real4 (n0 := 2) (n1 := 8) (n2 := 2047) (n3 := 64) x6) (h7 : Spec.Real4 (n0 := 2) (n1 := 8) (n2 := 2047) (n3 := 64) x7) :
    val_main_v52 (F := Ideal) x0 x1 x2 x3 x4 x6 x7 x9
      = Host.scatter scatter_S2x8x2048x64_S1_S2x8x2047x64_0123_n_2_0 (FloatOps.addf (F := Ideal) (φ := .f32))
          (Spec.apply (Spec.attnMasked Spec.dotK @Spec.smaxK x0 x1 x9) x2)
          (broadcastInDim S1 ![] bcast_S_S1 (constantI S_ 32 1#32))
          (Spec.apply (Spec.addA (Spec.attnPlain Spec.dotK @Spec.smaxK x3 x4) (Spec.attnPlain Spec.dotK @Spec.smaxK x6 x7))
            (extractStridedSlice S2x8x2047x64 ![0, 0, 0, 0] x2 slices_S2x8x2048x64_S2x8x2047x64_0_0_0_0)) := by
  unfold val_main_v52
  rw [poiMain_eq, attn1_K x0 x1 x9 h0 h1, cross_eq, attn2_K x3 x4 h3 h4, attn3_K x6 x7 h6 h7]
  rfl

end Cert.RefValue

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«111166_j1640677507314_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.Finite.lean ====
/-
  The precondition, decoded: every floating-point argument array has real entries.

  The precondition is the conjunction, over the nine floating-point arguments, of "every entry x has |x| < +∞". The
  conjunction of one-bit words is 1 exactly when both operands are 1; each conjunct then says every entry of its
  array is a real.
-/
import proofs.«111166_j1640677507314_2_alg».proof.Defs
import proofs.«111166_j1640677507314_2_alg».proof.Proof.LibFinite
import proofs.«111166_j1640677507314_2_alg».proof.Proof.SpecLaw

noncomputable section

namespace Cert.Spec

open Idealize.ShloMosaic Idealize.ShloMosaic.ValueIdx Idealize.SL.Sem Cert.Gcn

/-- A conjunction of two one-bit scalars that is 1 has both operands 1. -/
theorem andi_ix0 (a b : IVec (⟨0, ![]⟩ : Shape) 1) (h : andi a b ix0 = 1#1) : a ix0 = 1#1 ∧ b ix0 = 1#1 :=
  IntOp.andi_eq_one.1 h

open Cert.Pre_finite_inputs in
/-- The printed predicate on any nine float arrays: all ones means every entry of each is real. -/
theorem fn_real [Facts] (a0 a1 a2 : FVec Ideal S2x8x2048x64 .f32) (a3 a4 a5 a6 a7 a8 : FVec Ideal S2x8x2047x64 .f32)
    (a9 : IVec S2x1x2048x2048 32)
    (h : fn (F := Ideal) a0 a1 a2 a3 a4 a5 a6 a7 a8 a9 = fun _ => 1#1) :
    Finite a0 ∧ Finite a1 ∧ Finite a2 ∧ Finite a3 ∧ Finite a4 ∧ Finite a5 ∧ Finite a6 ∧ Finite a7 ∧ Finite a8 := by
  have h0 := congrFun h ix0
  dsimp only [fn, fn_part1, fn_part2] at h0
  obtain ⟨h1, e8⟩ := andi_ix0 _ _ h0
  obtain ⟨h2, e7⟩ := andi_ix0 _ _ h1
  obtain ⟨h3, e6⟩ := andi_ix0 _ _ h2
  obtain ⟨h4, e5⟩ := andi_ix0 _ _ h3
  obtain ⟨h5, e4⟩ := andi_ix0 _ _ h4
  obtain ⟨h6, e3⟩ := andi_ix0 _ _ h5
  obtain ⟨h7, e2⟩ := andi_ix0 _ _ h6
  obtain ⟨e0, e1⟩ := andi_ix0 _ _ h7
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6, finite_of_all a7 _ _ _ e7,
    finite_of_all a8 _ _ _ e8⟩

/-- Under the precondition, on every device, each of the nine floating-point argument arrays has real entries. -/
theorem real_args [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Gcn.Finite (m ((c.tc : Thread Cert.KernelIdeal.nD Cert.KernelIdeal.τ).loc Cert.KernelIdeal.main_arg0))
      ∧ Cert.Gcn.Finite (m ((c.tc : Thread Cert.KernelIdeal.nD Cert.KernelIdeal.τ).loc Cert.KernelIdeal.main_arg1))
      ∧ Cert.Gcn.Finite (m ((c.tc : Thread Cert.KernelIdeal.nD Cert.KernelIdeal.τ).loc Cert.KernelIdeal.main_arg2))
      ∧ Cert.Gcn.Finite (m ((c.tc : Thread Cert.KernelIdeal.nD Cert.KernelIdeal.τ).loc Cert.KernelIdeal.main_arg3))
      ∧ Cert.Gcn.Finite (m ((c.tc : Thread Cert.KernelIdeal.nD Cert.KernelIdeal.τ).loc Cert.KernelIdeal.main_arg4))
      ∧ Cert.Gcn.Finite (m ((c.tc : Thread Cert.KernelIdeal.nD Cert.KernelIdeal.τ).loc Cert.KernelIdeal.main_arg5))
      ∧ Cert.Gcn.Finite (m ((c.tc : Thread Cert.KernelIdeal.nD Cert.KernelIdeal.τ).loc Cert.KernelIdeal.main_arg6))
      ∧ Cert.Gcn.Finite (m ((c.tc : Thread Cert.KernelIdeal.nD Cert.KernelIdeal.τ).loc Cert.KernelIdeal.main_arg7))
      ∧ Cert.Gcn.Finite (m ((c.tc : Thread Cert.KernelIdeal.nD Cert.KernelIdeal.τ).loc Cert.KernelIdeal.main_arg8)) :=
  fn_real _ _ _ _ _ _ _ _ _ _ (h c)

/-- The same, stated for rank-4 arrays of extended reals. -/
theorem real_args4 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Real4 (n0 := 2) (n1 := 8) (n2 := 2048) (n3 := 64) (m ((c.tc : Thread Cert.KernelIdeal.nD Cert.KernelIdeal.τ).loc Cert.KernelIdeal.main_arg0))
      ∧ Real4 (n0 := 2) (n1 := 8) (n2 := 2048) (n3 := 64) (m ((c.tc : Thread Cert.KernelIdeal.nD Cert.KernelIdeal.τ).loc Cert.KernelIdeal.main_arg1))
      ∧ Real4 (n0 := 2) (n1 := 8) (n2 := 2048) (n3 := 64) (m ((c.tc : Thread Cert.KernelIdeal.nD Cert.KernelIdeal.τ).loc Cert.KernelIdeal.main_arg2))
      ∧ Real4 (n0 := 2) (n1 := 8) (n2 := 2047) (n3 := 64) (m ((c.tc : Thread Cert.KernelIdeal.nD Cert.KernelIdeal.τ).loc Cert.KernelIdeal.main_arg3))
      ∧ Real4 (n0 := 2) (n1 := 8) (n2 := 2047) (n3 := 64) (m ((c.tc : Thread Cert.KernelIdeal.nD Cert.KernelIdeal.τ).loc Cert.KernelIdeal.main_arg4))
      ∧ Real4 (n0 := 2) (n1 := 8) (n2 := 2047) (n3 := 64) (m ((c.tc : Thread Cert.KernelIdeal.nD Cert.KernelIdeal.τ).loc Cert.KernelIdeal.main_arg5))
      ∧ Real4 (n0 := 2) (n1 := 8) (n2 := 2047) (n3 := 64) (m ((c.tc : Thread Cert.KernelIdeal.nD Cert.KernelIdeal.τ).loc Cert.KernelIdeal.main_arg6))
      ∧ Real4 (n0 := 2) (n1 := 8) (n2 := 2047) (n3 := 64) (m ((c.tc : Thread Cert.KernelIdeal.nD Cert.KernelIdeal.τ).loc Cert.KernelIdeal.main_arg7))
      ∧ Real4 (n0 := 2) (n1 := 8) (n2 := 2047) (n3 := 64) (m ((c.tc : Thread Cert.KernelIdeal.nD Cert.KernelIdeal.τ).loc Cert.KernelIdeal.main_arg8)) :=
  real_args m h c

end Cert.Spec

end
-- ==== Proof.lean ====
/-
  Masked softmax attention of the poi stream and plain softmax attention of the time and distance streams, with the
  cross product of the summed time and distance probabilities added one row down into the poi output: the kernel's
  two pipelined regions against the array program.

  Frames.  Each program terminates from any memory, faults nowhere and leaves its arguments as launched.  The
  kernel's second region has query tiles that overhang the 2047-row streams; its frame is proved with the outputs of
  that region left unnamed, which needs nothing of the arithmetic.

  Values, at the exact reals.  Both programs compute, for each row of scores s, probabilities exp (s j − max s) over
  their sum — the kernel as a product with the reciprocal of the sum, the array program as a quotient — of scores
  that are dot products over 64 features scaled by 1/8 — the kernel by a factor on the query entry, the array program
  by a quotient.  On real scores the sum of the exponentials is a positive real (the term at the maximum is one), so
  the product with its reciprocal is the quotient by it; and a quotient by 8 is the product with 1/8 at every
  extended real.  The argument arrays are real-entried by the precondition.  Everything downstream — the products
  with the value rows, the sum of two probability arrays, the slice of the poi values, the row scatter-add — is the
  same operation on both sides applied to equal arrays.
-/
import proofs.«111166_j1640677507314_2_alg».proof.Defs
import proofs.«111166_j1640677507314_2_alg».proof.Proof.Gen.Kernel
import proofs.«111166_j1640677507314_2_alg».proof.Proof.Gen.KernelIdeal
import proofs.«111166_j1640677507314_2_alg».proof.Proof.Gen.ReferenceIdeal
import proofs.«111166_j1640677507314_2_alg».proof.Proof.Gen.Pre_finite_inputs
import proofs.«111166_j1640677507314_2_alg».proof.Proof.Gen.ReferenceIdeal.Run
import proofs.«111166_j1640677507314_2_alg».proof.Proof.Frames
import proofs.«111166_j1640677507314_2_alg».proof.Proof.Ideal.Results
import proofs.«111166_j1640677507314_2_alg».proof.Proof.RefFinal
import proofs.«111166_j1640677507314_2_alg».proof.Proof.Finite
import Idealize.ShloMosaic.Adequacy
import Idealize.ShloMosaic.Init

noncomputable section

namespace Cert.Proof

open Idealize.ShloMosaic Idealize.SL.Sem

/-- The array program's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2)
    (Cert.ReferenceIdeal.Value.run (F := Ideal) m ρ)

set_option maxRecDepth 16384 in
/-- The two idealized programs, from memories agreeing on real-entried arguments, end with equal results: the
    attention functions of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Out0 m c,
    fun c => Cert.Spec.apply (Cert.KernelIdeal.Hand.Q2 m c) (m ((c.tc : Thread Cert.KernelIdeal.nD Cert.KernelIdeal.τ).loc Cert.KernelIdeal.main_arg5)),
    fun c => Cert.Spec.apply (Cert.KernelIdeal.Hand.Q3 m c) (m ((c.tc : Thread Cert.KernelIdeal.nD Cert.KernelIdeal.τ).loc Cert.KernelIdeal.main_arg8)),
    fun c => Cert.KernelIdeal.Hand.Q1 m c, fun c => Cert.KernelIdeal.Hand.Q2 m c, fun c => Cert.KernelIdeal.Hand.Q3 m c,
    Cert.KernelIdeal.Hand.results m ρ, ?_⟩
  refine (θ_run Cert.ReferenceIdeal.defs _ _).mono (fun r h c => ?_) (Cert.ReferenceIdeal.Value.run (F := Ideal) m' ρ')
  obtain ⟨ha0, ha1, ha2, ha3, ha4, ha5, ha6, ha7, ha8, ha9⟩ := hagree c
  obtain ⟨r0, r1, r2, r3, r4, r5, r6, r7, r8⟩ := Cert.Spec.real_args4 m hpre c
  obtain ⟨h52, h46, h47, h22, h33, h44, hargs⟩ := h c
  refine ⟨h52.trans ?_, h46.trans ?_, h47.trans ?_, h22.trans ?_, h33.trans ?_, h44.trans ?_, hargs⟩
  · rw [Cert.ReferenceIdeal.Read.val_main_v52_eq, ha0, ha1, ha2, ha3, ha4, ha6, ha7, ha9]
    exact (Cert.RefValue.out0_K _ _ _ _ _ _ _ _ r0 r1 r3 r4 r6 r7).trans rfl
  · rw [ha3, ha4, ha5]
    exact Cert.RefValue.time_K _ _ _ r3 r4
  · rw [ha6, ha7, ha8]
    exact Cert.RefValue.dist_K _ _ _ r6 r7
  · rw [ha0, ha1, ha9]
    exact Cert.RefValue.attn1_K _ _ _ r0 r1
  · rw [ha3, ha4]
    exact Cert.RefValue.attn2_K _ _ r3 r4
  · rw [ha6, ha7]
    exact Cert.RefValue.attn3_K _ _ r6 r7

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, frame_ri, trivial, algebraic⟩

end Cert.Proof

end
